-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x7 : Shape := ⟨2, ![400000, 7]⟩
abbrev S400000x4 : Shape := ⟨2, ![400000, 4]⟩
abbrev S400000x4x4 : Shape := ⟨3, ![400000, 4, 4]⟩
abbrev S400000x2 : Shape := ⟨2, ![400000, 2]⟩
abbrev S400000 : Shape := ⟨1, ![400000]⟩
abbrev S_ : Shape := ⟨0, ![]⟩

class Facts : Prop where
  bcast_S_S400000x7 : S_.BroadcastsInDim S400000x7 (![] : Fin 0 → Fin S400000x7.rank)
  reducesTo_S400000x7_S_d0_1 : S400000x7.ReducesTo [0, 1] S_
  h_S_ : 0 < S_.numel
  bcast_S_S400000x4 : S_.BroadcastsInDim S400000x4 (![] : Fin 0 → Fin S400000x4.rank)
  reducesTo_S400000x4_S_d0_1 : S400000x4.ReducesTo [0, 1] S_
  bcast_S_S400000x4x4 : S_.BroadcastsInDim S400000x4x4 (![] : Fin 0 → Fin S400000x4x4.rank)
  reducesTo_S400000x4x4_S_d0_1_2 : S400000x4x4.ReducesTo [0, 1, 2] S_
  bcast_S_S400000x2 : S_.BroadcastsInDim S400000x2 (![] : Fin 0 → Fin S400000x2.rank)
  reducesTo_S400000x2_S_d0_1 : S400000x2.ReducesTo [0, 1] S_

variable [Facts]

def fn_part1 {F : FTy → Type} [FloatOps F] (main_v13 : IVec S_ 1) (main_v16 : IVec S400000x2 1) : IVec S_ 1 :=
  let main_c_5 : IVec S_ 1 := constantI S_ 1 1#1
  let main_v17 : IVec S_ 1 := (fun x v => Host.reduce IntOp.andi x v reducesTo_S400000x2_S_d0_1 h_S_) main_v16 main_c_5
  let main_v18 : IVec S_ 1 := andi main_v13 main_v17
  main_v18

def fn {F : FTy → Type} [FloatOps F] (main_arg0 : FVec F S400000x7 .f32) (main_arg1 : FVec F S400000x4 .f32) (main_arg2 : FVec F S400000x4x4 .f32) (main_arg3 : FVec F S400000x2 .f32) (main_arg4 : IVec S400000 32) : IVec S_ 1 :=
  let main_v0 : FVec F S400000x7 .f32 := Host.absf main_arg0
  let main_cst : FVec F S_ .f32 := constant S_ .f32 0x7F800000#32
  let main_v1 : FVec F S400000x7 .f32 := broadcastInDim S400000x7 ![] bcast_S_S400000x7 main_cst
  let main_v2 : IVec S400000x7 1 := cmpf .olt main_v0 main_v1
  let main_c : IVec S_ 1 := constantI S_ 1 1#1
  let main_v3 : IVec S_ 1 := (fun x v => Host.reduce IntOp.andi x v reducesTo_S400000x7_S_d0_1 h_S_) main_v2 main_c
  let main_v4 : FVec F S400000x4 .f32 := Host.absf main_arg1
  let main_cst_0 : FVec F S_ .f32 := constant S_ .f32 0x7F800000#32
  let main_v5 : FVec F S400000x4 .f32 := broadcastInDim S400000x4 ![] bcast_S_S400000x4 main_cst_0
  let main_v6 : IVec S400000x4 1 := cmpf .olt main_v4 main_v5
  let main_c_1 : IVec S_ 1 := constantI S_ 1 1#1
  let main_v7 : IVec S_ 1 := (fun x v => Host.reduce IntOp.andi x v reducesTo_S400000x4_S_d0_1 h_S_) main_v6 main_c_1
  let main_v8 : IVec S_ 1 := andi main_v3 main_v7
  let main_v9 : FVec F S400000x4x4 .f32 := Host.absf main_arg2
  let main_cst_2 : FVec F S_ .f32 := constant S_ .f32 0x7F800000#32
  let main_v10 : FVec F S400000x4x4 .f32 := broadcastInDim S400000x4x4 ![] bcast_S_S400000x4x4 main_cst_2
  let main_v11 : IVec S400000x4x4 1 := cmpf .olt main_v9 main_v10
  let main_c_3 : IVec S_ 1 := constantI S_ 1 1#1
  let main_v12 : IVec S_ 1 := (fun x v => Host.reduce IntOp.andi x v reducesTo_S400000x4x4_S_d0_1_2 h_S_) main_v11 main_c_3
  let main_v13 : IVec S_ 1 := andi main_v8 main_v12
  let main_v14 : FVec F S400000x2 .f32 := Host.absf main_arg3
  let main_cst_4 : FVec F S_ .f32 := constant S_ .f32 0x7F800000#32
  let main_v15 : FVec F S400000x2 .f32 := broadcastInDim S400000x2 ![] bcast_S_S400000x2 main_cst_4
  let main_v16 : IVec S400000x2 1 := cmpf .olt main_v14 main_v15
  fn_part1 (F := F) main_v13 main_v16
-- ==== Kernel.lean ====
abbrev S400000x7 : Shape := ⟨2, ![400000, 7]⟩
abbrev S400000x4 : Shape := ⟨2, ![400000, 4]⟩
abbrev S400000x4x4 : Shape := ⟨3, ![400000, 4, 4]⟩
abbrev S400000x2 : Shape := ⟨2, ![400000, 2]⟩
abbrev S400000 : Shape := ⟨1, ![400000]⟩
abbrev S7x400000 : Shape := ⟨2, ![7, 400000]⟩
abbrev S_ : Shape := ⟨0, ![]⟩
abbrev S7x425984 : Shape := ⟨2, ![7, 425984]⟩
abbrev S4x400000 : Shape := ⟨2, ![4, 400000]⟩
abbrev S4x425984 : Shape := ⟨2, ![4, 425984]⟩
abbrev S400000x3x4 : Shape := ⟨3, ![400000, 3, 4]⟩
abbrev S400000x12 : Shape := ⟨2, ![400000, 12]⟩
abbrev S12x400000 : Shape := ⟨2, ![12, 400000]⟩
abbrev S12x425984 : Shape := ⟨2, ![12, 425984]⟩
abbrev S2x400000 : Shape := ⟨2, ![2, 400000]⟩
abbrev S2x425984 : Shape := ⟨2, ![2, 425984]⟩
abbrev S425984 : Shape := ⟨1, ![425984]⟩
abbrev S7x32768 : Shape := ⟨2, ![7, 32768]⟩
abbrev S4x32768 : Shape := ⟨2, ![4, 32768]⟩
abbrev S12x32768 : Shape := ⟨2, ![12, 32768]⟩
abbrev S2x32768 : Shape := ⟨2, ![2, 32768]⟩
abbrev S32768 : Shape := ⟨1, ![32768]⟩
abbrev S1x32768 : Shape := ⟨2, ![1, 32768]⟩
abbrev S80000 : Shape := ⟨1, ![80000]⟩
abbrev S400000x1 : Shape := ⟨2, ![400000, 1]⟩

abbrev nBuf : Space → Nat
  | .hbm => 54
  | .vmem => 10
  | .smem => 0
  | _ => 0

abbrev bufTy : (tb : Table) → Fin (tcTables nBuf tb) → BufTy
  | .hbm, ⟨0, _⟩ => ⟨S400000x7, .f32⟩
  | .hbm, ⟨1, _⟩ => ⟨S400000x4, .f32⟩
  | .hbm, ⟨2, _⟩ => ⟨S400000x4x4, .f32⟩
  | .hbm, ⟨3, _⟩ => ⟨S400000x2, .f32⟩
  | .hbm, ⟨4, _⟩ => ⟨S400000, .i32⟩
  | .hbm, ⟨5, _⟩ => ⟨S7x400000, .f32⟩
  | .hbm, ⟨6, _⟩ => ⟨S_, .i32⟩
  | .hbm, ⟨7, _⟩ => ⟨S_, .f32⟩
  | .hbm, ⟨8, _⟩ => ⟨S7x425984, .f32⟩
  | .hbm, ⟨9, _⟩ => ⟨S4x400000, .f32⟩
  | .hbm, ⟨10, _⟩ => ⟨S_, .i32⟩
  | .hbm, ⟨11, _⟩ => ⟨S_, .f32⟩
  | .hbm, ⟨12, _⟩ => ⟨S4x425984, .f32⟩
  | .hbm, ⟨13, _⟩ => ⟨S400000x3x4, .f32⟩
  | .hbm, ⟨14, _⟩ => ⟨S400000x12, .f32⟩
  | .hbm, ⟨15, _⟩ => ⟨S12x400000, .f32⟩
  | .hbm, ⟨16, _⟩ => ⟨S_, .i32⟩
  | .hbm, ⟨17, _⟩ => ⟨S_, .f32⟩
  | .hbm, ⟨18, _⟩ => ⟨S12x425984, .f32⟩
  | .hbm, ⟨19, _⟩ => ⟨S2x400000, .f32⟩
  | .hbm, ⟨20, _⟩ => ⟨S_, .i32⟩
  | .hbm, ⟨21, _⟩ => ⟨S_, .f32⟩
  | .hbm, ⟨22, _⟩ => ⟨S2x425984, .f32⟩
  | .hbm, ⟨23, _⟩ => ⟨S425984, .f32⟩
  | .hbm, ⟨24, _⟩ => ⟨S400000, .f32⟩
  | .hbm, ⟨25, _⟩ => ⟨S_, .f32⟩
  | .hbm, ⟨26, _⟩ => ⟨S80000, .f32⟩
  | .hbm, ⟨27, _⟩ => ⟨S400000x1, .i32⟩
  | .hbm, ⟨28, _⟩ => ⟨S80000, .f32⟩
  | .hbm, ⟨29, _⟩ => ⟨S_, .f32⟩
  | .hbm, ⟨30, _⟩ => ⟨S400000, .f32⟩
  | .hbm, ⟨31, _⟩ => ⟨S_, .f32⟩
  | .hbm, ⟨32, _⟩ => ⟨S80000, .f32⟩
  | .hbm, ⟨33, _⟩ => ⟨S400000x1, .i32⟩
  | .hbm, ⟨34, _⟩ => ⟨S80000, .f32⟩
  | .hbm, ⟨35, _⟩ => ⟨S_, .f32⟩
  | .hbm, ⟨36, _⟩ => ⟨S80000, .f32⟩
  | .hbm, ⟨37, _⟩ => ⟨S80000, .f32⟩
  | .hbm, ⟨38, _⟩ => ⟨S80000, .f32⟩
  | .hbm, ⟨39, _⟩ => ⟨S_, .f32⟩
  | .hbm, ⟨40, _⟩ => ⟨S80000, .f32⟩
  | .hbm, ⟨41, _⟩ => ⟨S80000, .i1⟩
  | .hbm, ⟨42, _⟩ => ⟨S_, .f32⟩
  | .hbm, ⟨43, _⟩ => ⟨S_, .f32⟩
  | .hbm, ⟨44, _⟩ => ⟨S80000, .f32⟩
  | .hbm, ⟨45, _⟩ => ⟨S80000, .f32⟩
  | .hbm, ⟨46, _⟩ => ⟨S_, .f32⟩
  | .hbm, ⟨47, _⟩ => ⟨S_, .f32⟩
  | .hbm, ⟨48, _⟩ => ⟨S80000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S7x32768, .f32⟩
  | .local _ .vmem, ⟨1, _⟩ => ⟨S7x32768, .f32⟩
  | .local _ .vmem, ⟨2, _⟩ => ⟨S4x32768, .f32⟩
  | .local _ .vmem, ⟨3, _⟩ => ⟨S4x32768, .f32⟩
  | .local _ .vmem, ⟨4, _⟩ => ⟨S12x32768, .f32⟩
  | .local _ .vmem, ⟨5, _⟩ => ⟨S12x32768, .f32⟩
  | .local _ .vmem, ⟨6, _⟩ => ⟨S2x32768, .f32⟩
  | .local _ .vmem, ⟨7, _⟩ => ⟨S2x32768, .f32⟩
  | .local _ .vmem, ⟨8, _⟩ => ⟨S32768, .f32⟩
  | .local _ .vmem, ⟨9, _⟩ => ⟨S32768, .f32⟩
  | _, _ => ⟨S400000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_call3_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_call4_v0 : Ref sig .tc := ⟨.hbm, 43, rfl⟩
abbrev main_call4_v1 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S7x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S400000x7_S7x400000_1_0 : S400000x7.Transposes [1, 0] S7x400000
  pads_S7x400000_S7x425984_000_0259840 : S7x400000.Pads (![0, 0] : Fin 2 → Nat) ![0, 25984] ![0, 0] S7x425984
  h_S_ : 0 < S_.numel
  transposes_S400000x4_S4x400000_1_0 : S400000x4.Transposes [1, 0] S4x400000
  pads_S4x400000_S4x425984_000_0259840 : S4x400000.Pads (![0, 0] : Fin 2 → Nat) ![0, 25984] ![0, 0] S4x425984
  slices_S400000x4x4_S400000x3x4_0_0_0 : S400000x4x4.Slices ![0, 0, 0] S400000x3x4
  shapeCasts_S400000x3x4_S400000x12 : S400000x3x4.ShapeCasts S400000x12
  transposes_S400000x12_S12x400000_1_0 : S400000x12.Transposes [1, 0] S12x400000
  pads_S12x400000_S12x425984_000_0259840 : S12x400000.Pads (![0, 0] : Fin 2 → Nat) ![0, 25984] ![0, 0] S12x425984
  transposes_S400000x2_S2x400000_1_0 : S400000x2.Transposes [1, 0] S2x400000
  pads_S2x400000_S2x425984_000_0259840 : S2x400000.Pads (![0, 0] : Fin 2 → Nat) ![0, 25984] ![0, 0] S2x425984
  inb_S7x32768_S7x32768_0_0 : ∀ a, (![0, 0] : Fin 2 → Nat) a + S7x32768.size a ≤ S7x32768.size a
  h_S7x32768 : 0 < S7x32768.numel
  shapeCasts_S7x32768_S7x32768 : S7x32768.ShapeCasts S7x32768
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  inb_S12x32768_S12x32768_0_0 : ∀ a, (![0, 0] : Fin 2 → Nat) a + S12x32768.size a ≤ S12x32768.size a
  h_S12x32768 : 0 < S12x32768.numel
  shapeCasts_S12x32768_S12x32768 : S12x32768.ShapeCasts S12x32768
  inb_S2x32768_S2x32768_0_0 : ∀ a, (![0, 0] : Fin 2 → Nat) a + S2x32768.size a ≤ S2x32768.size a
  h_S2x32768 : 0 < S2x32768.numel
  shapeCasts_S2x32768_S2x32768 : S2x32768.ShapeCasts S2x32768
  slices_S7x32768_o0_0_S1x32768 : S7x32768.Slices ![0, 0] S1x32768
  shapeCasts_S1x32768_S32768 : S1x32768.ShapeCasts S32768
  slices_S7x32768_o1_0_S1x32768 : S7x32768.Slices ![1, 0] S1x32768
  slices_S7x32768_o2_0_S1x32768 : S7x32768.Slices ![2, 0] S1x32768
  slices_S7x32768_o3_0_S1x32768 : S7x32768.Slices ![3, 0] S1x32768
  slices_S7x32768_o4_0_S1x32768 : S7x32768.Slices ![4, 0] S1x32768
  slices_S7x32768_o5_0_S1x32768 : S7x32768.Slices ![5, 0] S1x32768
  slices_S7x32768_o6_0_S1x32768 : S7x32768.Slices ![6, 0] S1x32768
  slices_S12x32768_o0_0_S1x32768 : S12x32768.Slices ![0, 0] S1x32768
  slices_S12x32768_o1_0_S1x32768 : S12x32768.Slices ![1, 0] S1x32768
  slices_S12x32768_o2_0_S1x32768 : S12x32768.Slices ![2, 0] S1x32768
  slices_S12x32768_o3_0_S1x32768 : S12x32768.Slices ![3, 0] S1x32768
  slices_S12x32768_o4_0_S1x32768 : S12x32768.Slices ![4, 0] S1x32768
  slices_S12x32768_o5_0_S1x32768 : S12x32768.Slices ![5, 0] S1x32768
  slices_S12x32768_o6_0_S1x32768 : S12x32768.Slices ![6, 0] S1x32768
  slices_S12x32768_o7_0_S1x32768 : S12x32768.Slices ![7, 0] S1x32768
  slices_S12x32768_o8_0_S1x32768 : S12x32768.Slices ![8, 0] S1x32768
  slices_S12x32768_o9_0_S1x32768 : S12x32768.Slices ![9, 0] S1x32768
  slices_S12x32768_o10_0_S1x32768 : S12x32768.Slices ![10, 0] S1x32768
  slices_S12x32768_o11_0_S1x32768 : S12x32768.Slices ![11, 0] S1x32768
  slices_S2x32768_o0_0_S1x32768 : S2x32768.Slices ![0, 0] S1x32768
  slices_S2x32768_o1_0_S1x32768 : S2x32768.Slices ![1, 0] S1x32768
  slices_S4x32768_o0_0_S1x32768 : S4x32768.Slices ![0, 0] S1x32768
  slices_S4x32768_o1_0_S1x32768 : S4x32768.Slices ![1, 0] S1x32768
  slices_S4x32768_o2_0_S1x32768 : S4x32768.Slices ![2, 0] S1x32768
  slices_S4x32768_o3_0_S1x32768 : S4x32768.Slices ![3, 0] S1x32768
  inb_S32768_S32768_0 : ∀ a, (![0] : Fin 1 → Nat) a + S32768.size a ≤ S32768.size a
  h_S32768 : 0 < S32768.numel
  slices_S425984_S400000_0 : S425984.Slices ![0] S400000
  bcast_S_S80000 : S_.BroadcastsInDim S80000 (![] : Fin 0 → Fin S80000.rank)
  bcast_S400000_S400000x1_0 : S400000.BroadcastsInDim S400000x1 (![0] : Fin 1 → Fin S400000x1.rank)
  bcast_S_S400000 : S_.BroadcastsInDim S400000 (![] : Fin 0 → Fin S400000.rank)
  reducesTo_S80000_S_d0 : S80000.ReducesTo [0] S_
  scatter_S80000_S400000x1_S400000_n_0_0_1_wf : ScatterDims.WF S80000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x32768.size a ≤ S7x425984.size a
  hwx0_0 : ∀ i : grid0.Coords, EltTy.bits .f32 = 32 ∨ (Rect.block (s := S7x425984) S7x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32768.size a ≤ S4x425984.size a
  hwx0_1 : ∀ i : grid0.Coords, EltTy.bits .f32 = 32 ∨ (Rect.block (s := S4x425984) S4x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12x32768.size a ≤ S12x425984.size a
  hwx0_2 : ∀ i : grid0.Coords, EltTy.bits .f32 = 32 ∨ (Rect.block (s := S12x425984) S12x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32768.size a ≤ S2x425984.size a
  hwx0_3 : ∀ i : grid0.Coords, EltTy.bits .f32 = 32 ∨ (Rect.block (s := S2x425984) S2x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768.size a ≤ S425984.size a
  hwx0_4 : ∀ i : grid0.Coords, EltTy.bits .f32 = 32 ∨ (Rect.block (s := S425984) S32768.size (cc0_transform_4 i) (hinb0_4 i)).WholeWords (EltTy.packing .f32)

variable [Facts₀]

def scatter_S80000_S400000x1_S400000_n_0_0_1 : ScatterDims S80000 S400000x1 S400000 where
  updateWindowDims := []
  insertedWindowDims := [0]
  scatterDimsToOperandDims := [0]
  indexVectorDim := 1
  wf := scatter_S80000_S400000x1_S400000_n_0_0_1_wf

abbrev win0_0 : Pipeline.Window sig grid0 :=
  Pipeline.Window.ofSpec (Memref.whole main_v1) S7x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S12x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S400000x7 : Shape := ⟨2, ![400000, 7]⟩
abbrev S400000x4 : Shape := ⟨2, ![400000, 4]⟩
abbrev S400000x4x4 : Shape := ⟨3, ![400000, 4, 4]⟩
abbrev S400000x2 : Shape := ⟨2, ![400000, 2]⟩
abbrev S400000 : Shape := ⟨1, ![400000]⟩
abbrev S8 : Shape := ⟨1, ![8]⟩
abbrev S400000x1 : Shape := ⟨2, ![400000, 1]⟩
abbrev S_ : Shape := ⟨0, ![]⟩
abbrev S1x8 : Shape := ⟨2, ![1, 8]⟩
abbrev S400000x8 : Shape := ⟨2, ![400000, 8]⟩
abbrev S400000x1x8 : Shape := ⟨3, ![400000, 1, 8]⟩
abbrev S400000x3x8 : Shape := ⟨3, ![400000, 3, 8]⟩
abbrev S400000x9 : Shape := ⟨2, ![400000, 9]⟩
abbrev S400000x3x3 : Shape := ⟨3, ![400000, 3, 3]⟩
abbrev S400000x3 : Shape := ⟨2, ![400000, 3]⟩
abbrev S400000x3x1 : Shape := ⟨3, ![400000, 3, 1]⟩
abbrev S400000x8x3 : Shape := ⟨3, ![400000, 8, 3]⟩
abbrev S400000x8x1 : Shape := ⟨3, ![400000, 8, 1]⟩
abbrev S400000x8x4 : Shape := ⟨3, ![400000, 8, 4]⟩
abbrev S80000 : Shape := ⟨1, ![80000]⟩

abbrev nBuf : Space → Nat
  | .hbm => 253
  | .vmem => 0
  | .smem => 0
  | _ => 0

abbrev hbmTy0_0 (i : Nat) : BufTy := match i % 128 with
  | 0 => ⟨S400000x7, .f32⟩
  | 1 => ⟨S400000x4, .f32⟩
  | 2 => ⟨S400000x4x4, .f32⟩
  | 3 => ⟨S400000x2, .f32⟩
  | 4 => ⟨S400000, .i32⟩
  | 5 => ⟨S8, .f32⟩
  | 6 => ⟨S8, .f32⟩
  | 7 => ⟨S8, .f32⟩
  | 8 => ⟨S400000x1, .f32⟩
  | 9 => ⟨S400000, .f32⟩
  | 10 => ⟨S400000x1, .f32⟩
  | 11 => ⟨S400000, .f32⟩
  | 12 => ⟨S400000x1, .f32⟩
  | 13 => ⟨S400000, .f32⟩
  | 14 => ⟨S400000x1, .f32⟩
  | 15 => ⟨S400000, .f32⟩
  | 16 => ⟨S400000x1, .f32⟩
  | 17 => ⟨S400000, .f32⟩
  | 18 => ⟨S400000x1, .f32⟩
  | 19 => ⟨S400000, .f32⟩
  | 20 => ⟨S400000x1, .f32⟩
  | 21 => ⟨S400000, .f32⟩
  | 22 => ⟨S400000x1, .f32⟩
  | 23 => ⟨S_, .f32⟩
  | 24 => ⟨S400000x1, .f32⟩
  | 25 => ⟨S400000x1, .f32⟩
  | 26 => ⟨S1x8, .f32⟩
  | 27 => ⟨S400000x8, .f32⟩
  | 28 => ⟨S400000x8, .f32⟩
  | 29 => ⟨S400000x8, .f32⟩
  | 30 => ⟨S400000x1, .f32⟩
  | 31 => ⟨S_, .f32⟩
  | 32 => ⟨S400000x1, .f32⟩
  | 33 => ⟨S400000x1, .f32⟩
  | 34 => ⟨S1x8, .f32⟩
  | 35 => ⟨S400000x8, .f32⟩
  | 36 => ⟨S400000x8, .f32⟩
  | 37 => ⟨S400000x8, .f32⟩
  | 38 => ⟨S400000x1, .f32⟩
  | 39 => ⟨S_, .f32⟩
  | 40 => ⟨S400000x1, .f32⟩
  | 41 => ⟨S400000x1, .f32⟩
  | 42 => ⟨S1x8, .f32⟩
  | 43 => ⟨S400000x8, .f32⟩
  | 44 => ⟨S400000x8, .f32⟩
  | 45 => ⟨S400000x8, .f32⟩
  | 46 => ⟨S400000x1x8, .f32⟩
  | 47 => ⟨S400000x1x8, .f32⟩
  | 48 => ⟨S400000x1x8, .f32⟩
  | 49 => ⟨S400000x3x8, .f32⟩
  | 50 => ⟨S400000, .f32⟩
  | 51 => ⟨S400000, .f32⟩
  | 52 => ⟨S_, .f32⟩
  | 53 => ⟨S400000, .f32⟩
  | 54 => ⟨S_, .f32⟩
  | 55 => ⟨S400000, .f32⟩
  | 56 => ⟨S400000, .f32⟩
  | 57 => ⟨S400000x1, .f32⟩
  | 58 => ⟨S400000x1, .f32⟩
  | 59 => ⟨S400000x1, .f32⟩
  | 60 => ⟨S400000x1, .f32⟩
  | 61 => ⟨S400000x1, .f32⟩
  | 62 => ⟨S400000x1, .f32⟩
  | 63 => ⟨S400000x1, .f32⟩
  | 64 => ⟨S400000x1, .f32⟩
  | 65 => ⟨S400000x1, .f32⟩
  | 66 => ⟨S400000x9, .f32⟩
  | 67 => ⟨S400000x3x3, .f32⟩
  | 68 => ⟨S400000x3x8, .f32⟩
  | 69 => ⟨S400000x1, .f32⟩
  | 70 => ⟨S400000x1, .f32⟩
  | 71 => ⟨S400000x1, .f32⟩
  | 72 => ⟨S400000x3, .f32⟩
  | 73 => ⟨S400000x3x1, .f32⟩
  | 74 => ⟨S400000x3x8, .f32⟩
  | 75 => ⟨S400000x3x8, .f32⟩
  | 76 => ⟨S400000x8x3, .f32⟩
  | 77 => ⟨S_, .f32⟩
  | 78 => ⟨S400000x8x1, .f32⟩
  | 79 => ⟨S400000x8x4, .f32⟩
  | 80 => ⟨S400000x8x4, .f32⟩
  | 81 => ⟨S400000x8x1, .f32⟩
  | 82 => ⟨S400000x8, .f32⟩
  | 83 => ⟨S_, .f32⟩
  | 84 => ⟨S400000x8, .f32⟩
  | 85 => ⟨S400000x8, .f32⟩
  | 86 => ⟨S400000x8x1, .f32⟩
  | 87 => ⟨S400000x8, .f32⟩
  | 88 => ⟨S400000x8, .f32⟩
  | 89 => ⟨S400000x8x1, .f32⟩
  | 90 => ⟨S400000x8, .f32⟩
  | 91 => ⟨S400000x8, .f32⟩
  | 92 => ⟨S400000x1, .f32⟩
  | 93 => ⟨S400000, .f32⟩
  | 94 => ⟨S400000x1, .f32⟩
  | 95 => ⟨S400000, .f32⟩
  | 96 => ⟨S_, .f32⟩
  | 97 => ⟨S400000, .f32⟩
  | 98 => ⟨S_, .f32⟩
  | 99 => ⟨S_, .f32⟩
  | 100 => ⟨S400000, .f32⟩
  | 101 => ⟨S400000, .f32⟩
  | 102 => ⟨S400000, .f32⟩
  | 103 => ⟨S_, .f32⟩
  | 104 => ⟨S400000, .f32⟩
  | 105 => ⟨S_, .f32⟩
  | 106 => ⟨S_, .f32⟩
  | 107 => ⟨S400000, .f32⟩
  | 108 => ⟨S400000, .f32⟩
  | 109 => ⟨S400000, .f32⟩
  | 110 => ⟨S_, .f32⟩
  | 111 => ⟨S400000, .f32⟩
  | 112 => ⟨S_, .f32⟩
  | 113 => ⟨S_, .f32⟩
  | 114 => ⟨S400000, .f32⟩
  | 115 => ⟨S400000, .f32⟩
  | 116 => ⟨S400000, .f32⟩
  | 117 => ⟨S_, .f32⟩
  | 118 => ⟨S400000, .f32⟩
  | 119 => ⟨S_, .f32⟩
  | 120 => ⟨S_, .f32⟩
  | 121 => ⟨S400000, .f32⟩
  | 122 => ⟨S400000, .f32⟩
  | 123 => ⟨S400000, .f32⟩
  | 124 => ⟨S400000x1, .f32⟩
  | 125 => ⟨S400000x1, .f32⟩
  | 126 => ⟨S400000x1, .f32⟩
  | 127 => ⟨S400000x1, .f32⟩
  | _ => ⟨S400000x7, .f32⟩

abbrev hbmTy0_1 (i : Nat) : BufTy := match i % 128 with
  | 0 => ⟨S400000x4, .f32⟩
  | 1 => ⟨S400000x1, .f32⟩
  | 2 => ⟨S400000, .f32⟩
  | 3 => ⟨S400000x1, .f32⟩
  | 4 => ⟨S400000, .f32⟩
  | 5 => ⟨S400000, .f32⟩
  | 6 => ⟨S400000x1, .f32⟩
  | 7 => ⟨S400000, .f32⟩
  | 8 => ⟨S400000x1, .f32⟩
  | 9 => ⟨S400000, .f32⟩
  | 10 => ⟨S400000, .f32⟩
  | 11 => ⟨S400000x1, .f32⟩
  | 12 => ⟨S400000, .f32⟩
  | 13 => ⟨S400000x1, .f32⟩
  | 14 => ⟨S400000, .f32⟩
  | 15 => ⟨S400000, .f32⟩
  | 16 => ⟨S400000x1, .f32⟩
  | 17 => ⟨S400000, .f32⟩
  | 18 => ⟨S400000x1, .f32⟩
  | 19 => ⟨S400000, .f32⟩
  | 20 => ⟨S400000, .f32⟩
  | 21 => ⟨S400000, .f32⟩
  | 22 => ⟨S_, .f32⟩
  | 23 => ⟨S400000, .f32⟩
  | 24 => ⟨S400000, .f32⟩
  | 25 => ⟨S400000, .f32⟩
  | 26 => ⟨S_, .f32⟩
  | 27 => ⟨S400000, .f32⟩
  | 28 => ⟨S400000, .f32⟩
  | 29 => ⟨S400000, .f32⟩
  | 30 => ⟨S400000x1, .f32⟩
  | 31 => ⟨S400000, .f32⟩
  | 32 => ⟨S400000x1, .f32⟩
  | 33 => ⟨S400000, .f32⟩
  | 34 => ⟨S400000, .f32⟩
  | 35 => ⟨S400000x1, .f32⟩
  | 36 => ⟨S400000, .f32⟩
  | 37 => ⟨S400000x1, .f32⟩
  | 38 => ⟨S400000, .f32⟩
  | 39 => ⟨S400000, .f32⟩
  | 40 => ⟨S400000, .f32⟩
  | 41 => ⟨S400000x1, .f32⟩
  | 42 => ⟨S400000, .f32⟩
  | 43 => ⟨S400000x1, .f32⟩
  | 44 => ⟨S400000, .f32⟩
  | 45 => ⟨S400000, .f32⟩
  | 46 => ⟨S400000x1, .f32⟩
  | 47 => ⟨S400000, .f32⟩
  | 48 => ⟨S400000x1, .f32⟩
  | 49 => ⟨S400000, .f32⟩
  | 50 => ⟨S400000, .f32⟩
  | 51 => ⟨S400000, .f32⟩
  | 52 => ⟨S400000, .f32⟩
  | 53 => ⟨S400000, .f32⟩
  | 54 => ⟨S_, .f32⟩
  | 55 => ⟨S400000, .f32⟩
  | 56 => ⟨S400000, .f32⟩
  | 57 => ⟨S400000, .f32⟩
  | 58 => ⟨S400000x1, .f32⟩
  | 59 => ⟨S400000, .f32⟩
  | 60 => ⟨S400000x1, .f32⟩
  | 61 => ⟨S400000, .f32⟩
  | 62 => ⟨S400000, .f32⟩
  | 63 => ⟨S400000x1, .f32⟩
  | 64 => ⟨S400000, .f32⟩
  | 65 => ⟨S400000x1, .f32⟩
  | 66 => ⟨S400000, .f32⟩
  | 67 => ⟨S400000, .f32⟩
  | 68 => ⟨S400000x1, .f32⟩
  | 69 => ⟨S400000, .f32⟩
  | 70 => ⟨S400000x1, .f32⟩
  | 71 => ⟨S400000, .f32⟩
  | 72 => ⟨S400000, .f32⟩
  | 73 => ⟨S400000x1, .f32⟩
  | 74 => ⟨S400000, .f32⟩
  | 75 => ⟨S400000x1, .f32⟩
  | 76 => ⟨S400000, .f32⟩
  | 77 => ⟨S400000, .f32⟩
  | 78 => ⟨S400000, .f32⟩
  | 79 => ⟨S_, .f32⟩
  | 80 => ⟨S400000, .f32⟩
  | 81 => ⟨S400000, .f32⟩
  | 82 => ⟨S400000, .f32⟩
  | 83 => ⟨S_, .f32⟩
  | 84 => ⟨S400000, .f32⟩
  | 85 => ⟨S400000, .f32⟩
  | 86 => ⟨S400000, .f32⟩
  | 87 => ⟨S_, .f32⟩
  | 88 => ⟨S400000, .f32⟩
  | 89 => ⟨S400000, .f32⟩
  | 90 => ⟨S400000, .f32⟩
  | 91 => ⟨S400000, .f32⟩
  | 92 => ⟨S400000, .f32⟩
  | 93 => ⟨S_, .f32⟩
  | 94 => ⟨S400000, .f32⟩
  | 95 => ⟨S400000, .f32⟩
  | 96 => ⟨S_, .f32⟩
  | 97 => ⟨S80000, .f32⟩
  | 98 => ⟨S400000x1, .i32⟩
  | 99 => ⟨S80000, .f32⟩
  | 100 => ⟨S_, .f32⟩
  | 101 => ⟨S400000, .f32⟩
  | 102 => ⟨S_, .f32⟩
  | 103 => ⟨S80000, .f32⟩
  | 104 => ⟨S400000x1, .i32⟩
  | 105 => ⟨S80000, .f32⟩
  | 106 => ⟨S_, .f32⟩
  | 107 => ⟨S80000, .f32⟩
  | 108 => ⟨S80000, .f32⟩
  | 109 => ⟨S80000, .f32⟩
  | 110 => ⟨S_, .f32⟩
  | 111 => ⟨S80000, .f32⟩
  | 112 => ⟨S80000, .i1⟩
  | 113 => ⟨S_, .f32⟩
  | 114 => ⟨S_, .f32⟩
  | 115 => ⟨S80000, .f32⟩
  | 116 => ⟨S80000, .f32⟩
  | 117 => ⟨S_, .f32⟩
  | 118 => ⟨S_, .f32⟩
  | 119 => ⟨S80000, .f32⟩
  | 120 => ⟨S_, .f32⟩
  | 121 => ⟨S_, .f32⟩
  | 122 => ⟨S_, .f32⟩
  | 123 => ⟨S_, .f32⟩
  | 124 => ⟨S_, .f32⟩
  | _ => ⟨S400000x7, .f32⟩

abbrev hbmTy (i : Nat) : BufTy := match i / 128 with
  | 0 => hbmTy0_0 i
  | 1 => hbmTy0_1 i
  | _ => ⟨S400000x7, .f32⟩

abbrev bufTy : (tb : Table) → Fin (tcTables nBuf tb) → BufTy
  | .hbm, ⟨i, _⟩ => hbmTy i
  | _, _ => ⟨S400000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_cst_10 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_cst_12 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_cst_14 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_cst_16 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_17 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_18 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_19 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_20 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_21 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_22 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_cst_23 : Ref sig .tc := ⟨.hbm, 221, rfl⟩
abbrev main_v180 : Ref sig .tc := ⟨.hbm, 222, rfl⟩
abbrev main_v181 : Ref sig .tc := ⟨.hbm, 223, rfl⟩
abbrev main_cst_24 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_25 : Ref sig .tc := ⟨.hbm, 228, rfl⟩
abbrev main_v185 : Ref sig .tc := ⟨.hbm, 229, rfl⟩
abbrev main_cst_26 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_27 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_28 : Ref sig .tc := ⟨.hbm, 238, rfl⟩
abbrev main_v192 : Ref sig .tc := ⟨.hbm, 239, rfl⟩
abbrev main_v193 : Ref sig .tc := ⟨.hbm, 240, rfl⟩
abbrev main_cst_29 : Ref sig .tc := ⟨.hbm, 241, rfl⟩
abbrev main_call4_v0 : Ref sig .tc := ⟨.hbm, 242, rfl⟩
abbrev main_call4_v1 : Ref sig .tc := ⟨.hbm, 243, rfl⟩
abbrev main_v194 : Ref sig .tc := ⟨.hbm, 244, rfl⟩
abbrev main_cst_30 : Ref sig .tc := ⟨.hbm, 245, rfl⟩
abbrev main_v195 : Ref sig .tc := ⟨.hbm, 246, rfl⟩
abbrev main_v196 : Ref sig .tc := ⟨.hbm, 247, rfl⟩
abbrev main_cst_31 : Ref sig .tc := ⟨.hbm, 248, rfl⟩
abbrev main_v197 : Ref sig .tc := ⟨.hbm, 249, rfl⟩
abbrev main_v198 : Ref sig .tc := ⟨.hbm, 250, rfl⟩
abbrev main_cst_32 : Ref sig .tc := ⟨.hbm, 251, rfl⟩
abbrev main_v199 : Ref sig .tc := ⟨.hbm, 252, rfl⟩

abbrev nD : Nat := 1
abbrev τ : Topo := Topo.v7x

variable {F : FTy → Type} [FloatOps F]

class Facts₀ : Prop where
  slices_S400000x7_S400000x1_0_0 : S400000x7.Slices ![0, 0] S400000x1
  shapeCasts_S400000x1_S400000 : S400000x1.ShapeCasts S400000
  slices_S400000x7_S400000x1_0_1 : S400000x7.Slices ![0, 1] S400000x1
  slices_S400000x7_S400000x1_0_2 : S400000x7.Slices ![0, 2] S400000x1
  slices_S400000x7_S400000x1_0_3 : S400000x7.Slices ![0, 3] S400000x1
  slices_S400000x7_S400000x1_0_4 : S400000x7.Slices ![0, 4] S400000x1
  slices_S400000x7_S400000x1_0_5 : S400000x7.Slices ![0, 5] S400000x1
  slices_S400000x7_S400000x1_0_6 : S400000x7.Slices ![0, 6] S400000x1
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S8_S1x8_1 : S8.BroadcastsInDim S1x8 (![1] : Fin 1 → Fin S1x8.rank)
  bcast_S400000x1_S400000x8_0_1 : S400000x1.BroadcastsInDim S400000x8 (![0, 1] : Fin 2 → Fin S400000x8.rank)
  bcast_S1x8_S400000x8_0_1 : S1x8.BroadcastsInDim S400000x8 (![0, 1] : Fin 2 → Fin S400000x8.rank)
  bcast_S400000x8_S400000x1x8_0_2 : S400000x8.BroadcastsInDim S400000x1x8 (![0, 2] : Fin 2 → Fin S400000x1x8.rank)
  concatenates_S400000x1x8_S400000x1x8_S400000x1x8_S400000x3x8_d1 : Shape.Concatenates [S400000x1x8, S400000x1x8, S400000x1x8] S400000x3x8 1
  bcast_S_S400000 : S_.BroadcastsInDim S400000 (![] : Fin 0 → Fin S400000.rank)
  concatenates_S400000x1_S400000x1_S400000x1_S400000x1_S400000x1_S400000x1_S400000x1_S400000x1_S400000x1_S400000x9_d1 : Shape.Concatenates [S400000x1, S400000x1, S400000x1, S400000x1, S400000x1, S400000x1, S400000x1, S400000x1, S400000x1] S400000x9 1
  shapeCasts_S400000x9_S400000x3x3 : S400000x9.ShapeCasts S400000x3x3
  concatenates_S400000x1_S400000x1_S400000x1_S400000x3_d1 : Shape.Concatenates [S400000x1, S400000x1, S400000x1] S400000x3 1
  bcast_S400000x3_S400000x3x1_0_1 : S400000x3.BroadcastsInDim S400000x3x1 (![0, 1] : Fin 2 → Fin S400000x3x1.rank)
  bcast_S400000x3x1_S400000x3x8_0_1_2 : S400000x3x1.BroadcastsInDim S400000x3x8 (![0, 1, 2] : Fin 3 → Fin S400000x3x8.rank)
  transposes_S400000x3x8_S400000x8x3_0_2_1 : S400000x3x8.Transposes [0, 2, 1] S400000x8x3
  bcast_S_S400000x8x1 : S_.BroadcastsInDim S400000x8x1 (![] : Fin 0 → Fin S400000x8x1.rank)
  concatenates_S400000x8x3_S400000x8x1_S400000x8x4_d2 : Shape.Concatenates [S400000x8x3, S400000x8x1] S400000x8x4 2
  slices_S400000x8x4_S400000x8x1_0_0_2 : S400000x8x4.Slices ![0, 0, 2] S400000x8x1
  shapeCasts_S400000x8x1_S400000x8 : S400000x8x1.ShapeCasts S400000x8
  bcast_S_S400000x8 : S_.BroadcastsInDim S400000x8 (![] : Fin 0 → Fin S400000x8.rank)
  slices_S400000x8x4_S400000x8x1_0_0_0 : S400000x8x4.Slices ![0, 0, 0] S400000x8x1
  slices_S400000x8x4_S400000x8x1_0_0_1 : S400000x8x4.Slices ![0, 0, 1] S400000x8x1
  slices_S400000x2_S400000x1_0_0 : S400000x2.Slices ![0, 0] S400000x1
  slices_S400000x2_S400000x1_0_1 : S400000x2.Slices ![0, 1] S400000x1
  reducesTo_S400000x8_S400000_d1 : S400000x8.ReducesTo [1] S400000
  h_S_ : 0 < S_.numel
  concatenates_S400000x1_S400000x1_S400000x1_S400000x1_S400000x4_d1 : Shape.Concatenates [S400000x1, S400000x1, S400000x1, S400000x1] S400000x4 1
  slices_S400000x4_S400000x1_0_0 : S400000x4.Slices ![0, 0] S400000x1
  slices_S400000x4_S400000x1_0_1 : S400000x4.Slices ![0, 1] S400000x1
  slices_S400000x4_S400000x1_0_2 : S400000x4.Slices ![0, 2] S400000x1
  slices_S400000x4_S400000x1_0_3 : S400000x4.Slices ![0, 3] S400000x1
  bcast_S_S80000 : S_.BroadcastsInDim S80000 (![] : Fin 0 → Fin S80000.rank)
  reducesTo_S80000_S_d0 : S80000.ReducesTo [0] S_
  dot_S400000x3x3_S400000x3x8_S400000x3x8_2_1_1_2_0_0_wf : DotDims.WF S400000x3x3 S400000x3x8 S400000x3x8 [2] [1] [1] [2] [0] [0]
  dot_S400000x8x4_S400000x4x4_S400000x8x4_2_2_1_1_0_0_wf : DotDims.WF S400000x8x4 S400000x4x4 S400000x8x4 [2] [2] [1] [1] [0] [0]
  scatter_S80000_S400000x1_S400000_n_0_0_1_wf : ScatterDims.WF S80000 S400000x1 S400000 [] [0] [0] 1

variable [Facts₀]

def dot_S400000x3x3_S400000x3x8_S400000x3x8_2_1_1_2_0_0 : DotDims S400000x3x3 S400000x3x8 S400000x3x8 where
  lhsContracting := [2]
  rhsContracting := [1]
  lhsNonContracting := [1]
  rhsNonContracting := [2]
  lhsBatch := [0]
  rhsBatch := [0]
  wf := dot_S400000x3x3_S400000x3x8_S400000x3x8_2_1_1_2_0_0_wf
def dot_S400000x8x4_S400000x4x4_S400000x8x4_2_2_1_1_0_0 : DotDims S400000x8x4 S400000x4x4 S400000x8x4 where
  lhsContracting := [2]
  rhsContracting := [2]
  lhsNonContracting := [1]
  rhsNonContracting := [1]
  lhsBatch := [0]
  rhsBatch := [0]
  wf := dot_S400000x8x4_S400000x4x4_S400000x8x4_2_2_1_1_0_0_wf
def scatter_S80000_S400000x1_S400000_n_0_0_1 : ScatterDims S80000 S400000x1 S400000 where
  updateWindowDims := []
  insertedWindowDims := [0]
  scatterDimsToOperandDims := [0]
  indexVectorDim := 1
  wf := scatter_S80000_S400000x1_S400000_n_0_0_1_wf

class Facts : Prop extends Facts₀ where

variable [Facts]
-- ==== Proof.KRow.lean ====
/-
  The per-lane formula of the projection/GIoU kernel body, on the extended reals.

  One lane carries one row of the inputs: a 3D box `p = (x, y, z, l, w, h, yaw)`, a 2D ground-truth
  box `g = (gx1, gy1, gx2, gy2)`, the first three rows `L = (a0 b0 c0 d0 a1 b1 c1 d1 a2 b2 c2 d2)` of a
  4x4 projection matrix, and the image size `hw = (H, W)`. The eight corners of the 3D box (half extents
  times a sign pattern, rotated by the yaw, translated by the centre) are projected, divided by the
  clamped depth, and their bounding rectangle is clipped to the image; the loss is one minus the
  generalized intersection-over-union of that rectangle with the ground-truth box.

  Every operation is the extended reals' own (`*`, `+`, `-`, `max`, `min`), the quotient is the ideal
  quotient `Ideal.div`, the cosine and sine the ideal ones, and each float literal is kept as the
  extended real its 32-bit pattern denotes. The operands stand in the order in which the kernel body
  applies its operations.
-/
import Idealize.ShloMosaic.PureOps.Ideal
import Idealize.ShloMosaic.Lib.ValueIdx

noncomputable section

namespace Cert.Giou

open Idealize.ShloMosaic

/-! ## The float literals -/

/-- `0.5`. -/
def litHalf : EReal := Ideal.ofBits .f32 0x3F000000#32
/-- `1.0`. -/
def litOne : EReal := Ideal.ofBits .f32 0x3F800000#32
/-- `-1.0`. -/
def litNegOne : EReal := Ideal.ofBits .f32 0xBF800000#32
/-- `0.0`. -/
def litZero : EReal := Ideal.ofBits .f32 0x00000000#32
/-- The depth clamp, the float nearest `1e-5`. -/
def litEpsW : EReal := Ideal.ofBits .f32 0x3727C5AC#32
/-- The area regularizer, the float nearest `1e-7`. -/
def litEpsA : EReal := Ideal.ofBits .f32 0x33D6BF95#32

/-! ## One corner -/

/-- The corner's first coordinate: the half extents `(l/2) sx`, `(w/2) sy` rotated by the yaw, plus `x`. -/
def cornerX (p : Fin 7 → EReal) (sx sy : EReal) : EReal :=
  Ideal.cos (p 6) * (p 3 * litHalf * sx) - Ideal.sin (p 6) * (p 4 * litHalf * sy) + p 0

/-- The corner's second coordinate, plus `y`. -/
def cornerY (p : Fin 7 → EReal) (sx sy : EReal) : EReal :=
  Ideal.sin (p 6) * (p 3 * litHalf * sx) + Ideal.cos (p 6) * (p 4 * litHalf * sy) + p 1

/-- The corner's third coordinate: `(h/2) sz + z`. -/
def cornerZ (p : Fin 7 → EReal) (sz : EReal) : EReal :=
  p 5 * litHalf * sz + p 2

/-- One row `(a, b, c, d)` of the projection matrix applied to the point `(X, Y, Z, 1)`. -/
def projRow (a b c d X Y Z : EReal) : EReal :=
  a * X + b * Y + c * Z + d

/-- The clamped depth of the point: the third projected coordinate, at least the depth clamp. -/
def depth (L : Fin 12 → EReal) (X Y Z : EReal) : EReal :=
  max (projRow (L 8) (L 9) (L 10) (L 11) X Y Z) litEpsW

/-- The image abscissa of the corner with sign pattern `(sx, sy, sz)`. -/
def imgX (p : Fin 7 → EReal) (L : Fin 12 → EReal) (sx sy sz : EReal) : EReal :=
  Ideal.div (projRow (L 0) (L 1) (L 2) (L 3) (cornerX p sx sy) (cornerY p sx sy) (cornerZ p sz))
    (depth L (cornerX p sx sy) (cornerY p sx sy) (cornerZ p sz))

/-- The image ordinate of the corner with sign pattern `(sx, sy, sz)`. -/
def imgY (p : Fin 7 → EReal) (L : Fin 12 → EReal) (sx sy sz : EReal) : EReal :=
  Ideal.div (projRow (L 4) (L 5) (L 6) (L 7) (cornerX p sx sy) (cornerY p sx sy) (cornerZ p sz))
    (depth L (cornerX p sx sy) (cornerY p sx sy) (cornerZ p sz))

/-! ## The eight corners, in the kernel's order

  Signs `(+,+,+) (+,-,+) (-,-,+) (-,+,+) (+,+,-) (+,-,-) (-,-,-) (-,+,-)`. -/

/-- The eight image abscissae folded by `op` (a minimum or a maximum), first corner first. -/
def foldX (op : EReal → EReal → EReal) (p : Fin 7 → EReal) (L : Fin 12 → EReal) : EReal :=
  op (op (op (op (op (op (op
    (imgX p L litOne litOne litOne)
    (imgX p L litOne litNegOne litOne))
    (imgX p L litNegOne litNegOne litOne))
    (imgX p L litNegOne litOne litOne))
    (imgX p L litOne litOne litNegOne))
    (imgX p L litOne litNegOne litNegOne))
    (imgX p L litNegOne litNegOne litNegOne))
    (imgX p L litNegOne litOne litNegOne)

/-- The eight image ordinates folded by `op`, first corner first. -/
def foldY (op : EReal → EReal → EReal) (p : Fin 7 → EReal) (L : Fin 12 → EReal) : EReal :=
  op (op (op (op (op (op (op
    (imgY p L litOne litOne litOne)
    (imgY p L litOne litNegOne litOne))
    (imgY p L litNegOne litNegOne litOne))
    (imgY p L litNegOne litOne litOne))
    (imgY p L litOne litOne litNegOne))
    (imgY p L litOne litNegOne litNegOne))
    (imgY p L litNegOne litNegOne litNegOne))
    (imgY p L litNegOne litOne litNegOne)

/-- A coordinate clipped to `[0, hi]`: first raised to zero, then lowered to `hi`. -/
def clip (v hi : EReal) : EReal := min (max v litZero) hi

/-! ## The loss of a clipped rectangle against the ground-truth box -/

/-- The area of the intersection of `[x1, x2] × [y1, y2]` with the box `g`. -/
def interArea (x1 x2 y1 y2 : EReal) (g : Fin 4 → EReal) : EReal :=
  max (min x2 (g 2) - max x1 (g 0)) litZero * max (min y2 (g 3) - max y1 (g 1)) litZero

/-- The regularized area of the union. -/
def unionArea (x1 x2 y1 y2 : EReal) (g : Fin 4 → EReal) : EReal :=
  (x2 - x1) * (y2 - y1) + (g 2 - g 0) * (g 3 - g 1) - interArea x1 x2 y1 y2 g + litEpsA

/-- The regularized area of the smallest rectangle enclosing both. -/
def hullArea (x1 x2 y1 y2 : EReal) (g : Fin 4 → EReal) : EReal :=
  max (max x2 (g 2) - min x1 (g 0)) litZero * max (max y2 (g 3) - min y1 (g 1)) litZero + litEpsA

/-- One minus the generalized intersection-over-union. -/
def giouLoss (x1 x2 y1 y2 : EReal) (g : Fin 4 → EReal) : EReal :=
  litOne - (Ideal.div (interArea x1 x2 y1 y2 g) (unionArea x1 x2 y1 y2 g)
    - Ideal.div (hullArea x1 x2 y1 y2 g - unionArea x1 x2 y1 y2 g) (hullArea x1 x2 y1 y2 g))

/-! ## The row -/

/-- The kernel body at one lane: `p` the box row `(x, y, z, l, w, h, yaw)`, `g` the ground-truth row
    `(gx1, gy1, gx2, gy2)`, `L` the twelve matrix entries, `hw` the image row `(H, W)`. -/
def kRow (p : Fin 7 → EReal) (g : Fin 4 → EReal) (L : Fin 12 → EReal) (hw : Fin 2 → EReal) : EReal :=
  giouLoss (clip (foldX min p L) (hw 1)) (clip (foldX max p L) (hw 1))
    (clip (foldY min p L) (hw 0)) (clip (foldY max p L) (hw 0)) g

end Cert.Giou
-- ==== Proof.KPayloadTable.lean ====
/-
  The kernel body's arithmetic payloads read at one lane: each payload is a short chain of pointwise vector
  operations, so at the lane index it is the same chain of operations on the extended reals, the operands read
  at that lane. The payloads a payload calls are left folded (read at the same lane). One statement per payload,
  each true by unfolding definitions. The argument that uses the table is in KPayload.lean.
-/
import proofs.«165471_j24206435680919_1_alg».proof.Proof.Gen.KernelIdeal.Frame
import Idealize.ShloMosaic.Lib.ValueIdx

noncomputable section

namespace Cert.Giou

open Idealize.ShloMosaic Idealize.ShloMosaic.ValueIdx Cert.KernelIdeal Cert.KernelIdeal.Gen

theorem pay1_apply (v429 : FVec Ideal S32768 .f32) (v435 : FVec Ideal S32768 .f32) (v441 : FVec Ideal S32768 .f32) (v443 : FVec Ideal S32768 .f32) (v464 : FVec Ideal S32768 .f32) (v465 : FVec Ideal S32768 .f32) (v466 : FVec Ideal S32768 .f32) (v467 : FVec Ideal S32768 .f32) (j : Fin 32768) :
    k0_pay1 (F := Ideal) v429 v435 v441 v443 v464 v465 v466 v467 (ix1 j)
      = ((Ideal.ofBits .f32 0x3F800000#32) - ((v465 (ix1 j)) - (Ideal.div ((((max ((max (v429 (ix1 j)) (v441 (ix1 j))) - (v466 (ix1 j))) (Ideal.ofBits .f32 0x00000000#32)) * (max ((max (v435 (ix1 j)) (v443 (ix1 j))) - (v467 (ix1 j))) (Ideal.ofBits .f32 0x00000000#32))) + (Ideal.ofBits .f32 0x33D6BF95#32)) - (v464 (ix1 j))) (((max ((max (v429 (ix1 j)) (v441 (ix1 j))) - (v466 (ix1 j))) (Ideal.ofBits .f32 0x00000000#32)) * (max ((max (v435 (ix1 j)) (v443 (ix1 j))) - (v467 (ix1 j))) (Ideal.ofBits .f32 0x00000000#32))) + (Ideal.ofBits .f32 0x33D6BF95#32))))) := rfl

theorem pay13_apply (v0 : Vec Ideal S7x32768 .f32) (j : Fin 32768) :
    k0_pay13 (F := Ideal) v0 (ix1 j)
      = Ideal.cos (k0_pay12 v0 (ix1 j)) := rfl

theorem pay14_apply (v0 : Vec Ideal S7x32768 .f32) (j : Fin 32768) :
    k0_pay14 (F := Ideal) v0 (ix1 j)
      = Ideal.sin (k0_pay12 v0 (ix1 j)) := rfl

theorem pay27_apply (v0 : Vec Ideal S7x32768 .f32) (j : Fin 32768) :
    k0_pay27 (F := Ideal) v0 (ix1 j)
      = ((k0_pay9 v0 (ix1 j)) * (Ideal.ofBits .f32 0x3F000000#32)) := rfl

theorem pay28_apply (v49 : FVec Ideal S32768 .f32) (j : Fin 32768) :
    k0_pay28 (F := Ideal) v49 (ix1 j)
      = ((v49 (ix1 j)) * (Ideal.ofBits .f32 0x3F800000#32)) := rfl

theorem pay29_apply (v17 : FVec Ideal S32768 .f32) (j : Fin 32768) :
    k0_pay29 (F := Ideal) v17 (ix1 j)
      = (((v17 (ix1 j)) * (Ideal.ofBits .f32 0x3F000000#32)) * (Ideal.ofBits .f32 0x3F800000#32)) := rfl

theorem pay30_apply (v9 : FVec Ideal S32768 .f32) (v17 : FVec Ideal S32768 .f32) (v22 : FVec Ideal S32768 .f32) (v23 : FVec Ideal S32768 .f32) (v49 : FVec Ideal S32768 .f32) (j : Fin 32768) :
    k0_pay30 (F := Ideal) v9 v17 v22 v23 v49 (ix1 j)
      = ((((v22 (ix1 j)) * (k0_pay28 v49 (ix1 j))) - ((v23 (ix1 j)) * (k0_pay29 v17 (ix1 j)))) + (v9 (ix1 j))) := rfl

theorem pay31_apply (v11 : FVec Ideal S32768 .f32) (v17 : FVec Ideal S32768 .f32) (v22 : FVec Ideal S32768 .f32) (v23 : FVec Ideal S32768 .f32) (v49 : FVec Ideal S32768 .f32) (j : Fin 32768) :
    k0_pay31 (F := Ideal) v11 v17 v22 v23 v49 (ix1 j)
      = ((((v23 (ix1 j)) * (k0_pay28 v49 (ix1 j))) + ((v22 (ix1 j)) * (k0_pay29 v17 (ix1 j)))) + (v11 (ix1 j))) := rfl

theorem pay32_apply (v13 : FVec Ideal S32768 .f32) (v19 : FVec Ideal S32768 .f32) (j : Fin 32768) :
    k0_pay32 (F := Ideal) v13 v19 (ix1 j)
      = ((((v19 (ix1 j)) * (Ideal.ofBits .f32 0x3F000000#32)) * (Ideal.ofBits .f32 0x3F800000#32)) + (v13 (ix1 j))) := rfl

theorem pay33_apply (v9 : FVec Ideal S32768 .f32) (v11 : FVec Ideal S32768 .f32) (v13 : FVec Ideal S32768 .f32) (v17 : FVec Ideal S32768 .f32) (v19 : FVec Ideal S32768 .f32) (v22 : FVec Ideal S32768 .f32) (v23 : FVec Ideal S32768 .f32) (v41 : FVec Ideal S32768 .f32) (v43 : FVec Ideal S32768 .f32) (v45 : FVec Ideal S32768 .f32) (v47 : FVec Ideal S32768 .f32) (v49 : FVec Ideal S32768 .f32) (j : Fin 32768) :
    k0_pay33 (F := Ideal) v9 v11 v13 v17 v19 v22 v23 v41 v43 v45 v47 v49 (ix1 j)
      = max (((((v41 (ix1 j)) * (k0_pay30 v9 v17 v22 v23 v49 (ix1 j))) + ((v43 (ix1 j)) * (k0_pay31 v11 v17 v22 v23 v49 (ix1 j)))) + ((v45 (ix1 j)) * (k0_pay32 v13 v19 (ix1 j)))) + (v47 (ix1 j))) (Ideal.ofBits .f32 0x3727C5AC#32) := rfl

theorem pay34_apply (v9 : FVec Ideal S32768 .f32) (v11 : FVec Ideal S32768 .f32) (v13 : FVec Ideal S32768 .f32) (v17 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v49 : FVec Ideal S32768 .f32) (j : Fin 32768) :
    k0_pay34 (F := Ideal) v9 v11 v13 v17 v19 v22 v23 v25 v27 v29 v31 v41 v43 v45 v47 v49 (ix1 j)
      = Ideal.div (((((v25 (ix1 j)) * (k0_pay30 v9 v17 v22 v23 v49 (ix1 j))) + ((v27 (ix1 j)) * (k0_pay31 v11 v17 v22 v23 v49 (ix1 j)))) + ((v29 (ix1 j)) * (k0_pay32 v13 v19 (ix1 j)))) + (v31 (ix1 j))) (k0_pay33 v9 v11 v13 v17 v19 v22 v23 v41 v43 v45 v47 v49 (ix1 j)) := rfl

theorem pay35_apply (v9 : FVec Ideal S32768 .f32) (v11 : FVec Ideal S32768 .f32) (v13 : FVec Ideal S32768 .f32) (v17 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v49 : FVec Ideal S32768 .f32) (j : Fin 32768) :
    k0_pay35 (F := Ideal) v9 v11 v13 v17 v19 v22 v23 v33 v35 v37 v39 v41 v43 v45 v47 v49 (ix1 j)
      = Ideal.div (((((v33 (ix1 j)) * (k0_pay30 v9 v17 v22 v23 v49 (ix1 j))) + ((v35 (ix1 j)) * (k0_pay31 v11 v17 v22 v23 v49 (ix1 j)))) + ((v37 (ix1 j)) * (k0_pay32 v13 v19 (ix1 j)))) + (v39 (ix1 j))) (k0_pay33 v9 v11 v13 v17 v19 v22 v23 v41 v43 v45 v47 v49 (ix1 j)) := rfl

theorem pay36_apply (v15 : FVec Ideal S32768 .f32) (j : Fin 32768) :
    k0_pay36 (F := Ideal) v15 (ix1 j)
      = (((v15 (ix1 j)) * (Ideal.ofBits .f32 0x3F000000#32)) * (Ideal.ofBits .f32 0x3F800000#32)) := rfl

theorem pay37_apply (v17 : FVec Ideal S32768 .f32) (j : Fin 32768) :
    k0_pay37 (F := Ideal) v17 (ix1 j)
      = (((v17 (ix1 j)) * (Ideal.ofBits .f32 0x3F000000#32)) * (Ideal.ofBits .f32 0xBF800000#32)) := rfl

theorem pay38_apply (v9 : FVec Ideal S32768 .f32) (v22 : FVec Ideal S32768 .f32) (v23 : FVec Ideal S32768 .f32) (v94 : FVec Ideal S32768 .f32) (v98 : FVec Ideal S32768 .f32) (j : Fin 32768) :
    k0_pay38 (F := Ideal) v9 v22 v23 v94 v98 (ix1 j)
      = ((((v22 (ix1 j)) * (v94 (ix1 j))) - ((v23 (ix1 j)) * (v98 (ix1 j)))) + (v9 (ix1 j))) := rfl

theorem pay39_apply (v11 : FVec Ideal S32768 .f32) (v22 : FVec Ideal S32768 .f32) (v23 : FVec Ideal S32768 .f32) (v94 : FVec Ideal S32768 .f32) (v98 : FVec Ideal S32768 .f32) (j : Fin 32768) :
    k0_pay39 (F := Ideal) v11 v22 v23 v94 v98 (ix1 j)
      = ((((v23 (ix1 j)) * (v94 (ix1 j))) + ((v22 (ix1 j)) * (v98 (ix1 j)))) + (v11 (ix1 j))) := rfl

theorem pay40_apply (v13 : FVec Ideal S32768 .f32) (v19 : FVec Ideal S32768 .f32) (cst_17 : Ideal .f32) (j : Fin 32768) :
    k0_pay40 (F := Ideal) v13 v19 cst_17 (ix1 j)
      = ((((v19 (ix1 j)) * cst_17) * (Ideal.ofBits .f32 0x3F800000#32)) + (v13 (ix1 j))) := rfl

theorem pay41_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v41 : FVec Ideal S32768 .f32) (v43 : FVec Ideal S32768 .f32) (v45 : FVec Ideal S32768 .f32) (v47 : FVec Ideal S32768 .f32) (v94 : FVec Ideal S32768 .f32) (v98 : FVec Ideal S32768 .f32) (cst_17 : Ideal .f32) (j : Fin 32768) :
    k0_pay41 (F := Ideal) v9 v11 v13 v19 v22 v23 v41 v43 v45 v47 v94 v98 cst_17 (ix1 j)
      = max (((((v41 (ix1 j)) * (k0_pay38 v9 v22 v23 v94 v98 (ix1 j))) + ((v43 (ix1 j)) * (k0_pay39 v11 v22 v23 v94 v98 (ix1 j)))) + ((v45 (ix1 j)) * (k0_pay40 v13 v19 cst_17 (ix1 j)))) + (v47 (ix1 j))) (Ideal.ofBits .f32 0x3727C5AC#32) := rfl

theorem pay42_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v94 : FVec Ideal S32768 .f32) (v98 : FVec Ideal S32768 .f32) (cst_17 : Ideal .f32) (j : Fin 32768) :
    k0_pay42 (F := Ideal) v9 v11 v13 v19 v22 v23 v25 v27 v29 v31 v41 v43 v45 v47 v94 v98 cst_17 (ix1 j)
      = Ideal.div (((((v25 (ix1 j)) * (k0_pay38 v9 v22 v23 v94 v98 (ix1 j))) + ((v27 (ix1 j)) * (k0_pay39 v11 v22 v23 v94 v98 (ix1 j)))) + ((v29 (ix1 j)) * (k0_pay40 v13 v19 cst_17 (ix1 j)))) + (v31 (ix1 j))) (k0_pay41 v9 v11 v13 v19 v22 v23 v41 v43 v45 v47 v94 v98 cst_17 (ix1 j)) := rfl

theorem pay43_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v94 : FVec Ideal S32768 .f32) (v98 : FVec Ideal S32768 .f32) (cst_17 : Ideal .f32) (j : Fin 32768) :
    k0_pay43 (F := Ideal) v9 v11 v13 v19 v22 v23 v33 v35 v37 v39 v41 v43 v45 v47 v94 v98 cst_17 (ix1 j)
      = Ideal.div (((((v33 (ix1 j)) * (k0_pay38 v9 v22 v23 v94 v98 (ix1 j))) + ((v35 (ix1 j)) * (k0_pay39 v11 v22 v23 v94 v98 (ix1 j)))) + ((v37 (ix1 j)) * (k0_pay40 v13 v19 cst_17 (ix1 j)))) + (v39 (ix1 j))) (k0_pay41 v9 v11 v13 v19 v22 v23 v41 v43 v45 v47 v94 v98 cst_17 (ix1 j)) := rfl

theorem pay44_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v89 : FVec Ideal S32768 .f32) (v94 : FVec Ideal S32768 .f32) (v98 : FVec Ideal S32768 .f32) (cst_17 : Ideal .f32) (j : Fin 32768) :
    k0_pay44 (F := Ideal) v9 v11 v13 v19 v22 v23 v25 v27 v29 v31 v41 v43 v45 v47 v89 v94 v98 cst_17 (ix1 j)
      = min (v89 (ix1 j)) (k0_pay42 v9 v11 v13 v19 v22 v23 v25 v27 v29 v31 v41 v43 v45 v47 v94 v98 cst_17 (ix1 j)) := rfl

theorem pay45_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v89 : FVec Ideal S32768 .f32) (v94 : FVec Ideal S32768 .f32) (v98 : FVec Ideal S32768 .f32) (cst_17 : Ideal .f32) (j : Fin 32768) :
    k0_pay45 (F := Ideal) v9 v11 v13 v19 v22 v23 v25 v27 v29 v31 v41 v43 v45 v47 v89 v94 v98 cst_17 (ix1 j)
      = max (v89 (ix1 j)) (k0_pay42 v9 v11 v13 v19 v22 v23 v25 v27 v29 v31 v41 v43 v45 v47 v94 v98 cst_17 (ix1 j)) := rfl

theorem pay46_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v90 : FVec Ideal S32768 .f32) (v94 : FVec Ideal S32768 .f32) (v98 : FVec Ideal S32768 .f32) (cst_17 : Ideal .f32) (j : Fin 32768) :
    k0_pay46 (F := Ideal) v9 v11 v13 v19 v22 v23 v33 v35 v37 v39 v41 v43 v45 v47 v90 v94 v98 cst_17 (ix1 j)
      = min (v90 (ix1 j)) (k0_pay43 v9 v11 v13 v19 v22 v23 v33 v35 v37 v39 v41 v43 v45 v47 v94 v98 cst_17 (ix1 j)) := rfl

theorem pay47_apply (v9 : FVec Ideal S32768 .f32) (v11 : FVec Ideal S32768 .f32) (v13 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v90 : FVec Ideal S32768 .f32) (v94 : FVec Ideal S32768 .f32) (v98 : FVec Ideal S32768 .f32) (cst_17 : Ideal .f32) (j : Fin 32768) :
    k0_pay47 (F := Ideal) v9 v11 v13 v19 v22 v23 v33 v35 v37 v39 v41 v43 v45 v47 v90 v94 v98 cst_17 (ix1 j)
      = max (v90 (ix1 j)) (k0_pay43 v9 v11 v13 v19 v22 v23 v33 v35 v37 v39 v41 v43 v45 v47 v94 v98 cst_17 (ix1 j)) := rfl

theorem pay48_apply (v15 : FVec Ideal S32768 .f32) (j : Fin 32768) :
    k0_pay48 (F := Ideal) v15 (ix1 j)
      = (((v15 (ix1 j)) * (Ideal.ofBits .f32 0x3F000000#32)) * (Ideal.ofBits .f32 0xBF800000#32)) := rfl

theorem pay49_apply (v17 : FVec Ideal S32768 .f32) (j : Fin 32768) :
    k0_pay49 (F := Ideal) v17 (ix1 j)
      = (((v17 (ix1 j)) * (Ideal.ofBits .f32 0x3F000000#32)) * (Ideal.ofBits .f32 0xBF800000#32)) := rfl

theorem pay50_apply (v19 : FVec Ideal S32768 .f32) (j : Fin 32768) :
    k0_pay50 (F := Ideal) v19 (ix1 j)
      = (((v19 (ix1 j)) * (Ideal.ofBits .f32 0x3F000000#32)) * (Ideal.ofBits .f32 0x3F800000#32)) := rfl

theorem pay51_apply (v15 : FVec Ideal S32768 .f32) (v22 : FVec Ideal S32768 .f32) (j : Fin 32768) :
    k0_pay51 (F := Ideal) v15 v22 (ix1 j)
      = ((v22 (ix1 j)) * (k0_pay48 v15 (ix1 j))) := rfl

theorem pay52_apply (v9 : FVec Ideal S32768 .f32) (v23 : FVec Ideal S32768 .f32) (v145 : FVec Ideal S32768 .f32) (v150 : FVec Ideal S32768 .f32) (j : Fin 32768) :
    k0_pay52 (F := Ideal) v9 v23 v145 v150 (ix1 j)
      = (((v150 (ix1 j)) - ((v23 (ix1 j)) * (v145 (ix1 j)))) + (v9 (ix1 j))) := rfl

theorem pay53_apply (v11 : FVec Ideal S32768 .f32) (v22 : FVec Ideal S32768 .f32) (v23 : FVec Ideal S32768 .f32) (v141 : FVec Ideal S32768 .f32) (v145 : FVec Ideal S32768 .f32) (j : Fin 32768) :
    k0_pay53 (F := Ideal) v11 v22 v23 v141 v145 (ix1 j)
      = ((((v23 (ix1 j)) * (v141 (ix1 j))) + ((v22 (ix1 j)) * (v145 (ix1 j)))) + (v11 (ix1 j))) := rfl

theorem pay54_apply (v13 : FVec Ideal S32768 .f32) (v149 : FVec Ideal S32768 .f32) (j : Fin 32768) :
    k0_pay54 (F := Ideal) v13 v149 (ix1 j)
      = ((v149 (ix1 j)) + (v13 (ix1 j))) := rfl

theorem pay55_apply (v9 : FVec Ideal S32768 .f32) (v11 : FVec Ideal S32768 .f32) (v13 : FVec Ideal S32768 .f32) (v22 : FVec Ideal S32768 .f32) (v23 : FVec Ideal S32768 .f32) (v41 : FVec Ideal S32768 .f32) (v43 : FVec Ideal S32768 .f32) (v45 : FVec Ideal S32768 .f32) (v47 : FVec Ideal S32768 .f32) (v141 : FVec Ideal S32768 .f32) (v145 : FVec Ideal S32768 .f32) (v149 : FVec Ideal S32768 .f32) (v150 : FVec Ideal S32768 .f32) (j : Fin 32768) :
    k0_pay55 (F := Ideal) v9 v11 v13 v22 v23 v41 v43 v45 v47 v141 v145 v149 v150 (ix1 j)
      = max (((((v41 (ix1 j)) * (k0_pay52 v9 v23 v145 v150 (ix1 j))) + ((v43 (ix1 j)) * (k0_pay53 v11 v22 v23 v141 v145 (ix1 j)))) + ((v45 (ix1 j)) * (k0_pay54 v13 v149 (ix1 j)))) + (v47 (ix1 j))) (Ideal.ofBits .f32 0x3727C5AC#32) := rfl

theorem pay56_apply (v9 : FVec Ideal S32768 .f32) (v11 : FVec Ideal S32768 .f32) (v13 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v141 : FVec Ideal S32768 .f32) (v145 : FVec Ideal S32768 .f32) (v149 : FVec Ideal S32768 .f32) (v150 : FVec Ideal S32768 .f32) (j : Fin 32768) :
    k0_pay56 (F := Ideal) v9 v11 v13 v22 v23 v25 v27 v29 v31 v41 v43 v45 v47 v141 v145 v149 v150 (ix1 j)
      = Ideal.div (((((v25 (ix1 j)) * (k0_pay52 v9 v23 v145 v150 (ix1 j))) + ((v27 (ix1 j)) * (k0_pay53 v11 v22 v23 v141 v145 (ix1 j)))) + ((v29 (ix1 j)) * (k0_pay54 v13 v149 (ix1 j)))) + (v31 (ix1 j))) (k0_pay55 v9 v11 v13 v22 v23 v41 v43 v45 v47 v141 v145 v149 v150 (ix1 j)) := rfl

theorem pay57_apply (v9 : FVec Ideal S32768 .f32) (v11 : FVec Ideal S32768 .f32) (v13 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v141 : FVec Ideal S32768 .f32) (v145 : FVec Ideal S32768 .f32) (v149 : FVec Ideal S32768 .f32) (v150 : FVec Ideal S32768 .f32) (j : Fin 32768) :
    k0_pay57 (F := Ideal) v9 v11 v13 v22 v23 v33 v35 v37 v39 v41 v43 v45 v47 v141 v145 v149 v150 (ix1 j)
      = Ideal.div (((((v33 (ix1 j)) * (k0_pay52 v9 v23 v145 v150 (ix1 j))) + ((v35 (ix1 j)) * (k0_pay53 v11 v22 v23 v141 v145 (ix1 j)))) + ((v37 (ix1 j)) * (k0_pay54 v13 v149 (ix1 j)))) + (v39 (ix1 j))) (k0_pay55 v9 v11 v13 v22 v23 v41 v43 v45 v47 v141 v145 v149 v150 (ix1 j)) := rfl

theorem pay58_apply (v9 : FVec Ideal S32768 .f32) (v11 : FVec Ideal S32768 .f32) (v13 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v134 : FVec Ideal S32768 .f32) (v141 : FVec Ideal S32768 .f32) (v145 : FVec Ideal S32768 .f32) (v149 : FVec Ideal S32768 .f32) (v150 : FVec Ideal S32768 .f32) (j : Fin 32768) :
    k0_pay58 (F := Ideal) v9 v11 v13 v22 v23 v25 v27 v29 v31 v41 v43 v45 v47 v134 v141 v145 v149 v150 (ix1 j)
      = min (v134 (ix1 j)) (k0_pay56 v9 v11 v13 v22 v23 v25 v27 v29 v31 v41 v43 v45 v47 v141 v145 v149 v150 (ix1 j)) := rfl

theorem pay59_apply (v9 : FVec Ideal S32768 .f32) (v11 : FVec Ideal S32768 .f32) (v13 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v135 : FVec Ideal S32768 .f32) (v141 : FVec Ideal S32768 .f32) (v145 : FVec Ideal S32768 .f32) (v149 : FVec Ideal S32768 .f32) (v150 : FVec Ideal S32768 .f32) (j : Fin 32768) :
    k0_pay59 (F := Ideal) v9 v11 v13 v22 v23 v25 v27 v29 v31 v41 v43 v45 v47 v135 v141 v145 v149 v150 (ix1 j)
      = max (v135 (ix1 j)) (k0_pay56 v9 v11 v13 v22 v23 v25 v27 v29 v31 v41 v43 v45 v47 v141 v145 v149 v150 (ix1 j)) := rfl

theorem pay60_apply (v9 : FVec Ideal S32768 .f32) (v11 : FVec Ideal S32768 .f32) (v13 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v136 : FVec Ideal S32768 .f32) (v141 : FVec Ideal S32768 .f32) (v145 : FVec Ideal S32768 .f32) (v149 : FVec Ideal S32768 .f32) (v150 : FVec Ideal S32768 .f32) (j : Fin 32768) :
    k0_pay60 (F := Ideal) v9 v11 v13 v22 v23 v33 v35 v37 v39 v41 v43 v45 v47 v136 v141 v145 v149 v150 (ix1 j)
      = min (v136 (ix1 j)) (k0_pay57 v9 v11 v13 v22 v23 v33 v35 v37 v39 v41 v43 v45 v47 v141 v145 v149 v150 (ix1 j)) := rfl

theorem pay61_apply (v9 : FVec Ideal S32768 .f32) (v11 : FVec Ideal S32768 .f32) (v13 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v137 : FVec Ideal S32768 .f32) (v141 : FVec Ideal S32768 .f32) (v145 : FVec Ideal S32768 .f32) (v149 : FVec Ideal S32768 .f32) (v150 : FVec Ideal S32768 .f32) (j : Fin 32768) :
    k0_pay61 (F := Ideal) v9 v11 v13 v22 v23 v33 v35 v37 v39 v41 v43 v45 v47 v137 v141 v145 v149 v150 (ix1 j)
      = max (v137 (ix1 j)) (k0_pay57 v9 v11 v13 v22 v23 v33 v35 v37 v39 v41 v43 v45 v47 v141 v145 v149 v150 (ix1 j)) := rfl

theorem pay62_apply (v15 : FVec Ideal S32768 .f32) (j : Fin 32768) :
    k0_pay62 (F := Ideal) v15 (ix1 j)
      = (((v15 (ix1 j)) * (Ideal.ofBits .f32 0x3F000000#32)) * (Ideal.ofBits .f32 0xBF800000#32)) := rfl

theorem pay63_apply (v17 : FVec Ideal S32768 .f32) (j : Fin 32768) :
    k0_pay63 (F := Ideal) v17 (ix1 j)
      = (((v17 (ix1 j)) * (Ideal.ofBits .f32 0x3F000000#32)) * (Ideal.ofBits .f32 0x3F800000#32)) := rfl

theorem pay64_apply (v19 : FVec Ideal S32768 .f32) (j : Fin 32768) :
    k0_pay64 (F := Ideal) v19 (ix1 j)
      = (((v19 (ix1 j)) * (Ideal.ofBits .f32 0x3F000000#32)) * (Ideal.ofBits .f32 0x3F800000#32)) := rfl

theorem pay65_apply (v15 : FVec Ideal S32768 .f32) (v17 : FVec Ideal S32768 .f32) (v22 : FVec Ideal S32768 .f32) (v23 : FVec Ideal S32768 .f32) (j : Fin 32768) :
    k0_pay65 (F := Ideal) v15 v17 v22 v23 (ix1 j)
      = (((v23 (ix1 j)) * (k0_pay62 v15 (ix1 j))) + ((v22 (ix1 j)) * (k0_pay63 v17 (ix1 j)))) := rfl

theorem pay66_apply (v9 : FVec Ideal S32768 .f32) (v15 : FVec Ideal S32768 .f32) (v17 : FVec Ideal S32768 .f32) (v22 : FVec Ideal S32768 .f32) (v23 : FVec Ideal S32768 .f32) (j : Fin 32768) :
    k0_pay66 (F := Ideal) v9 v15 v17 v22 v23 (ix1 j)
      = ((((v22 (ix1 j)) * (k0_pay62 v15 (ix1 j))) - ((v23 (ix1 j)) * (k0_pay63 v17 (ix1 j)))) + (v9 (ix1 j))) := rfl

theorem pay67_apply (v11 : FVec Ideal S32768 .f32) (v202 : FVec Ideal S32768 .f32) (j : Fin 32768) :
    k0_pay67 (F := Ideal) v11 v202 (ix1 j)
      = ((v202 (ix1 j)) + (v11 (ix1 j))) := rfl

theorem pay68_apply (v13 : FVec Ideal S32768 .f32) (v196 : FVec Ideal S32768 .f32) (j : Fin 32768) :
    k0_pay68 (F := Ideal) v13 v196 (ix1 j)
      = ((v196 (ix1 j)) + (v13 (ix1 j))) := rfl

theorem pay69_apply (v11 : FVec Ideal S32768 .f32) (v13 : FVec Ideal S32768 .f32) (v41 : FVec Ideal S32768 .f32) (v43 : FVec Ideal S32768 .f32) (v45 : FVec Ideal S32768 .f32) (v47 : FVec Ideal S32768 .f32) (v196 : FVec Ideal S32768 .f32) (v202 : FVec Ideal S32768 .f32) (v203 : FVec Ideal S32768 .f32) (j : Fin 32768) :
    k0_pay69 (F := Ideal) v11 v13 v41 v43 v45 v47 v196 v202 v203 (ix1 j)
      = max (((((v41 (ix1 j)) * (v203 (ix1 j))) + ((v43 (ix1 j)) * (k0_pay67 v11 v202 (ix1 j)))) + ((v45 (ix1 j)) * (k0_pay68 v13 v196 (ix1 j)))) + (v47 (ix1 j))) (Ideal.ofBits .f32 0x3727C5AC#32) := rfl

theorem pay70_apply (v11 : FVec Ideal S32768 .f32) (v13 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v196 : FVec Ideal S32768 .f32) (v202 : FVec Ideal S32768 .f32) (v203 : FVec Ideal S32768 .f32) (j : Fin 32768) :
    k0_pay70 (F := Ideal) v11 v13 v25 v27 v29 v31 v41 v43 v45 v47 v196 v202 v203 (ix1 j)
      = Ideal.div (((((v25 (ix1 j)) * (v203 (ix1 j))) + ((v27 (ix1 j)) * (k0_pay67 v11 v202 (ix1 j)))) + ((v29 (ix1 j)) * (k0_pay68 v13 v196 (ix1 j)))) + (v31 (ix1 j))) (k0_pay69 v11 v13 v41 v43 v45 v47 v196 v202 v203 (ix1 j)) := rfl

theorem pay71_apply (v11 : FVec Ideal S32768 .f32) (v13 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v196 : FVec Ideal S32768 .f32) (v202 : FVec Ideal S32768 .f32) (v203 : FVec Ideal S32768 .f32) (j : Fin 32768) :
    k0_pay71 (F := Ideal) v11 v13 v33 v35 v37 v39 v41 v43 v45 v47 v196 v202 v203 (ix1 j)
      = Ideal.div (((((v33 (ix1 j)) * (v203 (ix1 j))) + ((v35 (ix1 j)) * (k0_pay67 v11 v202 (ix1 j)))) + ((v37 (ix1 j)) * (k0_pay68 v13 v196 (ix1 j)))) + (v39 (ix1 j))) (k0_pay69 v11 v13 v41 v43 v45 v47 v196 v202 v203 (ix1 j)) := rfl

theorem pay72_apply (v11 : FVec Ideal S32768 .f32) (v13 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v181 : FVec Ideal S32768 .f32) (v196 : FVec Ideal S32768 .f32) (v202 : FVec Ideal S32768 .f32) (v203 : FVec Ideal S32768 .f32) (j : Fin 32768) :
    k0_pay72 (F := Ideal) v11 v13 v25 v27 v29 v31 v41 v43 v45 v47 v181 v196 v202 v203 (ix1 j)
      = min (v181 (ix1 j)) (k0_pay70 v11 v13 v25 v27 v29 v31 v41 v43 v45 v47 v196 v202 v203 (ix1 j)) := rfl

theorem pay73_apply (v11 : FVec Ideal S32768 .f32) (v13 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (v182 : FVec Ideal S32768 .f32) (v196 : FVec Ideal S32768 .f32) (v202 : FVec Ideal S32768 .f32) (v203 : FVec Ideal S32768 .f32) (j : Fin 32768) :
    k0_pay73 (F := Ideal) v11 v13 v25 v27 v29 v31 v41 v43 v45 v47 v182 v196 v202 v203 (ix1 j)
      = max (v182 (ix1 j)) (k0_pay70 v11 v13 v25 v27 v29 v31 v41 v43 v45 v47 v196 v202 v203 (ix1 j)) := rfl

theorem pay74_apply (v11 : FVec Ideal S32768 .f32) (v13 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v183 : FVec Ideal S32768 .f32) (v196 : FVec Ideal S32768 .f32) (v202 : FVec Ideal S32768 .f32) (v203 : FVec Ideal S32768 .f32) (j : Fin 32768) :
    k0_pay74 (F := Ideal) v11 v13 v33 v35 v37 v39 v41 v43 v45 v47 v183 v196 v202 v203 (ix1 j)
      = min (v183 (ix1 j)) (k0_pay71 v11 v13 v33 v35 v37 v39 v41 v43 v45 v47 v196 v202 v203 (ix1 j)) := rfl

theorem pay75_apply (v11 : FVec Ideal S32768 .f32) (v13 : FVec Ideal S32768 .f32) (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v184 : FVec Ideal S32768 .f32) (v196 : FVec Ideal S32768 .f32) (v202 : FVec Ideal S32768 .f32) (v203 : FVec Ideal S32768 .f32) (j : Fin 32768) :
    k0_pay75 (F := Ideal) v11 v13 v33 v35 v37 v39 v41 v43 v45 v47 v184 v196 v202 v203 (ix1 j)
      = max (v184 (ix1 j)) (k0_pay71 v11 v13 v33 v35 v37 v39 v41 v43 v45 v47 v196 v202 v203 (ix1 j)) := rfl

theorem pay76_apply (v15 : FVec Ideal S32768 .f32) (j : Fin 32768) :
    k0_pay76 (F := Ideal) v15 (ix1 j)
      = (((v15 (ix1 j)) * (Ideal.ofBits .f32 0x3F000000#32)) * (Ideal.ofBits .f32 0x3F800000#32)) := rfl

theorem pay77_apply (v17 : FVec Ideal S32768 .f32) (j : Fin 32768) :
    k0_pay77 (F := Ideal) v17 (ix1 j)
      = (((v17 (ix1 j)) * (Ideal.ofBits .f32 0x3F000000#32)) * (Ideal.ofBits .f32 0x3F800000#32)) := rfl

theorem pay78_apply (v9 : FVec Ideal S32768 .f32) (v15 : FVec Ideal S32768 .f32) (v17 : FVec Ideal S32768 .f32) (v22 : FVec Ideal S32768 .f32) (v23 : FVec Ideal S32768 .f32) (j : Fin 32768) :
    k0_pay78 (F := Ideal) v9 v15 v17 v22 v23 (ix1 j)
      = ((((v22 (ix1 j)) * (k0_pay76 v15 (ix1 j))) - ((v23 (ix1 j)) * (k0_pay77 v17 (ix1 j)))) + (v9 (ix1 j))) := rfl

theorem pay79_apply (v11 : FVec Ideal S32768 .f32) (v15 : FVec Ideal S32768 .f32) (v17 : FVec Ideal S32768 .f32) (v22 : FVec Ideal S32768 .f32) (v23 : FVec Ideal S32768 .f32) (j : Fin 32768) :
    k0_pay79 (F := Ideal) v11 v15 v17 v22 v23 (ix1 j)
      = ((((v23 (ix1 j)) * (k0_pay76 v15 (ix1 j))) + ((v22 (ix1 j)) * (k0_pay77 v17 (ix1 j)))) + (v11 (ix1 j))) := rfl

theorem pay80_apply (v13 : FVec Ideal S32768 .f32) (v19 : FVec Ideal S32768 .f32) (j : Fin 32768) :
    k0_pay80 (F := Ideal) v13 v19 (ix1 j)
      = ((((v19 (ix1 j)) * (Ideal.ofBits .f32 0x3F000000#32)) * (Ideal.ofBits .f32 0xBF800000#32)) + (v13 (ix1 j))) := rfl

theorem pay81_apply (v9 : FVec Ideal S32768 .f32) (v11 : FVec Ideal S32768 .f32) (v15 : FVec Ideal S32768 .f32) (v17 : FVec Ideal S32768 .f32) (v22 : FVec Ideal S32768 .f32) (v23 : FVec Ideal S32768 .f32) (v25 : FVec Ideal S32768 .f32) (v27 : FVec Ideal S32768 .f32) (j : Fin 32768) :
    k0_pay81 (F := Ideal) v9 v11 v15 v17 v22 v23 v25 v27 (ix1 j)
      = (((v25 (ix1 j)) * (k0_pay78 v9 v15 v17 v22 v23 (ix1 j))) + ((v27 (ix1 j)) * (k0_pay79 v11 v15 v17 v22 v23 (ix1 j)))) := rfl

theorem pay82_apply (v13 : FVec Ideal S32768 .f32) (v19 : FVec Ideal S32768 .f32) (v29 : FVec Ideal S32768 .f32) (j : Fin 32768) :
    k0_pay82 (F := Ideal) v13 v19 v29 (ix1 j)
      = ((v29 (ix1 j)) * (k0_pay80 v13 v19 (ix1 j))) := rfl

theorem pay83_apply (v41 : FVec Ideal S32768 .f32) (v43 : FVec Ideal S32768 .f32) (v45 : FVec Ideal S32768 .f32) (v47 : FVec Ideal S32768 .f32) (v250 : FVec Ideal S32768 .f32) (v251 : FVec Ideal S32768 .f32) (v252 : FVec Ideal S32768 .f32) (j : Fin 32768) :
    k0_pay83 (F := Ideal) v41 v43 v45 v47 v250 v251 v252 (ix1 j)
      = max (((((v41 (ix1 j)) * (v250 (ix1 j))) + ((v43 (ix1 j)) * (v251 (ix1 j)))) + ((v45 (ix1 j)) * (v252 (ix1 j)))) + (v47 (ix1 j))) (Ideal.ofBits .f32 0x3727C5AC#32) := rfl

theorem pay84_apply (v31 : FVec Ideal S32768 .f32) (v41 : FVec Ideal S32768 .f32) (v43 : FVec Ideal S32768 .f32) (v45 : FVec Ideal S32768 .f32) (v47 : FVec Ideal S32768 .f32) (v250 : FVec Ideal S32768 .f32) (v251 : FVec Ideal S32768 .f32) (v252 : FVec Ideal S32768 .f32) (v255 : FVec Ideal S32768 .f32) (v256 : FVec Ideal S32768 .f32) (j : Fin 32768) :
    k0_pay84 (F := Ideal) v31 v41 v43 v45 v47 v250 v251 v252 v255 v256 (ix1 j)
      = Ideal.div (((v255 (ix1 j)) + (v256 (ix1 j))) + (v31 (ix1 j))) (k0_pay83 v41 v43 v45 v47 v250 v251 v252 (ix1 j)) := rfl

theorem pay85_apply (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v250 : FVec Ideal S32768 .f32) (v251 : FVec Ideal S32768 .f32) (v252 : FVec Ideal S32768 .f32) (j : Fin 32768) :
    k0_pay85 (F := Ideal) v33 v35 v37 v39 v41 v43 v45 v47 v250 v251 v252 (ix1 j)
      = Ideal.div (((((v33 (ix1 j)) * (v250 (ix1 j))) + ((v35 (ix1 j)) * (v251 (ix1 j)))) + ((v37 (ix1 j)) * (v252 (ix1 j)))) + (v39 (ix1 j))) (k0_pay83 v41 v43 v45 v47 v250 v251 v252 (ix1 j)) := rfl

theorem pay86_apply (v31 : FVec Ideal S32768 .f32) (v41 : FVec Ideal S32768 .f32) (v43 : FVec Ideal S32768 .f32) (v45 : FVec Ideal S32768 .f32) (v47 : FVec Ideal S32768 .f32) (v228 : FVec Ideal S32768 .f32) (v250 : FVec Ideal S32768 .f32) (v251 : FVec Ideal S32768 .f32) (v252 : FVec Ideal S32768 .f32) (v255 : FVec Ideal S32768 .f32) (v256 : FVec Ideal S32768 .f32) (j : Fin 32768) :
    k0_pay86 (F := Ideal) v31 v41 v43 v45 v47 v228 v250 v251 v252 v255 v256 (ix1 j)
      = min (v228 (ix1 j)) (k0_pay84 v31 v41 v43 v45 v47 v250 v251 v252 v255 v256 (ix1 j)) := rfl

theorem pay87_apply (v31 : FVec Ideal S32768 .f32) (v41 : FVec Ideal S32768 .f32) (v43 : FVec Ideal S32768 .f32) (v45 : FVec Ideal S32768 .f32) (v47 : FVec Ideal S32768 .f32) (v229 : FVec Ideal S32768 .f32) (v250 : FVec Ideal S32768 .f32) (v251 : FVec Ideal S32768 .f32) (v252 : FVec Ideal S32768 .f32) (v255 : FVec Ideal S32768 .f32) (v256 : FVec Ideal S32768 .f32) (j : Fin 32768) :
    k0_pay87 (F := Ideal) v31 v41 v43 v45 v47 v229 v250 v251 v252 v255 v256 (ix1 j)
      = max (v229 (ix1 j)) (k0_pay84 v31 v41 v43 v45 v47 v250 v251 v252 v255 v256 (ix1 j)) := rfl

theorem pay88_apply (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v230 : FVec Ideal S32768 .f32) (v250 : FVec Ideal S32768 .f32) (v251 : FVec Ideal S32768 .f32) (v252 : FVec Ideal S32768 .f32) (j : Fin 32768) :
    k0_pay88 (F := Ideal) v33 v35 v37 v39 v41 v43 v45 v47 v230 v250 v251 v252 (ix1 j)
      = min (v230 (ix1 j)) (k0_pay85 v33 v35 v37 v39 v41 v43 v45 v47 v250 v251 v252 (ix1 j)) := rfl

theorem pay89_apply (v33 : FVec Ideal S32768 .f32) (v35 : FVec Ideal S32768 .f32) (v37 : FVec Ideal S32768 .f32) (v39 : FVec Ideal S32768 .f32) (v41 : FVec Ideal S32768 .f32) (v43 : FVec Ideal S32768 .f32) (v45 : FVec Ideal S32768 .f32) (v47 : FVec Ideal S32768 .f32) (v231 : FVec Ideal S32768 .f32) (v250 : FVec Ideal S32768 .f32) (v251 : FVec Ideal S32768 .f32) (v252 : FVec Ideal S32768 .f32) (j : Fin 32768) :
    k0_pay89 (F := Ideal) v33 v35 v37 v39 v41 v43 v45 v47 v231 v250 v251 v252 (ix1 j)
      = max (v231 (ix1 j)) (k0_pay85 v33 v35 v37 v39 v41 v43 v45 v47 v250 v251 v252 (ix1 j)) := rfl

theorem pay90_apply (v15 : FVec Ideal S32768 .f32) (j : Fin 32768) :
    k0_pay90 (F := Ideal) v15 (ix1 j)
      = (((v15 (ix1 j)) * (Ideal.ofBits .f32 0x3F000000#32)) * (Ideal.ofBits .f32 0x3F800000#32)) := rfl

theorem pay91_apply (v17 : FVec Ideal S32768 .f32) (j : Fin 32768) :
    k0_pay91 (F := Ideal) v17 (ix1 j)
      = (((v17 (ix1 j)) * (Ideal.ofBits .f32 0x3F000000#32)) * (Ideal.ofBits .f32 0xBF800000#32)) := rfl

theorem pay92_apply (v9 : FVec Ideal S32768 .f32) (v15 : FVec Ideal S32768 .f32) (v17 : FVec Ideal S32768 .f32) (v22 : FVec Ideal S32768 .f32) (v23 : FVec Ideal S32768 .f32) (j : Fin 32768) :
    k0_pay92 (F := Ideal) v9 v15 v17 v22 v23 (ix1 j)
      = ((((v22 (ix1 j)) * (k0_pay90 v15 (ix1 j))) - ((v23 (ix1 j)) * (k0_pay91 v17 (ix1 j)))) + (v9 (ix1 j))) := rfl

theorem pay93_apply (v11 : FVec Ideal S32768 .f32) (v15 : FVec Ideal S32768 .f32) (v17 : FVec Ideal S32768 .f32) (v22 : FVec Ideal S32768 .f32) (v23 : FVec Ideal S32768 .f32) (j : Fin 32768) :
    k0_pay93 (F := Ideal) v11 v15 v17 v22 v23 (ix1 j)
      = ((((v23 (ix1 j)) * (k0_pay90 v15 (ix1 j))) + ((v22 (ix1 j)) * (k0_pay91 v17 (ix1 j)))) + (v11 (ix1 j))) := rfl

theorem pay94_apply (v13 : FVec Ideal S32768 .f32) (v19 : FVec Ideal S32768 .f32) (j : Fin 32768) :
    k0_pay94 (F := Ideal) v13 v19 (ix1 j)
      = ((((v19 (ix1 j)) * (Ideal.ofBits .f32 0x3F000000#32)) * (Ideal.ofBits .f32 0xBF800000#32)) + (v13 (ix1 j))) := rfl

theorem pay95_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (j : Fin 32768) :
    k0_pay95 (F := Ideal) v9 v11 v13 v15 v17 v19 v22 v23 v25 v27 v29 v31 (ix1 j)
      = (((((v25 (ix1 j)) * (k0_pay92 v9 v15 v17 v22 v23 (ix1 j))) + ((v27 (ix1 j)) * (k0_pay93 v11 v15 v17 v22 v23 (ix1 j)))) + ((v29 (ix1 j)) * (k0_pay94 v13 v19 (ix1 j)))) + (v31 (ix1 j))) := rfl

theorem pay96_apply (v9 : FVec Ideal S32768 .f32) (v11 : FVec Ideal S32768 .f32) (v15 : FVec Ideal S32768 .f32) (v17 : FVec Ideal S32768 .f32) (v22 : FVec Ideal S32768 .f32) (v23 : FVec Ideal S32768 .f32) (v33 : FVec Ideal S32768 .f32) (v35 : FVec Ideal S32768 .f32) (j : Fin 32768) :
    k0_pay96 (F := Ideal) v9 v11 v15 v17 v22 v23 v33 v35 (ix1 j)
      = (((v33 (ix1 j)) * (k0_pay92 v9 v15 v17 v22 v23 (ix1 j))) + ((v35 (ix1 j)) * (k0_pay93 v11 v15 v17 v22 v23 (ix1 j)))) := rfl

theorem pay97_apply (v13 : FVec Ideal S32768 .f32) (v19 : FVec Ideal S32768 .f32) (v37 : FVec Ideal S32768 .f32) (j : Fin 32768) :
    k0_pay97 (F := Ideal) v13 v19 v37 (ix1 j)
      = ((v37 (ix1 j)) * (k0_pay94 v13 v19 (ix1 j))) := rfl

theorem pay98_apply (v41 : FVec Ideal S32768 .f32) (v43 : FVec Ideal S32768 .f32) (v45 : FVec Ideal S32768 .f32) (v47 : FVec Ideal S32768 .f32) (v297 : FVec Ideal S32768 .f32) (v298 : FVec Ideal S32768 .f32) (v299 : FVec Ideal S32768 .f32) (j : Fin 32768) :
    k0_pay98 (F := Ideal) v41 v43 v45 v47 v297 v298 v299 (ix1 j)
      = max (((((v41 (ix1 j)) * (v297 (ix1 j))) + ((v43 (ix1 j)) * (v298 (ix1 j)))) + ((v45 (ix1 j)) * (v299 (ix1 j)))) + (v47 (ix1 j))) (Ideal.ofBits .f32 0x3727C5AC#32) := rfl

theorem pay99_apply (v41 : FVec Ideal S32768 .f32) (v43 : FVec Ideal S32768 .f32) (v45 : FVec Ideal S32768 .f32) (v47 : FVec Ideal S32768 .f32) (v297 : FVec Ideal S32768 .f32) (v298 : FVec Ideal S32768 .f32) (v299 : FVec Ideal S32768 .f32) (v305 : FVec Ideal S32768 .f32) (j : Fin 32768) :
    k0_pay99 (F := Ideal) v41 v43 v45 v47 v297 v298 v299 v305 (ix1 j)
      = Ideal.div (v305 (ix1 j)) (k0_pay98 v41 v43 v45 v47 v297 v298 v299 (ix1 j)) := rfl

theorem pay100_apply (v39 : FVec Ideal S32768 .f32) (v41 : FVec Ideal S32768 .f32) (v43 : FVec Ideal S32768 .f32) (v45 : FVec Ideal S32768 .f32) (v47 : FVec Ideal S32768 .f32) (v297 : FVec Ideal S32768 .f32) (v298 : FVec Ideal S32768 .f32) (v299 : FVec Ideal S32768 .f32) (v308 : FVec Ideal S32768 .f32) (v309 : FVec Ideal S32768 .f32) (j : Fin 32768) :
    k0_pay100 (F := Ideal) v39 v41 v43 v45 v47 v297 v298 v299 v308 v309 (ix1 j)
      = Ideal.div (((v308 (ix1 j)) + (v309 (ix1 j))) + (v39 (ix1 j))) (k0_pay98 v41 v43 v45 v47 v297 v298 v299 (ix1 j)) := rfl

theorem pay101_apply (v41 : FVec Ideal S32768 .f32) (v43 : FVec Ideal S32768 .f32) (v45 : FVec Ideal S32768 .f32) (v47 : FVec Ideal S32768 .f32) (v275 : FVec Ideal S32768 .f32) (v297 : FVec Ideal S32768 .f32) (v298 : FVec Ideal S32768 .f32) (v299 : FVec Ideal S32768 .f32) (v305 : FVec Ideal S32768 .f32) (j : Fin 32768) :
    k0_pay101 (F := Ideal) v41 v43 v45 v47 v275 v297 v298 v299 v305 (ix1 j)
      = min (v275 (ix1 j)) (k0_pay99 v41 v43 v45 v47 v297 v298 v299 v305 (ix1 j)) := rfl

theorem pay102_apply (v41 : FVec Ideal S32768 .f32) (v43 : FVec Ideal S32768 .f32) (v45 : FVec Ideal S32768 .f32) (v47 : FVec Ideal S32768 .f32) (v276 : FVec Ideal S32768 .f32) (v297 : FVec Ideal S32768 .f32) (v298 : FVec Ideal S32768 .f32) (v299 : FVec Ideal S32768 .f32) (v305 : FVec Ideal S32768 .f32) (j : Fin 32768) :
    k0_pay102 (F := Ideal) v41 v43 v45 v47 v276 v297 v298 v299 v305 (ix1 j)
      = max (v276 (ix1 j)) (k0_pay99 v41 v43 v45 v47 v297 v298 v299 v305 (ix1 j)) := rfl

theorem pay103_apply (v39 : FVec Ideal S32768 .f32) (v41 : FVec Ideal S32768 .f32) (v43 : FVec Ideal S32768 .f32) (v45 : FVec Ideal S32768 .f32) (v47 : FVec Ideal S32768 .f32) (v277 : FVec Ideal S32768 .f32) (v297 : FVec Ideal S32768 .f32) (v298 : FVec Ideal S32768 .f32) (v299 : FVec Ideal S32768 .f32) (v308 : FVec Ideal S32768 .f32) (v309 : FVec Ideal S32768 .f32) (j : Fin 32768) :
    k0_pay103 (F := Ideal) v39 v41 v43 v45 v47 v277 v297 v298 v299 v308 v309 (ix1 j)
      = min (v277 (ix1 j)) (k0_pay100 v39 v41 v43 v45 v47 v297 v298 v299 v308 v309 (ix1 j)) := rfl

theorem pay104_apply (v39 : FVec Ideal S32768 .f32) (v41 : FVec Ideal S32768 .f32) (v43 : FVec Ideal S32768 .f32) (v45 : FVec Ideal S32768 .f32) (v47 : FVec Ideal S32768 .f32) (v278 : FVec Ideal S32768 .f32) (v297 : FVec Ideal S32768 .f32) (v298 : FVec Ideal S32768 .f32) (v299 : FVec Ideal S32768 .f32) (v308 : FVec Ideal S32768 .f32) (v309 : FVec Ideal S32768 .f32) (j : Fin 32768) :
    k0_pay104 (F := Ideal) v39 v41 v43 v45 v47 v278 v297 v298 v299 v308 v309 (ix1 j)
      = max (v278 (ix1 j)) (k0_pay100 v39 v41 v43 v45 v47 v297 v298 v299 v308 v309 (ix1 j)) := rfl

theorem pay105_apply (v15 : FVec Ideal S32768 .f32) (j : Fin 32768) :
    k0_pay105 (F := Ideal) v15 (ix1 j)
      = (((v15 (ix1 j)) * (Ideal.ofBits .f32 0x3F000000#32)) * (Ideal.ofBits .f32 0xBF800000#32)) := rfl

theorem pay106_apply (v17 : FVec Ideal S32768 .f32) (j : Fin 32768) :
    k0_pay106 (F := Ideal) v17 (ix1 j)
      = (((v17 (ix1 j)) * (Ideal.ofBits .f32 0x3F000000#32)) * (Ideal.ofBits .f32 0xBF800000#32)) := rfl

theorem pay107_apply (v9 : FVec Ideal S32768 .f32) (v15 : FVec Ideal S32768 .f32) (v17 : FVec Ideal S32768 .f32) (v22 : FVec Ideal S32768 .f32) (v23 : FVec Ideal S32768 .f32) (j : Fin 32768) :
    k0_pay107 (F := Ideal) v9 v15 v17 v22 v23 (ix1 j)
      = ((((v22 (ix1 j)) * (k0_pay105 v15 (ix1 j))) - ((v23 (ix1 j)) * (k0_pay106 v17 (ix1 j)))) + (v9 (ix1 j))) := rfl

theorem pay108_apply (v11 : FVec Ideal S32768 .f32) (v15 : FVec Ideal S32768 .f32) (v17 : FVec Ideal S32768 .f32) (v22 : FVec Ideal S32768 .f32) (v23 : FVec Ideal S32768 .f32) (j : Fin 32768) :
    k0_pay108 (F := Ideal) v11 v15 v17 v22 v23 (ix1 j)
      = ((((v23 (ix1 j)) * (k0_pay105 v15 (ix1 j))) + ((v22 (ix1 j)) * (k0_pay106 v17 (ix1 j)))) + (v11 (ix1 j))) := rfl

theorem pay109_apply (v13 : FVec Ideal S32768 .f32) (v19 : FVec Ideal S32768 .f32) (j : Fin 32768) :
    k0_pay109 (F := Ideal) v13 v19 (ix1 j)
      = ((((v19 (ix1 j)) * (Ideal.ofBits .f32 0x3F000000#32)) * (Ideal.ofBits .f32 0xBF800000#32)) + (v13 (ix1 j))) := rfl

theorem pay110_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (j : Fin 32768) :
    k0_pay110 (F := Ideal) v9 v11 v13 v15 v17 v19 v22 v23 v25 v27 v29 v31 (ix1 j)
      = (((((v25 (ix1 j)) * (k0_pay107 v9 v15 v17 v22 v23 (ix1 j))) + ((v27 (ix1 j)) * (k0_pay108 v11 v15 v17 v22 v23 (ix1 j)))) + ((v29 (ix1 j)) * (k0_pay109 v13 v19 (ix1 j)))) + (v31 (ix1 j))) := rfl

theorem pay111_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (j : Fin 32768) :
    k0_pay111 (F := Ideal) v9 v11 v13 v15 v17 v19 v22 v23 v33 v35 v37 v39 (ix1 j)
      = (((((v33 (ix1 j)) * (k0_pay107 v9 v15 v17 v22 v23 (ix1 j))) + ((v35 (ix1 j)) * (k0_pay108 v11 v15 v17 v22 v23 (ix1 j)))) + ((v37 (ix1 j)) * (k0_pay109 v13 v19 (ix1 j)))) + (v39 (ix1 j))) := rfl

theorem pay112_apply (v9 : FVec Ideal S32768 .f32) (v11 : FVec Ideal S32768 .f32) (v15 : FVec Ideal S32768 .f32) (v17 : FVec Ideal S32768 .f32) (v22 : FVec Ideal S32768 .f32) (v23 : FVec Ideal S32768 .f32) (v41 : FVec Ideal S32768 .f32) (v43 : FVec Ideal S32768 .f32) (j : Fin 32768) :
    k0_pay112 (F := Ideal) v9 v11 v15 v17 v22 v23 v41 v43 (ix1 j)
      = (((v41 (ix1 j)) * (k0_pay107 v9 v15 v17 v22 v23 (ix1 j))) + ((v43 (ix1 j)) * (k0_pay108 v11 v15 v17 v22 v23 (ix1 j)))) := rfl

theorem pay113_apply (v13 : FVec Ideal S32768 .f32) (v19 : FVec Ideal S32768 .f32) (v45 : FVec Ideal S32768 .f32) (j : Fin 32768) :
    k0_pay113 (F := Ideal) v13 v19 v45 (ix1 j)
      = ((v45 (ix1 j)) * (k0_pay109 v13 v19 (ix1 j))) := rfl

theorem pay114_apply (v47 : FVec Ideal S32768 .f32) (v361 : FVec Ideal S32768 .f32) (v362 : FVec Ideal S32768 .f32) (j : Fin 32768) :
    k0_pay114 (F := Ideal) v47 v361 v362 (ix1 j)
      = max (((v361 (ix1 j)) + (v362 (ix1 j))) + (v47 (ix1 j))) (Ideal.ofBits .f32 0x3727C5AC#32) := rfl

theorem pay115_apply (v47 : FVec Ideal S32768 .f32) (v352 : FVec Ideal S32768 .f32) (v361 : FVec Ideal S32768 .f32) (v362 : FVec Ideal S32768 .f32) (j : Fin 32768) :
    k0_pay115 (F := Ideal) v47 v352 v361 v362 (ix1 j)
      = Ideal.div (v352 (ix1 j)) (k0_pay114 v47 v361 v362 (ix1 j)) := rfl

theorem pay116_apply (v47 : FVec Ideal S32768 .f32) (v358 : FVec Ideal S32768 .f32) (v361 : FVec Ideal S32768 .f32) (v362 : FVec Ideal S32768 .f32) (j : Fin 32768) :
    k0_pay116 (F := Ideal) v47 v358 v361 v362 (ix1 j)
      = Ideal.div (v358 (ix1 j)) (k0_pay114 v47 v361 v362 (ix1 j)) := rfl

theorem pay117_apply (v47 : FVec Ideal S32768 .f32) (v322 : FVec Ideal S32768 .f32) (v352 : FVec Ideal S32768 .f32) (v361 : FVec Ideal S32768 .f32) (v362 : FVec Ideal S32768 .f32) (j : Fin 32768) :
    k0_pay117 (F := Ideal) v47 v322 v352 v361 v362 (ix1 j)
      = min (v322 (ix1 j)) (k0_pay115 v47 v352 v361 v362 (ix1 j)) := rfl

theorem pay118_apply (v47 : FVec Ideal S32768 .f32) (v323 : FVec Ideal S32768 .f32) (v352 : FVec Ideal S32768 .f32) (v361 : FVec Ideal S32768 .f32) (v362 : FVec Ideal S32768 .f32) (j : Fin 32768) :
    k0_pay118 (F := Ideal) v47 v323 v352 v361 v362 (ix1 j)
      = max (v323 (ix1 j)) (k0_pay115 v47 v352 v361 v362 (ix1 j)) := rfl

theorem pay119_apply (v47 : FVec Ideal S32768 .f32) (v324 : FVec Ideal S32768 .f32) (v358 : FVec Ideal S32768 .f32) (v361 : FVec Ideal S32768 .f32) (v362 : FVec Ideal S32768 .f32) (j : Fin 32768) :
    k0_pay119 (F := Ideal) v47 v324 v358 v361 v362 (ix1 j)
      = min (v324 (ix1 j)) (k0_pay116 v47 v358 v361 v362 (ix1 j)) := rfl

theorem pay120_apply (v47 : FVec Ideal S32768 .f32) (v325 : FVec Ideal S32768 .f32) (v358 : FVec Ideal S32768 .f32) (v361 : FVec Ideal S32768 .f32) (v362 : FVec Ideal S32768 .f32) (j : Fin 32768) :
    k0_pay120 (F := Ideal) v47 v325 v358 v361 v362 (ix1 j)
      = max (v325 (ix1 j)) (k0_pay116 v47 v358 v361 v362 (ix1 j)) := rfl

theorem pay121_apply (v15 : FVec Ideal S32768 .f32) (j : Fin 32768) :
    k0_pay121 (F := Ideal) v15 (ix1 j)
      = (((v15 (ix1 j)) * (Ideal.ofBits .f32 0x3F000000#32)) * (Ideal.ofBits .f32 0xBF800000#32)) := rfl

theorem pay122_apply (v17 : FVec Ideal S32768 .f32) (j : Fin 32768) :
    k0_pay122 (F := Ideal) v17 (ix1 j)
      = (((v17 (ix1 j)) * (Ideal.ofBits .f32 0x3F000000#32)) * (Ideal.ofBits .f32 0x3F800000#32)) := rfl

theorem pay123_apply (v9 : FVec Ideal S32768 .f32) (v15 : FVec Ideal S32768 .f32) (v17 : FVec Ideal S32768 .f32) (v22 : FVec Ideal S32768 .f32) (v23 : FVec Ideal S32768 .f32) (j : Fin 32768) :
    k0_pay123 (F := Ideal) v9 v15 v17 v22 v23 (ix1 j)
      = ((((v22 (ix1 j)) * (k0_pay121 v15 (ix1 j))) - ((v23 (ix1 j)) * (k0_pay122 v17 (ix1 j)))) + (v9 (ix1 j))) := rfl

theorem pay124_apply (v11 : FVec Ideal S32768 .f32) (v15 : FVec Ideal S32768 .f32) (v17 : FVec Ideal S32768 .f32) (v22 : FVec Ideal S32768 .f32) (v23 : FVec Ideal S32768 .f32) (j : Fin 32768) :
    k0_pay124 (F := Ideal) v11 v15 v17 v22 v23 (ix1 j)
      = ((((v23 (ix1 j)) * (k0_pay121 v15 (ix1 j))) + ((v22 (ix1 j)) * (k0_pay122 v17 (ix1 j)))) + (v11 (ix1 j))) := rfl

theorem pay125_apply (v13 : FVec Ideal S32768 .f32) (v19 : FVec Ideal S32768 .f32) (j : Fin 32768) :
    k0_pay125 (F := Ideal) v13 v19 (ix1 j)
      = ((((v19 (ix1 j)) * (Ideal.ofBits .f32 0x3F000000#32)) * (Ideal.ofBits .f32 0xBF800000#32)) + (v13 (ix1 j))) := rfl

theorem pay126_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v33 : FVec Ideal S32768 .f32) (v35 : FVec Ideal S32768 .f32) (v37 : FVec Ideal S32768 .f32) (v39 : FVec Ideal S32768 .f32) (j : Fin 32768) :
    k0_pay126 (F := Ideal) v9 v11 v13 v15 v17 v19 v22 v23 v33 v35 v37 v39 (ix1 j)
      = (((((v33 (ix1 j)) * (k0_pay123 v9 v15 v17 v22 v23 (ix1 j))) + ((v35 (ix1 j)) * (k0_pay124 v11 v15 v17 v22 v23 (ix1 j)))) + ((v37 (ix1 j)) * (k0_pay125 v13 v19 (ix1 j)))) + (v39 (ix1 j))) := rfl

theorem pay127_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v41 : FVec Ideal S32768 .f32) (v43 : FVec Ideal S32768 .f32) (v45 : FVec Ideal S32768 .f32) (v47 : FVec Ideal S32768 .f32) (j : Fin 32768) :
    k0_pay127 (F := Ideal) v9 v11 v13 v15 v17 v19 v22 v23 v41 v43 v45 v47 (ix1 j)
      = max (((((v41 (ix1 j)) * (k0_pay123 v9 v15 v17 v22 v23 (ix1 j))) + ((v43 (ix1 j)) * (k0_pay124 v11 v15 v17 v22 v23 (ix1 j)))) + ((v45 (ix1 j)) * (k0_pay125 v13 v19 (ix1 j)))) + (v47 (ix1 j))) (Ideal.ofBits .f32 0x3727C5AC#32) := rfl

theorem pay128_apply (v9 : FVec Ideal S32768 .f32) (v11 : FVec Ideal S32768 .f32) (v13 : FVec Ideal S32768 .f32) (v15 : FVec Ideal S32768 .f32) (v17 : FVec Ideal S32768 .f32) (v19 : FVec Ideal S32768 .f32) (v22 : FVec Ideal S32768 .f32) (v23 : FVec Ideal S32768 .f32) (v25 : FVec Ideal S32768 .f32) (v27 : FVec Ideal S32768 .f32) (v29 : FVec Ideal S32768 .f32) (v31 : FVec Ideal S32768 .f32) (v41 : FVec Ideal S32768 .f32) (v43 : FVec Ideal S32768 .f32) (v45 : FVec Ideal S32768 .f32) (v47 : FVec Ideal S32768 .f32) (j : Fin 32768) :
    k0_pay128 (F := Ideal) v9 v11 v13 v15 v17 v19 v22 v23 v25 v27 v29 v31 v41 v43 v45 v47 (ix1 j)
      = Ideal.div (((((v25 (ix1 j)) * (k0_pay123 v9 v15 v17 v22 v23 (ix1 j))) + ((v27 (ix1 j)) * (k0_pay124 v11 v15 v17 v22 v23 (ix1 j)))) + ((v29 (ix1 j)) * (k0_pay125 v13 v19 (ix1 j)))) + (v31 (ix1 j))) (k0_pay127 v9 v11 v13 v15 v17 v19 v22 v23 v41 v43 v45 v47 (ix1 j)) := rfl

theorem pay129_apply (v405 : FVec Ideal S32768 .f32) (v413 : FVec Ideal S32768 .f32) (j : Fin 32768) :
    k0_pay129 (F := Ideal) v405 v413 (ix1 j)
      = Ideal.div (v405 (ix1 j)) (v413 (ix1 j)) := rfl

theorem pay132_apply (v7 : FVec Ideal S2x32768 .f32) (v369 : FVec Ideal S32768 .f32) (v414 : FVec Ideal S32768 .f32) (j : Fin 32768) :
    k0_pay132 (F := Ideal) v7 v369 v414 (ix1 j)
      = min (max (min (v369 (ix1 j)) (v414 (ix1 j))) (Ideal.ofBits .f32 0x00000000#32)) (k0_pay131 v7 (ix1 j)) := rfl

theorem pay133_apply (v7 : FVec Ideal S2x32768 .f32) (v370 : FVec Ideal S32768 .f32) (v414 : FVec Ideal S32768 .f32) (j : Fin 32768) :
    k0_pay133 (F := Ideal) v7 v370 v414 (ix1 j)
      = min (max (max (v370 (ix1 j)) (v414 (ix1 j))) (Ideal.ofBits .f32 0x00000000#32)) (k0_pay131 v7 (ix1 j)) := rfl

theorem pay134_apply (v7 : FVec Ideal S2x32768 .f32) (v371 : FVec Ideal S32768 .f32) (v405 : FVec Ideal S32768 .f32) (v413 : FVec Ideal S32768 .f32) (j : Fin 32768) :
    k0_pay134 (F := Ideal) v7 v371 v405 v413 (ix1 j)
      = min (max (min (v371 (ix1 j)) (k0_pay129 v405 v413 (ix1 j))) (Ideal.ofBits .f32 0x00000000#32)) (k0_pay130 v7 (ix1 j)) := rfl

theorem pay135_apply (v7 : FVec Ideal S2x32768 .f32) (v372 : FVec Ideal S32768 .f32) (v405 : FVec Ideal S32768 .f32) (v413 : FVec Ideal S32768 .f32) (j : Fin 32768) :
    k0_pay135 (F := Ideal) v7 v372 v405 v413 (ix1 j)
      = min (max (max (v372 (ix1 j)) (k0_pay129 v405 v413 (ix1 j))) (Ideal.ofBits .f32 0x00000000#32)) (k0_pay130 v7 (ix1 j)) := rfl

theorem pay140_apply (v3 : FVec Ideal S4x32768 .f32) (v7 : FVec Ideal S2x32768 .f32) (v369 : FVec Ideal S32768 .f32) (v370 : FVec Ideal S32768 .f32) (v371 : FVec Ideal S32768 .f32) (v372 : FVec Ideal S32768 .f32) (v405 : FVec Ideal S32768 .f32) (v413 : FVec Ideal S32768 .f32) (v414 : FVec Ideal S32768 .f32) (j : Fin 32768) :
    k0_pay140 (F := Ideal) v3 v7 v369 v370 v371 v372 v405 v413 v414 (ix1 j)
      = ((max ((min (k0_pay133 v7 v370 v414 (ix1 j)) (k0_pay138 v3 (ix1 j))) - (max (k0_pay132 v7 v369 v414 (ix1 j)) (k0_pay136 v3 (ix1 j)))) (Ideal.ofBits .f32 0x00000000#32)) * (max ((min (k0_pay135 v7 v372 v405 v413 (ix1 j)) (k0_pay139 v3 (ix1 j))) - (max (k0_pay134 v7 v371 v405 v413 (ix1 j)) (k0_pay137 v3 (ix1 j)))) (Ideal.ofBits .f32 0x00000000#32))) := rfl

theorem pay141_apply (v3 : FVec Ideal S4x32768 .f32) (v7 : FVec Ideal S2x32768 .f32) (v369 : FVec Ideal S32768 .f32) (v370 : FVec Ideal S32768 .f32) (v371 : FVec Ideal S32768 .f32) (v372 : FVec Ideal S32768 .f32) (v405 : FVec Ideal S32768 .f32) (v413 : FVec Ideal S32768 .f32) (v414 : FVec Ideal S32768 .f32) (j : Fin 32768) :
    k0_pay141 (F := Ideal) v3 v7 v369 v370 v371 v372 v405 v413 v414 (ix1 j)
      = ((((((k0_pay133 v7 v370 v414 (ix1 j)) - (k0_pay132 v7 v369 v414 (ix1 j))) * ((k0_pay135 v7 v372 v405 v413 (ix1 j)) - (k0_pay134 v7 v371 v405 v413 (ix1 j)))) + (((k0_pay138 v3 (ix1 j)) - (k0_pay136 v3 (ix1 j))) * ((k0_pay139 v3 (ix1 j)) - (k0_pay137 v3 (ix1 j))))) - (k0_pay140 v3 v7 v369 v370 v371 v372 v405 v413 v414 (ix1 j))) + (Ideal.ofBits .f32 0x33D6BF95#32)) := rfl

theorem pay142_apply (v3 : FVec Ideal S4x32768 .f32) (v7 : FVec Ideal S2x32768 .f32) (v369 : FVec Ideal S32768 .f32) (v370 : FVec Ideal S32768 .f32) (v371 : FVec Ideal S32768 .f32) (v372 : FVec Ideal S32768 .f32) (v405 : FVec Ideal S32768 .f32) (v413 : FVec Ideal S32768 .f32) (v414 : FVec Ideal S32768 .f32) (j : Fin 32768) :
    k0_pay142 (F := Ideal) v3 v7 v369 v370 v371 v372 v405 v413 v414 (ix1 j)
      = Ideal.div (k0_pay140 v3 v7 v369 v370 v371 v372 v405 v413 v414 (ix1 j)) (k0_pay141 v3 v7 v369 v370 v371 v372 v405 v413 v414 (ix1 j)) := rfl

theorem pay143_apply (v3 : FVec Ideal S4x32768 .f32) (v7 : FVec Ideal S2x32768 .f32) (v369 : FVec Ideal S32768 .f32) (v414 : FVec Ideal S32768 .f32) (j : Fin 32768) :
    k0_pay143 (F := Ideal) v3 v7 v369 v414 (ix1 j)
      = min (k0_pay132 v7 v369 v414 (ix1 j)) (k0_pay136 v3 (ix1 j)) := rfl

theorem pay144_apply (v3 : FVec Ideal S4x32768 .f32) (v7 : FVec Ideal S2x32768 .f32) (v371 : FVec Ideal S32768 .f32) (v405 : FVec Ideal S32768 .f32) (v413 : FVec Ideal S32768 .f32) (j : Fin 32768) :
    k0_pay144 (F := Ideal) v3 v7 v371 v405 v413 (ix1 j)
      = min (k0_pay134 v7 v371 v405 v413 (ix1 j)) (k0_pay137 v3 (ix1 j)) := rfl

end Cert.Giou
-- ==== Proof.KPayloadRows.lean ====
/-
  The rows of the loaded blocks, read at one lane.

  The kernel body takes row `k` out of a loaded block `[n, 32768]` as a one-row slice cast to a vector of
  32768 lanes. Read at lane `j` that vector is the block at `(k, j)`. A block cast to its own shape is the
  block.
-/
import proofs.«165471_j24206435680919_1_alg».proof.Proof.Gen.KernelIdeal.Frame
import Idealize.ShloMosaic.Lib.ValueLayout

noncomputable section

namespace Cert.Giou

open Idealize.ShloMosaic Idealize.ShloMosaic.ValueIdx Cert.KernelIdeal Cert.KernelIdeal.Gen

/-- Row `k` of an `[n, m]` array, sliced out as `[1, m]` from row offset `o = k` and cast to `[m]`, read at `j`. -/
theorem row_apply {α : Type} {n m : Nat} (o : Nat) (X : (⟨2, ![n, m]⟩ : Shape).Idx → α)
    (hs : (⟨2, ![n, m]⟩ : Shape).Slices ![o, 0] ⟨2, ![1, m]⟩)
    (hc : (⟨2, ![1, m]⟩ : Shape).ShapeCasts ⟨1, ![m]⟩) (k : Fin n) (hk : k.val = o) (j : Fin m) :
    shapeCast ⟨1, ![m]⟩ (extractStridedSlice ⟨2, ![1, m]⟩ ![o, 0] X hs) hc (ix1 j) = X (ix2 k j) :=
  (shapeCast_1a_a_apply _ hc j).trans (slice2_axis0_apply o X hs (0 : Fin 1) j k (by rw [hk]; rfl))

/-! ## The blocks cast to their own shapes -/

theorem pay2_eq (v0 : Vec Ideal S7x32768 .f32) : k0_pay2 (F := Ideal) v0 = v0 := by
  unfold k0_pay2; exact shapeCast_self _ _
theorem pay3_eq (v2 : Vec Ideal S4x32768 .f32) : k0_pay3 (F := Ideal) v2 = v2 := by
  unfold k0_pay3; exact shapeCast_self _ _
theorem pay4_eq (v4 : Vec Ideal S12x32768 .f32) : k0_pay4 (F := Ideal) v4 = v4 := by
  unfold k0_pay4; exact shapeCast_self _ _
theorem pay5_eq (v6 : Vec Ideal S2x32768 .f32) : k0_pay5 (F := Ideal) v6 = v6 := by
  unfold k0_pay5; exact shapeCast_self _ _

/-! ## The seven rows of the box block: x, y, z, l, w, h, yaw -/

theorem pay6_apply (v0 : Vec Ideal S7x32768 .f32) (j : Fin 32768) : k0_pay6 (F := Ideal) v0 (ix1 j) = v0 (ix2 0 j) := by
  unfold k0_pay6; rw [pay2_eq]; exact row_apply 0 v0 _ _ 0 rfl j
theorem pay7_apply (v0 : Vec Ideal S7x32768 .f32) (j : Fin 32768) : k0_pay7 (F := Ideal) v0 (ix1 j) = v0 (ix2 1 j) := by
  unfold k0_pay7; rw [pay2_eq]; exact row_apply 1 v0 _ _ 1 rfl j
theorem pay8_apply (v0 : Vec Ideal S7x32768 .f32) (j : Fin 32768) : k0_pay8 (F := Ideal) v0 (ix1 j) = v0 (ix2 2 j) := by
  unfold k0_pay8; rw [pay2_eq]; exact row_apply 2 v0 _ _ 2 rfl j
theorem pay9_apply (v0 : Vec Ideal S7x32768 .f32) (j : Fin 32768) : k0_pay9 (F := Ideal) v0 (ix1 j) = v0 (ix2 3 j) := by
  unfold k0_pay9; rw [pay2_eq]; exact row_apply 3 v0 _ _ 3 rfl j
theorem pay10_apply (v0 : Vec Ideal S7x32768 .f32) (j : Fin 32768) : k0_pay10 (F := Ideal) v0 (ix1 j) = v0 (ix2 4 j) := by
  unfold k0_pay10; rw [pay2_eq]; exact row_apply 4 v0 _ _ 4 rfl j
theorem pay11_apply (v0 : Vec Ideal S7x32768 .f32) (j : Fin 32768) : k0_pay11 (F := Ideal) v0 (ix1 j) = v0 (ix2 5 j) := by
  unfold k0_pay11; rw [pay2_eq]; exact row_apply 5 v0 _ _ 5 rfl j
theorem pay12_apply (v0 : Vec Ideal S7x32768 .f32) (j : Fin 32768) : k0_pay12 (F := Ideal) v0 (ix1 j) = v0 (ix2 6 j) := by
  unfold k0_pay12; rw [pay2_eq]; exact row_apply 6 v0 _ _ 6 rfl j

/-! ## The twelve rows of the matrix block: a0 b0 c0 d0 a1 b1 c1 d1 a2 b2 c2 d2 -/

theorem pay15_apply (v4 : Vec Ideal S12x32768 .f32) (j : Fin 32768) : k0_pay15 (F := Ideal) v4 (ix1 j) = v4 (ix2 0 j) := by
  unfold k0_pay15; rw [pay4_eq]; exact row_apply 0 v4 _ _ 0 rfl j
theorem pay16_apply (v4 : Vec Ideal S12x32768 .f32) (j : Fin 32768) : k0_pay16 (F := Ideal) v4 (ix1 j) = v4 (ix2 1 j) := by
  unfold k0_pay16; rw [pay4_eq]; exact row_apply 1 v4 _ _ 1 rfl j
theorem pay17_apply (v4 : Vec Ideal S12x32768 .f32) (j : Fin 32768) : k0_pay17 (F := Ideal) v4 (ix1 j) = v4 (ix2 2 j) := by
  unfold k0_pay17; rw [pay4_eq]; exact row_apply 2 v4 _ _ 2 rfl j
theorem pay18_apply (v4 : Vec Ideal S12x32768 .f32) (j : Fin 32768) : k0_pay18 (F := Ideal) v4 (ix1 j) = v4 (ix2 3 j) := by
  unfold k0_pay18; rw [pay4_eq]; exact row_apply 3 v4 _ _ 3 rfl j
theorem pay19_apply (v4 : Vec Ideal S12x32768 .f32) (j : Fin 32768) : k0_pay19 (F := Ideal) v4 (ix1 j) = v4 (ix2 4 j) := by
  unfold k0_pay19; rw [pay4_eq]; exact row_apply 4 v4 _ _ 4 rfl j
theorem pay20_apply (v4 : Vec Ideal S12x32768 .f32) (j : Fin 32768) : k0_pay20 (F := Ideal) v4 (ix1 j) = v4 (ix2 5 j) := by
  unfold k0_pay20; rw [pay4_eq]; exact row_apply 5 v4 _ _ 5 rfl j
theorem pay21_apply (v4 : Vec Ideal S12x32768 .f32) (j : Fin 32768) : k0_pay21 (F := Ideal) v4 (ix1 j) = v4 (ix2 6 j) := by
  unfold k0_pay21; rw [pay4_eq]; exact row_apply 6 v4 _ _ 6 rfl j
theorem pay22_apply (v4 : Vec Ideal S12x32768 .f32) (j : Fin 32768) : k0_pay22 (F := Ideal) v4 (ix1 j) = v4 (ix2 7 j) := by
  unfold k0_pay22; rw [pay4_eq]; exact row_apply 7 v4 _ _ 7 rfl j
theorem pay23_apply (v4 : Vec Ideal S12x32768 .f32) (j : Fin 32768) : k0_pay23 (F := Ideal) v4 (ix1 j) = v4 (ix2 8 j) := by
  unfold k0_pay23; rw [pay4_eq]; exact row_apply 8 v4 _ _ 8 rfl j
theorem pay24_apply (v4 : Vec Ideal S12x32768 .f32) (j : Fin 32768) : k0_pay24 (F := Ideal) v4 (ix1 j) = v4 (ix2 9 j) := by
  unfold k0_pay24; rw [pay4_eq]; exact row_apply 9 v4 _ _ 9 rfl j
theorem pay25_apply (v4 : Vec Ideal S12x32768 .f32) (j : Fin 32768) : k0_pay25 (F := Ideal) v4 (ix1 j) = v4 (ix2 10 j) := by
  unfold k0_pay25; rw [pay4_eq]; exact row_apply 10 v4 _ _ 10 rfl j
theorem pay26_apply (v4 : Vec Ideal S12x32768 .f32) (j : Fin 32768) : k0_pay26 (F := Ideal) v4 (ix1 j) = v4 (ix2 11 j) := by
  unfold k0_pay26; rw [pay4_eq]; exact row_apply 11 v4 _ _ 11 rfl j

/-! ## The two rows of the image block: H, W -/

theorem pay130_apply (v7 : FVec Ideal S2x32768 .f32) (j : Fin 32768) : k0_pay130 (F := Ideal) v7 (ix1 j) = v7 (ix2 0 j) := by
  unfold k0_pay130; exact row_apply 0 v7 _ _ 0 rfl j
theorem pay131_apply (v7 : FVec Ideal S2x32768 .f32) (j : Fin 32768) : k0_pay131 (F := Ideal) v7 (ix1 j) = v7 (ix2 1 j) := by
  unfold k0_pay131; exact row_apply 1 v7 _ _ 1 rfl j

/-! ## The four rows of the ground-truth block: gx1, gy1, gx2, gy2 -/

theorem pay136_apply (v3 : FVec Ideal S4x32768 .f32) (j : Fin 32768) : k0_pay136 (F := Ideal) v3 (ix1 j) = v3 (ix2 0 j) := by
  unfold k0_pay136; exact row_apply 0 v3 _ _ 0 rfl j
theorem pay137_apply (v3 : FVec Ideal S4x32768 .f32) (j : Fin 32768) : k0_pay137 (F := Ideal) v3 (ix1 j) = v3 (ix2 1 j) := by
  unfold k0_pay137; exact row_apply 1 v3 _ _ 1 rfl j
theorem pay138_apply (v3 : FVec Ideal S4x32768 .f32) (j : Fin 32768) : k0_pay138 (F := Ideal) v3 (ix1 j) = v3 (ix2 2 j) := by
  unfold k0_pay138; exact row_apply 2 v3 _ _ 2 rfl j
theorem pay139_apply (v3 : FVec Ideal S4x32768 .f32) (j : Fin 32768) : k0_pay139 (F := Ideal) v3 (ix1 j) = v3 (ix2 3 j) := by
  unfold k0_pay139; exact row_apply 3 v3 _ _ 3 rfl j

end Cert.Giou
-- ==== Proof.KPayload.lean ====
/-
  The kernel body at one lane.

  The output block's buffer after the body is its one store's payload, a tree of pure payloads over the four
  loaded input blocks. Every operation of the body is pointwise along the 32768 lanes, so the payload read at
  lane `j` is a function of the four blocks' columns `j` only: the per-lane formula `kRow` of those columns.

  The proof reads the store's payload at the lane: each arithmetic payload is its chain of operations on the
  extended reals at that lane (the table of readings), each row extraction is the block at `(k, j)` (the rows'
  readings), and what remains is `kRow`'s own definitions unfolded, operation for operation.
-/
import proofs.«165471_j24206435680919_1_alg».proof.Proof.Gen.KernelIdeal.Frame
import proofs.«165471_j24206435680919_1_alg».proof.Proof.KRow
import proofs.«165471_j24206435680919_1_alg».proof.Proof.KPayloadTable
import proofs.«165471_j24206435680919_1_alg».proof.Proof.KPayloadRows

set_option maxRecDepth 16384

noncomputable section

namespace Cert.Giou

open Idealize.ShloMosaic Idealize.ShloMosaic.ValueIdx Cert.KernelIdeal Cert.KernelIdeal.Gen

/-- The zero offsets of a rank-1 rectangle, however spelt. -/
theorem zeros1 : (![0] : Fin 1 → Nat) = fun _ => 0 := funext fun a => by fin_cases a <;> rfl
/-- The zero offsets of a rank-2 rectangle, however spelt. -/
theorem zeros2 : (![0, 0] : Fin 2 → Nat) = fun _ => 0 := funext fun a => by fin_cases a <;> rfl

/-- A float literal of the body, a scalar constant at the ideal instance, is the extended real its pattern denotes. -/
theorem scalar_ofBits (b : BitVec (FTy.f32).bits) : (Scalar.ofBits .f32 b : Ideal .f32) = Ideal.ofBits .f32 b := rfl

set_option maxHeartbeats 1000000 in
/-- The output block at lane `j` is the per-lane formula of the four input blocks' columns `j`. -/
theorem out0_4_apply (x0 : Vec Ideal S7x32768 .f32) (x1 : Vec Ideal S4x32768 .f32) (x2 : Vec Ideal S12x32768 .f32)
    (x3 : Vec Ideal S2x32768 .f32) (j : Fin 32768) :
    out0_4 (F := Ideal) x0 x1 x2 x3 (ix1 j)
      = kRow (fun k => x0 (ix2 k j)) (fun k => x1 (ix2 k j)) (fun k => x2 (ix2 k j)) (fun k => x3 (ix2 k j)) := by
  unfold out0_4
  rw [View.canon_unit_zero zeros1]
  simp only [View.ld_unit_zero (S := S7x32768) zeros2, View.ld_unit_zero (S := S4x32768) zeros2,
    View.ld_unit_zero (S := S12x32768) zeros2, View.ld_unit_zero (S := S2x32768) zeros2]
  -- the store's payload at the lane: the arithmetic payloads, then the rows
  simp only [pay2_eq, pay3_eq, pay4_eq, pay5_eq, scalar_ofBits,
    pay1_apply, pay13_apply, pay14_apply, pay27_apply, pay28_apply, pay29_apply, pay30_apply, pay31_apply,
    pay32_apply, pay33_apply, pay34_apply, pay35_apply, pay36_apply, pay37_apply, pay38_apply, pay39_apply,
    pay40_apply, pay41_apply, pay42_apply, pay43_apply, pay44_apply, pay45_apply, pay46_apply, pay47_apply,
    pay48_apply, pay49_apply, pay50_apply, pay51_apply, pay52_apply, pay53_apply, pay54_apply, pay55_apply,
    pay56_apply, pay57_apply, pay58_apply, pay59_apply, pay60_apply, pay61_apply, pay62_apply, pay63_apply,
    pay64_apply, pay65_apply, pay66_apply, pay67_apply, pay68_apply, pay69_apply, pay70_apply, pay71_apply,
    pay72_apply, pay73_apply, pay74_apply, pay75_apply, pay76_apply, pay77_apply, pay78_apply, pay79_apply,
    pay80_apply, pay81_apply, pay82_apply, pay83_apply, pay84_apply, pay85_apply, pay86_apply, pay87_apply,
    pay88_apply, pay89_apply, pay90_apply, pay91_apply, pay92_apply, pay93_apply, pay94_apply, pay95_apply,
    pay96_apply, pay97_apply, pay98_apply, pay99_apply, pay100_apply, pay101_apply, pay102_apply,
    pay103_apply, pay104_apply, pay105_apply, pay106_apply, pay107_apply, pay108_apply, pay109_apply,
    pay110_apply, pay111_apply, pay112_apply, pay113_apply, pay114_apply, pay115_apply, pay116_apply,
    pay117_apply, pay118_apply, pay119_apply, pay120_apply, pay121_apply, pay122_apply, pay123_apply,
    pay124_apply, pay125_apply, pay126_apply, pay127_apply, pay128_apply, pay129_apply, pay132_apply,
    pay133_apply, pay134_apply, pay135_apply, pay140_apply, pay141_apply, pay142_apply, pay143_apply,
    pay144_apply,
    pay6_apply, pay7_apply, pay8_apply, pay9_apply, pay10_apply, pay11_apply, pay12_apply, pay15_apply,
    pay16_apply, pay17_apply, pay18_apply, pay19_apply, pay20_apply, pay21_apply, pay22_apply, pay23_apply,
    pay24_apply, pay25_apply, pay26_apply, pay130_apply, pay131_apply, pay136_apply, pay137_apply,
    pay138_apply, pay139_apply]
  -- the per-lane formula, unfolded: the two sides are now the same expression, operation for operation
  simp only [kRow, giouLoss, hullArea, unionArea, interArea, clip, foldX, foldY, imgX, imgY, depth, projRow,
    cornerX, cornerY, cornerZ, litHalf, litOne, litNegOne, litZero, litEpsW, litEpsA]

end Cert.Giou
-- ==== Proof.KHost.lean ====
/-
  The four arrays the kernel's grid reads, as the host lines before it leave them. Each argument of shape
  [400000, K] is transposed to [K, 400000] and padded on the right with zeros to 425984 = 13 · 32768 columns, so
  that row `k`, column `i` of the staged array is entry `(i, k)` of the argument for every real row
  `i < 400000` (the padding columns are never read downstream: the result is cut back to 400000 entries).
  The projection matrices lose their last row first: rows 0..2 of each 4×4 matrix are laid out as 12 numbers,
  number `q` being entry `(q / 4, q % 4)`.
-/
import proofs.«165471_j24206435680919_1_alg».proof.Proof.Gen.KernelIdeal.Frame
import Idealize.ShloMosaic.Lib.Pipeline.Value
import Idealize.ShloMosaic.Lib.ValueLayout
import Idealize.ShloMosaic.Lib.KernelVsHost
import Idealize.ShloMosaic.Lib.ValueIdx
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.Giou

open Cert.KernelIdeal Cert.KernelIdeal.Facts₀ Cert.KernelIdeal.Facts

variable (m : (ℓ : Loc nD τ sig) → Buf (Elt Ideal) ℓ) (ρ : Dev nD → PrngReg)

/-- The staged box array, as the operations that wrote it: the argument transposed to [7, 400000] and padded with
    the converted integer zero to 425984 columns. -/
theorem staged7_term (c : Dev nD) :
    (Gen.V m c main_v1 : S7x425984.Idx → EReal)
      = pad S7x425984 ![0, 0] ![0, 25984] ![0, 0]
          (transpose S7x400000 [1, 0] (m ((c.tc : Thread nD τ).loc main_arg0) : S400000x7.Idx → EReal) transposes_S400000x7_S7x400000_1_0)
          (sitofp (F := Ideal) .f32 (constantI S_ 32 0#32)) pads_S7x400000_S7x425984_000_0259840 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `k`, column `i < 400000` of the staged box array is entry `(i, k)` of the argument. -/
theorem staged7 (c : Dev nD) (k : Fin 7) (i : Fin 425984) (h : i.val < 400000) :
    (Gen.V m c main_v1 : S7x425984.Idx → EReal) (ix2 k i)
      = (m ((c.tc : Thread nD τ).loc main_arg0) : S400000x7.Idx → EReal) (ix2 (⟨i.val, h⟩ : Fin 400000) k) := by
  refine (congrFun (staged7_term m c) (ix2 k i)).trans ?_
  refine (pad_apply_of_inside _ _ _ _ _ pads_S7x400000_S7x425984_000_0259840 h_S_ (ix2 k i)
    (ix2 k (⟨i.val, h⟩ : Fin 400000)) (fun a => ?_)).trans ?_
  · match a with
    | ⟨0, _⟩ => show k.val = 0 + k.val * (0 + 1); omega
    | ⟨1, _⟩ => show i.val = 0 + i.val * (0 + 1); omega
  · exact transpose_apply _ _ transposes_S400000x7_S7x400000_1_0 (ix2 k (⟨i.val, h⟩ : Fin 400000)) (ix2 (⟨i.val, h⟩ : Fin 400000) k)
      (fun b => match b with | ⟨0, _⟩ => rfl | ⟨1, _⟩ => rfl)

/-- The staged target array, as the operations that wrote it: the argument transposed to [4, 400000] and padded with
    the converted integer zero to 425984 columns. -/
theorem staged4_term (c : Dev nD) :
    (Gen.V m c main_v3 : S4x425984.Idx → EReal)
      = pad S4x425984 ![0, 0] ![0, 25984] ![0, 0]
          (transpose S4x400000 [1, 0] (m ((c.tc : Thread nD τ).loc main_arg1) : S400000x4.Idx → EReal) transposes_S400000x4_S4x400000_1_0)
          (sitofp (F := Ideal) .f32 (constantI S_ 32 0#32)) pads_S4x400000_S4x425984_000_0259840 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `k`, column `i < 400000` of the staged target array is entry `(i, k)` of the argument. -/
theorem staged4 (c : Dev nD) (k : Fin 4) (i : Fin 425984) (h : i.val < 400000) :
    (Gen.V m c main_v3 : S4x425984.Idx → EReal) (ix2 k i)
      = (m ((c.tc : Thread nD τ).loc main_arg1) : S400000x4.Idx → EReal) (ix2 (⟨i.val, h⟩ : Fin 400000) k) := by
  refine (congrFun (staged4_term m c) (ix2 k i)).trans ?_
  refine (pad_apply_of_inside _ _ _ _ _ pads_S4x400000_S4x425984_000_0259840 h_S_ (ix2 k i)
    (ix2 k (⟨i.val, h⟩ : Fin 400000)) (fun a => ?_)).trans ?_
  · match a with
    | ⟨0, _⟩ => show k.val = 0 + k.val * (0 + 1); omega
    | ⟨1, _⟩ => show i.val = 0 + i.val * (0 + 1); omega
  · exact transpose_apply _ _ transposes_S400000x4_S4x400000_1_0 (ix2 k (⟨i.val, h⟩ : Fin 400000)) (ix2 (⟨i.val, h⟩ : Fin 400000) k)
      (fun b => match b with | ⟨0, _⟩ => rfl | ⟨1, _⟩ => rfl)

/-- The staged image-size array, as the operations that wrote it: the argument transposed to [2, 400000] and padded with
    the converted integer zero to 425984 columns. -/
theorem staged2_term (c : Dev nD) :
    (Gen.V m c main_v9 : S2x425984.Idx → EReal)
      = pad S2x425984 ![0, 0] ![0, 25984] ![0, 0]
          (transpose S2x400000 [1, 0] (m ((c.tc : Thread nD τ).loc main_arg3) : S400000x2.Idx → EReal) transposes_S400000x2_S2x400000_1_0)
          (sitofp (F := Ideal) .f32 (constantI S_ 32 0#32)) pads_S2x400000_S2x425984_000_0259840 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `k`, column `i < 400000` of the staged image-size array is entry `(i, k)` of the argument. -/
theorem staged2 (c : Dev nD) (k : Fin 2) (i : Fin 425984) (h : i.val < 400000) :
    (Gen.V m c main_v9 : S2x425984.Idx → EReal) (ix2 k i)
      = (m ((c.tc : Thread nD τ).loc main_arg3) : S400000x2.Idx → EReal) (ix2 (⟨i.val, h⟩ : Fin 400000) k) := by
  refine (congrFun (staged2_term m c) (ix2 k i)).trans ?_
  refine (pad_apply_of_inside _ _ _ _ _ pads_S2x400000_S2x425984_000_0259840 h_S_ (ix2 k i)
    (ix2 k (⟨i.val, h⟩ : Fin 400000)) (fun a => ?_)).trans ?_
  · match a with
    | ⟨0, _⟩ => show k.val = 0 + k.val * (0 + 1); omega
    | ⟨1, _⟩ => show i.val = 0 + i.val * (0 + 1); omega
  · exact transpose_apply _ _ transposes_S400000x2_S2x400000_1_0 (ix2 k (⟨i.val, h⟩ : Fin 400000)) (ix2 (⟨i.val, h⟩ : Fin 400000) k)
      (fun b => match b with | ⟨0, _⟩ => rfl | ⟨1, _⟩ => rfl)

/-- The staged matrix array, as the operations that wrote it: rows 0..2 of every 4×4 matrix, flattened to 12 numbers
    per box, transposed to [12, 400000] and padded to 425984 columns. -/
theorem staged12_term (c : Dev nD) :
    (Gen.V m c main_v7 : S12x425984.Idx → EReal)
      = pad S12x425984 ![0, 0] ![0, 25984] ![0, 0]
          (transpose S12x400000 [1, 0]
            (shapeCast S400000x12
              (extractStridedSlice S400000x3x4 ![0, 0, 0] (m ((c.tc : Thread nD τ).loc main_arg2) : S400000x4x4.Idx → EReal)
                slices_S400000x4x4_S400000x3x4_0_0_0)
              shapeCasts_S400000x3x4_S400000x12)
            transposes_S400000x12_S12x400000_1_0)
          (sitofp (F := Ideal) .f32 (constantI S_ 32 0#32)) pads_S12x400000_S12x425984_000_0259840 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `q`, column `i < 400000` of the staged matrix array is entry `(q / 4, q % 4)` of box `i`'s matrix. -/
theorem staged12 (c : Dev nD) (q : Fin 12) (i : Fin 425984) (h : i.val < 400000) :
    (Gen.V m c main_v7 : S12x425984.Idx → EReal) (ix2 q i)
      = (m ((c.tc : Thread nD τ).loc main_arg2) : S400000x4x4.Idx → EReal)
          (ix3 (⟨i.val, h⟩ : Fin 400000) (⟨q.val / 4, by omega⟩ : Fin 4) (⟨q.val % 4, by omega⟩ : Fin 4)) := by
  refine (congrFun (staged12_term m c) (ix2 q i)).trans ?_
  refine (pad_apply_of_inside _ _ _ _ _ pads_S12x400000_S12x425984_000_0259840 h_S_ (ix2 q i)
    (ix2 q (⟨i.val, h⟩ : Fin 400000)) (fun a => ?_)).trans ?_
  · match a with
    | ⟨0, _⟩ => show q.val = 0 + q.val * (0 + 1); omega
    | ⟨1, _⟩ => show i.val = 0 + i.val * (0 + 1); omega
  refine (transpose_apply _ _ transposes_S400000x12_S12x400000_1_0 (ix2 q (⟨i.val, h⟩ : Fin 400000)) (ix2 (⟨i.val, h⟩ : Fin 400000) q)
      (fun b => match b with | ⟨0, _⟩ => rfl | ⟨1, _⟩ => rfl)).trans ?_
  refine (shapeCast_apply _ shapeCasts_S400000x3x4_S400000x12 (ix2 (⟨i.val, h⟩ : Fin 400000) q)
      (ix3 (⟨i.val, h⟩ : Fin 400000) (⟨q.val / 4, by omega⟩ : Fin 3) (⟨q.val % 4, by omega⟩ : Fin 4)) (by
        rw [Shape.rowMajor_val_three, Shape.rowMajor_val_two]
        show (i.val * 3 + q.val / 4) * 4 + q.val % 4 = i.val * 12 + q.val
        omega)).trans ?_
  exact extractStridedSlice_apply _ _ slices_S400000x4x4_S400000x3x4_0_0_0
    (ix3 (⟨i.val, h⟩ : Fin 400000) (⟨q.val / 4, by omega⟩ : Fin 3) (⟨q.val % 4, by omega⟩ : Fin 4))
    (ix3 (⟨i.val, h⟩ : Fin 400000) (⟨q.val / 4, by omega⟩ : Fin 4) (⟨q.val % 4, by omega⟩ : Fin 4))
    (fun a => match a with
      | ⟨0, _⟩ => by show i.val = 0 + i.val; omega
      | ⟨1, _⟩ => by show q.val / 4 = 0 + q.val / 4; omega
      | ⟨2, _⟩ => by show q.val % 4 = 0 + q.val % 4; omega)

end Cert.Giou

end
-- ==== Proof.KBlocks.lean ====
/-
  From the grid's blocks to the result array. The kernel runs on 13 grid points; at point `t` it reads columns
  `32768 t … 32768 t + 32767` of each of the four staged arrays and writes entries `32768 t … 32768 t + 32767` of
  the result. Given that lane `j` of the body's result is one function `f` of lane `j` of the four input blocks,
  the result array is `f` of the staged arrays' columns, and its entry `i < 400000` is `f` of row `i` of the four
  arguments. The per-lane function is a parameter here; it is supplied where the body is read.
-/
import proofs.«165471_j24206435680919_1_alg».proof.Proof.KHost
import proofs.«165471_j24206435680919_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.Giou

open Cert.KernelIdeal Cert.KernelIdeal.Facts₀ Cert.KernelIdeal.Facts

variable (m : (ℓ : Loc nD τ sig) → Buf (Elt Ideal) ℓ) (ρ : Dev nD → PrngReg)

/-- The printed index maps over the grid: at point `t` every input window is at block `(0, t)` of its staged array and
    the output window at block `t`. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ win0_4.index t (0 : Fin 1) = t.val :=
  (by decide +kernel : ∀ t : Fin grid0.N, _)

/-- Entry `(k, j)` of window 0's block at grid point `t` is entry `(k, 32768 t + j)` of its staged array. -/
theorem blk0_apply (c : Dev nD) (t : Fin cfg0.N) (k : Fin 7) (j : Fin 32768) (i : Fin 425984) (hi : i.val = t.val * 32768 + j.val) :
    (Gen.iblk m c 0 t : S7x32768.Idx → EReal) (ix2 k j) = (Gen.V m c main_v1 : S7x425984.Idx → EReal) (ix2 k i) := by
  obtain ⟨e0, e1⟩ := (idx_facts t).1
  unfold Gen.iblk
  rw [View.read_apply]
  show (Gen.V m c main_v1 : S7x425984.Idx → EReal) _ = _
  refine congrArg _ (funext fun a => Fin.ext ?_)
  match a with
  | ⟨0, _⟩ => show win0_0.index t (0 : Fin 2) * 7 + 1 * k.val = k.val; rw [e0]; omega
  | ⟨1, _⟩ => show win0_0.index t (1 : Fin 2) * 32768 + 1 * j.val = i.val; rw [e1, hi]; omega

/-- Entry `(k, j)` of window 1's block at grid point `t` is entry `(k, 32768 t + j)` of its staged array. -/
theorem blk1_apply (c : Dev nD) (t : Fin cfg0.N) (k : Fin 4) (j : Fin 32768) (i : Fin 425984) (hi : i.val = t.val * 32768 + j.val) :
    (Gen.iblk m c 1 t : S4x32768.Idx → EReal) (ix2 k j) = (Gen.V m c main_v3 : S4x425984.Idx → EReal) (ix2 k i) := by
  obtain ⟨e0, e1⟩ := (idx_facts t).2.1
  unfold Gen.iblk
  rw [View.read_apply]
  show (Gen.V m c main_v3 : S4x425984.Idx → EReal) _ = _
  refine congrArg _ (funext fun a => Fin.ext ?_)
  match a with
  | ⟨0, _⟩ => show win0_1.index t (0 : Fin 2) * 4 + 1 * k.val = k.val; rw [e0]; omega
  | ⟨1, _⟩ => show win0_1.index t (1 : Fin 2) * 32768 + 1 * j.val = i.val; rw [e1, hi]; omega

/-- Entry `(k, j)` of window 2's block at grid point `t` is entry `(k, 32768 t + j)` of its staged array. -/
theorem blk2_apply (c : Dev nD) (t : Fin cfg0.N) (k : Fin 12) (j : Fin 32768) (i : Fin 425984) (hi : i.val = t.val * 32768 + j.val) :
    (Gen.iblk m c 2 t : S12x32768.Idx → EReal) (ix2 k j) = (Gen.V m c main_v7 : S12x425984.Idx → EReal) (ix2 k i) := by
  obtain ⟨e0, e1⟩ := (idx_facts t).2.2.1
  unfold Gen.iblk
  rw [View.read_apply]
  show (Gen.V m c main_v7 : S12x425984.Idx → EReal) _ = _
  refine congrArg _ (funext fun a => Fin.ext ?_)
  match a with
  | ⟨0, _⟩ => show win0_2.index t (0 : Fin 2) * 12 + 1 * k.val = k.val; rw [e0]; omega
  | ⟨1, _⟩ => show win0_2.index t (1 : Fin 2) * 32768 + 1 * j.val = i.val; rw [e1, hi]; omega

/-- Entry `(k, j)` of window 3's block at grid point `t` is entry `(k, 32768 t + j)` of its staged array. -/
theorem blk3_apply (c : Dev nD) (t : Fin cfg0.N) (k : Fin 2) (j : Fin 32768) (i : Fin 425984) (hi : i.val = t.val * 32768 + j.val) :
    (Gen.iblk m c 3 t : S2x32768.Idx → EReal) (ix2 k j) = (Gen.V m c main_v9 : S2x425984.Idx → EReal) (ix2 k i) := by
  obtain ⟨e0, e1⟩ := (idx_facts t).2.2.2.1
  unfold Gen.iblk
  rw [View.read_apply]
  show (Gen.V m c main_v9 : S2x425984.Idx → EReal) _ = _
  refine congrArg _ (funext fun a => Fin.ext ?_)
  match a with
  | ⟨0, _⟩ => show win0_3.index t (0 : Fin 2) * 2 + 1 * k.val = k.val; rw [e0]; omega
  | ⟨1, _⟩ => show win0_3.index t (1 : Fin 2) * 32768 + 1 * j.val = i.val; rw [e1, hi]; omega

/-- The array of per-column results: column `i` of the four staged arrays through the per-column function `f`. -/
def colResult (f : (Fin 7 → EReal) → (Fin 4 → EReal) → (Fin 12 → EReal) → (Fin 2 → EReal) → EReal)
    (B0 : S7x425984.Idx → EReal) (B1 : S4x425984.Idx → EReal) (B2 : S12x425984.Idx → EReal) (B3 : S2x425984.Idx → EReal) :
    S425984.Idx → EReal :=
  fun i => f (fun k => B0 (ix2 k (i 0))) (fun k => B1 (ix2 k (i 0))) (fun k => B2 (ix2 k (i 0))) (fun k => B3 (ix2 k (i 0)))

section PerColumn

variable (f : (Fin 7 → EReal) → (Fin 4 → EReal) → (Fin 12 → EReal) → (Fin 2 → EReal) → EReal)
  (hf : ∀ (x0 : Vec Ideal S7x32768 .f32) (x1 : Vec Ideal S4x32768 .f32) (x2 : Vec Ideal S12x32768 .f32) (x3 : Vec Ideal S2x32768 .f32)
      (j : Fin 32768), Gen.out0_4 (F := Ideal) x0 x1 x2 x3 (ix1 j)
        = f (fun k => x0 (ix2 k j)) (fun k => x1 (ix2 k j)) (fun k => x2 (ix2 k j)) (fun k => x3 (ix2 k j)))

include hf in
/-- What grid point `t` writes back is block `t` of the array of per-column results of the staged arrays: lane `j` of
    the body's result depends on lane `j` of each input block only, and the input blocks at `t` are columns
    `32768 t … 32768 t + 32767` of the staged arrays. -/
theorem flushed_eq (c : Dev nD) (t : Fin cfg0.N) :
    (Gen.dats m 0 c).flushed 4 t = ((cfg0.win 4).blk t).view.read (Elt Ideal)
      (colResult f (Gen.V m c main_v1) (Gen.V m c main_v3) (Gen.V m c main_v7) (Gen.V m c main_v9)) := by
  show (cfg0.win 4).cut (grid0.coords t) ((Gen.dats m 0 c).after 4 t) = _
  rw [Gen.after0_4]
  funext j
  obtain ⟨j0, rfl⟩ : ∃ j0 : Fin 32768, j = ix1 j0 := ⟨j 0, eq_ix1 (n := 32768) j⟩
  have e4 := (idx_facts t).2.2.2.2
  show Gen.out0_4 (F := Ideal) (Gen.iblk m c 0 t) (Gen.iblk m c 1 t) (Gen.iblk m c 2 t) (Gen.iblk m c 3 t) (ix1 j0)
    = colResult f (Gen.V m c main_v1) (Gen.V m c main_v3) (Gen.V m c main_v7) (Gen.V m c main_v9) (((cfg0.win 4).blk t).view.emb (ix1 j0))
  refine (hf (Gen.iblk m c 0 t) (Gen.iblk m c 1 t) (Gen.iblk m c 2 t) (Gen.iblk m c 3 t) j0).trans ?_
  have hi : ((((cfg0.win 4).blk t).view.emb (ix1 j0)) 0).val = t.val * 32768 + j0.val := by
    show win0_4.index t (0 : Fin 1) * 32768 + 1 * j0.val = _
    rw [e4]; omega
  unfold colResult
  rw [funext fun k => blk0_apply m c t k j0 _ hi, funext fun k => blk1_apply m c t k j0 _ hi,
    funext fun k => blk2_apply m c t k j0 _ hi, funext fun k => blk3_apply m c t k j0 _ hi]

end PerColumn

/-- An index of the result array is in grid point `t`'s block iff its coordinate lies in that block's range. -/
theorem mem_blk4 (t : Fin cfg0.N) (i : S425984.Idx) :
    i ∈ ((cfg0.win 4).blk t).view.set ↔ ∀ a : Fin 1, win0_4.index t a * S32768.size a ≤ (i a).val
      ∧ (i a).val < win0_4.index t a * S32768.size a + S32768.size a := by
  show i ∈ ((View.whole main_v10).slice (win0_4.rect t)).set ↔ _
  rw [View.set_slice_whole, Rect.mem_set_unit]
  exact Iff.rfl

/-- The 13 blocks of 32768 entries tile the 425984 entries of the result array: entry `i` is in block `i / 32768`. -/
theorem cover4 (i : S425984.Idx) : ∃ t : Fin cfg0.N, (cfg0.win 4).flush t = true ∧ i ∈ ((cfg0.win 4).blk t).view.set := by
  have hi : (i 0).val < 425984 := (i 0).isLt
  have hN : cfg0.N = 13 := Gen.N_0
  have ht : (i 0).val / 32768 < cfg0.N := by rw [hN]; omega
  refine ⟨⟨(i 0).val / 32768, ht⟩, Gen.flush0_4 _, ?_⟩
  rw [mem_blk4]
  have e4 : win0_4.index (⟨(i 0).val / 32768, ht⟩ : Fin cfg0.N) (0 : Fin 1) = (i 0).val / 32768 := (idx_facts ⟨(i 0).val / 32768, ht⟩).2.2.2.2
  intro a
  match a with
  | ⟨0, _⟩ =>
    show win0_4.index (⟨(i 0).val / 32768, ht⟩ : Fin cfg0.N) (0 : Fin 1) * 32768 ≤ (i 0).val
      ∧ (i 0).val < win0_4.index (⟨(i 0).val / 32768, ht⟩ : Fin cfg0.N) (0 : Fin 1) * 32768 + 32768
    rw [e4]; omega

section PerColumnArray

variable (f : (Fin 7 → EReal) → (Fin 4 → EReal) → (Fin 12 → EReal) → (Fin 2 → EReal) → EReal)
  (hf : ∀ (x0 : Vec Ideal S7x32768 .f32) (x1 : Vec Ideal S4x32768 .f32) (x2 : Vec Ideal S12x32768 .f32) (x3 : Vec Ideal S2x32768 .f32)
      (j : Fin 32768), Gen.out0_4 (F := Ideal) x0 x1 x2 x3 (ix1 j)
        = f (fun k => x0 (ix2 k j)) (fun k => x1 (ix2 k j)) (fun k => x2 (ix2 k j)) (fun k => x3 (ix2 k j)))

include hf in
/-- The result array after the grid: the per-column results of the staged arrays. -/
theorem final4 (c : Dev nD) :
    (Gen.dats m 0 c).arrAt 4 cfg0.N
      = colResult f (Gen.V m c main_v1) (Gen.V m c main_v3) (Gen.V m c main_v7) (Gen.V m c main_v9) :=
  (Gen.dats m 0 c).arrAt_eq_of_cover 4 _ (fun t _ => flushed_eq m f hf c t) cover4

include hf in
/-- Entry `i < 400000` of the result array is the per-column function of row `i` of the four arguments (of the matrix
    argument, rows 0..2 of box `i`'s matrix as 12 numbers, number `q` being entry `(q / 4, q % 4)`). -/
theorem result_row (c : Dev nD) (i : Fin 400000) :
    ((Gen.dats m 0 c).arrAt 4 cfg0.N : S425984.Idx → EReal) (ix1 (⟨i.val, by omega⟩ : Fin 425984))
      = f (fun k => (m ((c.tc : Thread nD τ).loc main_arg0) : S400000x7.Idx → EReal) (ix2 i k))
          (fun k => (m ((c.tc : Thread nD τ).loc main_arg1) : S400000x4.Idx → EReal) (ix2 i k))
          (fun q => (m ((c.tc : Thread nD τ).loc main_arg2) : S400000x4x4.Idx → EReal)
            (ix3 i (⟨q.val / 4, by omega⟩ : Fin 4) (⟨q.val % 4, by omega⟩ : Fin 4)))
          (fun k => (m ((c.tc : Thread nD τ).loc main_arg3) : S400000x2.Idx → EReal) (ix2 i k)) := by
  rw [final4 m f hf c]
  show f (fun k => (Gen.V m c main_v1 : S7x425984.Idx → EReal) (ix2 k (⟨i.val, by omega⟩ : Fin 425984)))
      (fun k => (Gen.V m c main_v3 : S4x425984.Idx → EReal) (ix2 k (⟨i.val, by omega⟩ : Fin 425984)))
      (fun k => (Gen.V m c main_v7 : S12x425984.Idx → EReal) (ix2 k (⟨i.val, by omega⟩ : Fin 425984)))
      (fun k => (Gen.V m c main_v9 : S2x425984.Idx → EReal) (ix2 k (⟨i.val, by omega⟩ : Fin 425984))) = _
  rw [funext fun k => staged7 m c k (⟨i.val, by omega⟩ : Fin 425984) i.isLt,
    funext fun k => staged4 m c k (⟨i.val, by omega⟩ : Fin 425984) i.isLt,
    funext fun q => staged12 m c q (⟨i.val, by omega⟩ : Fin 425984) i.isLt,
    funext fun k => staged2 m c k (⟨i.val, by omega⟩ : Fin 425984) i.isLt]

end PerColumnArray

end Cert.Giou

end
-- ==== Proof.Tail.lean ====
/-
  The shared ending of both programs, as one function of the per-row loss array and the object ids:
  per object the sum of its rows' losses and the count of its rows (two accumulating scatters over 80000
  buckets), the mean of each present object (sum over max(count, 1)), zero for an absent one, and the mean
  of those means over the present objects (sum of the selected means over the number of present objects),
  times one. Both programs apply exactly these operations to their per-row loss array, so the claim
  reduces to the two loss arrays being equal; nothing below is ever opened.
-/
import proofs.«165471_j24206435680919_1_alg».proof.KernelIdeal

noncomputable section

namespace Cert.Giou

open Idealize.ShloMosaic Cert.KernelIdeal Cert.KernelIdeal.Facts₀ Cert.KernelIdeal.Facts

variable {F : FTy → Type} [FloatOps F] [Cert.KernelIdeal.Facts]

/-- The mean over present objects of the per-object mean loss, from the per-row losses and the rows' object ids. -/
def tail (loss : (⟨S400000, .f32⟩ : BufTy).Contents (Elt F)) (ids : (⟨S400000, .i32⟩ : BufTy).Contents (Elt F)) :
    (⟨S_, .f32⟩ : BufTy).Contents (Elt F) :=
  let zero80 : (⟨S80000, .f32⟩ : BufTy).Contents (Elt F) := broadcastInDim S80000 ![] bcast_S_S80000 (constant S_ .f32 0x00000000#32)
  let idx : (⟨S400000x1, .i32⟩ : BufTy).Contents (Elt F) := broadcastInDim S400000x1 ![0] bcast_S400000_S400000x1_0 ids
  let sums : (⟨S80000, .f32⟩ : BufTy).Contents (Elt F) := Host.scatterAdd scatter_S80000_S400000x1_S400000_n_0_0_1 zero80 idx loss
  let ones : (⟨S400000, .f32⟩ : BufTy).Contents (Elt F) := broadcastInDim S400000 ![] bcast_S_S400000 (constant S_ .f32 0x3F800000#32)
  let counts : (⟨S80000, .f32⟩ : BufTy).Contents (Elt F) := Host.scatterAdd scatter_S80000_S400000x1_S400000_n_0_0_1 zero80 idx ones
  let one80 : (⟨S80000, .f32⟩ : BufTy).Contents (Elt F) := broadcastInDim S80000 ![] bcast_S_S80000 (constant S_ .f32 0x3F800000#32)
  let segMean : (⟨S80000, .f32⟩ : BufTy).Contents (Elt F) := Host.divf sums (maximumf counts one80)
  let present : (⟨S80000, .i1⟩ : BufTy).Contents (Elt F) := cmpf .ogt counts zero80
  let kept : (⟨S80000, .f32⟩ : BufTy).Contents (Elt F) :=
    select present segMean (broadcastInDim S80000 ![] bcast_S_S80000 (id (constant S_ .f32 0x00000000#32)))
  let total : (⟨S_, .f32⟩ : BufTy).Contents (Elt F) := Host.reduceAdd kept (constant S_ .f32 0x00000000#32) reducesTo_S80000_S_d0 h_S_
  let nPresent : (⟨S_, .f32⟩ : BufTy).Contents (Elt F) :=
    Host.reduceAdd (uitofp .f32 present) (constant S_ .f32 0x00000000#32) reducesTo_S80000_S_d0 h_S_
  mulf (constant S_ .f32 0x3F800000#32) (Host.divf total nPresent)

end Cert.Giou

end
-- ==== Proof.KTail.lean ====
/-
  The host lines after the grid. From any contents of the buffers at the grid's exit, the last buffer the
  program writes holds the shared ending (per-object means, then their mean over the present objects) of the
  first 400000 entries of the result array and of the object ids. After the grid the result array holds what the
  grid's write-backs left and the ids are as launched.
-/
import proofs.«165471_j24206435680919_1_alg».proof.Proof.Gen.KernelIdeal.Frame
import proofs.«165471_j24206435680919_1_alg».proof.Proof.Tail
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.Giou

open Cert.KernelIdeal Cert.KernelIdeal.Facts₀ Cert.KernelIdeal.Facts

variable (m : (ℓ : Loc nD τ sig) → Buf (Elt Ideal) ℓ) (ρ : Dev nD → PrngReg)

/-- The lines after the grid, run from any buffer contents `W`: the slice of the result array to its first 400000
    entries, then the shared ending on it and on the ids. -/
theorem tail_after (W : Valuation τ sig (Elt Ideal)) :
    StableHlo.after (List.flatten [Gen.hostOps1, Gen.hostOps1_1, Gen.hostOps1_2]) W (Proc.devRef .tc main_v29)
      = tail (F := Ideal) (extractStridedSlice S400000 ![0] (W (Proc.devRef .tc main_v10)) slices_S425984_S400000_0)
          (W (Proc.devRef .tc main_arg4)) := by
  simp only [Gen.hostOps1, Gen.hostOps1_1, Gen.hostOps1_2, List.flatten_cons, List.flatten_nil, List.append_nil, List.cons_append, List.nil_append]
  after_results_simp
  simp only [StableHlo.TRef.toBuf, StableHlo.TRef.ofBuf, cast_eq, id]
  unfold tail
  rfl

end Cert.Giou

end
-- ==== Proof.KRun.lean ====
/-
  The kernel program's run, read. The grid leaves the per-row values of the four arguments in the first 400000
  entries of its result array (the remaining 25984 entries come from padding columns and are cut away); the lines
  after the grid apply the shared ending to them and to the object ids. So the program terminates with its last
  buffer at the shared ending of the per-row values, its arguments untouched. The per-row function is a parameter
  (any function that lane `j` of the grid body's result is of lane `j` of its four input blocks).
-/
import proofs.«165471_j24206435680919_1_alg».proof.Proof.KBlocks
import proofs.«165471_j24206435680919_1_alg».proof.Proof.KTail
import proofs.«165471_j24206435680919_1_alg».proof.Proof.Gen.KernelIdeal.Frame
import Idealize.ShloMosaic.Lib.Pipeline.Value
import Idealize.ShloMosaic.Lib.ValueIdx
import Idealize.ShloMosaic.Lib.Tactic

-- the decided facts about the windows' buffers recurse once per buffer of the program
set_option maxRecDepth 16384

noncomputable section

open Idealize.ShloMosaic Idealize.ShloMosaic.TcCoe Idealize.SL.Sem
open Idealize.ShloMosaic.ValueIdx
open Idealize.ShloMosaic.Pipeline (Dat)

namespace Cert.Giou

open Cert.KernelIdeal Cert.KernelIdeal.Facts₀ Cert.KernelIdeal.Facts

variable (m : (ℓ : Loc nD τ sig) → Buf (Elt Ideal) ℓ) (ρ : Dev nD → PrngReg)

/-- What the program's last buffer holds after the lines that follow the grid: the shared ending of the result array's
    first 400000 entries and of the ids as launched. -/
theorem tail_result (c : Dev nD) :
    Pipeline.afterTail₀ cfgs (Gen.dats m) 0 (Gen.V0 m) [Gen.hostOps1, Gen.hostOps1_1, Gen.hostOps1_2] c main_v29
      = tail (F := Ideal)
          (extractStridedSlice S400000 ![0] ((Gen.dats m 0 c).arrAt 4 cfg0.N : S425984.Idx → EReal) slices_S425984_S400000_0)
          (m ((c.tc : Thread nD τ).loc main_arg4)) := by
  have hne : ∀ w, Pipeline.arrRef spec0 w ≠ main_arg4 := by decide
  have hA : Pipeline.withArrays (cfgs 0).spec c (Gen.V0 m c) (fun w => (Gen.dats m 0 c).arrAt w (cfgs 0).N) (Proc.devRef .tc main_v10)
      = (Gen.dats m 0 c).arrAt 4 cfg0.N :=
    Pipeline.withArrays_arr spec0 Gen.launch0.win.arr_inj c _ _ 4
  have hI : Pipeline.withArrays (cfgs 0).spec c (Gen.V0 m c) (fun w => (Gen.dats m 0 c).arrAt w (cfgs 0).N) (Proc.devRef .tc main_arg4)
      = m ((c.tc : Thread nD τ).loc main_arg4) :=
    (Pipeline.withArrays_of_ne _ c (Gen.V0 m c) _ main_arg4 hne).trans (Gen.V_main_arg4 m c)
  unfold Pipeline.afterTail₀
  refine (tail_after _).trans ?_
  rw [hA, hI]

/-- Row `i` of the four arguments through a per-row function `f`: the 7 box numbers, the 4 target numbers, rows 0..2 of
    the 4×4 matrix as 12 numbers (number `q` is entry `(q / 4, q % 4)`), the 2 image sizes. -/
def rowAt (f : (Fin 7 → EReal) → (Fin 4 → EReal) → (Fin 12 → EReal) → (Fin 2 → EReal) → EReal)
    (A0 : S400000x7.Idx → EReal) (A1 : S400000x4.Idx → EReal) (A2 : S400000x4x4.Idx → EReal) (A3 : S400000x2.Idx → EReal)
    (i : Fin 400000) : EReal :=
  f (fun k => A0 (ix2 i k)) (fun k => A1 (ix2 i k))
    (fun q => A2 (ix3 i (⟨q.val / 4, by omega⟩ : Fin 4) (⟨q.val % 4, by omega⟩ : Fin 4))) (fun k => A3 (ix2 i k))

/-- The array of per-row values. -/
def rowLoss (f : (Fin 7 → EReal) → (Fin 4 → EReal) → (Fin 12 → EReal) → (Fin 2 → EReal) → EReal)
    (A0 : S400000x7.Idx → EReal) (A1 : S400000x4.Idx → EReal) (A2 : S400000x4x4.Idx → EReal) (A3 : S400000x2.Idx → EReal) :
    S400000.Idx → EReal :=
  fun n => rowAt f A0 A1 A2 A3 (n 0)

section PerRow

variable (f : (Fin 7 → EReal) → (Fin 4 → EReal) → (Fin 12 → EReal) → (Fin 2 → EReal) → EReal)
  (hf : ∀ (x0 : Vec Ideal S7x32768 .f32) (x1 : Vec Ideal S4x32768 .f32) (x2 : Vec Ideal S12x32768 .f32) (x3 : Vec Ideal S2x32768 .f32)
      (j : Fin 32768), Gen.out0_4 (F := Ideal) x0 x1 x2 x3 (ix1 j)
        = f (fun k => x0 (ix2 k j)) (fun k => x1 (ix2 k j)) (fun k => x2 (ix2 k j)) (fun k => x3 (ix2 k j)))

include hf in
/-- The first 400000 entries of the result array are the per-row values of the arguments. -/
theorem sliced_eq (c : Dev nD) :
    extractStridedSlice S400000 ![0] ((Gen.dats m 0 c).arrAt 4 cfg0.N : S425984.Idx → EReal) slices_S425984_S400000_0
      = rowLoss f (m ((c.tc : Thread nD τ).loc main_arg0)) (m ((c.tc : Thread nD τ).loc main_arg1))
          (m ((c.tc : Thread nD τ).loc main_arg2)) (m ((c.tc : Thread nD τ).loc main_arg3)) := by
  funext n
  obtain ⟨n0, rfl⟩ : ∃ n0 : Fin 400000, n = ix1 n0 := ⟨n 0, eq_ix1 (n := 400000) n⟩
  refine (extractStridedSlice_apply _ _ slices_S425984_S400000_0 (ix1 n0) (ix1 (⟨n0.val, by omega⟩ : Fin 425984))
    (fun a => match a with | ⟨0, _⟩ => by show n0.val = 0 + n0.val; omega)).trans ?_
  exact result_row m f hf c n0

include hf in
/-- The kernel program's run: it terminates with its last buffer at the shared ending of the per-row values and of the
    ids, and its five arguments as launched. -/
theorem kernel_run_of : θ_run defs (onTc (τ := τ) (main (F := Ideal))) ⟨m, fun _ => 0, ρ⟩ fun r => ∀ c : Dev nD,
      r.2.mem ((c.tc : Thread nD τ).loc main_v29)
        = tail (F := Ideal) (rowLoss f (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v29 (Pipeline.mem_restRefs_of main_v29 (by decide) (by decide))).trans
        ((tail_result m c).trans (congrArg (fun L => tail (F := Ideal) L (m ((c.tc : Thread nD τ).loc main_arg4))) (sliced_eq m f hf c))),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩)
    (Gen.run_main m ρ)

end PerRow

end Cert.Giou

end
-- ==== Proof.KFinal.lean ====
/-
  The kernel program, read whole. Lane `j` of the grid body's result is the per-row formula `kRow` of lane `j` of
  its four input blocks; so entry `i < 400000` of the grid's result array is `kRow` of row `i` of the four arguments,
  and the program ends with the shared ending of those per-row values and of the object ids, its arguments untouched.
-/
import proofs.«165471_j24206435680919_1_alg».proof.Proof.KPayload
import proofs.«165471_j24206435680919_1_alg».proof.Proof.KRun

noncomputable section

open Idealize.ShloMosaic Idealize.ShloMosaic.TcCoe Idealize.SL.Sem
open Idealize.ShloMosaic.ValueIdx

namespace Cert.Giou

open Cert.KernelIdeal Cert.KernelIdeal.Facts₀ Cert.KernelIdeal.Facts

variable (m : (ℓ : Loc nD τ sig) → Buf (Elt Ideal) ℓ) (ρ : Dev nD → PrngReg)

/-- Entry `i < 400000` of the grid's result array is the per-row formula of row `i` of the four arguments. -/
theorem kernel_row (c : Dev nD) (i : Fin 400000) :
    ((Gen.dats m 0 c).arrAt 4 cfg0.N : S425984.Idx → EReal) (ix1 (⟨i.val, by omega⟩ : Fin 425984))
      = kRow (fun k => (m ((c.tc : Thread nD τ).loc main_arg0) : S400000x7.Idx → EReal) (ix2 i k))
          (fun k => (m ((c.tc : Thread nD τ).loc main_arg1) : S400000x4.Idx → EReal) (ix2 i k))
          (fun q => (m ((c.tc : Thread nD τ).loc main_arg2) : S400000x4x4.Idx → EReal)
            (ix3 i (⟨q.val / 4, by omega⟩ : Fin 4) (⟨q.val % 4, by omega⟩ : Fin 4)))
          (fun k => (m ((c.tc : Thread nD τ).loc main_arg3) : S400000x2.Idx → EReal) (ix2 i k)) :=
  result_row m kRow out0_4_apply c i

/-- The kernel program's run: it terminates with its last buffer at the shared ending of the per-row formula's values
    and of the object ids, and its five arguments as launched. -/
theorem kernel_run : θ_run defs (onTc (τ := τ) (main (F := Ideal))) ⟨m, fun _ => 0, ρ⟩ fun r => ∀ c : Dev nD,
      r.2.mem ((c.tc : Thread nD τ).loc main_v29)
        = tail (F := Ideal)
            (fun n : S400000.Idx =>
              kRow (fun k => (m ((c.tc : Thread nD τ).loc main_arg0) : S400000x7.Idx → EReal) (ix2 (n 0) k))
                (fun k => (m ((c.tc : Thread nD τ).loc main_arg1) : S400000x4.Idx → EReal) (ix2 (n 0) k))
                (fun q => (m ((c.tc : Thread nD τ).loc main_arg2) : S400000x4x4.Idx → EReal)
                  (ix3 (n 0) (⟨q.val / 4, by omega⟩ : Fin 4) (⟨q.val % 4, by omega⟩ : Fin 4)))
                (fun k => (m ((c.tc : Thread nD τ).loc main_arg3) : S400000x2.Idx → EReal) (ix2 (n 0) k)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  kernel_run_of m ρ kRow out0_4_apply

end Cert.Giou

end
-- ==== Proof.RefOps0.lean ====
/-
  Window 0 of the reference's @main (its statements as printed in main_part0) as lists of host operations:
  consecutive segments ops0a, ops0b, in program order; a call of a module-local function is the callee's
  operations over the call's own buffers. Each segment comes with the fact that its operations touch
  TensorCore references only.
-/
import proofs.«165471_j24206435680919_1_alg».proof.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- 45 operations. -/
abbrev ops0a : List (HloOp τ sig (Elt F)) :=
  [ nullary main_cst (fun i => FloatOps.ofBits .f32 (lit0 (S8.rowMajor i))),
    nullary main_cst_0 (fun i => FloatOps.ofBits .f32 (lit1 (S8.rowMajor i))),
    nullary main_cst_1 (fun i => FloatOps.ofBits .f32 (lit2 (S8.rowMajor i))),
    unary main_arg0 main_v0 ((extractStridedSlice S400000x1 ![0, 0] · slices_S400000x7_S400000x1_0_0) : (⟨S400000x7, .f32⟩ : BufTy).Contents (Elt F) → (⟨S400000x1, .f32⟩ : BufTy).Contents (Elt F)),
    reshape main_v0 main_v1 rfl shapeCasts_S400000x1_S400000,
    unary main_arg0 main_v2 ((extractStridedSlice S400000x1 ![0, 1] · slices_S400000x7_S400000x1_0_1) : (⟨S400000x7, .f32⟩ : BufTy).Contents (Elt F) → (⟨S400000x1, .f32⟩ : BufTy).Contents (Elt F)),
    reshape main_v2 main_v3 rfl shapeCasts_S400000x1_S400000,
    unary main_arg0 main_v4 ((extractStridedSlice S400000x1 ![0, 2] · slices_S400000x7_S400000x1_0_2) : (⟨S400000x7, .f32⟩ : BufTy).Contents (Elt F) → (⟨S400000x1, .f32⟩ : BufTy).Contents (Elt F)),
    reshape main_v4 main_v5 rfl shapeCasts_S400000x1_S400000,
    unary main_arg0 main_v6 ((extractStridedSlice S400000x1 ![0, 3] · slices_S400000x7_S400000x1_0_3) : (⟨S400000x7, .f32⟩ : BufTy).Contents (Elt F) → (⟨S400000x1, .f32⟩ : BufTy).Contents (Elt F)),
    reshape main_v6 main_v7 rfl shapeCasts_S400000x1_S400000,
    unary main_arg0 main_v8 ((extractStridedSlice S400000x1 ![0, 4] · slices_S400000x7_S400000x1_0_4) : (⟨S400000x7, .f32⟩ : BufTy).Contents (Elt F) → (⟨S400000x1, .f32⟩ : BufTy).Contents (Elt F)),
    reshape main_v8 main_v9 rfl shapeCasts_S400000x1_S400000,
    unary main_arg0 main_v10 ((extractStridedSlice S400000x1 ![0, 5] · slices_S400000x7_S400000x1_0_5) : (⟨S400000x7, .f32⟩ : BufTy).Contents (Elt F) → (⟨S400000x1, .f32⟩ : BufTy).Contents (Elt F)),
    reshape main_v10 main_v11 rfl shapeCasts_S400000x1_S400000,
    unary main_arg0 main_v12 ((extractStridedSlice S400000x1 ![0, 6] · slices_S400000x7_S400000x1_0_6) : (⟨S400000x7, .f32⟩ : BufTy).Contents (Elt F) → (⟨S400000x1, .f32⟩ : BufTy).Contents (Elt F)),
    reshape main_v12 main_v13 rfl shapeCasts_S400000x1_S400000,
    unary main_v7 main_v14 (broadcastInDim S400000x1 ![0] bcast_S400000_S400000x1_0 : (⟨S400000, .f32⟩ : BufTy).Contents (Elt F) → (⟨S400000x1, .f32⟩ : BufTy).Contents (Elt F)),
    nullary main_cst_2 (constant S_ .f32 0x40000000#32),
    unary main_cst_2 main_v15 (broadcastInDim S400000x1 ![] bcast_S_S400000x1 : (⟨S_, .f32⟩ : BufTy).Contents (Elt F) → (⟨S400000x1, .f32⟩ : BufTy).Contents (Elt F)),
    binary main_v14 main_v15 main_v16 (Host.divf : (⟨S400000x1, .f32⟩ : BufTy).Contents (Elt F) → (⟨S400000x1, .f32⟩ : BufTy).Contents (Elt F) → (⟨S400000x1, .f32⟩ : BufTy).Contents (Elt F)),
    unary main_cst main_v17 (broadcastInDim S1x8 ![1] bcast_S8_S1x8_1 : (⟨S8, .f32⟩ : BufTy).Contents (Elt F) → (⟨S1x8, .f32⟩ : BufTy).Contents (Elt F)),
    unary main_v16 main_v18 (broadcastInDim S400000x8 ![0, 1] bcast_S400000x1_S400000x8_0_1 : (⟨S400000x1, .f32⟩ : BufTy).Contents (Elt F) → (⟨S400000x8, .f32⟩ : BufTy).Contents (Elt F)),
    unary main_v17 main_v19 (broadcastInDim S400000x8 ![0, 1] bcast_S1x8_S400000x8_0_1 : (⟨S1x8, .f32⟩ : BufTy).Contents (Elt F) → (⟨S400000x8, .f32⟩ : BufTy).Contents (Elt F)),
    binary main_v18 main_v19 main_v20 (mulf : (⟨S400000x8, .f32⟩ : BufTy).Contents (Elt F) → (⟨S400000x8, .f32⟩ : BufTy).Contents (Elt F) → (⟨S400000x8, .f32⟩ : BufTy).Contents (Elt F)),
    unary main_v9 main_v21 (broadcastInDim S400000x1 ![0] bcast_S400000_S400000x1_0 : (⟨S400000, .f32⟩ : BufTy).Contents (Elt F) → (⟨S400000x1, .f32⟩ : BufTy).Contents (Elt F)),
    nullary main_cst_3 (constant S_ .f32 0x40000000#32),
    unary main_cst_3 main_v22 (broadcastInDim S400000x1 ![] bcast_S_S400000x1 : (⟨S_, .f32⟩ : BufTy).Contents (Elt F) → (⟨S400000x1, .f32⟩ : BufTy).Contents (Elt F)),
    binary main_v21 main_v22 main_v23 (Host.divf : (⟨S400000x1, .f32⟩ : BufTy).Contents (Elt F) → (⟨S400000x1, .f32⟩ : BufTy).Contents (Elt F) → (⟨S400000x1, .f32⟩ : BufTy).Contents (Elt F)),
    unary main_cst_0 main_v24 (broadcastInDim S1x8 ![1] bcast_S8_S1x8_1 : (⟨S8, .f32⟩ : BufTy).Contents (Elt F) → (⟨S1x8, .f32⟩ : BufTy).Contents (Elt F)),
    unary main_v23 main_v25 (broadcastInDim S400000x8 ![0, 1] bcast_S400000x1_S400000x8_0_1 : (⟨S400000x1, .f32⟩ : BufTy).Contents (Elt F) → (⟨S400000x8, .f32⟩ : BufTy).Contents (Elt F)),
    unary main_v24 main_v26 (broadcastInDim S400000x8 ![0, 1] bcast_S1x8_S400000x8_0_1 : (⟨S1x8, .f32⟩ : BufTy).Contents (Elt F) → (⟨S400000x8, .f32⟩ : BufTy).Contents (Elt F)),
    binary main_v25 main_v26 main_v27 (mulf : (⟨S400000x8, .f32⟩ : BufTy).Contents (Elt F) → (⟨S400000x8, .f32⟩ : BufTy).Contents (Elt F) → (⟨S400000x8, .f32⟩ : BufTy).Contents (Elt F)),
    unary main_v11 main_v28 (broadcastInDim S400000x1 ![0] bcast_S400000_S400000x1_0 : (⟨S400000, .f32⟩ : BufTy).Contents (Elt F) → (⟨S400000x1, .f32⟩ : BufTy).Contents (Elt F)),
    nullary main_cst_4 (constant S_ .f32 0x40000000#32),
    unary main_cst_4 main_v29 (broadcastInDim S400000x1 ![] bcast_S_S400000x1 : (⟨S_, .f32⟩ : BufTy).Contents (Elt F) → (⟨S400000x1, .f32⟩ : BufTy).Contents (Elt F)),
    binary main_v28 main_v29 main_v30 (Host.divf : (⟨S400000x1, .f32⟩ : BufTy).Contents (Elt F) → (⟨S400000x1, .f32⟩ : BufTy).Contents (Elt F) → (⟨S400000x1, .f32⟩ : BufTy).Contents (Elt F)),
    unary main_cst_1 main_v31 (broadcastInDim S1x8 ![1] bcast_S8_S1x8_1 : (⟨S8, .f32⟩ : BufTy).Contents (Elt F) → (⟨S1x8, .f32⟩ : BufTy).Contents (Elt F)),
    unary main_v30 main_v32 (broadcastInDim S400000x8 ![0, 1] bcast_S400000x1_S400000x8_0_1 : (⟨S400000x1, .f32⟩ : BufTy).Contents (Elt F) → (⟨S400000x8, .f32⟩ : BufTy).Contents (Elt F)),
    unary main_v31 main_v33 (broadcastInDim S400000x8 ![0, 1] bcast_S1x8_S400000x8_0_1 : (⟨S1x8, .f32⟩ : BufTy).Contents (Elt F) → (⟨S400000x8, .f32⟩ : BufTy).Contents (Elt F)),
    binary main_v32 main_v33 main_v34 (mulf : (⟨S400000x8, .f32⟩ : BufTy).Contents (Elt F) → (⟨S400000x8, .f32⟩ : BufTy).Contents (Elt F) → (⟨S400000x8, .f32⟩ : BufTy).Contents (Elt F)),
    unary main_v20 main_v35 (broadcastInDim S400000x1x8 ![0, 2] bcast_S400000x8_S400000x1x8_0_2 : (⟨S400000x8, .f32⟩ : BufTy).Contents (Elt F) → (⟨S400000x1x8, .f32⟩ : BufTy).Contents (Elt F)),
    unary main_v27 main_v36 (broadcastInDim S400000x1x8 ![0, 2] bcast_S400000x8_S400000x1x8_0_2 : (⟨S400000x8, .f32⟩ : BufTy).Contents (Elt F) → (⟨S400000x1x8, .f32⟩ : BufTy).Contents (Elt F)),
    unary main_v34 main_v37 (broadcastInDim S400000x1x8 ![0, 2] bcast_S400000x8_S400000x1x8_0_2 : (⟨S400000x8, .f32⟩ : BufTy).Contents (Elt F) → (⟨S400000x1x8, .f32⟩ : BufTy).Contents (Elt F)),
    nary ![main_v35, main_v36, main_v37] main_v38 (fun u => concatenate S400000x3x8 1 [⟨S400000x1x8, u 0⟩, ⟨S400000x1x8, u 1⟩, ⟨S400000x1x8, u 2⟩] concatenates_S400000x1x8_S400000x1x8_S400000x1x8_S400000x3x8_d1) ]

theorem ops0a_sub : (ops0a : List (HloOp τ sig (Elt F))).Forall fun op => op.bufs ⊆ tcRefs τ sig :=
  ⟨nullary_bufs_sub .., nullary_bufs_sub .., nullary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., unary_bufs_sub .., unary_bufs_sub .., nary_bufs_sub ..⟩

/-- 15 operations. -/
abbrev ops0b : List (HloOp τ sig (Elt F)) :=
  [ unary main_v13 main_v39 (Host.cos : (⟨S400000, .f32⟩ : BufTy).Contents (Elt F) → (⟨S400000, .f32⟩ : BufTy).Contents (Elt F)),
    unary main_v13 main_v40 (Host.sin : (⟨S400000, .f32⟩ : BufTy).Contents (Elt F) → (⟨S400000, .f32⟩ : BufTy).Contents (Elt F)),
    nullary main_cst_5 (constant S_ .f32 0x00000000#32),
    unary main_cst_5 main_v41 (broadcastInDim S400000 ![] bcast_S_S400000 : (⟨S_, .f32⟩ : BufTy).Contents (Elt F) → (⟨S400000, .f32⟩ : BufTy).Contents (Elt F)),
    nullary main_cst_6 (constant S_ .f32 0x3F800000#32),
    unary main_cst_6 main_v42 (broadcastInDim S400000 ![] bcast_S_S400000 : (⟨S_, .f32⟩ : BufTy).Contents (Elt F) → (⟨S400000, .f32⟩ : BufTy).Contents (Elt F)),
    unary main_v40 main_v43 (Host.negf : (⟨S400000, .f32⟩ : BufTy).Contents (Elt F) → (⟨S400000, .f32⟩ : BufTy).Contents (Elt F)),
    unary main_v39 main_v44 (broadcastInDim S400000x1 ![0] bcast_S400000_S400000x1_0 : (⟨S400000, .f32⟩ : BufTy).Contents (Elt F) → (⟨S400000x1, .f32⟩ : BufTy).Contents (Elt F)),
    unary main_v43 main_v45 (broadcastInDim S400000x1 ![0] bcast_S400000_S400000x1_0 : (⟨S400000, .f32⟩ : BufTy).Contents (Elt F) → (⟨S400000x1, .f32⟩ : BufTy).Contents (Elt F)),
    unary main_v41 main_v46 (broadcastInDim S400000x1 ![0] bcast_S400000_S400000x1_0 : (⟨S400000, .f32⟩ : BufTy).Contents (Elt F) → (⟨S400000x1, .f32⟩ : BufTy).Contents (Elt F)),
    unary main_v40 main_v47 (broadcastInDim S400000x1 ![0] bcast_S400000_S400000x1_0 : (⟨S400000, .f32⟩ : BufTy).Contents (Elt F) → (⟨S400000x1, .f32⟩ : BufTy).Contents (Elt F)),
    unary main_v39 main_v48 (broadcastInDim S400000x1 ![0] bcast_S400000_S400000x1_0 : (⟨S400000, .f32⟩ : BufTy).Contents (Elt F) → (⟨S400000x1, .f32⟩ : BufTy).Contents (Elt F)),
    unary main_v41 main_v49 (broadcastInDim S400000x1 ![0] bcast_S400000_S400000x1_0 : (⟨S400000, .f32⟩ : BufTy).Contents (Elt F) → (⟨S400000x1, .f32⟩ : BufTy).Contents (Elt F)),
    unary main_v41 main_v50 (broadcastInDim S400000x1 ![0] bcast_S400000_S400000x1_0 : (⟨S400000, .f32⟩ : BufTy).Contents (Elt F) → (⟨S400000x1, .f32⟩ : BufTy).Contents (Elt F)),
    unary main_v41 main_v51 (broadcastInDim S400000x1 ![0] bcast_S400000_S400000x1_0 : (⟨S400000, .f32⟩ : BufTy).Contents (Elt F) → (⟨S400000x1, .f32⟩ : BufTy).Contents (Elt F)) ]

theorem ops0b_sub : (ops0b : List (HloOp τ sig (Elt F))).Forall fun op => op.bufs ⊆ tcRefs τ sig :=
  ⟨unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Window 0: its segments in order. -/
abbrev ops0 : List (HloOp τ sig (Elt F)) := ops0a ++ ops0b

end Cert.ReferenceIdeal.RefValue

end
-- ==== Proof.RefOps1.lean ====
/-
  Window 1 of the reference's @main (its statements as printed in main_part1) as lists of host operations:
  consecutive segments ops1a, ops1b, ops1c, ops1d, in program order; a call of a module-local function is the callee's
  operations over the call's own buffers. Each segment comes with the fact that its operations touch
  TensorCore references only.
-/
import proofs.«165471_j24206435680919_1_alg».proof.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- 3 operations. -/
abbrev ops1a : List (HloOp τ sig (Elt F)) :=
  [ unary main_v42 main_v52 (broadcastInDim S400000x1 ![0] bcast_S400000_S400000x1_0 : (⟨S400000, .f32⟩ : BufTy).Contents (Elt F) → (⟨S400000x1, .f32⟩ : BufTy).Contents (Elt F)),
    nary ![main_v44, main_v45, main_v46, main_v47, main_v48, main_v49, main_v50, main_v51, main_v52] main_v53 (fun u => concatenate S400000x9 1 [⟨S400000x1, u 0⟩, ⟨S400000x1, u 1⟩, ⟨S400000x1, u 2⟩, ⟨S400000x1, u 3⟩, ⟨S400000x1, u 4⟩, ⟨S400000x1, u 5⟩, ⟨S400000x1, u 6⟩, ⟨S400000x1, u 7⟩, ⟨S400000x1, u 8⟩] concatenates_S400000x1_S400000x1_S400000x1_S400000x1_S400000x1_S400000x1_S400000x1_S400000x1_S400000x1_S400000x9_d1),
    reshape main_v53 main_v54 rfl shapeCasts_S400000x9_S400000x3x3 ]

theorem ops1a_sub : (ops1a : List (HloOp τ sig (Elt F))).Forall fun op => op.bufs ⊆ tcRefs τ sig :=
  ⟨unary_bufs_sub .., nary_bufs_sub .., reshape_bufs_sub ..⟩

/-- 24 operations. -/
abbrev ops1b : List (HloOp τ sig (Elt F)) :=
  [ binary main_v54 main_v38 main_v55 ((fun l r => Host.dotGeneral dot_S400000x3x3_S400000x3x8_S400000x3x8_2_1_1_2_0_0 none l r) : (⟨S400000x3x3, .f32⟩ : BufTy).Contents (Elt F) → (⟨S400000x3x8, .f32⟩ : BufTy).Contents (Elt F) → (⟨S400000x3x8, .f32⟩ : BufTy).Contents (Elt F)),
    unary main_v1 main_v56 (broadcastInDim S400000x1 ![0] bcast_S400000_S400000x1_0 : (⟨S400000, .f32⟩ : BufTy).Contents (Elt F) → (⟨S400000x1, .f32⟩ : BufTy).Contents (Elt F)),
    unary main_v3 main_v57 (broadcastInDim S400000x1 ![0] bcast_S400000_S400000x1_0 : (⟨S400000, .f32⟩ : BufTy).Contents (Elt F) → (⟨S400000x1, .f32⟩ : BufTy).Contents (Elt F)),
    unary main_v5 main_v58 (broadcastInDim S400000x1 ![0] bcast_S400000_S400000x1_0 : (⟨S400000, .f32⟩ : BufTy).Contents (Elt F) → (⟨S400000x1, .f32⟩ : BufTy).Contents (Elt F)),
    nary ![main_v56, main_v57, main_v58] main_v59 (fun u => concatenate S400000x3 1 [⟨S400000x1, u 0⟩, ⟨S400000x1, u 1⟩, ⟨S400000x1, u 2⟩] concatenates_S400000x1_S400000x1_S400000x1_S400000x3_d1),
    unary main_v59 main_v60 (broadcastInDim S400000x3x1 ![0, 1] bcast_S400000x3_S400000x3x1_0_1 : (⟨S400000x3, .f32⟩ : BufTy).Contents (Elt F) → (⟨S400000x3x1, .f32⟩ : BufTy).Contents (Elt F)),
    unary main_v60 main_v61 (broadcastInDim S400000x3x8 ![0, 1, 2] bcast_S400000x3x1_S400000x3x8_0_1_2 : (⟨S400000x3x1, .f32⟩ : BufTy).Contents (Elt F) → (⟨S400000x3x8, .f32⟩ : BufTy).Contents (Elt F)),
    binary main_v55 main_v61 main_v62 (addf : (⟨S400000x3x8, .f32⟩ : BufTy).Contents (Elt F) → (⟨S400000x3x8, .f32⟩ : BufTy).Contents (Elt F) → (⟨S400000x3x8, .f32⟩ : BufTy).Contents (Elt F)),
    unary main_v62 main_v63 ((transpose S400000x8x3 [0, 2, 1] · transposes_S400000x3x8_S400000x8x3_0_2_1) : (⟨S400000x3x8, .f32⟩ : BufTy).Contents (Elt F) → (⟨S400000x8x3, .f32⟩ : BufTy).Contents (Elt F)),
    nullary main_cst_7 (constant S_ .f32 0x3F800000#32),
    unary main_cst_7 main_v64 (broadcastInDim S400000x8x1 ![] bcast_S_S400000x8x1 : (⟨S_, .f32⟩ : BufTy).Contents (Elt F) → (⟨S400000x8x1, .f32⟩ : BufTy).Contents (Elt F)),
    binary main_v63 main_v64 main_v65 ((fun a b => concatenate S400000x8x4 2 [⟨S400000x8x3, a⟩, ⟨S400000x8x1, b⟩] concatenates_S400000x8x3_S400000x8x1_S400000x8x4_d2) : (⟨S400000x8x3, .f32⟩ : BufTy).Contents (Elt F) → (⟨S400000x8x1, .f32⟩ : BufTy).Contents (Elt F) → (⟨S400000x8x4, .f32⟩ : BufTy).Contents (Elt F)),
    binary main_v65 main_arg2 main_v66 ((fun l r => Host.dotGeneral dot_S400000x8x4_S400000x4x4_S400000x8x4_2_2_1_1_0_0 none l r) : (⟨S400000x8x4, .f32⟩ : BufTy).Contents (Elt F) → (⟨S400000x4x4, .f32⟩ : BufTy).Contents (Elt F) → (⟨S400000x8x4, .f32⟩ : BufTy).Contents (Elt F)),
    unary main_v66 main_v67 ((extractStridedSlice S400000x8x1 ![0, 0, 2] · slices_S400000x8x4_S400000x8x1_0_0_2) : (⟨S400000x8x4, .f32⟩ : BufTy).Contents (Elt F) → (⟨S400000x8x1, .f32⟩ : BufTy).Contents (Elt F)),
    reshape main_v67 main_v68 rfl shapeCasts_S400000x8x1_S400000x8,
    nullary main_cst_8 (constant S_ .f32 0x3727C5AC#32),
    unary main_cst_8 main_v69 (broadcastInDim S400000x8 ![] bcast_S_S400000x8 : (⟨S_, .f32⟩ : BufTy).Contents (Elt F) → (⟨S400000x8, .f32⟩ : BufTy).Contents (Elt F)),
    binary main_v68 main_v69 main_v70 (maximumf : (⟨S400000x8, .f32⟩ : BufTy).Contents (Elt F) → (⟨S400000x8, .f32⟩ : BufTy).Contents (Elt F) → (⟨S400000x8, .f32⟩ : BufTy).Contents (Elt F)),
    unary main_v66 main_v71 ((extractStridedSlice S400000x8x1 ![0, 0, 0] · slices_S400000x8x4_S400000x8x1_0_0_0) : (⟨S400000x8x4, .f32⟩ : BufTy).Contents (Elt F) → (⟨S400000x8x1, .f32⟩ : BufTy).Contents (Elt F)),
    reshape main_v71 main_v72 rfl shapeCasts_S400000x8x1_S400000x8,
    binary main_v72 main_v70 main_v73 (Host.divf : (⟨S400000x8, .f32⟩ : BufTy).Contents (Elt F) → (⟨S400000x8, .f32⟩ : BufTy).Contents (Elt F) → (⟨S400000x8, .f32⟩ : BufTy).Contents (Elt F)),
    unary main_v66 main_v74 ((extractStridedSlice S400000x8x1 ![0, 0, 1] · slices_S400000x8x4_S400000x8x1_0_0_1) : (⟨S400000x8x4, .f32⟩ : BufTy).Contents (Elt F) → (⟨S400000x8x1, .f32⟩ : BufTy).Contents (Elt F)),
    reshape main_v74 main_v75 rfl shapeCasts_S400000x8x1_S400000x8,
    binary main_v75 main_v70 main_v76 (Host.divf : (⟨S400000x8, .f32⟩ : BufTy).Contents (Elt F) → (⟨S400000x8, .f32⟩ : BufTy).Contents (Elt F) → (⟨S400000x8, .f32⟩ : BufTy).Contents (Elt F)) ]

theorem ops1b_sub : (ops1b : List (HloOp τ sig (Elt F))).Forall fun op => op.bufs ⊆ tcRefs τ sig :=
  ⟨binary_bufs_sub .., unary_bufs_sub .., unary_bufs_sub .., unary_bufs_sub .., nary_bufs_sub .., unary_bufs_sub .., unary_bufs_sub .., binary_bufs_sub .., unary_bufs_sub .., nullary_bufs_sub .., unary_bufs_sub .., binary_bufs_sub .., binary_bufs_sub .., unary_bufs_sub .., reshape_bufs_sub .., nullary_bufs_sub .., unary_bufs_sub .., binary_bufs_sub .., unary_bufs_sub .., reshape_bufs_sub .., binary_bufs_sub .., unary_bufs_sub .., reshape_bufs_sub .., binary_bufs_sub ..⟩

/-- 37 operations. -/
abbrev ops1c : List (HloOp τ sig (Elt F)) :=
  [ unary main_arg3 main_v77 ((extractStridedSlice S400000x1 ![0, 0] · slices_S400000x2_S400000x1_0_0) : (⟨S400000x2, .f32⟩ : BufTy).Contents (Elt F) → (⟨S400000x1, .f32⟩ : BufTy).Contents (Elt F)),
    reshape main_v77 main_v78 rfl shapeCasts_S400000x1_S400000,
    unary main_arg3 main_v79 ((extractStridedSlice S400000x1 ![0, 1] · slices_S400000x2_S400000x1_0_1) : (⟨S400000x2, .f32⟩ : BufTy).Contents (Elt F) → (⟨S400000x1, .f32⟩ : BufTy).Contents (Elt F)),
    reshape main_v79 main_v80 rfl shapeCasts_S400000x1_S400000,
    nullary main_cst_9 (constant S_ .f32 0x7F800000#32),
    binary main_v73 main_cst_9 main_v81 ((fun x v => Host.reduce FloatOps.minimumf x v reducesTo_S400000x8_S400000_d1 h_S_) : (⟨S400000x8, .f32⟩ : BufTy).Contents (Elt F) → (⟨S_, .f32⟩ : BufTy).Contents (Elt F) → (⟨S400000, .f32⟩ : BufTy).Contents (Elt F)),
    nullary main_cst_10 (constant S_ .f32 0x00000000#32),
    unary main_cst_10 main_call0_v0 (id : (⟨S_, .f32⟩ : BufTy).Contents (Elt F) → (⟨S_, .f32⟩ : BufTy).Contents (Elt F)),
    unary main_call0_v0 main_call0_v1 (broadcastInDim S400000 ![] bcast_S_S400000 : (⟨S_, .f32⟩ : BufTy).Contents (Elt F) → (⟨S400000, .f32⟩ : BufTy).Contents (Elt F)),
    binary main_call0_v1 main_v81 main_call0_v2 (maximumf : (⟨S400000, .f32⟩ : BufTy).Contents (Elt F) → (⟨S400000, .f32⟩ : BufTy).Contents (Elt F) → (⟨S400000, .f32⟩ : BufTy).Contents (Elt F)),
    binary main_v80 main_call0_v2 main_v82 (minimumf : (⟨S400000, .f32⟩ : BufTy).Contents (Elt F) → (⟨S400000, .f32⟩ : BufTy).Contents (Elt F) → (⟨S400000, .f32⟩ : BufTy).Contents (Elt F)),
    nullary main_cst_11 (constant S_ .f32 0xFF800000#32),
    binary main_v73 main_cst_11 main_v83 ((fun x v => Host.reduce FloatOps.maximumf x v reducesTo_S400000x8_S400000_d1 h_S_) : (⟨S400000x8, .f32⟩ : BufTy).Contents (Elt F) → (⟨S_, .f32⟩ : BufTy).Contents (Elt F) → (⟨S400000, .f32⟩ : BufTy).Contents (Elt F)),
    nullary main_cst_12 (constant S_ .f32 0x00000000#32),
    unary main_cst_12 main_call1_v0 (id : (⟨S_, .f32⟩ : BufTy).Contents (Elt F) → (⟨S_, .f32⟩ : BufTy).Contents (Elt F)),
    unary main_call1_v0 main_call1_v1 (broadcastInDim S400000 ![] bcast_S_S400000 : (⟨S_, .f32⟩ : BufTy).Contents (Elt F) → (⟨S400000, .f32⟩ : BufTy).Contents (Elt F)),
    binary main_call1_v1 main_v83 main_call1_v2 (maximumf : (⟨S400000, .f32⟩ : BufTy).Contents (Elt F) → (⟨S400000, .f32⟩ : BufTy).Contents (Elt F) → (⟨S400000, .f32⟩ : BufTy).Contents (Elt F)),
    binary main_v80 main_call1_v2 main_v84 (minimumf : (⟨S400000, .f32⟩ : BufTy).Contents (Elt F) → (⟨S400000, .f32⟩ : BufTy).Contents (Elt F) → (⟨S400000, .f32⟩ : BufTy).Contents (Elt F)),
    nullary main_cst_13 (constant S_ .f32 0x7F800000#32),
    binary main_v76 main_cst_13 main_v85 ((fun x v => Host.reduce FloatOps.minimumf x v reducesTo_S400000x8_S400000_d1 h_S_) : (⟨S400000x8, .f32⟩ : BufTy).Contents (Elt F) → (⟨S_, .f32⟩ : BufTy).Contents (Elt F) → (⟨S400000, .f32⟩ : BufTy).Contents (Elt F)),
    nullary main_cst_14 (constant S_ .f32 0x00000000#32),
    unary main_cst_14 main_call2_v0 (id : (⟨S_, .f32⟩ : BufTy).Contents (Elt F) → (⟨S_, .f32⟩ : BufTy).Contents (Elt F)),
    unary main_call2_v0 main_call2_v1 (broadcastInDim S400000 ![] bcast_S_S400000 : (⟨S_, .f32⟩ : BufTy).Contents (Elt F) → (⟨S400000, .f32⟩ : BufTy).Contents (Elt F)),
    binary main_call2_v1 main_v85 main_call2_v2 (maximumf : (⟨S400000, .f32⟩ : BufTy).Contents (Elt F) → (⟨S400000, .f32⟩ : BufTy).Contents (Elt F) → (⟨S400000, .f32⟩ : BufTy).Contents (Elt F)),
    binary main_v78 main_call2_v2 main_v86 (minimumf : (⟨S400000, .f32⟩ : BufTy).Contents (Elt F) → (⟨S400000, .f32⟩ : BufTy).Contents (Elt F) → (⟨S400000, .f32⟩ : BufTy).Contents (Elt F)),
    nullary main_cst_15 (constant S_ .f32 0xFF800000#32),
    binary main_v76 main_cst_15 main_v87 ((fun x v => Host.reduce FloatOps.maximumf x v reducesTo_S400000x8_S400000_d1 h_S_) : (⟨S400000x8, .f32⟩ : BufTy).Contents (Elt F) → (⟨S_, .f32⟩ : BufTy).Contents (Elt F) → (⟨S400000, .f32⟩ : BufTy).Contents (Elt F)),
    nullary main_cst_16 (constant S_ .f32 0x00000000#32),
    unary main_cst_16 main_call3_v0 (id : (⟨S_, .f32⟩ : BufTy).Contents (Elt F) → (⟨S_, .f32⟩ : BufTy).Contents (Elt F)),
    unary main_call3_v0 main_call3_v1 (broadcastInDim S400000 ![] bcast_S_S400000 : (⟨S_, .f32⟩ : BufTy).Contents (Elt F) → (⟨S400000, .f32⟩ : BufTy).Contents (Elt F)),
    binary main_call3_v1 main_v87 main_call3_v2 (maximumf : (⟨S400000, .f32⟩ : BufTy).Contents (Elt F) → (⟨S400000, .f32⟩ : BufTy).Contents (Elt F) → (⟨S400000, .f32⟩ : BufTy).Contents (Elt F)),
    binary main_v78 main_call3_v2 main_v88 (minimumf : (⟨S400000, .f32⟩ : BufTy).Contents (Elt F) → (⟨S400000, .f32⟩ : BufTy).Contents (Elt F) → (⟨S400000, .f32⟩ : BufTy).Contents (Elt F)),
    unary main_v82 main_v89 (broadcastInDim S400000x1 ![0] bcast_S400000_S400000x1_0 : (⟨S400000, .f32⟩ : BufTy).Contents (Elt F) → (⟨S400000x1, .f32⟩ : BufTy).Contents (Elt F)),
    unary main_v86 main_v90 (broadcastInDim S400000x1 ![0] bcast_S400000_S400000x1_0 : (⟨S400000, .f32⟩ : BufTy).Contents (Elt F) → (⟨S400000x1, .f32⟩ : BufTy).Contents (Elt F)),
    unary main_v84 main_v91 (broadcastInDim S400000x1 ![0] bcast_S400000_S400000x1_0 : (⟨S400000, .f32⟩ : BufTy).Contents (Elt F) → (⟨S400000x1, .f32⟩ : BufTy).Contents (Elt F)),
    unary main_v88 main_v92 (broadcastInDim S400000x1 ![0] bcast_S400000_S400000x1_0 : (⟨S400000, .f32⟩ : BufTy).Contents (Elt F) → (⟨S400000x1, .f32⟩ : BufTy).Contents (Elt F)),
    nary ![main_v89, main_v90, main_v91, main_v92] main_v93 (fun u => concatenate S400000x4 1 [⟨S400000x1, u 0⟩, ⟨S400000x1, u 1⟩, ⟨S400000x1, u 2⟩, ⟨S400000x1, u 3⟩] concatenates_S400000x1_S400000x1_S400000x1_S400000x1_S400000x4_d1) ]

theorem ops1c_sub : (ops1c : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., unary_bufs_sub .., binary_bufs_sub .., binary_bufs_sub .., nullary_bufs_sub .., binary_bufs_sub .., nullary_bufs_sub .., unary_bufs_sub .., unary_bufs_sub .., binary_bufs_sub .., binary_bufs_sub .., nullary_bufs_sub .., binary_bufs_sub .., nullary_bufs_sub .., unary_bufs_sub .., unary_bufs_sub .., binary_bufs_sub .., binary_bufs_sub .., nullary_bufs_sub .., binary_bufs_sub .., nullary_bufs_sub .., unary_bufs_sub .., unary_bufs_sub .., binary_bufs_sub .., binary_bufs_sub .., unary_bufs_sub .., unary_bufs_sub .., unary_bufs_sub .., unary_bufs_sub .., nary_bufs_sub ..⟩

/-- 8 operations. -/
abbrev ops1d : List (HloOp τ sig (Elt F)) :=
  [ unary main_v93 main_v94 ((extractStridedSlice S400000x1 ![0, 0] · slices_S400000x4_S400000x1_0_0) : (⟨S400000x4, .f32⟩ : BufTy).Contents (Elt F) → (⟨S400000x1, .f32⟩ : BufTy).Contents (Elt F)),
    reshape main_v94 main_v95 rfl shapeCasts_S400000x1_S400000,
    unary main_arg1 main_v96 ((extractStridedSlice S400000x1 ![0, 0] · slices_S400000x4_S400000x1_0_0) : (⟨S400000x4, .f32⟩ : BufTy).Contents (Elt F) → (⟨S400000x1, .f32⟩ : BufTy).Contents (Elt F)),
    reshape main_v96 main_v97 rfl shapeCasts_S400000x1_S400000,
    binary main_v95 main_v97 main_v98 (maximumf : (⟨S400000, .f32⟩ : BufTy).Contents (Elt F) → (⟨S400000, .f32⟩ : BufTy).Contents (Elt F) → (⟨S400000, .f32⟩ : BufTy).Contents (Elt F)),
    unary main_v93 main_v99 ((extractStridedSlice S400000x1 ![0, 1] · slices_S400000x4_S400000x1_0_1) : (⟨S400000x4, .f32⟩ : BufTy).Contents (Elt F) → (⟨S400000x1, .f32⟩ : BufTy).Contents (Elt F)),
    reshape main_v99 main_v100 rfl shapeCasts_S400000x1_S400000,
    unary main_arg1 main_v101 ((extractStridedSlice S400000x1 ![0, 1] · slices_S400000x4_S400000x1_0_1) : (⟨S400000x4, .f32⟩ : BufTy).Contents (Elt F) → (⟨S400000x1, .f32⟩ : BufTy).Contents (Elt F)) ]

theorem ops1d_sub : (ops1d : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub ..⟩

/-- Window 1: its segments in order. -/
abbrev ops1 : List (HloOp τ sig (Elt F)) := ops1a ++ ops1b ++ ops1c ++ ops1d

end Cert.ReferenceIdeal.RefValue

end
-- ==== Proof.RefOps2.lean ====
/-
  Window 2 of the reference's @main (its statements as printed in main_part2) as lists of host operations:
  consecutive segments ops2a, ops2b, in program order; a call of a module-local function is the callee's
  operations over the call's own buffers. Each segment comes with the fact that its operations touch
  TensorCore references only.
-/
import proofs.«165471_j24206435680919_1_alg».proof.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- 49 operations. -/
abbrev ops2a : List (HloOp τ sig (Elt F)) :=
  [ reshape main_v101 main_v102 rfl shapeCasts_S400000x1_S400000,
    binary main_v100 main_v102 main_v103 (maximumf : (⟨S400000, .f32⟩ : BufTy).Contents (Elt F) → (⟨S400000, .f32⟩ : BufTy).Contents (Elt F) → (⟨S400000, .f32⟩ : BufTy).Contents (Elt F)),
    unary main_v93 main_v104 ((extractStridedSlice S400000x1 ![0, 2] · slices_S400000x4_S400000x1_0_2) : (⟨S400000x4, .f32⟩ : BufTy).Contents (Elt F) → (⟨S400000x1, .f32⟩ : BufTy).Contents (Elt F)),
    reshape main_v104 main_v105 rfl shapeCasts_S400000x1_S400000,
    unary main_arg1 main_v106 ((extractStridedSlice S400000x1 ![0, 2] · slices_S400000x4_S400000x1_0_2) : (⟨S400000x4, .f32⟩ : BufTy).Contents (Elt F) → (⟨S400000x1, .f32⟩ : BufTy).Contents (Elt F)),
    reshape main_v106 main_v107 rfl shapeCasts_S400000x1_S400000,
    binary main_v105 main_v107 main_v108 (minimumf : (⟨S400000, .f32⟩ : BufTy).Contents (Elt F) → (⟨S400000, .f32⟩ : BufTy).Contents (Elt F) → (⟨S400000, .f32⟩ : BufTy).Contents (Elt F)),
    unary main_v93 main_v109 ((extractStridedSlice S400000x1 ![0, 3] · slices_S400000x4_S400000x1_0_3) : (⟨S400000x4, .f32⟩ : BufTy).Contents (Elt F) → (⟨S400000x1, .f32⟩ : BufTy).Contents (Elt F)),
    reshape main_v109 main_v110 rfl shapeCasts_S400000x1_S400000,
    unary main_arg1 main_v111 ((extractStridedSlice S400000x1 ![0, 3] · slices_S400000x4_S400000x1_0_3) : (⟨S400000x4, .f32⟩ : BufTy).Contents (Elt F) → (⟨S400000x1, .f32⟩ : BufTy).Contents (Elt F)),
    reshape main_v111 main_v112 rfl shapeCasts_S400000x1_S400000,
    binary main_v110 main_v112 main_v113 (minimumf : (⟨S400000, .f32⟩ : BufTy).Contents (Elt F) → (⟨S400000, .f32⟩ : BufTy).Contents (Elt F) → (⟨S400000, .f32⟩ : BufTy).Contents (Elt F)),
    binary main_v108 main_v98 main_v114 (subf : (⟨S400000, .f32⟩ : BufTy).Contents (Elt F) → (⟨S400000, .f32⟩ : BufTy).Contents (Elt F) → (⟨S400000, .f32⟩ : BufTy).Contents (Elt F)),
    nullary main_cst_17 (constant S_ .f32 0x00000000#32),
    unary main_cst_17 main_v115 (broadcastInDim S400000 ![] bcast_S_S400000 : (⟨S_, .f32⟩ : BufTy).Contents (Elt F) → (⟨S400000, .f32⟩ : BufTy).Contents (Elt F)),
    binary main_v114 main_v115 main_v116 (maximumf : (⟨S400000, .f32⟩ : BufTy).Contents (Elt F) → (⟨S400000, .f32⟩ : BufTy).Contents (Elt F) → (⟨S400000, .f32⟩ : BufTy).Contents (Elt F)),
    binary main_v113 main_v103 main_v117 (subf : (⟨S400000, .f32⟩ : BufTy).Contents (Elt F) → (⟨S400000, .f32⟩ : BufTy).Contents (Elt F) → (⟨S400000, .f32⟩ : BufTy).Contents (Elt F)),
    nullary main_cst_18 (constant S_ .f32 0x00000000#32),
    unary main_cst_18 main_v118 (broadcastInDim S400000 ![] bcast_S_S400000 : (⟨S_, .f32⟩ : BufTy).Contents (Elt F) → (⟨S400000, .f32⟩ : BufTy).Contents (Elt F)),
    binary main_v117 main_v118 main_v119 (maximumf : (⟨S400000, .f32⟩ : BufTy).Contents (Elt F) → (⟨S400000, .f32⟩ : BufTy).Contents (Elt F) → (⟨S400000, .f32⟩ : BufTy).Contents (Elt F)),
    binary main_v116 main_v119 main_v120 (mulf : (⟨S400000, .f32⟩ : BufTy).Contents (Elt F) → (⟨S400000, .f32⟩ : BufTy).Contents (Elt F) → (⟨S400000, .f32⟩ : BufTy).Contents (Elt F)),
    unary main_v93 main_v121 ((extractStridedSlice S400000x1 ![0, 2] · slices_S400000x4_S400000x1_0_2) : (⟨S400000x4, .f32⟩ : BufTy).Contents (Elt F) → (⟨S400000x1, .f32⟩ : BufTy).Contents (Elt F)),
    reshape main_v121 main_v122 rfl shapeCasts_S400000x1_S400000,
    unary main_v93 main_v123 ((extractStridedSlice S400000x1 ![0, 0] · slices_S400000x4_S400000x1_0_0) : (⟨S400000x4, .f32⟩ : BufTy).Contents (Elt F) → (⟨S400000x1, .f32⟩ : BufTy).Contents (Elt F)),
    reshape main_v123 main_v124 rfl shapeCasts_S400000x1_S400000,
    binary main_v122 main_v124 main_v125 (subf : (⟨S400000, .f32⟩ : BufTy).Contents (Elt F) → (⟨S400000, .f32⟩ : BufTy).Contents (Elt F) → (⟨S400000, .f32⟩ : BufTy).Contents (Elt F)),
    unary main_v93 main_v126 ((extractStridedSlice S400000x1 ![0, 3] · slices_S400000x4_S400000x1_0_3) : (⟨S400000x4, .f32⟩ : BufTy).Contents (Elt F) → (⟨S400000x1, .f32⟩ : BufTy).Contents (Elt F)),
    reshape main_v126 main_v127 rfl shapeCasts_S400000x1_S400000,
    unary main_v93 main_v128 ((extractStridedSlice S400000x1 ![0, 1] · slices_S400000x4_S400000x1_0_1) : (⟨S400000x4, .f32⟩ : BufTy).Contents (Elt F) → (⟨S400000x1, .f32⟩ : BufTy).Contents (Elt F)),
    reshape main_v128 main_v129 rfl shapeCasts_S400000x1_S400000,
    binary main_v127 main_v129 main_v130 (subf : (⟨S400000, .f32⟩ : BufTy).Contents (Elt F) → (⟨S400000, .f32⟩ : BufTy).Contents (Elt F) → (⟨S400000, .f32⟩ : BufTy).Contents (Elt F)),
    binary main_v125 main_v130 main_v131 (mulf : (⟨S400000, .f32⟩ : BufTy).Contents (Elt F) → (⟨S400000, .f32⟩ : BufTy).Contents (Elt F) → (⟨S400000, .f32⟩ : BufTy).Contents (Elt F)),
    unary main_arg1 main_v132 ((extractStridedSlice S400000x1 ![0, 2] · slices_S400000x4_S400000x1_0_2) : (⟨S400000x4, .f32⟩ : BufTy).Contents (Elt F) → (⟨S400000x1, .f32⟩ : BufTy).Contents (Elt F)),
    reshape main_v132 main_v133 rfl shapeCasts_S400000x1_S400000,
    unary main_arg1 main_v134 ((extractStridedSlice S400000x1 ![0, 0] · slices_S400000x4_S400000x1_0_0) : (⟨S400000x4, .f32⟩ : BufTy).Contents (Elt F) → (⟨S400000x1, .f32⟩ : BufTy).Contents (Elt F)),
    reshape main_v134 main_v135 rfl shapeCasts_S400000x1_S400000,
    binary main_v133 main_v135 main_v136 (subf : (⟨S400000, .f32⟩ : BufTy).Contents (Elt F) → (⟨S400000, .f32⟩ : BufTy).Contents (Elt F) → (⟨S400000, .f32⟩ : BufTy).Contents (Elt F)),
    unary main_arg1 main_v137 ((extractStridedSlice S400000x1 ![0, 3] · slices_S400000x4_S400000x1_0_3) : (⟨S400000x4, .f32⟩ : BufTy).Contents (Elt F) → (⟨S400000x1, .f32⟩ : BufTy).Contents (Elt F)),
    reshape main_v137 main_v138 rfl shapeCasts_S400000x1_S400000,
    unary main_arg1 main_v139 ((extractStridedSlice S400000x1 ![0, 1] · slices_S400000x4_S400000x1_0_1) : (⟨S400000x4, .f32⟩ : BufTy).Contents (Elt F) → (⟨S400000x1, .f32⟩ : BufTy).Contents (Elt F)),
    reshape main_v139 main_v140 rfl shapeCasts_S400000x1_S400000,
    binary main_v138 main_v140 main_v141 (subf : (⟨S400000, .f32⟩ : BufTy).Contents (Elt F) → (⟨S400000, .f32⟩ : BufTy).Contents (Elt F) → (⟨S400000, .f32⟩ : BufTy).Contents (Elt F)),
    binary main_v136 main_v141 main_v142 (mulf : (⟨S400000, .f32⟩ : BufTy).Contents (Elt F) → (⟨S400000, .f32⟩ : BufTy).Contents (Elt F) → (⟨S400000, .f32⟩ : BufTy).Contents (Elt F)),
    binary main_v131 main_v142 main_v143 (addf : (⟨S400000, .f32⟩ : BufTy).Contents (Elt F) → (⟨S400000, .f32⟩ : BufTy).Contents (Elt F) → (⟨S400000, .f32⟩ : BufTy).Contents (Elt F)),
    binary main_v143 main_v120 main_v144 (subf : (⟨S400000, .f32⟩ : BufTy).Contents (Elt F) → (⟨S400000, .f32⟩ : BufTy).Contents (Elt F) → (⟨S400000, .f32⟩ : BufTy).Contents (Elt F)),
    nullary main_cst_19 (constant S_ .f32 0x33D6BF95#32),
    unary main_cst_19 main_v145 (broadcastInDim S400000 ![] bcast_S_S400000 : (⟨S_, .f32⟩ : BufTy).Contents (Elt F) → (⟨S400000, .f32⟩ : BufTy).Contents (Elt F)),
    binary main_v144 main_v145 main_v146 (addf : (⟨S400000, .f32⟩ : BufTy).Contents (Elt F) → (⟨S400000, .f32⟩ : BufTy).Contents (Elt F) → (⟨S400000, .f32⟩ : BufTy).Contents (Elt F)),
    binary main_v120 main_v146 main_v147 (Host.divf : (⟨S400000, .f32⟩ : BufTy).Contents (Elt F) → (⟨S400000, .f32⟩ : BufTy).Contents (Elt F) → (⟨S400000, .f32⟩ : BufTy).Contents (Elt F)) ]

theorem ops2a_sub : (ops2a : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., nullary_bufs_sub .., unary_bufs_sub .., binary_bufs_sub .., binary_bufs_sub ..⟩

/-- 11 operations. -/
abbrev ops2b : List (HloOp τ sig (Elt F)) :=
  [ unary main_v93 main_v148 ((extractStridedSlice S400000x1 ![0, 0] · slices_S400000x4_S400000x1_0_0) : (⟨S400000x4, .f32⟩ : BufTy).Contents (Elt F) → (⟨S400000x1, .f32⟩ : BufTy).Contents (Elt F)),
    reshape main_v148 main_v149 rfl shapeCasts_S400000x1_S400000,
    unary main_arg1 main_v150 ((extractStridedSlice S400000x1 ![0, 0] · slices_S400000x4_S400000x1_0_0) : (⟨S400000x4, .f32⟩ : BufTy).Contents (Elt F) → (⟨S400000x1, .f32⟩ : BufTy).Contents (Elt F)),
    reshape main_v150 main_v151 rfl shapeCasts_S400000x1_S400000,
    binary main_v149 main_v151 main_v152 (minimumf : (⟨S400000, .f32⟩ : BufTy).Contents (Elt F) → (⟨S400000, .f32⟩ : BufTy).Contents (Elt F) → (⟨S400000, .f32⟩ : BufTy).Contents (Elt F)),
    unary main_v93 main_v153 ((extractStridedSlice S400000x1 ![0, 1] · slices_S400000x4_S400000x1_0_1) : (⟨S400000x4, .f32⟩ : BufTy).Contents (Elt F) → (⟨S400000x1, .f32⟩ : BufTy).Contents (Elt F)),
    reshape main_v153 main_v154 rfl shapeCasts_S400000x1_S400000,
    unary main_arg1 main_v155 ((extractStridedSlice S400000x1 ![0, 1] · slices_S400000x4_S400000x1_0_1) : (⟨S400000x4, .f32⟩ : BufTy).Contents (Elt F) → (⟨S400000x1, .f32⟩ : BufTy).Contents (Elt F)),
    reshape main_v155 main_v156 rfl shapeCasts_S400000x1_S400000,
    binary main_v154 main_v156 main_v157 (minimumf : (⟨S400000, .f32⟩ : BufTy).Contents (Elt F) → (⟨S400000, .f32⟩ : BufTy).Contents (Elt F) → (⟨S400000, .f32⟩ : BufTy).Contents (Elt F)),
    unary main_v93 main_v158 ((extractStridedSlice S400000x1 ![0, 2] · slices_S400000x4_S400000x1_0_2) : (⟨S400000x4, .f32⟩ : BufTy).Contents (Elt F) → (⟨S400000x1, .f32⟩ : BufTy).Contents (Elt F)) ]

theorem ops2b_sub : (ops2b : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., unary_bufs_sub ..⟩

/-- Window 2: its segments in order. -/
abbrev ops2 : List (HloOp τ sig (Elt F)) := ops2a ++ ops2b

end Cert.ReferenceIdeal.RefValue

end
-- ==== Proof.RefOps3.lean ====
/-
  Window 3 of the reference's @main (its statements as printed in main_part3) as lists of host operations:
  consecutive segments ops3a, ops3b, in program order; a call of a module-local function is the callee's
  operations over the call's own buffers. Each segment comes with the fact that its operations touch
  TensorCore references only.
-/
import proofs.«165471_j24206435680919_1_alg».proof.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- 27 operations. -/
abbrev ops3a : List (HloOp τ sig (Elt F)) :=
  [ reshape main_v158 main_v159 rfl shapeCasts_S400000x1_S400000,
    unary main_arg1 main_v160 ((extractStridedSlice S400000x1 ![0, 2] · slices_S400000x4_S400000x1_0_2) : (⟨S400000x4, .f32⟩ : BufTy).Contents (Elt F) → (⟨S400000x1, .f32⟩ : BufTy).Contents (Elt F)),
    reshape main_v160 main_v161 rfl shapeCasts_S400000x1_S400000,
    binary main_v159 main_v161 main_v162 (maximumf : (⟨S400000, .f32⟩ : BufTy).Contents (Elt F) → (⟨S400000, .f32⟩ : BufTy).Contents (Elt F) → (⟨S400000, .f32⟩ : BufTy).Contents (Elt F)),
    unary main_v93 main_v163 ((extractStridedSlice S400000x1 ![0, 3] · slices_S400000x4_S400000x1_0_3) : (⟨S400000x4, .f32⟩ : BufTy).Contents (Elt F) → (⟨S400000x1, .f32⟩ : BufTy).Contents (Elt F)),
    reshape main_v163 main_v164 rfl shapeCasts_S400000x1_S400000,
    unary main_arg1 main_v165 ((extractStridedSlice S400000x1 ![0, 3] · slices_S400000x4_S400000x1_0_3) : (⟨S400000x4, .f32⟩ : BufTy).Contents (Elt F) → (⟨S400000x1, .f32⟩ : BufTy).Contents (Elt F)),
    reshape main_v165 main_v166 rfl shapeCasts_S400000x1_S400000,
    binary main_v164 main_v166 main_v167 (maximumf : (⟨S400000, .f32⟩ : BufTy).Contents (Elt F) → (⟨S400000, .f32⟩ : BufTy).Contents (Elt F) → (⟨S400000, .f32⟩ : BufTy).Contents (Elt F)),
    binary main_v162 main_v152 main_v168 (subf : (⟨S400000, .f32⟩ : BufTy).Contents (Elt F) → (⟨S400000, .f32⟩ : BufTy).Contents (Elt F) → (⟨S400000, .f32⟩ : BufTy).Contents (Elt F)),
    nullary main_cst_20 (constant S_ .f32 0x00000000#32),
    unary main_cst_20 main_v169 (broadcastInDim S400000 ![] bcast_S_S400000 : (⟨S_, .f32⟩ : BufTy).Contents (Elt F) → (⟨S400000, .f32⟩ : BufTy).Contents (Elt F)),
    binary main_v168 main_v169 main_v170 (maximumf : (⟨S400000, .f32⟩ : BufTy).Contents (Elt F) → (⟨S400000, .f32⟩ : BufTy).Contents (Elt F) → (⟨S400000, .f32⟩ : BufTy).Contents (Elt F)),
    binary main_v167 main_v157 main_v171 (subf : (⟨S400000, .f32⟩ : BufTy).Contents (Elt F) → (⟨S400000, .f32⟩ : BufTy).Contents (Elt F) → (⟨S400000, .f32⟩ : BufTy).Contents (Elt F)),
    nullary main_cst_21 (constant S_ .f32 0x00000000#32),
    unary main_cst_21 main_v172 (broadcastInDim S400000 ![] bcast_S_S400000 : (⟨S_, .f32⟩ : BufTy).Contents (Elt F) → (⟨S400000, .f32⟩ : BufTy).Contents (Elt F)),
    binary main_v171 main_v172 main_v173 (maximumf : (⟨S400000, .f32⟩ : BufTy).Contents (Elt F) → (⟨S400000, .f32⟩ : BufTy).Contents (Elt F) → (⟨S400000, .f32⟩ : BufTy).Contents (Elt F)),
    binary main_v170 main_v173 main_v174 (mulf : (⟨S400000, .f32⟩ : BufTy).Contents (Elt F) → (⟨S400000, .f32⟩ : BufTy).Contents (Elt F) → (⟨S400000, .f32⟩ : BufTy).Contents (Elt F)),
    nullary main_cst_22 (constant S_ .f32 0x33D6BF95#32),
    unary main_cst_22 main_v175 (broadcastInDim S400000 ![] bcast_S_S400000 : (⟨S_, .f32⟩ : BufTy).Contents (Elt F) → (⟨S400000, .f32⟩ : BufTy).Contents (Elt F)),
    binary main_v174 main_v175 main_v176 (addf : (⟨S400000, .f32⟩ : BufTy).Contents (Elt F) → (⟨S400000, .f32⟩ : BufTy).Contents (Elt F) → (⟨S400000, .f32⟩ : BufTy).Contents (Elt F)),
    binary main_v176 main_v146 main_v177 (subf : (⟨S400000, .f32⟩ : BufTy).Contents (Elt F) → (⟨S400000, .f32⟩ : BufTy).Contents (Elt F) → (⟨S400000, .f32⟩ : BufTy).Contents (Elt F)),
    binary main_v177 main_v176 main_v178 (Host.divf : (⟨S400000, .f32⟩ : BufTy).Contents (Elt F) → (⟨S400000, .f32⟩ : BufTy).Contents (Elt F) → (⟨S400000, .f32⟩ : BufTy).Contents (Elt F)),
    binary main_v147 main_v178 main_v179 (subf : (⟨S400000, .f32⟩ : BufTy).Contents (Elt F) → (⟨S400000, .f32⟩ : BufTy).Contents (Elt F) → (⟨S400000, .f32⟩ : BufTy).Contents (Elt F)),
    nullary main_cst_23 (constant S_ .f32 0x3F800000#32),
    unary main_cst_23 main_v180 (broadcastInDim S400000 ![] bcast_S_S400000 : (⟨S_, .f32⟩ : BufTy).Contents (Elt F) → (⟨S400000, .f32⟩ : BufTy).Contents (Elt F)),
    binary main_v180 main_v179 main_v181 (subf : (⟨S400000, .f32⟩ : BufTy).Contents (Elt F) → (⟨S400000, .f32⟩ : BufTy).Contents (Elt F) → (⟨S400000, .f32⟩ : BufTy).Contents (Elt F)) ]

theorem ops3a_sub : (ops3a : List (HloOp τ sig (Elt F))).Forall fun op => op.bufs ⊆ tcRefs τ sig :=
  ⟨reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

/-- 29 operations. -/
abbrev ops3b : List (HloOp τ sig (Elt F)) :=
  [ nullary main_cst_24 (constant S_ .f32 0x00000000#32),
    unary main_cst_24 main_v182 (broadcastInDim S80000 ![] bcast_S_S80000 : (⟨S_, .f32⟩ : BufTy).Contents (Elt F) → (⟨S80000, .f32⟩ : BufTy).Contents (Elt F)),
    unary main_arg4 main_v183 (broadcastInDim S400000x1 ![0] bcast_S400000_S400000x1_0 : (⟨S400000, .i32⟩ : BufTy).Contents (Elt F) → (⟨S400000x1, .i32⟩ : BufTy).Contents (Elt F)),
    ternary main_v182 main_v183 main_v181 main_v184 ((fun x i u => Host.scatterAdd scatter_S80000_S400000x1_S400000_n_0_0_1 x i u) : (⟨S80000, .f32⟩ : BufTy).Contents (Elt F) → (⟨S400000x1, .i32⟩ : BufTy).Contents (Elt F) → (⟨S400000, .f32⟩ : BufTy).Contents (Elt F) → (⟨S80000, .f32⟩ : BufTy).Contents (Elt F)),
    nullary main_cst_25 (constant S_ .f32 0x3F800000#32),
    unary main_cst_25 main_v185 (broadcastInDim S400000 ![] bcast_S_S400000 : (⟨S_, .f32⟩ : BufTy).Contents (Elt F) → (⟨S400000, .f32⟩ : BufTy).Contents (Elt F)),
    nullary main_cst_26 (constant S_ .f32 0x00000000#32),
    unary main_cst_26 main_v186 (broadcastInDim S80000 ![] bcast_S_S80000 : (⟨S_, .f32⟩ : BufTy).Contents (Elt F) → (⟨S80000, .f32⟩ : BufTy).Contents (Elt F)),
    unary main_arg4 main_v187 (broadcastInDim S400000x1 ![0] bcast_S400000_S400000x1_0 : (⟨S400000, .i32⟩ : BufTy).Contents (Elt F) → (⟨S400000x1, .i32⟩ : BufTy).Contents (Elt F)),
    ternary main_v186 main_v187 main_v185 main_v188 ((fun x i u => Host.scatterAdd scatter_S80000_S400000x1_S400000_n_0_0_1 x i u) : (⟨S80000, .f32⟩ : BufTy).Contents (Elt F) → (⟨S400000x1, .i32⟩ : BufTy).Contents (Elt F) → (⟨S400000, .f32⟩ : BufTy).Contents (Elt F) → (⟨S80000, .f32⟩ : BufTy).Contents (Elt F)),
    nullary main_cst_27 (constant S_ .f32 0x3F800000#32),
    unary main_cst_27 main_v189 (broadcastInDim S80000 ![] bcast_S_S80000 : (⟨S_, .f32⟩ : BufTy).Contents (Elt F) → (⟨S80000, .f32⟩ : BufTy).Contents (Elt F)),
    binary main_v188 main_v189 main_v190 (maximumf : (⟨S80000, .f32⟩ : BufTy).Contents (Elt F) → (⟨S80000, .f32⟩ : BufTy).Contents (Elt F) → (⟨S80000, .f32⟩ : BufTy).Contents (Elt F)),
    binary main_v184 main_v190 main_v191 (Host.divf : (⟨S80000, .f32⟩ : BufTy).Contents (Elt F) → (⟨S80000, .f32⟩ : BufTy).Contents (Elt F) → (⟨S80000, .f32⟩ : BufTy).Contents (Elt F)),
    nullary main_cst_28 (constant S_ .f32 0x00000000#32),
    unary main_cst_28 main_v192 (broadcastInDim S80000 ![] bcast_S_S80000 : (⟨S_, .f32⟩ : BufTy).Contents (Elt F) → (⟨S80000, .f32⟩ : BufTy).Contents (Elt F)),
    binary main_v188 main_v192 main_v193 (cmpf .ogt : (⟨S80000, .f32⟩ : BufTy).Contents (Elt F) → (⟨S80000, .f32⟩ : BufTy).Contents (Elt F) → (⟨S80000, .i1⟩ : BufTy).Contents (Elt F)),
    nullary main_cst_29 (constant S_ .f32 0x00000000#32),
    TRef.unary (.of main_cst_29) main_call4.v0 id,
    TRef.unary main_call4.v0 main_call4.v1 (broadcastInDim S80000 ![] bcast_S_S80000),
    TRef.ternary (.of main_v193) (.of main_v191) main_call4.v1 main_call4.v2 select,
    nullary main_cst_30 (constant S_ .f32 0x00000000#32),
    binary main_v194 main_cst_30 main_v195 ((fun x v => Host.reduceAdd x v reducesTo_S80000_S_d0 h_S_) : (⟨S80000, .f32⟩ : BufTy).Contents (Elt F) → (⟨S_, .f32⟩ : BufTy).Contents (Elt F) → (⟨S_, .f32⟩ : BufTy).Contents (Elt F)),
    unary main_v193 main_v196 (uitofp .f32 : (⟨S80000, .i1⟩ : BufTy).Contents (Elt F) → (⟨S80000, .f32⟩ : BufTy).Contents (Elt F)),
    nullary main_cst_31 (constant S_ .f32 0x00000000#32),
    binary main_v196 main_cst_31 main_v197 ((fun x v => Host.reduceAdd x v reducesTo_S80000_S_d0 h_S_) : (⟨S80000, .f32⟩ : BufTy).Contents (Elt F) → (⟨S_, .f32⟩ : BufTy).Contents (Elt F) → (⟨S_, .f32⟩ : BufTy).Contents (Elt F)),
    binary main_v195 main_v197 main_v198 (Host.divf : (⟨S_, .f32⟩ : BufTy).Contents (Elt F) → (⟨S_, .f32⟩ : BufTy).Contents (Elt F) → (⟨S_, .f32⟩ : BufTy).Contents (Elt F)),
    nullary main_cst_32 (constant S_ .f32 0x3F800000#32),
    binary main_cst_32 main_v198 main_v199 (mulf : (⟨S_, .f32⟩ : BufTy).Contents (Elt F) → (⟨S_, .f32⟩ : BufTy).Contents (Elt F) → (⟨S_, .f32⟩ : BufTy).Contents (Elt F)) ]

theorem ops3b_sub : (ops3b : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., binary_bufs_sub .., nullary_bufs_sub .., binary_bufs_sub ..⟩

/-- Window 3: its segments in order. -/
abbrev ops3 : List (HloOp τ sig (Elt F)) := ops3a ++ ops3b

end Cert.ReferenceIdeal.RefValue

end
-- ==== Proof.RefEvalLib.lean ====
/-
  Reading a buffer after a line of host operations: two general facts used by the evaluation of the reference.
  The fold over two lists appended is the fold over the second after the fold over the first; and an operation
  over a LITERAL family of three or nine operand references (a concatenation of three or nine arrays) leaves its
  result at the function of the operands' contents each AT ITS OWN REFERENCE, so that the contents can be rewritten
  further, operand by operand.
-/
import Idealize.ShloMosaic.Lib.StableHlo.Run

noncomputable section

namespace Cert.ReferenceIdeal.RefValue

open Idealize.ShloMosaic Idealize.ShloMosaic.TcCoe Idealize.SL.Sem Idealize.ShloMosaic.StableHlo

variable {τ : Topo} {sig : RefSig} {Val : EltTy → Type}

/-- The fold over two lines appended: the second line's fold from where the first line's ends. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- Four lines appended, run as one, are the four run in order. -/
theorem seq_append4 {nD : Nat} {Λ : Labels} (l₀ l₁ l₂ l₃ : List (HloOp τ sig Val)) :
    (seq (l₀ ++ (l₁ ++ (l₂ ++ l₃))) : Prog (TpuEff nD τ sig Val Λ .tc) PUnit)
      = seq l₀ >>= fun _ => seq l₁ >>= fun _ => seq l₂ >>= fun _ => seq l₃ := by
  rw [seq_append, seq_append, seq_append]

variable {x0 x1 x2 x3 x4 x5 x6 x7 x8 y : Ref sig .tc}

/-- An operation over a literal family of three operand references: its result with each operand's contents at
    its own reference. -/
theorem nary3_result'
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (no_index (Proc.devRef .tc y))
      = f (Fin.cons (V (Proc.devRef .tc x0)) (Fin.cons (V (Proc.devRef .tc x1)) (Fin.cons (V (Proc.devRef .tc x2)) (fun i => i.elim0)))) := by
  rw [nary_result]; congr 1; funext k; fin_cases k <;> rfl

/-- An operation over a literal family of nine operand references: its result with each operand's contents at
    its own reference. -/
theorem nary9_result'
    (f : ((k : Fin 9) → ((![x0, x1, x2, x3, x4, x5, x6, x7, x8] : Fin 9 → Ref sig .tc) k).ty.Contents Val) → y.ty.Contents Val) (hxs hy)
    (V : Valuation τ sig Val) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8)) (fun i => i.elim0)))))))))) := by
  rw [nary_result]; congr 1; funext k; fin_cases k <;> rfl

/-- The contents of one buffer after a literal line of operations, in ONE rewriting pass: the fold unrolled, each
    operation's result at its own result buffer rewritten to its function's value and at any other reference to what
    was there (the references told apart by computation); a concatenation's operands each at its own reference. -/
macro "ref_results" : tactic =>
  `(tactic| (simp (disch := decide) only [after_cons, after_nil,
      nullary_result', unary_result', binary_result', ternary_result', quaternary_result', reshape_result',
      nary3_result', nary9_result', nary4_result', nary_result',
      nullary_result_ne', unary_result_ne', binary_result_ne', ternary_result_ne', quaternary_result_ne', reshape_result_ne',
      nary_result_ne']))

end Cert.ReferenceIdeal.RefValue

end
-- ==== Proof.RefRun.lean ====
/-
  The reference's @main as ONE straight line of host operations, and its run.
  @main runs its four windows in order; each window is the line of its operations (a call of a module-local
  function being the callee's operations at the call site), so @main is the line of the four lists appended.
  On such a line every weakly fair execution terminates, and each buffer ends at the fold of the operations'
  results over the launch contents.
-/
import proofs.«165471_j24206435680919_1_alg».proof.Proof.RefOps0
import proofs.«165471_j24206435680919_1_alg».proof.Proof.RefOps1
import proofs.«165471_j24206435680919_1_alg».proof.Proof.RefOps2
import proofs.«165471_j24206435680919_1_alg».proof.Proof.RefOps3
import proofs.«165471_j24206435680919_1_alg».proof.Proof.RefEvalLib

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- @main's operations, in order: the four windows' lists appended. -/
abbrev ops : List (HloOp τ sig (Elt F)) := ops0 ++ (ops1 ++ (ops2 ++ ops3))

/-- Window 0 is the line of its operations: the same chain of steps, statement for statement. -/
theorem main_part0_eq (c : Dev nD) : main_part0 (F := F) c = seq ops0 := rfl

-- the binds of a window with calls are re-associated by rewriting under the chain, once per statement
set_option maxRecDepth 4096 in
/-- Window 1 is the line of its operations: the four calls of the clipping function unfolded at their
    sites and the records at their fields, both sides are one chain of steps once sequencing is reassociated. -/
theorem main_part1_eq (c : Dev nD) : main_part1 (F := F) c = seq ops1 := by
  simp only [main_part1, fn_clip.body, bind_assoc, pure_bind]
  rfl

/-- Window 2 is the line of its operations. -/
theorem main_part2_eq (c : Dev nD) : main_part2 (F := F) c = seq ops2 := rfl

set_option maxRecDepth 4096 in
/-- Window 3 is the line of its operations: the call of the selecting function unfolded at its site. -/
theorem main_part3_eq (c : Dev nD) : main_part3 (F := F) c = seq ops3 := by
  simp only [main_part3, fn_where.body, bind_assoc, pure_bind]
  rfl

/-- @main is the line of all its operations: its four windows in order are the four lists appended. -/
theorem main_eq (c : Dev nD) : main (F := F) c = seq ops :=
  (show main (F := F) c = (main_part0 c >>= fun _ => main_part1 c >>= fun _ => main_part2 c >>= fun _ => main_part3 c) from rfl).trans
    (by rw [main_part0_eq, main_part1_eq, main_part2_eq, main_part3_eq]; exact (seq_append4 ops0 ops1 ops2 ops3).symm)

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: segment by segment. -/
theorem ops_sub : (ops : List (HloOp τ sig (Elt F))).Forall fun op => op.bufs ⊆ tcRefs τ sig :=
  List.forall_append.mpr ⟨List.forall_append.mpr ⟨ops0a_sub, ops0b_sub⟩,
    List.forall_append.mpr ⟨List.forall_append.mpr ⟨List.forall_append.mpr ⟨List.forall_append.mpr ⟨ops1a_sub, ops1b_sub⟩, ops1c_sub⟩, ops1d_sub⟩,
      List.forall_append.mpr ⟨List.forall_append.mpr ⟨ops2a_sub, ops2b_sub⟩, List.forall_append.mpr ⟨ops3a_sub, ops3b_sub⟩⟩⟩⟩

/-- No operation of the line leaves a buffer at contents not chosen: each is one of the builders, which determine
    their results. -/
theorem ops_fresh : ∀ op ∈ (ops : List (HloOp τ sig (Elt F))), op.fresh = ∅ := by
  intro op h
  simp only [List.mem_append] at h
  rcases h with (h | h) | (((h | h) | h) | h) | (h | h) | (h | h) <;>
    ((repeat (cases h with | head => rfl | tail _ h => ?_)); exact nomatch h)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefGeom.lean ====
/-
  The reference's geometry stage as pure functions of its inputs: one definition per operation %cst … %76 of
  @main, each the printed operation applied to the definitions of its operands (same function, same
  fact arguments, same operand order), so that the buffer an operation writes holds, after the run,
  the definition of the same name at the input buffers. A0 is the [400000, 7] array of boxes
  (x y z l w h yaw), A2 the [400000, 4, 4] array of projection matrices. hom4 (%65) is the corners in
  homogeneous coordinates, proj (%66) their images, wClamped (%70) the clamped depth, xImg (%73) and
  yImg (%76) the image coordinates after the perspective division.
-/
import proofs.«165471_j24206435680919_1_alg».proof.ReferenceIdeal

noncomputable section

namespace Cert.ReferenceIdeal.RefValue

open Idealize.ShloMosaic Cert.ReferenceIdeal Cert.ReferenceIdeal.Facts₀ Cert.ReferenceIdeal.Facts

variable {F : FTy → Type} [FloatOps F] [Cert.ReferenceIdeal.Facts]
variable (A0 : (⟨S400000x7, .f32⟩ : BufTy).Contents (Elt F)) (A2 : (⟨S400000x4x4, .f32⟩ : BufTy).Contents (Elt F))

/-- %cst = stablehlo.constant dense<[1.000000e+00, 1.000000e+00, -1.000000e+00, -1.000000e+00, 1.000000e+00, 1.000000e+00, -1.000000e+00, -1.000000e+00]> : tensor<8xf32> -/
def cst : (⟨S8, .f32⟩ : BufTy).Contents (Elt F) :=
  fun i => FloatOps.ofBits .f32 (lit0 (S8.rowMajor i))

/-- %cst_0 = stablehlo.constant dense<[1.000000e+00, -1.000000e+00, -1.000000e+00, 1.000000e+00, 1.000000e+00, -1.000000e+00, -1.000000e+00, 1.000000e+00]> : tensor<8xf32> -/
def cst_0 : (⟨S8, .f32⟩ : BufTy).Contents (Elt F) :=
  fun i => FloatOps.ofBits .f32 (lit1 (S8.rowMajor i))

/-- %cst_1 = stablehlo.constant dense<[1.000000e+00, 1.000000e+00, 1.000000e+00, 1.000000e+00, -1.000000e+00, -1.000000e+00, -1.000000e+00, -1.000000e+00]> : tensor<8xf32> -/
def cst_1 : (⟨S8, .f32⟩ : BufTy).Contents (Elt F) :=
  fun i => FloatOps.ofBits .f32 (lit2 (S8.rowMajor i))

/-- %0 = stablehlo.slice %arg0 [0:400000, 0:1] : (tensor<400000x7xf32>) -> tensor<400000x1xf32> -/
def v0 : (⟨S400000x1, .f32⟩ : BufTy).Contents (Elt F) :=
  ((extractStridedSlice S400000x1 ![0, 0] · slices_S400000x7_S400000x1_0_0) : (⟨S400000x7, .f32⟩ : BufTy).Contents (Elt F) → (⟨S400000x1, .f32⟩ : BufTy).Contents (Elt F)) A0

/-- %1 = stablehlo.reshape %0 : (tensor<400000x1xf32>) -> tensor<400000xf32> -/
def v1 : (⟨S400000, .f32⟩ : BufTy).Contents (Elt F) :=
  fun i => shapeCast S400000 (v0 A0) shapeCasts_S400000x1_S400000 i

/-- %2 = stablehlo.slice %arg0 [0:400000, 1:2] : (tensor<400000x7xf32>) -> tensor<400000x1xf32> -/
def v2 : (⟨S400000x1, .f32⟩ : BufTy).Contents (Elt F) :=
  ((extractStridedSlice S400000x1 ![0, 1] · slices_S400000x7_S400000x1_0_1) : (⟨S400000x7, .f32⟩ : BufTy).Contents (Elt F) → (⟨S400000x1, .f32⟩ : BufTy).Contents (Elt F)) A0

/-- %3 = stablehlo.reshape %2 : (tensor<400000x1xf32>) -> tensor<400000xf32> -/
def v3 : (⟨S400000, .f32⟩ : BufTy).Contents (Elt F) :=
  fun i => shapeCast S400000 (v2 A0) shapeCasts_S400000x1_S400000 i

/-- %4 = stablehlo.slice %arg0 [0:400000, 2:3] : (tensor<400000x7xf32>) -> tensor<400000x1xf32> -/
def v4 : (⟨S400000x1, .f32⟩ : BufTy).Contents (Elt F) :=
  ((extractStridedSlice S400000x1 ![0, 2] · slices_S400000x7_S400000x1_0_2) : (⟨S400000x7, .f32⟩ : BufTy).Contents (Elt F) → (⟨S400000x1, .f32⟩ : BufTy).Contents (Elt F)) A0

/-- %5 = stablehlo.reshape %4 : (tensor<400000x1xf32>) -> tensor<400000xf32> -/
def v5 : (⟨S400000, .f32⟩ : BufTy).Contents (Elt F) :=
  fun i => shapeCast S400000 (v4 A0) shapeCasts_S400000x1_S400000 i

/-- %6 = stablehlo.slice %arg0 [0:400000, 3:4] : (tensor<400000x7xf32>) -> tensor<400000x1xf32> -/
def v6 : (⟨S400000x1, .f32⟩ : BufTy).Contents (Elt F) :=
  ((extractStridedSlice S400000x1 ![0, 3] · slices_S400000x7_S400000x1_0_3) : (⟨S400000x7, .f32⟩ : BufTy).Contents (Elt F) → (⟨S400000x1, .f32⟩ : BufTy).Contents (Elt F)) A0

/-- %7 = stablehlo.reshape %6 : (tensor<400000x1xf32>) -> tensor<400000xf32> -/
def v7 : (⟨S400000, .f32⟩ : BufTy).Contents (Elt F) :=
  fun i => shapeCast S400000 (v6 A0) shapeCasts_S400000x1_S400000 i

/-- %8 = stablehlo.slice %arg0 [0:400000, 4:5] : (tensor<400000x7xf32>) -> tensor<400000x1xf32> -/
def v8 : (⟨S400000x1, .f32⟩ : BufTy).Contents (Elt F) :=
  ((extractStridedSlice S400000x1 ![0, 4] · slices_S400000x7_S400000x1_0_4) : (⟨S400000x7, .f32⟩ : BufTy).Contents (Elt F) → (⟨S400000x1, .f32⟩ : BufTy).Contents (Elt F)) A0

/-- %9 = stablehlo.reshape %8 : (tensor<400000x1xf32>) -> tensor<400000xf32> -/
def v9 : (⟨S400000, .f32⟩ : BufTy).Contents (Elt F) :=
  fun i => shapeCast S400000 (v8 A0) shapeCasts_S400000x1_S400000 i

/-- %10 = stablehlo.slice %arg0 [0:400000, 5:6] : (tensor<400000x7xf32>) -> tensor<400000x1xf32> -/
def v10 : (⟨S400000x1, .f32⟩ : BufTy).Contents (Elt F) :=
  ((extractStridedSlice S400000x1 ![0, 5] · slices_S400000x7_S400000x1_0_5) : (⟨S400000x7, .f32⟩ : BufTy).Contents (Elt F) → (⟨S400000x1, .f32⟩ : BufTy).Contents (Elt F)) A0

/-- %11 = stablehlo.reshape %10 : (tensor<400000x1xf32>) -> tensor<400000xf32> -/
def v11 : (⟨S400000, .f32⟩ : BufTy).Contents (Elt F) :=
  fun i => shapeCast S400000 (v10 A0) shapeCasts_S400000x1_S400000 i

/-- %12 = stablehlo.slice %arg0 [0:400000, 6:7] : (tensor<400000x7xf32>) -> tensor<400000x1xf32> -/
def v12 : (⟨S400000x1, .f32⟩ : BufTy).Contents (Elt F) :=
  ((extractStridedSlice S400000x1 ![0, 6] · slices_S400000x7_S400000x1_0_6) : (⟨S400000x7, .f32⟩ : BufTy).Contents (Elt F) → (⟨S400000x1, .f32⟩ : BufTy).Contents (Elt F)) A0

/-- %13 = stablehlo.reshape %12 : (tensor<400000x1xf32>) -> tensor<400000xf32> -/
def v13 : (⟨S400000, .f32⟩ : BufTy).Contents (Elt F) :=
  fun i => shapeCast S400000 (v12 A0) shapeCasts_S400000x1_S400000 i

/-- %14 = stablehlo.broadcast_in_dim %7, dims = [0] : (tensor<400000xf32>) -> tensor<400000x1xf32> -/
def v14 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v7 A0)

/-- %cst_2 = stablehlo.constant dense<2.000000e+00> : tensor<f32> -/
def cst_2 : (⟨S_, .f32⟩ : BufTy).Contents (Elt F) :=
  constant S_ .f32 0x40000000#32

/-- %15 = stablehlo.broadcast_in_dim %cst_2, dims = [] : (tensor<f32>) -> tensor<400000x1xf32> -/
def v15 : (⟨S400000x1, .f32⟩ : BufTy).Contents (Elt F) :=
  (broadcastInDim S400000x1 ![] bcast_S_S400000x1 : (⟨S_, .f32⟩ : BufTy).Contents (Elt F) → (⟨S400000x1, .f32⟩ : BufTy).Contents (Elt F)) cst_2

/-- %16 = stablehlo.divide %14, %15 : tensor<400000x1xf32> -/
def v16 : (⟨S400000x1, .f32⟩ : BufTy).Contents (Elt F) :=
  (Host.divf : (⟨S400000x1, .f32⟩ : BufTy).Contents (Elt F) → (⟨S400000x1, .f32⟩ : BufTy).Contents (Elt F) → (⟨S400000x1, .f32⟩ : BufTy).Contents (Elt F)) (v14 A0) v15

/-- %17 = stablehlo.broadcast_in_dim %cst, dims = [1] : (tensor<8xf32>) -> tensor<1x8xf32> -/
def v17 : (⟨S1x8, .f32⟩ : BufTy).Contents (Elt F) :=
  (broadcastInDim S1x8 ![1] bcast_S8_S1x8_1 : (⟨S8, .f32⟩ : BufTy).Contents (Elt F) → (⟨S1x8, .f32⟩ : BufTy).Contents (Elt F)) cst

/-- %18 = stablehlo.broadcast_in_dim %16, dims = [0, 1] : (tensor<400000x1xf32>) -> tensor<400000x8xf32> -/
def v18 : (⟨S400000x8, .f32⟩ : BufTy).Contents (Elt F) :=
  (broadcastInDim S400000x8 ![0, 1] bcast_S400000x1_S400000x8_0_1 : (⟨S400000x1, .f32⟩ : BufTy).Contents (Elt F) → (⟨S400000x8, .f32⟩ : BufTy).Contents (Elt F)) (v16 A0)

/-- %19 = stablehlo.broadcast_in_dim %17, dims = [0, 1] : (tensor<1x8xf32>) -> tensor<400000x8xf32> -/
def v19 : (⟨S400000x8, .f32⟩ : BufTy).Contents (Elt F) :=
  (broadcastInDim S400000x8 ![0, 1] bcast_S1x8_S400000x8_0_1 : (⟨S1x8, .f32⟩ : BufTy).Contents (Elt F) → (⟨S400000x8, .f32⟩ : BufTy).Contents (Elt F)) v17

/-- %20 = stablehlo.multiply %18, %19 : tensor<400000x8xf32> -/
def v20 : (⟨S400000x8, .f32⟩ : BufTy).Contents (Elt F) :=
  (mulf : (⟨S400000x8, .f32⟩ : BufTy).Contents (Elt F) → (⟨S400000x8, .f32⟩ : BufTy).Contents (Elt F) → (⟨S400000x8, .f32⟩ : BufTy).Contents (Elt F)) (v18 A0) v19

/-- %21 = stablehlo.broadcast_in_dim %9, dims = [0] : (tensor<400000xf32>) -> tensor<400000x1xf32> -/
def v21 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v9 A0)

/-- %cst_3 = stablehlo.constant dense<2.000000e+00> : tensor<f32> -/
def cst_3 : (⟨S_, .f32⟩ : BufTy).Contents (Elt F) :=
  constant S_ .f32 0x40000000#32

/-- %22 = stablehlo.broadcast_in_dim %cst_3, dims = [] : (tensor<f32>) -> tensor<400000x1xf32> -/
def v22 : (⟨S400000x1, .f32⟩ : BufTy).Contents (Elt F) :=
  (broadcastInDim S400000x1 ![] bcast_S_S400000x1 : (⟨S_, .f32⟩ : BufTy).Contents (Elt F) → (⟨S400000x1, .f32⟩ : BufTy).Contents (Elt F)) cst_3

/-- %23 = stablehlo.divide %21, %22 : tensor<400000x1xf32> -/
def v23 : (⟨S400000x1, .f32⟩ : BufTy).Contents (Elt F) :=
  (Host.divf : (⟨S400000x1, .f32⟩ : BufTy).Contents (Elt F) → (⟨S400000x1, .f32⟩ : BufTy).Contents (Elt F) → (⟨S400000x1, .f32⟩ : BufTy).Contents (Elt F)) (v21 A0) v22

/-- %24 = stablehlo.broadcast_in_dim %cst_0, dims = [1] : (tensor<8xf32>) -> tensor<1x8xf32> -/
def v24 : (⟨S1x8, .f32⟩ : BufTy).Contents (Elt F) :=
  (broadcastInDim S1x8 ![1] bcast_S8_S1x8_1 : (⟨S8, .f32⟩ : BufTy).Contents (Elt F) → (⟨S1x8, .f32⟩ : BufTy).Contents (Elt F)) cst_0

/-- %25 = stablehlo.broadcast_in_dim %23, dims = [0, 1] : (tensor<400000x1xf32>) -> tensor<400000x8xf32> -/
def v25 : (⟨S400000x8, .f32⟩ : BufTy).Contents (Elt F) :=
  (broadcastInDim S400000x8 ![0, 1] bcast_S400000x1_S400000x8_0_1 : (⟨S400000x1, .f32⟩ : BufTy).Contents (Elt F) → (⟨S400000x8, .f32⟩ : BufTy).Contents (Elt F)) (v23 A0)

/-- %26 = stablehlo.broadcast_in_dim %24, dims = [0, 1] : (tensor<1x8xf32>) -> tensor<400000x8xf32> -/
def v26 : (⟨S400000x8, .f32⟩ : BufTy).Contents (Elt F) :=
  (broadcastInDim S400000x8 ![0, 1] bcast_S1x8_S400000x8_0_1 : (⟨S1x8, .f32⟩ : BufTy).Contents (Elt F) → (⟨S400000x8, .f32⟩ : BufTy).Contents (Elt F)) v24

/-- %27 = stablehlo.multiply %25, %26 : tensor<400000x8xf32> -/
def v27 : (⟨S400000x8, .f32⟩ : BufTy).Contents (Elt F) :=
  (mulf : (⟨S400000x8, .f32⟩ : BufTy).Contents (Elt F) → (⟨S400000x8, .f32⟩ : BufTy).Contents (Elt F) → (⟨S400000x8, .f32⟩ : BufTy).Contents (Elt F)) (v25 A0) v26

/-- %28 = stablehlo.broadcast_in_dim %11, dims = [0] : (tensor<400000xf32>) -> tensor<400000x1xf32> -/
def v28 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v11 A0)

/-- %cst_4 = stablehlo.constant dense<2.000000e+00> : tensor<f32> -/
def cst_4 : (⟨S_, .f32⟩ : BufTy).Contents (Elt F) :=
  constant S_ .f32 0x40000000#32

/-- %29 = stablehlo.broadcast_in_dim %cst_4, dims = [] : (tensor<f32>) -> tensor<400000x1xf32> -/
def v29 : (⟨S400000x1, .f32⟩ : BufTy).Contents (Elt F) :=
  (broadcastInDim S400000x1 ![] bcast_S_S400000x1 : (⟨S_, .f32⟩ : BufTy).Contents (Elt F) → (⟨S400000x1, .f32⟩ : BufTy).Contents (Elt F)) cst_4

/-- %30 = stablehlo.divide %28, %29 : tensor<400000x1xf32> -/
def v30 : (⟨S400000x1, .f32⟩ : BufTy).Contents (Elt F) :=
  (Host.divf : (⟨S400000x1, .f32⟩ : BufTy).Contents (Elt F) → (⟨S400000x1, .f32⟩ : BufTy).Contents (Elt F) → (⟨S400000x1, .f32⟩ : BufTy).Contents (Elt F)) (v28 A0) v29

/-- %31 = stablehlo.broadcast_in_dim %cst_1, dims = [1] : (tensor<8xf32>) -> tensor<1x8xf32> -/
def v31 : (⟨S1x8, .f32⟩ : BufTy).Contents (Elt F) :=
  (broadcastInDim S1x8 ![1] bcast_S8_S1x8_1 : (⟨S8, .f32⟩ : BufTy).Contents (Elt F) → (⟨S1x8, .f32⟩ : BufTy).Contents (Elt F)) cst_1

/-- %32 = stablehlo.broadcast_in_dim %30, dims = [0, 1] : (tensor<400000x1xf32>) -> tensor<400000x8xf32> -/
def v32 : (⟨S400000x8, .f32⟩ : BufTy).Contents (Elt F) :=
  (broadcastInDim S400000x8 ![0, 1] bcast_S400000x1_S400000x8_0_1 : (⟨S400000x1, .f32⟩ : BufTy).Contents (Elt F) → (⟨S400000x8, .f32⟩ : BufTy).Contents (Elt F)) (v30 A0)

/-- %33 = stablehlo.broadcast_in_dim %31, dims = [0, 1] : (tensor<1x8xf32>) -> tensor<400000x8xf32> -/
def v33 : (⟨S400000x8, .f32⟩ : BufTy).Contents (Elt F) :=
  (broadcastInDim S400000x8 ![0, 1] bcast_S1x8_S400000x8_0_1 : (⟨S1x8, .f32⟩ : BufTy).Contents (Elt F) → (⟨S400000x8, .f32⟩ : BufTy).Contents (Elt F)) v31

/-- %34 = stablehlo.multiply %32, %33 : tensor<400000x8xf32> -/
def v34 : (⟨S400000x8, .f32⟩ : BufTy).Contents (Elt F) :=
  (mulf : (⟨S400000x8, .f32⟩ : BufTy).Contents (Elt F) → (⟨S400000x8, .f32⟩ : BufTy).Contents (Elt F) → (⟨S400000x8, .f32⟩ : BufTy).Contents (Elt F)) (v32 A0) v33

/-- %35 = stablehlo.broadcast_in_dim %20, dims = [0, 2] : (tensor<400000x8xf32>) -> tensor<400000x1x8xf32> -/
def v35 : (⟨S400000x1x8, .f32⟩ : BufTy).Contents (Elt F) :=
  (broadcastInDim S400000x1x8 ![0, 2] bcast_S400000x8_S400000x1x8_0_2 : (⟨S400000x8, .f32⟩ : BufTy).Contents (Elt F) → (⟨S400000x1x8, .f32⟩ : BufTy).Contents (Elt F)) (v20 A0)

/-- %36 = stablehlo.broadcast_in_dim %27, dims = [0, 2] : (tensor<400000x8xf32>) -> tensor<400000x1x8xf32> -/
def v36 : (⟨S400000x1x8, .f32⟩ : BufTy).Contents (Elt F) :=
  (broadcastInDim S400000x1x8 ![0, 2] bcast_S400000x8_S400000x1x8_0_2 : (⟨S400000x8, .f32⟩ : BufTy).Contents (Elt F) → (⟨S400000x1x8, .f32⟩ : BufTy).Contents (Elt F)) (v27 A0)

/-- %37 = stablehlo.broadcast_in_dim %34, dims = [0, 2] : (tensor<400000x8xf32>) -> tensor<400000x1x8xf32> -/
def v37 : (⟨S400000x1x8, .f32⟩ : BufTy).Contents (Elt F) :=
  (broadcastInDim S400000x1x8 ![0, 2] bcast_S400000x8_S400000x1x8_0_2 : (⟨S400000x8, .f32⟩ : BufTy).Contents (Elt F) → (⟨S400000x1x8, .f32⟩ : BufTy).Contents (Elt F)) (v34 A0)

/-- %38 = stablehlo.concatenate %35, %36, %37, dim = 1 : (tensor<400000x1x8xf32>, tensor<400000x1x8xf32>, tensor<400000x1x8xf32>) -> tensor<400000x3x8xf32> -/
def v38 : (⟨S400000x3x8, .f32⟩ : BufTy).Contents (Elt F) :=
  concatenate S400000x3x8 1 [⟨S400000x1x8, (v35 A0)⟩, ⟨S400000x1x8, (v36 A0)⟩, ⟨S400000x1x8, (v37 A0)⟩] concatenates_S400000x1x8_S400000x1x8_S400000x1x8_S400000x3x8_d1

/-- %39 = stablehlo.cosine %13 : tensor<400000xf32> -/
def v39 : (⟨S400000, .f32⟩ : BufTy).Contents (Elt F) :=
  (Host.cos : (⟨S400000, .f32⟩ : BufTy).Contents (Elt F) → (⟨S400000, .f32⟩ : BufTy).Contents (Elt F)) (v13 A0)

/-- %40 = stablehlo.sine %13 : tensor<400000xf32> -/
def v40 : (⟨S400000, .f32⟩ : BufTy).Contents (Elt F) :=
  (Host.sin : (⟨S400000, .f32⟩ : BufTy).Contents (Elt F) → (⟨S400000, .f32⟩ : BufTy).Contents (Elt F)) (v13 A0)

/-- %cst_5 = stablehlo.constant dense<0.000000e+00> : tensor<f32> -/
def cst_5 : (⟨S_, .f32⟩ : BufTy).Contents (Elt F) :=
  constant S_ .f32 0x00000000#32

/-- %41 = stablehlo.broadcast_in_dim %cst_5, dims = [] : (tensor<f32>) -> tensor<400000xf32> -/
def v41 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_5

/-- %cst_6 = stablehlo.constant dense<1.000000e+00> : tensor<f32> -/
def cst_6 : (⟨S_, .f32⟩ : BufTy).Contents (Elt F) :=
  constant S_ .f32 0x3F800000#32

/-- %42 = stablehlo.broadcast_in_dim %cst_6, dims = [] : (tensor<f32>) -> tensor<400000xf32> -/
def v42 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_6

/-- %43 = stablehlo.negate %40 : tensor<400000xf32> -/
def v43 : (⟨S400000, .f32⟩ : BufTy).Contents (Elt F) :=
  (Host.negf : (⟨S400000, .f32⟩ : BufTy).Contents (Elt F) → (⟨S400000, .f32⟩ : BufTy).Contents (Elt F)) (v40 A0)

/-- %44 = stablehlo.broadcast_in_dim %39, dims = [0] : (tensor<400000xf32>) -> tensor<400000x1xf32> -/
def v44 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v39 A0)

/-- %45 = stablehlo.broadcast_in_dim %43, dims = [0] : (tensor<400000xf32>) -> tensor<400000x1xf32> -/
def v45 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v43 A0)

/-- %46 = stablehlo.broadcast_in_dim %41, dims = [0] : (tensor<400000xf32>) -> tensor<400000x1xf32> -/
def v46 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) v41

/-- %47 = stablehlo.broadcast_in_dim %40, dims = [0] : (tensor<400000xf32>) -> tensor<400000x1xf32> -/
def v47 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v40 A0)

/-- %48 = stablehlo.broadcast_in_dim %39, dims = [0] : (tensor<400000xf32>) -> tensor<400000x1xf32> -/
def v48 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v39 A0)

/-- %49 = stablehlo.broadcast_in_dim %41, dims = [0] : (tensor<400000xf32>) -> tensor<400000x1xf32> -/
def v49 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) v41

/-- %50 = stablehlo.broadcast_in_dim %41, dims = [0] : (tensor<400000xf32>) -> tensor<400000x1xf32> -/
def v50 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) v41

/-- %51 = stablehlo.broadcast_in_dim %41, dims = [0] : (tensor<400000xf32>) -> tensor<400000x1xf32> -/
def v51 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) v41

/-- %52 = stablehlo.broadcast_in_dim %42, dims = [0] : (tensor<400000xf32>) -> tensor<400000x1xf32> -/
def v52 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) v42

/-- %53 = stablehlo.concatenate %44, %45, %46, %47, %48, %49, %50, %51, %52, dim = 1 : (tensor<400000x1xf32>, tensor<400000x1xf32>, tensor<400000x1xf32>, tensor<400000x1xf32>, tensor<400000x1xf32>, tensor<400000x1xf32>, tensor<400000x1xf32>, tensor<400000x1xf32>, tensor<400000x1xf32>) -> tensor<400000x9xf32> -/
def v53 : (⟨S400000x9, .f32⟩ : BufTy).Contents (Elt F) :=
  concatenate S400000x9 1 [⟨S400000x1, (v44 A0)⟩, ⟨S400000x1, (v45 A0)⟩, ⟨S400000x1, v46⟩, ⟨S400000x1, (v47 A0)⟩, ⟨S400000x1, (v48 A0)⟩, ⟨S400000x1, v49⟩, ⟨S400000x1, v50⟩, ⟨S400000x1, v51⟩, ⟨S400000x1, v52⟩] concatenates_S400000x1_S400000x1_S400000x1_S400000x1_S400000x1_S400000x1_S400000x1_S400000x1_S400000x1_S400000x9_d1

/-- %54 = stablehlo.reshape %53 : (tensor<400000x9xf32>) -> tensor<400000x3x3xf32> -/
def v54 : (⟨S400000x3x3, .f32⟩ : BufTy).Contents (Elt F) :=
  fun i => shapeCast S400000x3x3 (v53 A0) shapeCasts_S400000x9_S400000x3x3 i

/-- %55 = stablehlo.dot_general %54, %38, batching_dims = [0] x [0], contracting_dims = [2] x [1], precision = [DEFAULT, DEFAULT] : (tensor<400000x3x3xf32>, tensor<400000x3x8xf32>) -> tensor<400000x3x8xf32> -/
def v55 : (⟨S400000x3x8, .f32⟩ : BufTy).Contents (Elt F) :=
  ((fun l r => Host.dotGeneral dot_S400000x3x3_S400000x3x8_S400000x3x8_2_1_1_2_0_0 none l r) : (⟨S400000x3x3, .f32⟩ : BufTy).Contents (Elt F) → (⟨S400000x3x8, .f32⟩ : BufTy).Contents (Elt F) → (⟨S400000x3x8, .f32⟩ : BufTy).Contents (Elt F)) (v54 A0) (v38 A0)

/-- %56 = stablehlo.broadcast_in_dim %1, dims = [0] : (tensor<400000xf32>) -> tensor<400000x1xf32> -/
def v56 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v1 A0)

/-- %57 = stablehlo.broadcast_in_dim %3, dims = [0] : (tensor<400000xf32>) -> tensor<400000x1xf32> -/
def v57 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v3 A0)

/-- %58 = stablehlo.broadcast_in_dim %5, dims = [0] : (tensor<400000xf32>) -> tensor<400000x1xf32> -/
def v58 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (v5 A0)

/-- %59 = stablehlo.concatenate %56, %57, %58, dim = 1 : (tensor<400000x1xf32>, tensor<400000x1xf32>, tensor<400000x1xf32>) -> tensor<400000x3xf32> -/
def v59 : (⟨S400000x3, .f32⟩ : BufTy).Contents (Elt F) :=
  concatenate S400000x3 1 [⟨S400000x1, (v56 A0)⟩, ⟨S400000x1, (v57 A0)⟩, ⟨S400000x1, (v58 A0)⟩] concatenates_S400000x1_S400000x1_S400000x1_S400000x3_d1

/-- %60 = stablehlo.broadcast_in_dim %59, dims = [0, 1] : (tensor<400000x3xf32>) -> tensor<400000x3x1xf32> -/
def v60 : (⟨S400000x3x1, .f32⟩ : BufTy).Contents (Elt F) :=
  (broadcastInDim S400000x3x1 ![0, 1] bcast_S400000x3_S400000x3x1_0_1 : (⟨S400000x3, .f32⟩ : BufTy).Contents (Elt F) → (⟨S400000x3x1, .f32⟩ : BufTy).Contents (Elt F)) (v59 A0)

/-- %61 = stablehlo.broadcast_in_dim %60, dims = [0, 1, 2] : (tensor<400000x3x1xf32>) -> tensor<400000x3x8xf32> -/
def v61 : (⟨S400000x3x8, .f32⟩ : BufTy).Contents (Elt F) :=
  (broadcastInDim S400000x3x8 ![0, 1, 2] bcast_S400000x3x1_S400000x3x8_0_1_2 : (⟨S400000x3x1, .f32⟩ : BufTy).Contents (Elt F) → (⟨S400000x3x8, .f32⟩ : BufTy).Contents (Elt F)) (v60 A0)

/-- %62 = stablehlo.add %55, %61 : tensor<400000x3x8xf32> -/
def v62 : (⟨S400000x3x8, .f32⟩ : BufTy).Contents (Elt F) :=
  (addf : (⟨S400000x3x8, .f32⟩ : BufTy).Contents (Elt F) → (⟨S400000x3x8, .f32⟩ : BufTy).Contents (Elt F) → (⟨S400000x3x8, .f32⟩ : BufTy).Contents (Elt F)) (v55 A0) (v61 A0)

/-- %63 = stablehlo.transpose %62, dims = [0, 2, 1] : (tensor<400000x3x8xf32>) -> tensor<400000x8x3xf32> -/
def v63 : (⟨S400000x8x3, .f32⟩ : BufTy).Contents (Elt F) :=
  ((transpose S400000x8x3 [0, 2, 1] · transposes_S400000x3x8_S400000x8x3_0_2_1) : (⟨S400000x3x8, .f32⟩ : BufTy).Contents (Elt F) → (⟨S400000x8x3, .f32⟩ : BufTy).Contents (Elt F)) (v62 A0)

/-- %cst_7 = stablehlo.constant dense<1.000000e+00> : tensor<f32> -/
def cst_7 : (⟨S_, .f32⟩ : BufTy).Contents (Elt F) :=
  constant S_ .f32 0x3F800000#32

/-- %64 = stablehlo.broadcast_in_dim %cst_7, dims = [] : (tensor<f32>) -> tensor<400000x8x1xf32> -/
def v64 : (⟨S400000x8x1, .f32⟩ : BufTy).Contents (Elt F) :=
  (broadcastInDim S400000x8x1 ![] bcast_S_S400000x8x1 : (⟨S_, .f32⟩ : BufTy).Contents (Elt F) → (⟨S400000x8x1, .f32⟩ : BufTy).Contents (Elt F)) cst_7

/-- %65 = stablehlo.concatenate %63, %64, dim = 2 : (tensor<400000x8x3xf32>, tensor<400000x8x1xf32>) -> tensor<400000x8x4xf32> -/
def hom4 : (⟨S400000x8x4, .f32⟩ : BufTy).Contents (Elt F) :=
  ((fun a b => concatenate S400000x8x4 2 [⟨S400000x8x3, a⟩, ⟨S400000x8x1, b⟩] concatenates_S400000x8x3_S400000x8x1_S400000x8x4_d2) : (⟨S400000x8x3, .f32⟩ : BufTy).Contents (Elt F) → (⟨S400000x8x1, .f32⟩ : BufTy).Contents (Elt F) → (⟨S400000x8x4, .f32⟩ : BufTy).Contents (Elt F)) (v63 A0) v64

/-- %66 = stablehlo.dot_general %65, %arg2, batching_dims = [0] x [0], contracting_dims = [2] x [2], precision = [DEFAULT, DEFAULT] : (tensor<400000x8x4xf32>, tensor<400000x4x4xf32>) -> tensor<400000x8x4xf32> -/
def proj : (⟨S400000x8x4, .f32⟩ : BufTy).Contents (Elt F) :=
  ((fun l r => Host.dotGeneral dot_S400000x8x4_S400000x4x4_S400000x8x4_2_2_1_1_0_0 none l r) : (⟨S400000x8x4, .f32⟩ : BufTy).Contents (Elt F) → (⟨S400000x4x4, .f32⟩ : BufTy).Contents (Elt F) → (⟨S400000x8x4, .f32⟩ : BufTy).Contents (Elt F)) (hom4 A0) A2

/-- %67 = stablehlo.slice %66 [0:400000, 0:8, 2:3] : (tensor<400000x8x4xf32>) -> tensor<400000x8x1xf32> -/
def v67 : (⟨S400000x8x1, .f32⟩ : BufTy).Contents (Elt F) :=
  ((extractStridedSlice S400000x8x1 ![0, 0, 2] · slices_S400000x8x4_S400000x8x1_0_0_2) : (⟨S400000x8x4, .f32⟩ : BufTy).Contents (Elt F) → (⟨S400000x8x1, .f32⟩ : BufTy).Contents (Elt F)) (proj A0 A2)

/-- %68 = stablehlo.reshape %67 : (tensor<400000x8x1xf32>) -> tensor<400000x8xf32> -/
def v68 : (⟨S400000x8, .f32⟩ : BufTy).Contents (Elt F) :=
  fun i => shapeCast S400000x8 (v67 A0 A2) shapeCasts_S400000x8x1_S400000x8 i

/-- %cst_8 = stablehlo.constant dense<9.99999974E-6> : tensor<f32> -/
def cst_8 : (⟨S_, .f32⟩ : BufTy).Contents (Elt F) :=
  constant S_ .f32 0x3727C5AC#32

/-- %69 = stablehlo.broadcast_in_dim %cst_8, dims = [] : (tensor<f32>) -> tensor<400000x8xf32> -/
def v69 : (⟨S400000x8, .f32⟩ : BufTy).Contents (Elt F) :=
  (broadcastInDim S400000x8 ![] bcast_S_S400000x8 : (⟨S_, .f32⟩ : BufTy).Contents (Elt F) → (⟨S400000x8, .f32⟩ : BufTy).Contents (Elt F)) cst_8

/-- %70 = stablehlo.maximum %68, %69 : tensor<400000x8xf32> -/
def wClamped : (⟨S400000x8, .f32⟩ : BufTy).Contents (Elt F) :=
  (maximumf : (⟨S400000x8, .f32⟩ : BufTy).Contents (Elt F) → (⟨S400000x8, .f32⟩ : BufTy).Contents (Elt F) → (⟨S400000x8, .f32⟩ : BufTy).Contents (Elt F)) (v68 A0 A2) v69

/-- %71 = stablehlo.slice %66 [0:400000, 0:8, 0:1] : (tensor<400000x8x4xf32>) -> tensor<400000x8x1xf32> -/
def v71 : (⟨S400000x8x1, .f32⟩ : BufTy).Contents (Elt F) :=
  ((extractStridedSlice S400000x8x1 ![0, 0, 0] · slices_S400000x8x4_S400000x8x1_0_0_0) : (⟨S400000x8x4, .f32⟩ : BufTy).Contents (Elt F) → (⟨S400000x8x1, .f32⟩ : BufTy).Contents (Elt F)) (proj A0 A2)

/-- %72 = stablehlo.reshape %71 : (tensor<400000x8x1xf32>) -> tensor<400000x8xf32> -/
def v72 : (⟨S400000x8, .f32⟩ : BufTy).Contents (Elt F) :=
  fun i => shapeCast S400000x8 (v71 A0 A2) shapeCasts_S400000x8x1_S400000x8 i

/-- %73 = stablehlo.divide %72, %70 : tensor<400000x8xf32> -/
def xImg : (⟨S400000x8, .f32⟩ : BufTy).Contents (Elt F) :=
  (Host.divf : (⟨S400000x8, .f32⟩ : BufTy).Contents (Elt F) → (⟨S400000x8, .f32⟩ : BufTy).Contents (Elt F) → (⟨S400000x8, .f32⟩ : BufTy).Contents (Elt F)) (v72 A0 A2) (wClamped A0 A2)

/-- %74 = stablehlo.slice %66 [0:400000, 0:8, 1:2] : (tensor<400000x8x4xf32>) -> tensor<400000x8x1xf32> -/
def v74 : (⟨S400000x8x1, .f32⟩ : BufTy).Contents (Elt F) :=
  ((extractStridedSlice S400000x8x1 ![0, 0, 1] · slices_S400000x8x4_S400000x8x1_0_0_1) : (⟨S400000x8x4, .f32⟩ : BufTy).Contents (Elt F) → (⟨S400000x8x1, .f32⟩ : BufTy).Contents (Elt F)) (proj A0 A2)

/-- %75 = stablehlo.reshape %74 : (tensor<400000x8x1xf32>) -> tensor<400000x8xf32> -/
def v75 : (⟨S400000x8, .f32⟩ : BufTy).Contents (Elt F) :=
  fun i => shapeCast S400000x8 (v74 A0 A2) shapeCasts_S400000x8x1_S400000x8 i

/-- %76 = stablehlo.divide %75, %70 : tensor<400000x8xf32> -/
def yImg : (⟨S400000x8, .f32⟩ : BufTy).Contents (Elt F) :=
  (Host.divf : (⟨S400000x8, .f32⟩ : BufTy).Contents (Elt F) → (⟨S400000x8, .f32⟩ : BufTy).Contents (Elt F) → (⟨S400000x8, .f32⟩ : BufTy).Contents (Elt F)) (v75 A0 A2) (wClamped A0 A2)

end Cert.ReferenceIdeal.RefValue

end
-- ==== Proof.RefEvalGeomX.lean ====
/-
  The reference's first 87 operations (the geometry stage: the constants, the columns of the box array, the
  corners, the rotation, the two products and the perspective division), run as a line from any contents, leave
  the buffer of the horizontal image coordinates at the pure function xImg (RefGeom.lean) of the contents of the two
  argument buffers the stage reads: each operation's result is its function of its operands' contents, and
  unrolling the line operation by operation reproduces the definition, value for value.
-/
import proofs.«165471_j24206435680919_1_alg».proof.Proof.RefOps0
import proofs.«165471_j24206435680919_1_alg».proof.Proof.RefOps1
import proofs.«165471_j24206435680919_1_alg».proof.Proof.RefEvalLib
import proofs.«165471_j24206435680919_1_alg».proof.Proof.RefGeom

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 3200000 in
/-- After the geometry stage the buffer of %73 holds xImg of the two argument buffers' contents. -/
theorem geom_x (V : Valuation τ sig (Elt F)) :
    after ops1b (after ops1a (after ops0b (after ops0a V))) (main_v73 : DevRef τ sig)
      = xImg (V (main_arg0 : DevRef τ sig)) (V (main_arg2 : DevRef τ sig)) := by
  ref_results
  rfl

end Cert.ReferenceIdeal.RefValue

end
-- ==== Proof.RefEvalGeomY.lean ====
/-
  The reference's first 87 operations (the geometry stage), run as a line from any contents, leave the buffer of
  the vertical image coordinates at the pure function yImg (RefGeom.lean) of the contents of the two argument buffers
  the stage reads: each operation's result is its function of its operands' contents, and unrolling the line
  operation by operation reproduces the definition, value for value.
-/
import proofs.«165471_j24206435680919_1_alg».proof.Proof.RefOps0
import proofs.«165471_j24206435680919_1_alg».proof.Proof.RefOps1
import proofs.«165471_j24206435680919_1_alg».proof.Proof.RefEvalLib
import proofs.«165471_j24206435680919_1_alg».proof.Proof.RefGeom

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 3200000 in
/-- After the geometry stage the buffer of %76 holds yImg of the two argument buffers' contents. -/
theorem geom_y (V : Valuation τ sig (Elt F)) :
    after ops1b (after ops1a (after ops0b (after ops0a V))) (main_v76 : DevRef τ sig)
      = yImg (V (main_arg0 : DevRef τ sig)) (V (main_arg2 : DevRef τ sig)) := by
  ref_results
  rfl

end Cert.ReferenceIdeal.RefValue

end
-- ==== Proof.RefEvalGeom.lean ====
/-
  The geometry stage of the reference (its first 87 operations) as a whole: the two buffers of image
  coordinates end at xImg and yImg of the argument buffers' contents (RefEvalGeomX.lean, RefEvalGeomY.lean), and
  the five argument buffers are written by none of its operations, so they hold what they held.
-/
import proofs.«165471_j24206435680919_1_alg».proof.Proof.RefEvalGeomX
import proofs.«165471_j24206435680919_1_alg».proof.Proof.RefEvalGeomY

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 3200000 in
/-- The geometry stage writes none of the five argument buffers. -/
theorem geom_args (V : Valuation τ sig (Elt F)) :
    after ops1b (after ops1a (after ops0b (after ops0a V))) (main_arg0 : DevRef τ sig) = V (main_arg0 : DevRef τ sig) ∧
    after ops1b (after ops1a (after ops0b (after ops0a V))) (main_arg1 : DevRef τ sig) = V (main_arg1 : DevRef τ sig) ∧
    after ops1b (after ops1a (after ops0b (after ops0a V))) (main_arg2 : DevRef τ sig) = V (main_arg2 : DevRef τ sig) ∧
    after ops1b (after ops1a (after ops0b (after ops0a V))) (main_arg3 : DevRef τ sig) = V (main_arg3 : DevRef τ sig) ∧
    after ops1b (after ops1a (after ops0b (after ops0a V))) (main_arg4 : DevRef τ sig) = V (main_arg4 : DevRef τ sig) := by
  refine ⟨?_, ?_, ?_, ?_, ?_⟩ <;> ref_results

end Cert.ReferenceIdeal.RefValue

end
-- ==== Proof.RefEvalTac.lean ====
/-
  Reading a buffer after a line of host operations, for lines that contain concatenations: the result of an operation
  of two operands, and of one over a literal family of three, four or nine operand references, stated with the
  operands' contents as arguments of one application, so that one rewriting pass reaches every operand.
-/
import Idealize.ShloMosaic.Lib.StableHlo.Run

noncomputable section

namespace Cert.ReferenceIdeal.RefValue

open Idealize.ShloMosaic Idealize.ShloMosaic.TcCoe Idealize.SL.Sem Idealize.ShloMosaic.StableHlo

variable {τ : Topo} {sig : RefSig} {Val : EltTy → Type}

/-! A function applied to two, three, four or nine arguments, kept as ONE application of the arguments: the contents
    of the operand buffers then sit in argument positions of their own types, where they can be rewritten further,
    whatever the function does with them (a concatenation pairs each operand with its shape). Unfolding gives the
    plain application back. -/

/-- f a b. -/
abbrev ap2 {α β γ : Sort _} (f : α → β → γ) (a : α) (b : β) : γ := f a b
/-- f a b c. -/
abbrev ap3 {α β γ δ : Sort _} (f : α → β → γ → δ) (a : α) (b : β) (c : γ) : δ := f a b c
/-- f a b c d. -/
abbrev ap4 {α β γ δ ε : Sort _} (f : α → β → γ → δ → ε) (a : α) (b : β) (c : γ) (d : δ) : ε := f a b c d
/-- f applied to nine arguments. -/
abbrev ap9 {α0 α1 α2 α3 α4 α5 α6 α7 α8 β : Sort _} (f : α0 → α1 → α2 → α3 → α4 → α5 → α6 → α7 → α8 → β)
    (a0 : α0) (a1 : α1) (a2 : α2) (a3 : α3) (a4 : α4) (a5 : α5) (a6 : α6) (a7 : α7) (a8 : α8) : β :=
  f a0 a1 a2 a3 a4 a5 a6 a7 a8

variable {x0 x1 x2 x3 x4 x5 x6 x7 x8 a b y : Ref sig .tc}

/-- A two-operand operation leaves its result at its function of the two operands' contents. -/
theorem binary_ap (f : a.ty.Contents Val → b.ty.Contents Val → y.ty.Contents Val) (ha hb hy) (V : Valuation τ sig Val) :
    (binary (τ := τ) a b y f ha hb hy).result V (no_index (Proc.devRef .tc y))
      = ap2 f (V (Proc.devRef .tc a)) (V (Proc.devRef .tc b)) := binary_result a b y f ha hb hy V

/-- An operation over a literal family of three operand references: its result with each operand's contents at
    its own reference, the family handed to the function being the one that answers index k with the k-th of them (a
    case analysis on the index, which evaluates at a literal index). -/
theorem nary3_ap
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (no_index (Proc.devRef .tc y))
      = ap3 (fun u0 u1 u2 => f ((fun k => match k with | ⟨0, _⟩ => u0 | ⟨1, _⟩ => u1 | ⟨2, _⟩ => u2) :
              (k : Fin 3) → ((![x0, x1, x2] : Fin 3 → Ref sig .tc) k).ty.Contents Val))
          (V (Proc.devRef .tc x0)) (V (Proc.devRef .tc x1)) (V (Proc.devRef .tc x2)) := by
  rw [nary_result]; unfold ap3; congr 1; funext k; fin_cases k <;> rfl

/-- The same over four operand references. -/
theorem nary4_ap
    (f : ((k : Fin 4) → ((![x0, x1, x2, x3] : Fin 4 → Ref sig .tc) k).ty.Contents Val) → y.ty.Contents Val) (hxs hy)
    (V : Valuation τ sig Val) :
    (nary (τ := τ) ![x0, x1, x2, x3] y f hxs hy).result V (no_index (Proc.devRef .tc y))
      = ap4 (fun u0 u1 u2 u3 => f ((fun k => match k with | ⟨0, _⟩ => u0 | ⟨1, _⟩ => u1 | ⟨2, _⟩ => u2 | ⟨3, _⟩ => u3) :
              (k : Fin 4) → ((![x0, x1, x2, x3] : Fin 4 → Ref sig .tc) k).ty.Contents Val))
          (V (Proc.devRef .tc x0)) (V (Proc.devRef .tc x1)) (V (Proc.devRef .tc x2)) (V (Proc.devRef .tc x3)) := by
  rw [nary_result]; unfold ap4; congr 1; funext k; fin_cases k <;> rfl

/-- The same over nine operand references. -/
theorem nary9_ap
    (f : ((k : Fin 9) → ((![x0, x1, x2, x3, x4, x5, x6, x7, x8] : Fin 9 → Ref sig .tc) k).ty.Contents Val) → y.ty.Contents Val) (hxs hy)
    (V : Valuation τ sig Val) :
    (nary (τ := τ) ![x0, x1, x2, x3, x4, x5, x6, x7, x8] y f hxs hy).result V (no_index (Proc.devRef .tc y))
      = ap9 (fun u0 u1 u2 u3 u4 u5 u6 u7 u8 => f ((fun k => match k with | ⟨0, _⟩ => u0 | ⟨1, _⟩ => u1 | ⟨2, _⟩ => u2 | ⟨3, _⟩ => u3 | ⟨4, _⟩ => u4 | ⟨5, _⟩ => u5 | ⟨6, _⟩ => u6 | ⟨7, _⟩ => u7 | ⟨8, _⟩ => u8) :
              (k : Fin 9) → ((![x0, x1, x2, x3, x4, x5, x6, x7, x8] : Fin 9 → Ref sig .tc) k).ty.Contents Val))
          (V (Proc.devRef .tc x0)) (V (Proc.devRef .tc x1)) (V (Proc.devRef .tc x2)) (V (Proc.devRef .tc x3)) (V (Proc.devRef .tc x4)) (V (Proc.devRef .tc x5)) (V (Proc.devRef .tc x6)) (V (Proc.devRef .tc x7)) (V (Proc.devRef .tc x8)) := by
  rw [nary_result]; unfold ap9; congr 1; funext k; fin_cases k <;> rfl

/-- The contents of one buffer after a literal line of operations, in ONE rewriting pass: the fold unrolled, each
    operation's result at its own result buffer rewritten to its function applied to the operands' contents and at any
    other reference to what was there (the references told apart by computation). -/
macro "ref_read" : tactic =>
  `(tactic| (simp (disch := decide) only [after_cons, after_nil,
      nullary_result', unary_result', binary_ap, ternary_result', quaternary_result', reshape_result',
      nary3_ap, nary4_ap, nary9_ap,
      nullary_result_ne', unary_result_ne', binary_result_ne', ternary_result_ne', quaternary_result_ne', reshape_result_ne',
      nary_result_ne']))

end Cert.ReferenceIdeal.RefValue

end
-- ==== Proof.RefGiou.lean ====
/-
  The reference's reduction and GIoU stage as pure functions of its inputs: one definition per operation
  %77 … %181 of @main, each the printed operation applied to the definitions of its operands (same
  function, same fact arguments, same operand order), the four calls of @clip written out as the four
  operations of @clip's body over the call's own buffers (named call0_v0 … call3_v2, the call's result under the
  name of the value it becomes). X and Y are the [400000, 8] arrays of image coordinates of the eight
  corners (%73, %76), A1 the [400000, 4] array of ground-truth boxes (x1 y1 x2 y2), A3 the
  [400000, 2] array of image sizes (height, width). imgH, imgW (%78, %80) are the two columns of A3;
  minXRaw … maxYRaw (%81, %83, %85, %87) the minimum and maximum over the eight corners; minX … maxY
  (%82, %84, %86, %88) those clipped to the image; pred2d (%93) the predicted box (minX minY maxX maxY);
  inter (%120) the intersection area, predArea (%131), gtArea (%142) the two boxes' areas, union (%146),
  iou (%147), cArea (%176) the enclosing box's area, giou (%179), giouStage (%181) the loss 1 - giou.
-/
import proofs.«165471_j24206435680919_1_alg».proof.ReferenceIdeal

noncomputable section

namespace Cert.ReferenceIdeal.RefValue

open Idealize.ShloMosaic Cert.ReferenceIdeal Cert.ReferenceIdeal.Facts₀ Cert.ReferenceIdeal.Facts

variable {F : FTy → Type} [FloatOps F] [Cert.ReferenceIdeal.Facts]
variable (X Y : (⟨S400000x8, .f32⟩ : BufTy).Contents (Elt F)) (A1 : (⟨S400000x4, .f32⟩ : BufTy).Contents (Elt F))
  (A3 : (⟨S400000x2, .f32⟩ : BufTy).Contents (Elt F))

/-- %77 = stablehlo.slice %arg3 [0:400000, 0:1] : (tensor<400000x2xf32>) -> tensor<400000x1xf32> -/
def v77 : (⟨S400000x1, .f32⟩ : BufTy).Contents (Elt F) :=
  ((extractStridedSlice S400000x1 ![0, 0] · slices_S400000x2_S400000x1_0_0) : (⟨S400000x2, .f32⟩ : BufTy).Contents (Elt F) → (⟨S400000x1, .f32⟩ : BufTy).Contents (Elt F)) A3

/-- %78 = stablehlo.reshape %77 : (tensor<400000x1xf32>) -> tensor<400000xf32> -/
def imgH : (⟨S400000, .f32⟩ : BufTy).Contents (Elt F) :=
  fun i => shapeCast S400000 (v77 A3) shapeCasts_S400000x1_S400000 i

/-- %79 = stablehlo.slice %arg3 [0:400000, 1:2] : (tensor<400000x2xf32>) -> tensor<400000x1xf32> -/
def v79 : (⟨S400000x1, .f32⟩ : BufTy).Contents (Elt F) :=
  ((extractStridedSlice S400000x1 ![0, 1] · slices_S400000x2_S400000x1_0_1) : (⟨S400000x2, .f32⟩ : BufTy).Contents (Elt F) → (⟨S400000x1, .f32⟩ : BufTy).Contents (Elt F)) A3

/-- %80 = stablehlo.reshape %79 : (tensor<400000x1xf32>) -> tensor<400000xf32> -/
def imgW : (⟨S400000, .f32⟩ : BufTy).Contents (Elt F) :=
  fun i => shapeCast S400000 (v79 A3) shapeCasts_S400000x1_S400000 i

/-- %cst_9 = stablehlo.constant dense<0x7F800000> : tensor<f32> -/
def cst_9 : (⟨S_, .f32⟩ : BufTy).Contents (Elt F) :=
  constant S_ .f32 0x7F800000#32

/-- %81 = stablehlo.reduce(%73 init: %cst_9) applies stablehlo.minimum across dimensions = [1] : (tensor<400000x8xf32>, tensor<f32>) -> tensor<400000xf32> { -/
def minXRaw : (⟨S400000, .f32⟩ : BufTy).Contents (Elt F) :=
  ((fun x v => Host.reduce FloatOps.minimumf x v reducesTo_S400000x8_S400000_d1 h_S_) : (⟨S400000x8, .f32⟩ : BufTy).Contents (Elt F) → (⟨S_, .f32⟩ : BufTy).Contents (Elt F) → (⟨S400000, .f32⟩ : BufTy).Contents (Elt F)) X cst_9

/-- %cst_10 = stablehlo.constant dense<0.000000e+00> : tensor<f32> -/
def cst_10 : (⟨S_, .f32⟩ : BufTy).Contents (Elt F) :=
  constant S_ .f32 0x00000000#32

/-- @clip's %0 = stablehlo.convert %arg1 : tensor<f32>, in %82 = func.call @clip(%81, %cst_10, %80) : (tensor<400000xf32>, tensor<f32>, tensor<400000xf32>) -> tensor<400000xf32> -/
def call0_v0 : (⟨S_, .f32⟩ : BufTy).Contents (Elt F) :=
  id cst_10

/-- @clip's %1 = stablehlo.broadcast_in_dim %0, dims = [] : (tensor<f32>) -> tensor<400000xf32>, in %82 = func.call @clip(%81, %cst_10, %80) : (tensor<400000xf32>, tensor<f32>, tensor<400000xf32>) -> tensor<400000xf32> -/
def call0_v1 : (⟨S400000, .f32⟩ : BufTy).Contents (Elt F) :=
  (broadcastInDim S400000 ![] bcast_S_S400000) call0_v0

/-- @clip's %2 = stablehlo.maximum %1, %arg0 : tensor<400000xf32>, in %82 = func.call @clip(%81, %cst_10, %80) : (tensor<400000xf32>, tensor<f32>, tensor<400000xf32>) -> tensor<400000xf32> -/
def call0_v2 : (⟨S400000, .f32⟩ : BufTy).Contents (Elt F) :=
  maximumf call0_v1 (minXRaw X)

/-- @clip's %3 = stablehlo.minimum %arg2, %2 : tensor<400000xf32>, in %82 = func.call @clip(%81, %cst_10, %80) : (tensor<400000xf32>, tensor<f32>, tensor<400000xf32>) -> tensor<400000xf32> -/
def minX : (⟨S400000, .f32⟩ : BufTy).Contents (Elt F) :=
  minimumf (imgW A3) (call0_v2 X)

/-- %cst_11 = stablehlo.constant dense<0xFF800000> : tensor<f32> -/
def cst_11 : (⟨S_, .f32⟩ : BufTy).Contents (Elt F) :=
  constant S_ .f32 0xFF800000#32

/-- %83 = stablehlo.reduce(%73 init: %cst_11) applies stablehlo.maximum across dimensions = [1] : (tensor<400000x8xf32>, tensor<f32>) -> tensor<400000xf32> { -/
def maxXRaw : (⟨S400000, .f32⟩ : BufTy).Contents (Elt F) :=
  ((fun x v => Host.reduce FloatOps.maximumf x v reducesTo_S400000x8_S400000_d1 h_S_) : (⟨S400000x8, .f32⟩ : BufTy).Contents (Elt F) → (⟨S_, .f32⟩ : BufTy).Contents (Elt F) → (⟨S400000, .f32⟩ : BufTy).Contents (Elt F)) X cst_11

/-- %cst_12 = stablehlo.constant dense<0.000000e+00> : tensor<f32> -/
def cst_12 : (⟨S_, .f32⟩ : BufTy).Contents (Elt F) :=
  constant S_ .f32 0x00000000#32

/-- @clip's %0 = stablehlo.convert %arg1 : tensor<f32>, in %84 = func.call @clip(%83, %cst_12, %80) : (tensor<400000xf32>, tensor<f32>, tensor<400000xf32>) -> tensor<400000xf32> -/
def call1_v0 : (⟨S_, .f32⟩ : BufTy).Contents (Elt F) :=
  id cst_12

/-- @clip's %1 = stablehlo.broadcast_in_dim %0, dims = [] : (tensor<f32>) -> tensor<400000xf32>, in %84 = func.call @clip(%83, %cst_12, %80) : (tensor<400000xf32>, tensor<f32>, tensor<400000xf32>) -> tensor<400000xf32> -/
def call1_v1 : (⟨S400000, .f32⟩ : BufTy).Contents (Elt F) :=
  (broadcastInDim S400000 ![] bcast_S_S400000) call1_v0

/-- @clip's %2 = stablehlo.maximum %1, %arg0 : tensor<400000xf32>, in %84 = func.call @clip(%83, %cst_12, %80) : (tensor<400000xf32>, tensor<f32>, tensor<400000xf32>) -> tensor<400000xf32> -/
def call1_v2 : (⟨S400000, .f32⟩ : BufTy).Contents (Elt F) :=
  maximumf call1_v1 (maxXRaw X)

/-- @clip's %3 = stablehlo.minimum %arg2, %2 : tensor<400000xf32>, in %84 = func.call @clip(%83, %cst_12, %80) : (tensor<400000xf32>, tensor<f32>, tensor<400000xf32>) -> tensor<400000xf32> -/
def maxX : (⟨S400000, .f32⟩ : BufTy).Contents (Elt F) :=
  minimumf (imgW A3) (call1_v2 X)

/-- %cst_13 = stablehlo.constant dense<0x7F800000> : tensor<f32> -/
def cst_13 : (⟨S_, .f32⟩ : BufTy).Contents (Elt F) :=
  constant S_ .f32 0x7F800000#32

/-- %85 = stablehlo.reduce(%76 init: %cst_13) applies stablehlo.minimum across dimensions = [1] : (tensor<400000x8xf32>, tensor<f32>) -> tensor<400000xf32> { -/
def minYRaw : (⟨S400000, .f32⟩ : BufTy).Contents (Elt F) :=
  ((fun x v => Host.reduce FloatOps.minimumf x v reducesTo_S400000x8_S400000_d1 h_S_) : (⟨S400000x8, .f32⟩ : BufTy).Contents (Elt F) → (⟨S_, .f32⟩ : BufTy).Contents (Elt F) → (⟨S400000, .f32⟩ : BufTy).Contents (Elt F)) Y cst_13

/-- %cst_14 = stablehlo.constant dense<0.000000e+00> : tensor<f32> -/
def cst_14 : (⟨S_, .f32⟩ : BufTy).Contents (Elt F) :=
  constant S_ .f32 0x00000000#32

/-- @clip's %0 = stablehlo.convert %arg1 : tensor<f32>, in %86 = func.call @clip(%85, %cst_14, %78) : (tensor<400000xf32>, tensor<f32>, tensor<400000xf32>) -> tensor<400000xf32> -/
def call2_v0 : (⟨S_, .f32⟩ : BufTy).Contents (Elt F) :=
  id cst_14

/-- @clip's %1 = stablehlo.broadcast_in_dim %0, dims = [] : (tensor<f32>) -> tensor<400000xf32>, in %86 = func.call @clip(%85, %cst_14, %78) : (tensor<400000xf32>, tensor<f32>, tensor<400000xf32>) -> tensor<400000xf32> -/
def call2_v1 : (⟨S400000, .f32⟩ : BufTy).Contents (Elt F) :=
  (broadcastInDim S400000 ![] bcast_S_S400000) call2_v0

/-- @clip's %2 = stablehlo.maximum %1, %arg0 : tensor<400000xf32>, in %86 = func.call @clip(%85, %cst_14, %78) : (tensor<400000xf32>, tensor<f32>, tensor<400000xf32>) -> tensor<400000xf32> -/
def call2_v2 : (⟨S400000, .f32⟩ : BufTy).Contents (Elt F) :=
  maximumf call2_v1 (minYRaw Y)

/-- @clip's %3 = stablehlo.minimum %arg2, %2 : tensor<400000xf32>, in %86 = func.call @clip(%85, %cst_14, %78) : (tensor<400000xf32>, tensor<f32>, tensor<400000xf32>) -> tensor<400000xf32> -/
def minY : (⟨S400000, .f32⟩ : BufTy).Contents (Elt F) :=
  minimumf (imgH A3) (call2_v2 Y)

/-- %cst_15 = stablehlo.constant dense<0xFF800000> : tensor<f32> -/
def cst_15 : (⟨S_, .f32⟩ : BufTy).Contents (Elt F) :=
  constant S_ .f32 0xFF800000#32

/-- %87 = stablehlo.reduce(%76 init: %cst_15) applies stablehlo.maximum across dimensions = [1] : (tensor<400000x8xf32>, tensor<f32>) -> tensor<400000xf32> { -/
def maxYRaw : (⟨S400000, .f32⟩ : BufTy).Contents (Elt F) :=
  ((fun x v => Host.reduce FloatOps.maximumf x v reducesTo_S400000x8_S400000_d1 h_S_) : (⟨S400000x8, .f32⟩ : BufTy).Contents (Elt F) → (⟨S_, .f32⟩ : BufTy).Contents (Elt F) → (⟨S400000, .f32⟩ : BufTy).Contents (Elt F)) Y cst_15

/-- %cst_16 = stablehlo.constant dense<0.000000e+00> : tensor<f32> -/
def cst_16 : (⟨S_, .f32⟩ : BufTy).Contents (Elt F) :=
  constant S_ .f32 0x00000000#32

/-- @clip's %0 = stablehlo.convert %arg1 : tensor<f32>, in %88 = func.call @clip(%87, %cst_16, %78) : (tensor<400000xf32>, tensor<f32>, tensor<400000xf32>) -> tensor<400000xf32> -/
def call3_v0 : (⟨S_, .f32⟩ : BufTy).Contents (Elt F) :=
  id cst_16

/-- @clip's %1 = stablehlo.broadcast_in_dim %0, dims = [] : (tensor<f32>) -> tensor<400000xf32>, in %88 = func.call @clip(%87, %cst_16, %78) : (tensor<400000xf32>, tensor<f32>, tensor<400000xf32>) -> tensor<400000xf32> -/
def call3_v1 : (⟨S400000, .f32⟩ : BufTy).Contents (Elt F) :=
  (broadcastInDim S400000 ![] bcast_S_S400000) call3_v0

/-- @clip's %2 = stablehlo.maximum %1, %arg0 : tensor<400000xf32>, in %88 = func.call @clip(%87, %cst_16, %78) : (tensor<400000xf32>, tensor<f32>, tensor<400000xf32>) -> tensor<400000xf32> -/
def call3_v2 : (⟨S400000, .f32⟩ : BufTy).Contents (Elt F) :=
  maximumf call3_v1 (maxYRaw Y)

/-- @clip's %3 = stablehlo.minimum %arg2, %2 : tensor<400000xf32>, in %88 = func.call @clip(%87, %cst_16, %78) : (tensor<400000xf32>, tensor<f32>, tensor<400000xf32>) -> tensor<400000xf32> -/
def maxY : (⟨S400000, .f32⟩ : BufTy).Contents (Elt F) :=
  minimumf (imgH A3) (call3_v2 Y)

/-- %89 = stablehlo.broadcast_in_dim %82, dims = [0] : (tensor<400000xf32>) -> tensor<400000x1xf32> -/
def v89 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (minX X A3)

/-- %90 = stablehlo.broadcast_in_dim %86, dims = [0] : (tensor<400000xf32>) -> tensor<400000x1xf32> -/
def v90 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (minY Y A3)

/-- %91 = stablehlo.broadcast_in_dim %84, dims = [0] : (tensor<400000xf32>) -> tensor<400000x1xf32> -/
def v91 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (maxX X A3)

/-- %92 = stablehlo.broadcast_in_dim %88, dims = [0] : (tensor<400000xf32>) -> tensor<400000x1xf32> -/
def v92 : (⟨S400000x1, .f32⟩ : BufTy).Contents (Elt F) :=
  (broadcastInDim S400000x1 ![0] bcast_S400000_S400000x1_0 : (⟨S400000, .f32⟩ : BufTy).Contents (Elt F) → (⟨S400000x1, .f32⟩ : BufTy).Contents (Elt F)) (maxY Y A3)

/-- %93 = stablehlo.concatenate %89, %90, %91, %92, dim = 1 : (tensor<400000x1xf32>, tensor<400000x1xf32>, tensor<400000x1xf32>, tensor<400000x1xf32>) -> tensor<400000x4xf32> -/
def pred2d : (⟨S400000x4, .f32⟩ : BufTy).Contents (Elt F) :=
  concatenate S400000x4 1 [⟨S400000x1, (v89 X A3)⟩, ⟨S400000x1, (v90 Y A3)⟩, ⟨S400000x1, (v91 X A3)⟩, ⟨S400000x1, (v92 Y A3)⟩] concatenates_S400000x1_S400000x1_S400000x1_S400000x1_S400000x4_d1

/-- %94 = stablehlo.slice %93 [0:400000, 0:1] : (tensor<400000x4xf32>) -> tensor<400000x1xf32> -/
def v94 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) (pred2d X Y A3)

/-- %95 = stablehlo.reshape %94 : (tensor<400000x1xf32>) -> tensor<400000xf32> -/
def v95 : (⟨S400000, .f32⟩ : BufTy).Contents (Elt F) :=
  fun i => shapeCast S400000 (v94 X Y A3) shapeCasts_S400000x1_S400000 i

/-- %96 = stablehlo.slice %arg1 [0:400000, 0:1] : (tensor<400000x4xf32>) -> tensor<400000x1xf32> -/
def v96 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) A1

/-- %97 = stablehlo.reshape %96 : (tensor<400000x1xf32>) -> tensor<400000xf32> -/
def v97 : (⟨S400000, .f32⟩ : BufTy).Contents (Elt F) :=
  fun i => shapeCast S400000 (v96 A1) shapeCasts_S400000x1_S400000 i

/-- %98 = stablehlo.maximum %95, %97 : tensor<400000xf32> -/
def v98 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v95 X Y A3) (v97 A1)

/-- %99 = stablehlo.slice %93 [0:400000, 1:2] : (tensor<400000x4xf32>) -> tensor<400000x1xf32> -/
def v99 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) (pred2d X Y A3)

/-- %100 = stablehlo.reshape %99 : (tensor<400000x1xf32>) -> tensor<400000xf32> -/
def v100 : (⟨S400000, .f32⟩ : BufTy).Contents (Elt F) :=
  fun i => shapeCast S400000 (v99 X Y A3) shapeCasts_S400000x1_S400000 i

/-- %101 = stablehlo.slice %arg1 [0:400000, 1:2] : (tensor<400000x4xf32>) -> tensor<400000x1xf32> -/
def v101 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) A1

/-- %102 = stablehlo.reshape %101 : (tensor<400000x1xf32>) -> tensor<400000xf32> -/
def v102 : (⟨S400000, .f32⟩ : BufTy).Contents (Elt F) :=
  fun i => shapeCast S400000 (v101 A1) shapeCasts_S400000x1_S400000 i

/-- %103 = stablehlo.maximum %100, %102 : tensor<400000xf32> -/
def v103 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v100 X Y A3) (v102 A1)

/-- %104 = stablehlo.slice %93 [0:400000, 2:3] : (tensor<400000x4xf32>) -> tensor<400000x1xf32> -/
def v104 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) (pred2d X Y A3)

/-- %105 = stablehlo.reshape %104 : (tensor<400000x1xf32>) -> tensor<400000xf32> -/
def v105 : (⟨S400000, .f32⟩ : BufTy).Contents (Elt F) :=
  fun i => shapeCast S400000 (v104 X Y A3) shapeCasts_S400000x1_S400000 i

/-- %106 = stablehlo.slice %arg1 [0:400000, 2:3] : (tensor<400000x4xf32>) -> tensor<400000x1xf32> -/
def v106 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) A1

/-- %107 = stablehlo.reshape %106 : (tensor<400000x1xf32>) -> tensor<400000xf32> -/
def v107 : (⟨S400000, .f32⟩ : BufTy).Contents (Elt F) :=
  fun i => shapeCast S400000 (v106 A1) shapeCasts_S400000x1_S400000 i

/-- %108 = stablehlo.minimum %105, %107 : tensor<400000xf32> -/
def v108 : (⟨S400000, .f32⟩ : BufTy).Contents (Elt F) :=
  (minimumf : (⟨S400000, .f32⟩ : BufTy).Contents (Elt F) → (⟨S400000, .f32⟩ : BufTy).Contents (Elt F) → (⟨S400000, .f32⟩ : BufTy).Contents (Elt F)) (v105 X Y A3) (v107 A1)

/-- %109 = stablehlo.slice %93 [0:400000, 3:4] : (tensor<400000x4xf32>) -> tensor<400000x1xf32> -/
def v109 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) (pred2d X Y A3)

/-- %110 = stablehlo.reshape %109 : (tensor<400000x1xf32>) -> tensor<400000xf32> -/
def v110 : (⟨S400000, .f32⟩ : BufTy).Contents (Elt F) :=
  fun i => shapeCast S400000 (v109 X Y A3) shapeCasts_S400000x1_S400000 i

/-- %111 = stablehlo.slice %arg1 [0:400000, 3:4] : (tensor<400000x4xf32>) -> tensor<400000x1xf32> -/
def v111 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) A1

/-- %112 = stablehlo.reshape %111 : (tensor<400000x1xf32>) -> tensor<400000xf32> -/
def v112 : (⟨S400000, .f32⟩ : BufTy).Contents (Elt F) :=
  fun i => shapeCast S400000 (v111 A1) shapeCasts_S400000x1_S400000 i

/-- %113 = stablehlo.minimum %110, %112 : tensor<400000xf32> -/
def v113 : (⟨S400000, .f32⟩ : BufTy).Contents (Elt F) :=
  (minimumf : (⟨S400000, .f32⟩ : BufTy).Contents (Elt F) → (⟨S400000, .f32⟩ : BufTy).Contents (Elt F) → (⟨S400000, .f32⟩ : BufTy).Contents (Elt F)) (v110 X Y A3) (v112 A1)

/-- %114 = stablehlo.subtract %108, %98 : tensor<400000xf32> -/
def v114 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v108 X Y A1 A3) (v98 X Y A1 A3)

/-- %cst_17 = stablehlo.constant dense<0.000000e+00> : tensor<f32> -/
def cst_17 : (⟨S_, .f32⟩ : BufTy).Contents (Elt F) :=
  constant S_ .f32 0x00000000#32

/-- %115 = stablehlo.broadcast_in_dim %cst_17, dims = [] : (tensor<f32>) -> tensor<400000xf32> -/
def v115 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_17

/-- %116 = stablehlo.maximum %114, %115 : tensor<400000xf32> -/
def v116 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v114 X Y A1 A3) v115

/-- %117 = stablehlo.subtract %113, %103 : tensor<400000xf32> -/
def v117 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v113 X Y A1 A3) (v103 X Y A1 A3)

/-- %cst_18 = stablehlo.constant dense<0.000000e+00> : tensor<f32> -/
def cst_18 : (⟨S_, .f32⟩ : BufTy).Contents (Elt F) :=
  constant S_ .f32 0x00000000#32

/-- %118 = stablehlo.broadcast_in_dim %cst_18, dims = [] : (tensor<f32>) -> tensor<400000xf32> -/
def v118 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_18

/-- %119 = stablehlo.maximum %117, %118 : tensor<400000xf32> -/
def v119 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v117 X Y A1 A3) v118

/-- %120 = stablehlo.multiply %116, %119 : tensor<400000xf32> -/
def inter : (⟨S400000, .f32⟩ : BufTy).Contents (Elt F) :=
  (mulf : (⟨S400000, .f32⟩ : BufTy).Contents (Elt F) → (⟨S400000, .f32⟩ : BufTy).Contents (Elt F) → (⟨S400000, .f32⟩ : BufTy).Contents (Elt F)) (v116 X Y A1 A3) (v119 X Y A1 A3)

/-- %121 = stablehlo.slice %93 [0:400000, 2:3] : (tensor<400000x4xf32>) -> tensor<400000x1xf32> -/
def v121 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) (pred2d X Y A3)

/-- %122 = stablehlo.reshape %121 : (tensor<400000x1xf32>) -> tensor<400000xf32> -/
def v122 : (⟨S400000, .f32⟩ : BufTy).Contents (Elt F) :=
  fun i => shapeCast S400000 (v121 X Y A3) shapeCasts_S400000x1_S400000 i

/-- %123 = stablehlo.slice %93 [0:400000, 0:1] : (tensor<400000x4xf32>) -> tensor<400000x1xf32> -/
def v123 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) (pred2d X Y A3)

/-- %124 = stablehlo.reshape %123 : (tensor<400000x1xf32>) -> tensor<400000xf32> -/
def v124 : (⟨S400000, .f32⟩ : BufTy).Contents (Elt F) :=
  fun i => shapeCast S400000 (v123 X Y A3) shapeCasts_S400000x1_S400000 i

/-- %125 = stablehlo.subtract %122, %124 : tensor<400000xf32> -/
def v125 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v122 X Y A3) (v124 X Y A3)

/-- %126 = stablehlo.slice %93 [0:400000, 3:4] : (tensor<400000x4xf32>) -> tensor<400000x1xf32> -/
def v126 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) (pred2d X Y A3)

/-- %127 = stablehlo.reshape %126 : (tensor<400000x1xf32>) -> tensor<400000xf32> -/
def v127 : (⟨S400000, .f32⟩ : BufTy).Contents (Elt F) :=
  fun i => shapeCast S400000 (v126 X Y A3) shapeCasts_S400000x1_S400000 i

/-- %128 = stablehlo.slice %93 [0:400000, 1:2] : (tensor<400000x4xf32>) -> tensor<400000x1xf32> -/
def v128 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) (pred2d X Y A3)

/-- %129 = stablehlo.reshape %128 : (tensor<400000x1xf32>) -> tensor<400000xf32> -/
def v129 : (⟨S400000, .f32⟩ : BufTy).Contents (Elt F) :=
  fun i => shapeCast S400000 (v128 X Y A3) shapeCasts_S400000x1_S400000 i

/-- %130 = stablehlo.subtract %127, %129 : tensor<400000xf32> -/
def v130 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v127 X Y A3) (v129 X Y A3)

/-- %131 = stablehlo.multiply %125, %130 : tensor<400000xf32> -/
def predArea : (⟨S400000, .f32⟩ : BufTy).Contents (Elt F) :=
  (mulf : (⟨S400000, .f32⟩ : BufTy).Contents (Elt F) → (⟨S400000, .f32⟩ : BufTy).Contents (Elt F) → (⟨S400000, .f32⟩ : BufTy).Contents (Elt F)) (v125 X Y A3) (v130 X Y A3)

/-- %132 = stablehlo.slice %arg1 [0:400000, 2:3] : (tensor<400000x4xf32>) -> tensor<400000x1xf32> -/
def v132 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) A1

/-- %133 = stablehlo.reshape %132 : (tensor<400000x1xf32>) -> tensor<400000xf32> -/
def v133 : (⟨S400000, .f32⟩ : BufTy).Contents (Elt F) :=
  fun i => shapeCast S400000 (v132 A1) shapeCasts_S400000x1_S400000 i

/-- %134 = stablehlo.slice %arg1 [0:400000, 0:1] : (tensor<400000x4xf32>) -> tensor<400000x1xf32> -/
def v134 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) A1

/-- %135 = stablehlo.reshape %134 : (tensor<400000x1xf32>) -> tensor<400000xf32> -/
def v135 : (⟨S400000, .f32⟩ : BufTy).Contents (Elt F) :=
  fun i => shapeCast S400000 (v134 A1) shapeCasts_S400000x1_S400000 i

/-- %136 = stablehlo.subtract %133, %135 : tensor<400000xf32> -/
def v136 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v133 A1) (v135 A1)

/-- %137 = stablehlo.slice %arg1 [0:400000, 3:4] : (tensor<400000x4xf32>) -> tensor<400000x1xf32> -/
def v137 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) A1

/-- %138 = stablehlo.reshape %137 : (tensor<400000x1xf32>) -> tensor<400000xf32> -/
def v138 : (⟨S400000, .f32⟩ : BufTy).Contents (Elt F) :=
  fun i => shapeCast S400000 (v137 A1) shapeCasts_S400000x1_S400000 i

/-- %139 = stablehlo.slice %arg1 [0:400000, 1:2] : (tensor<400000x4xf32>) -> tensor<400000x1xf32> -/
def v139 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) A1

/-- %140 = stablehlo.reshape %139 : (tensor<400000x1xf32>) -> tensor<400000xf32> -/
def v140 : (⟨S400000, .f32⟩ : BufTy).Contents (Elt F) :=
  fun i => shapeCast S400000 (v139 A1) shapeCasts_S400000x1_S400000 i

/-- %141 = stablehlo.subtract %138, %140 : tensor<400000xf32> -/
def v141 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v138 A1) (v140 A1)

/-- %142 = stablehlo.multiply %136, %141 : tensor<400000xf32> -/
def gtArea : (⟨S400000, .f32⟩ : BufTy).Contents (Elt F) :=
  (mulf : (⟨S400000, .f32⟩ : BufTy).Contents (Elt F) → (⟨S400000, .f32⟩ : BufTy).Contents (Elt F) → (⟨S400000, .f32⟩ : BufTy).Contents (Elt F)) (v136 A1) (v141 A1)

/-- %143 = stablehlo.add %131, %142 : tensor<400000xf32> -/
def v143 : (⟨S400000, .f32⟩ : BufTy).Contents (Elt F) :=
  (addf : (⟨S400000, .f32⟩ : BufTy).Contents (Elt F) → (⟨S400000, .f32⟩ : BufTy).Contents (Elt F) → (⟨S400000, .f32⟩ : BufTy).Contents (Elt F)) (predArea X Y A3) (gtArea A1)

/-- %144 = stablehlo.subtract %143, %120 : tensor<400000xf32> -/
def v144 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v143 X Y A1 A3) (inter X Y A1 A3)

/-- %cst_19 = stablehlo.constant dense<1.000000e-07> : tensor<f32> -/
def cst_19 : (⟨S_, .f32⟩ : BufTy).Contents (Elt F) :=
  constant S_ .f32 0x33D6BF95#32

/-- %145 = stablehlo.broadcast_in_dim %cst_19, dims = [] : (tensor<f32>) -> tensor<400000xf32> -/
def v145 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_19

/-- %146 = stablehlo.add %144, %145 : tensor<400000xf32> -/
def union : (⟨S400000, .f32⟩ : BufTy).Contents (Elt F) :=
  (addf : (⟨S400000, .f32⟩ : BufTy).Contents (Elt F) → (⟨S400000, .f32⟩ : BufTy).Contents (Elt F) → (⟨S400000, .f32⟩ : BufTy).Contents (Elt F)) (v144 X Y A1 A3) v145

/-- %147 = stablehlo.divide %120, %146 : tensor<400000xf32> -/
def iou : (⟨S400000, .f32⟩ : BufTy).Contents (Elt F) :=
  (Host.divf : (⟨S400000, .f32⟩ : BufTy).Contents (Elt F) → (⟨S400000, .f32⟩ : BufTy).Contents (Elt F) → (⟨S400000, .f32⟩ : BufTy).Contents (Elt F)) (inter X Y A1 A3) (union X Y A1 A3)

/-- %148 = stablehlo.slice %93 [0:400000, 0:1] : (tensor<400000x4xf32>) -> tensor<400000x1xf32> -/
def v148 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) (pred2d X Y A3)

/-- %149 = stablehlo.reshape %148 : (tensor<400000x1xf32>) -> tensor<400000xf32> -/
def v149 : (⟨S400000, .f32⟩ : BufTy).Contents (Elt F) :=
  fun i => shapeCast S400000 (v148 X Y A3) shapeCasts_S400000x1_S400000 i

/-- %150 = stablehlo.slice %arg1 [0:400000, 0:1] : (tensor<400000x4xf32>) -> tensor<400000x1xf32> -/
def v150 : (⟨S400000x1, .f32⟩ : BufTy).Contents (Elt F) :=
  ((extractStridedSlice S400000x1 ![0, 0] · slices_S400000x4_S400000x1_0_0) : (⟨S400000x4, .f32⟩ : BufTy).Contents (Elt F) → (⟨S400000x1, .f32⟩ : BufTy).Contents (Elt F)) A1

/-- %151 = stablehlo.reshape %150 : (tensor<400000x1xf32>) -> tensor<400000xf32> -/
def v151 : (⟨S400000, .f32⟩ : BufTy).Contents (Elt F) :=
  fun i => shapeCast S400000 (v150 A1) shapeCasts_S400000x1_S400000 i

/-- %152 = stablehlo.minimum %149, %151 : tensor<400000xf32> -/
def v152 : (⟨S400000, .f32⟩ : BufTy).Contents (Elt F) :=
  (minimumf : (⟨S400000, .f32⟩ : BufTy).Contents (Elt F) → (⟨S400000, .f32⟩ : BufTy).Contents (Elt F) → (⟨S400000, .f32⟩ : BufTy).Contents (Elt F)) (v149 X Y A3) (v151 A1)

/-- %153 = stablehlo.slice %93 [0:400000, 1:2] : (tensor<400000x4xf32>) -> tensor<400000x1xf32> -/
def v153 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) (pred2d X Y A3)

/-- %154 = stablehlo.reshape %153 : (tensor<400000x1xf32>) -> tensor<400000xf32> -/
def v154 : (⟨S400000, .f32⟩ : BufTy).Contents (Elt F) :=
  fun i => shapeCast S400000 (v153 X Y A3) shapeCasts_S400000x1_S400000 i

/-- %155 = stablehlo.slice %arg1 [0:400000, 1:2] : (tensor<400000x4xf32>) -> tensor<400000x1xf32> -/
def v155 : (⟨S400000x1, .f32⟩ : BufTy).Contents (Elt F) :=
  ((extractStridedSlice S400000x1 ![0, 1] · slices_S400000x4_S400000x1_0_1) : (⟨S400000x4, .f32⟩ : BufTy).Contents (Elt F) → (⟨S400000x1, .f32⟩ : BufTy).Contents (Elt F)) A1

/-- %156 = stablehlo.reshape %155 : (tensor<400000x1xf32>) -> tensor<400000xf32> -/
def v156 : (⟨S400000, .f32⟩ : BufTy).Contents (Elt F) :=
  fun i => shapeCast S400000 (v155 A1) shapeCasts_S400000x1_S400000 i

/-- %157 = stablehlo.minimum %154, %156 : tensor<400000xf32> -/
def v157 : (⟨S400000, .f32⟩ : BufTy).Contents (Elt F) :=
  (minimumf : (⟨S400000, .f32⟩ : BufTy).Contents (Elt F) → (⟨S400000, .f32⟩ : BufTy).Contents (Elt F) → (⟨S400000, .f32⟩ : BufTy).Contents (Elt F)) (v154 X Y A3) (v156 A1)

/-- %158 = stablehlo.slice %93 [0:400000, 2:3] : (tensor<400000x4xf32>) -> tensor<400000x1xf32> -/
def v158 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) (pred2d X Y A3)

/-- %159 = stablehlo.reshape %158 : (tensor<400000x1xf32>) -> tensor<400000xf32> -/
def v159 : (⟨S400000, .f32⟩ : BufTy).Contents (Elt F) :=
  fun i => shapeCast S400000 (v158 X Y A3) shapeCasts_S400000x1_S400000 i

/-- %160 = stablehlo.slice %arg1 [0:400000, 2:3] : (tensor<400000x4xf32>) -> tensor<400000x1xf32> -/
def v160 : (⟨S400000x1, .f32⟩ : BufTy).Contents (Elt F) :=
  ((extractStridedSlice S400000x1 ![0, 2] · slices_S400000x4_S400000x1_0_2) : (⟨S400000x4, .f32⟩ : BufTy).Contents (Elt F) → (⟨S400000x1, .f32⟩ : BufTy).Contents (Elt F)) A1

/-- %161 = stablehlo.reshape %160 : (tensor<400000x1xf32>) -> tensor<400000xf32> -/
def v161 : (⟨S400000, .f32⟩ : BufTy).Contents (Elt F) :=
  fun i => shapeCast S400000 (v160 A1) shapeCasts_S400000x1_S400000 i

/-- %162 = stablehlo.maximum %159, %161 : tensor<400000xf32> -/
def v162 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v159 X Y A3) (v161 A1)

/-- %163 = stablehlo.slice %93 [0:400000, 3:4] : (tensor<400000x4xf32>) -> tensor<400000x1xf32> -/
def v163 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) (pred2d X Y A3)

/-- %164 = stablehlo.reshape %163 : (tensor<400000x1xf32>) -> tensor<400000xf32> -/
def v164 : (⟨S400000, .f32⟩ : BufTy).Contents (Elt F) :=
  fun i => shapeCast S400000 (v163 X Y A3) shapeCasts_S400000x1_S400000 i

/-- %165 = stablehlo.slice %arg1 [0:400000, 3:4] : (tensor<400000x4xf32>) -> tensor<400000x1xf32> -/
def v165 : (⟨S400000x1, .f32⟩ : BufTy).Contents (Elt F) :=
  ((extractStridedSlice S400000x1 ![0, 3] · slices_S400000x4_S400000x1_0_3) : (⟨S400000x4, .f32⟩ : BufTy).Contents (Elt F) → (⟨S400000x1, .f32⟩ : BufTy).Contents (Elt F)) A1

/-- %166 = stablehlo.reshape %165 : (tensor<400000x1xf32>) -> tensor<400000xf32> -/
def v166 : (⟨S400000, .f32⟩ : BufTy).Contents (Elt F) :=
  fun i => shapeCast S400000 (v165 A1) shapeCasts_S400000x1_S400000 i

/-- %167 = stablehlo.maximum %164, %166 : tensor<400000xf32> -/
def v167 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v164 X Y A3) (v166 A1)

/-- %168 = stablehlo.subtract %162, %152 : tensor<400000xf32> -/
def v168 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v162 X Y A1 A3) (v152 X Y A1 A3)

/-- %cst_20 = stablehlo.constant dense<0.000000e+00> : tensor<f32> -/
def cst_20 : (⟨S_, .f32⟩ : BufTy).Contents (Elt F) :=
  constant S_ .f32 0x00000000#32

/-- %169 = stablehlo.broadcast_in_dim %cst_20, dims = [] : (tensor<f32>) -> tensor<400000xf32> -/
def v169 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_20

/-- %170 = stablehlo.maximum %168, %169 : tensor<400000xf32> -/
def v170 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v168 X Y A1 A3) v169

/-- %171 = stablehlo.subtract %167, %157 : tensor<400000xf32> -/
def v171 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (v167 X Y A1 A3) (v157 X Y A1 A3)

/-- %cst_21 = stablehlo.constant dense<0.000000e+00> : tensor<f32> -/
def cst_21 : (⟨S_, .f32⟩ : BufTy).Contents (Elt F) :=
  constant S_ .f32 0x00000000#32

/-- %172 = stablehlo.broadcast_in_dim %cst_21, dims = [] : (tensor<f32>) -> tensor<400000xf32> -/
def v172 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_21

/-- %173 = stablehlo.maximum %171, %172 : tensor<400000xf32> -/
def v173 : (⟨S400000, .f32⟩ : BufTy).Contents (Elt F) :=
  (maximumf : (⟨S400000, .f32⟩ : BufTy).Contents (Elt F) → (⟨S400000, .f32⟩ : BufTy).Contents (Elt F) → (⟨S400000, .f32⟩ : BufTy).Contents (Elt F)) (v171 X Y A1 A3) v172

/-- %174 = stablehlo.multiply %170, %173 : tensor<400000xf32> -/
def v174 : (⟨S400000, .f32⟩ : BufTy).Contents (Elt F) :=
  (mulf : (⟨S400000, .f32⟩ : BufTy).Contents (Elt F) → (⟨S400000, .f32⟩ : BufTy).Contents (Elt F) → (⟨S400000, .f32⟩ : BufTy).Contents (Elt F)) (v170 X Y A1 A3) (v173 X Y A1 A3)

/-- %cst_22 = stablehlo.constant dense<1.000000e-07> : tensor<f32> -/
def cst_22 : (⟨S_, .f32⟩ : BufTy).Contents (Elt F) :=
  constant S_ .f32 0x33D6BF95#32

/-- %175 = stablehlo.broadcast_in_dim %cst_22, dims = [] : (tensor<f32>) -> tensor<400000xf32> -/
def v175 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_22

/-- %176 = stablehlo.add %174, %175 : tensor<400000xf32> -/
def cArea : (⟨S400000, .f32⟩ : BufTy).Contents (Elt F) :=
  (addf : (⟨S400000, .f32⟩ : BufTy).Contents (Elt F) → (⟨S400000, .f32⟩ : BufTy).Contents (Elt F) → (⟨S400000, .f32⟩ : BufTy).Contents (Elt F)) (v174 X Y A1 A3) v175

/-- %177 = stablehlo.subtract %176, %146 : tensor<400000xf32> -/
def v177 : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (cArea X Y A1 A3) (union X Y A1 A3)

/-- %178 = stablehlo.divide %177, %176 : tensor<400000xf32> -/
def v178 : (⟨S400000, .f32⟩ : BufTy).Contents (Elt F) :=
  (Host.divf : (⟨S400000, .f32⟩ : BufTy).Contents (Elt F) → (⟨S400000, .f32⟩ : BufTy).Contents (Elt F) → (⟨S400000, .f32⟩ : BufTy).Contents (Elt F)) (v177 X Y A1 A3) (cArea X Y A1 A3)

/-- %179 = stablehlo.subtract %147, %178 : tensor<400000xf32> -/
def giou : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) (iou X Y A1 A3) (v178 X Y A1 A3)

/-- %cst_23 = stablehlo.constant dense<1.000000e+00> : tensor<f32> -/
def cst_23 : (⟨S_, .f32⟩ : BufTy).Contents (Elt F) :=
  constant S_ .f32 0x3F800000#32

/-- %180 = stablehlo.broadcast_in_dim %cst_23, dims = [] : (tensor<f32>) -> tensor<400000xf32> -/
def v180 : (⟨S400000, .f32⟩ : BufTy).Contents (Elt F) :=
  (broadcastInDim S400000 ![] bcast_S_S400000 : (⟨S_, .f32⟩ : BufTy).Contents (Elt F) → (⟨S400000, .f32⟩ : BufTy).Contents (Elt F)) cst_23

/-- %181 = stablehlo.subtract %180, %179 : tensor<400000xf32> -/
def giouStage : (⟨S400000, .f32⟩ : BufTy).Contents (Elt F) :=
  (subf : (⟨S400000, .f32⟩ : BufTy).Contents (Elt F) → (⟨S400000, .f32⟩ : BufTy).Contents (Elt F) → (⟨S400000, .f32⟩ : BufTy).Contents (Elt F)) v180 (giou X Y A1 A3)

end Cert.ReferenceIdeal.RefValue

end
-- ==== Proof.RefEvalBox.lean ====
/-
  The reference's clipped image box, read after its operations: the segment of the line from the slices of the image
  sizes to the concatenation of the four clipped extremes (the four calls of the clipping function inlined) leaves
  that buffer at the pure function pred2d of the projected corner coordinates and the image sizes, and writes no
  argument array.
-/
import proofs.«165471_j24206435680919_1_alg».proof.Proof.RefOps1
import proofs.«165471_j24206435680919_1_alg».proof.Proof.RefEvalTac
import proofs.«165471_j24206435680919_1_alg».proof.Proof.RefGiou

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 1600000 in
/-- After the box segment the box buffer holds pred2d of the corner coordinates and the image sizes: each operation's
    result rewritten to its function's value, the composed term is pred2d's definition unfolded. -/
theorem box_eval (V : Valuation τ sig (Elt F)) :
    after ops1c V (main_v93 : DevRef τ sig)
      = pred2d (V (main_v73 : DevRef τ sig)) (V (main_v76 : DevRef τ sig)) (V (main_arg3 : DevRef τ sig)) := by
  ref_read
  rfl

/-- The segment writes none of the five argument arrays. -/
theorem box_args (V : Valuation τ sig (Elt F)) :
    after ops1c V (main_arg0 : DevRef τ sig) = V (main_arg0 : DevRef τ sig)
    ∧ after ops1c V (main_arg1 : DevRef τ sig) = V (main_arg1 : DevRef τ sig)
    ∧ after ops1c V (main_arg2 : DevRef τ sig) = V (main_arg2 : DevRef τ sig)
    ∧ after ops1c V (main_arg3 : DevRef τ sig) = V (main_arg3 : DevRef τ sig)
    ∧ after ops1c V (main_arg4 : DevRef τ sig) = V (main_arg4 : DevRef τ sig) := by
  refine ⟨?_, ?_, ?_, ?_, ?_⟩ <;> ref_read

end Cert.ReferenceIdeal.RefValue

end
-- ==== Proof.RefEvalIou.lean ====
/-
  The reference's intersection-over-union, read after its operations: from contents where the clipped image box is
  pred2d of the inputs and the ground-truth box array is A1, the segment of the line from the first slice of the
  clipped box to the quotient leaves the union buffer at the pure function union and the quotient's buffer at iou,
  and the arrays it does not write as they were.
-/
import proofs.«165471_j24206435680919_1_alg».proof.Proof.RefOps1
import proofs.«165471_j24206435680919_1_alg».proof.Proof.RefOps2
import proofs.«165471_j24206435680919_1_alg».proof.Proof.RefEvalTac
import proofs.«165471_j24206435680919_1_alg».proof.Proof.RefGiou

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 3200000 in
/-- After the segment the union buffer holds union of the inputs: each operation's result rewritten to its function's
    value, the two live arrays read at their given values, the composed term is union's definition unfolded. -/
theorem iou_union (V : Valuation τ sig (Elt F)) (X Y : (⟨S400000x8, .f32⟩ : BufTy).Contents (Elt F)) (A1 : (⟨S400000x4, .f32⟩ : BufTy).Contents (Elt F))
    (A3 : (⟨S400000x2, .f32⟩ : BufTy).Contents (Elt F))
    (h93 : V (main_v93 : DevRef τ sig) = pred2d X Y A3) (h1 : V (main_arg1 : DevRef τ sig) = A1) :
    after ops2a (after ops1d V) (main_v146 : DevRef τ sig) = union X Y A1 A3 := by
  ref_read
  rw [h93, h1]
  rfl

set_option maxRecDepth 8192 in
set_option maxHeartbeats 3200000 in
/-- After the segment the quotient's buffer holds iou of the inputs. -/
theorem iou_iou (V : Valuation τ sig (Elt F)) (X Y : (⟨S400000x8, .f32⟩ : BufTy).Contents (Elt F)) (A1 : (⟨S400000x4, .f32⟩ : BufTy).Contents (Elt F))
    (A3 : (⟨S400000x2, .f32⟩ : BufTy).Contents (Elt F))
    (h93 : V (main_v93 : DevRef τ sig) = pred2d X Y A3) (h1 : V (main_arg1 : DevRef τ sig) = A1) :
    after ops2a (after ops1d V) (main_v147 : DevRef τ sig) = iou X Y A1 A3 := by
  ref_read
  rw [h93, h1]
  rfl

theorem iou_v93 (V : Valuation τ sig (Elt F)) :
    after ops2a (after ops1d V) (main_v93 : DevRef τ sig) = V (main_v93 : DevRef τ sig) := by
  ref_read

/-- The segment writes none of the five argument arrays. -/
theorem iou_args (V : Valuation τ sig (Elt F)) :
    after ops2a (after ops1d V) (main_arg0 : DevRef τ sig) = V (main_arg0 : DevRef τ sig)
    ∧ after ops2a (after ops1d V) (main_arg1 : DevRef τ sig) = V (main_arg1 : DevRef τ sig)
    ∧ after ops2a (after ops1d V) (main_arg2 : DevRef τ sig) = V (main_arg2 : DevRef τ sig)
    ∧ after ops2a (after ops1d V) (main_arg3 : DevRef τ sig) = V (main_arg3 : DevRef τ sig)
    ∧ after ops2a (after ops1d V) (main_arg4 : DevRef τ sig) = V (main_arg4 : DevRef τ sig) := by
  refine ⟨?_, ?_, ?_, ?_, ?_⟩ <;> ref_read

end Cert.ReferenceIdeal.RefValue

end
-- ==== Proof.RefEvalLoss.lean ====
/-
  The reference's per-row loss, read after its operations: from contents where the clipped image box is pred2d of
  the inputs, the ground-truth box array is A1, and the union and the intersection-over-union buffers hold union and
  iou of the inputs, the segment of the line from the enclosing box's first slice to the last subtraction leaves the
  loss buffer at giouStage of the inputs, and the id array as it was.
-/
import proofs.«165471_j24206435680919_1_alg».proof.Proof.RefOps2
import proofs.«165471_j24206435680919_1_alg».proof.Proof.RefOps3
import proofs.«165471_j24206435680919_1_alg».proof.Proof.RefEvalTac
import proofs.«165471_j24206435680919_1_alg».proof.Proof.RefGiou

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 3200000 in
/-- After the segment the loss buffer holds giouStage of the inputs: each operation's result rewritten to its
    function's value, the four live arrays read at their given values, the composed term is giouStage's definition
    unfolded. -/
theorem loss_eval (V : Valuation τ sig (Elt F)) (X Y : (⟨S400000x8, .f32⟩ : BufTy).Contents (Elt F)) (A1 : (⟨S400000x4, .f32⟩ : BufTy).Contents (Elt F))
    (A3 : (⟨S400000x2, .f32⟩ : BufTy).Contents (Elt F))
    (h93 : V (main_v93 : DevRef τ sig) = pred2d X Y A3) (h1 : V (main_arg1 : DevRef τ sig) = A1)
    (h146 : V (main_v146 : DevRef τ sig) = union X Y A1 A3) (h147 : V (main_v147 : DevRef τ sig) = iou X Y A1 A3) :
    after ops3a (after ops2b V) (main_v181 : DevRef τ sig) = giouStage X Y A1 A3 := by
  ref_read
  rw [h93, h1, h146, h147]
  rfl

/-- The segment writes none of the five argument arrays. -/
theorem loss_args (V : Valuation τ sig (Elt F)) :
    after ops3a (after ops2b V) (main_arg0 : DevRef τ sig) = V (main_arg0 : DevRef τ sig)
    ∧ after ops3a (after ops2b V) (main_arg1 : DevRef τ sig) = V (main_arg1 : DevRef τ sig)
    ∧ after ops3a (after ops2b V) (main_arg2 : DevRef τ sig) = V (main_arg2 : DevRef τ sig)
    ∧ after ops3a (after ops2b V) (main_arg3 : DevRef τ sig) = V (main_arg3 : DevRef τ sig)
    ∧ after ops3a (after ops2b V) (main_arg4 : DevRef τ sig) = V (main_arg4 : DevRef τ sig) := by
  refine ⟨?_, ?_, ?_, ?_, ?_⟩ <;> ref_read

end Cert.ReferenceIdeal.RefValue

end
-- ==== Proof.RefTail.lean ====
/-
  The ending of the reference, as one function of the per-row loss array and the rows' object ids: per object
  the sum of its rows' losses and the number of its rows (two accumulating scatters into 80000 buckets), the mean
  loss of each present object (its sum over max(count, 1)) and zero for an absent one, then the mean of those
  means over the present objects (the sum of the selected means over the number of present objects), times one.
  The two scatters and the two sums stay folded: nothing here looks inside them.
-/
import proofs.«165471_j24206435680919_1_alg».proof.ReferenceIdeal

noncomputable section

namespace Cert.ReferenceIdeal.RefValue

open Idealize.ShloMosaic Cert.ReferenceIdeal Cert.ReferenceIdeal.Facts₀ Cert.ReferenceIdeal.Facts

variable {F : FTy → Type} [FloatOps F] [Cert.ReferenceIdeal.Facts]

/-- The mean over present objects of the per-object mean loss, from the per-row losses and the rows' object ids:
    the operations that follow the per-row loss, each the printed one over the named intermediate values. -/
def refTail (loss : (⟨S400000, .f32⟩ : BufTy).Contents (Elt F)) (ids : (⟨S400000, .i32⟩ : BufTy).Contents (Elt F)) :
    (⟨S_, .f32⟩ : BufTy).Contents (Elt F) :=
  let zero80 : (⟨S80000, .f32⟩ : BufTy).Contents (Elt F) := broadcastInDim S80000 ![] bcast_S_S80000 (constant S_ .f32 0x00000000#32)
  let idx : (⟨S400000x1, .i32⟩ : BufTy).Contents (Elt F) := broadcastInDim S400000x1 ![0] bcast_S400000_S400000x1_0 ids
  let sums : (⟨S80000, .f32⟩ : BufTy).Contents (Elt F) := Host.scatterAdd scatter_S80000_S400000x1_S400000_n_0_0_1 zero80 idx loss
  let ones : (⟨S400000, .f32⟩ : BufTy).Contents (Elt F) := broadcastInDim S400000 ![] bcast_S_S400000 (constant S_ .f32 0x3F800000#32)
  let counts : (⟨S80000, .f32⟩ : BufTy).Contents (Elt F) := Host.scatterAdd scatter_S80000_S400000x1_S400000_n_0_0_1 zero80 idx ones
  let one80 : (⟨S80000, .f32⟩ : BufTy).Contents (Elt F) := broadcastInDim S80000 ![] bcast_S_S80000 (constant S_ .f32 0x3F800000#32)
  let segMean : (⟨S80000, .f32⟩ : BufTy).Contents (Elt F) := Host.divf sums (maximumf counts one80)
  let present : (⟨S80000, .i1⟩ : BufTy).Contents (Elt F) := cmpf .ogt counts zero80
  let kept : (⟨S80000, .f32⟩ : BufTy).Contents (Elt F) :=
    select present segMean (broadcastInDim S80000 ![] bcast_S_S80000 (id (constant S_ .f32 0x00000000#32)))
  let total : (⟨S_, .f32⟩ : BufTy).Contents (Elt F) := Host.reduceAdd kept (constant S_ .f32 0x00000000#32) reducesTo_S80000_S_d0 h_S_
  let nPresent : (⟨S_, .f32⟩ : BufTy).Contents (Elt F) :=
    Host.reduceAdd (uitofp .f32 present) (constant S_ .f32 0x00000000#32) reducesTo_S80000_S_d0 h_S_
  mulf (constant S_ .f32 0x3F800000#32) (Host.divf total nPresent)

end Cert.ReferenceIdeal.RefValue

end
-- ==== Proof.RefEvalTail.lean ====
/-
  The reference's ending, read after its operations: the last segment of the line leaves the result buffer at refTail
  of the per-row loss array and the id array, and writes no argument array. The two scatters and the two sums stay
  folded throughout.
-/
import proofs.«165471_j24206435680919_1_alg».proof.Proof.RefOps3
import proofs.«165471_j24206435680919_1_alg».proof.Proof.RefEvalTac
import proofs.«165471_j24206435680919_1_alg».proof.Proof.RefTail

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

attribute [local irreducible] Host.scatterAdd Host.reduceAdd in
set_option maxRecDepth 8192 in
set_option maxHeartbeats 1600000 in
/-- After the last segment the result buffer holds refTail of the loss array and the id array: each operation's result
    rewritten to its function's value, the composed term is refTail's definition with its named values substituted. -/
theorem tail_eval (V : Valuation τ sig (Elt F)) :
    after ops3b V (main_v199 : DevRef τ sig)
      = refTail (V (main_v181 : DevRef τ sig)) (V (main_arg4 : DevRef τ sig)) := by
  ref_read
  rfl

/-- The segment writes none of the five argument arrays. -/
theorem tail_args (V : Valuation τ sig (Elt F)) :
    after ops3b V (main_arg0 : DevRef τ sig) = V (main_arg0 : DevRef τ sig)
    ∧ after ops3b V (main_arg1 : DevRef τ sig) = V (main_arg1 : DevRef τ sig)
    ∧ after ops3b V (main_arg2 : DevRef τ sig) = V (main_arg2 : DevRef τ sig)
    ∧ after ops3b V (main_arg3 : DevRef τ sig) = V (main_arg3 : DevRef τ sig)
    ∧ after ops3b V (main_arg4 : DevRef τ sig) = V (main_arg4 : DevRef τ sig) := by
  refine ⟨?_, ?_, ?_, ?_, ?_⟩ <;> ref_read

end Cert.ReferenceIdeal.RefValue

end
-- ==== Proof.RefEval.lean ====
/-
  The reference's result as a pure function of its five argument arrays, and its run stated with it.
  The fold over the whole line of operations is the folds over its segments in order; segment by segment the live
  buffers are read: the image coordinates of the corners (xImg, yImg of the boxes and the projections), the clipped
  image box (pred2d), the union and the intersection-over-union, the per-row loss (giouStage), and the ending
  (refTail of the loss and the ids). No segment writes an argument array.
-/
import proofs.«165471_j24206435680919_1_alg».proof.Proof.RefRun
import proofs.«165471_j24206435680919_1_alg».proof.Proof.RefEvalGeom
import proofs.«165471_j24206435680919_1_alg».proof.Proof.RefEvalBox
import proofs.«165471_j24206435680919_1_alg».proof.Proof.RefEvalIou
import proofs.«165471_j24206435680919_1_alg».proof.Proof.RefEvalLoss
import proofs.«165471_j24206435680919_1_alg».proof.Proof.RefEvalTail

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- The fold over the whole line: the segments' folds, in program order. -/
theorem after_ops (V : Valuation τ sig (Elt F)) :
    after ops V = after ops3b (after ops3a (after ops2b (after ops2a (after ops1d (after ops1c
      (after ops1b (after ops1a (after ops0b (after ops0a V))))))))) := by
  simp only [ops, ops0, ops1, ops2, ops3, after_app]

/-- After the whole line the result buffer holds the ending applied to the per-row loss of the image coordinates of
    the corners, all as functions of the five argument arrays' contents before the line. -/
theorem eval_v199 (V : Valuation τ sig (Elt F)) :
    after ops V (main_v199 : DevRef τ sig)
      = refTail (giouStage (xImg (V (main_arg0 : DevRef τ sig)) (V (main_arg2 : DevRef τ sig))) (yImg (V (main_arg0 : DevRef τ sig)) (V (main_arg2 : DevRef τ sig)))
          (V (main_arg1 : DevRef τ sig)) (V (main_arg3 : DevRef τ sig))) (V (main_arg4 : DevRef τ sig)) := by
  rw [after_ops]
  -- the corners' image coordinates
  have hx := geom_x V
  have hy := geom_y V
  obtain ⟨-, g1, -, g3, g4⟩ := geom_args V
  generalize after ops1b (after ops1a (after ops0b (after ops0a V))) = Vg at hx hy g1 g3 g4 ⊢
  -- the clipped image box
  have h93 := box_eval Vg
  rw [hx, hy, g3] at h93
  obtain ⟨-, b1, -, -, b4⟩ := box_args Vg
  generalize after ops1c Vg = Vb at h93 b1 b4 ⊢
  -- the union and the intersection over union
  have h1 : Vb (main_arg1 : DevRef τ sig) = V (main_arg1 : DevRef τ sig) := b1.trans g1
  have h146 := iou_union Vb _ _ _ _ h93 h1
  have h147 := iou_iou Vb _ _ _ _ h93 h1
  have h93' := (iou_v93 Vb).trans h93
  obtain ⟨-, i1, -, -, i4⟩ := iou_args Vb
  generalize after ops2a (after ops1d Vb) = Vi at h146 h147 h93' i1 i4 ⊢
  -- the per-row loss
  have h181 := loss_eval Vi _ _ _ _ h93' (i1.trans h1) h146 h147
  obtain ⟨-, -, -, -, l4⟩ := loss_args Vi
  generalize after ops3a (after ops2b Vi) = Vl at h181 l4 ⊢
  -- the ending
  rw [tail_eval, h181, l4, i4, b4, g4]

/-- The whole line writes none of the five argument arrays. -/
theorem eval_args (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig) := by
  rw [after_ops]
  obtain ⟨g0, g1, g2, g3, g4⟩ := geom_args V
  generalize after ops1b (after ops1a (after ops0b (after ops0a V))) = Vg at g0 g1 g2 g3 g4 ⊢
  obtain ⟨b0, b1, b2, b3, b4⟩ := box_args Vg
  generalize after ops1c Vg = Vb at b0 b1 b2 b3 b4 ⊢
  obtain ⟨i0, i1, i2, i3, i4⟩ := iou_args Vb
  generalize after ops2a (after ops1d Vb) = Vi at i0 i1 i2 i3 i4 ⊢
  obtain ⟨l0, l1, l2, l3, l4⟩ := loss_args Vi
  generalize after ops3a (after ops2b Vi) = Vl at l0 l1 l2 l3 l4 ⊢
  obtain ⟨t0, t1, t2, t3, t4⟩ := tail_args Vl
  exact ⟨t0.trans (l0.trans (i0.trans (b0.trans g0))), t1.trans (l1.trans (i1.trans (b1.trans g1))),
    t2.trans (l2.trans (i2.trans (b2.trans g2))), t3.trans (l3.trans (i3.trans (b3.trans g3))),
    t4.trans (l4.trans (i4.trans (b4.trans g4)))⟩

/-- At the compiled mesh, for any float values, from any memory with zero counters: every weakly fair execution of the
    reference's @main on the TensorCores terminates; every final state has the result buffer at the ending applied to
    the per-row loss of the corners' image coordinates, as functions of the argument arrays at launch, and the five
    argument arrays unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199)
          = refTail (giouStage (xImg (m ((c.tc : Thread nD τ).loc main_arg0)) (m ((c.tc : Thread nD τ).loc main_arg2))) (yImg (m ((c.tc : Thread nD τ).loc main_arg0)) (m ((c.tc : Thread nD τ).loc main_arg2)))
            (m ((c.tc : Thread nD τ).loc main_arg1)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v199).trans (eval_v199 (launchContents m c)),
        (h c main_arg0).trans (eval_args (launchContents m c)).1,
        (h c main_arg1).trans (eval_args (launchContents m c)).2.1,
        (h c main_arg2).trans (eval_args (launchContents m c)).2.2.1,
        (h c main_arg3).trans (eval_args (launchContents m c)).2.2.2.1,
        (h c main_arg4).trans (eval_args (launchContents m c)).2.2.2.2⟩)
    (run_main m ρ)

end Cert.ReferenceIdeal.RefValue

end
-- ==== Proof.RefGeomDots.lean ====
/-
  The two batched products of the reference's geometry stage read at an index, at the ideal instance: a
  dot_general with batch axis 0 and ONE contracted axis is, at (n, i, j), the sum over the contracted
  coordinate c of the left operand at (n, i, c) times the right operand at (n, c, j) (the first product: the
  right operand contracts its axis 1) or at (n, j, c) (the second: it contracts its axis 2), written out as
  three and four terms. The contraction shape's indices are Fin 3 and Fin 4 through the library's bijection for a
  one-axis contraction; the operand indices at a contraction position are computed coordinate by coordinate.
-/
import proofs.«165471_j24206435680919_1_alg».proof.Proof.RefGeom
import Idealize.ShloMosaic.Lib.ValueLayout
import Idealize.ShloMosaic.Lib.IdealHost
import Idealize.ShloMosaic.PureOps.Ideal.Laws

open Idealize.ShloMosaic Idealize.ShloMosaic.ValueIdx Cert.ReferenceIdeal
open scoped BigOperators

namespace Cert.ReferenceIdeal.RefValue

variable [Cert.ReferenceIdeal.Facts]

/-- The first product's dimension numbers: [N, 3, 3] × [N, 3, 8], batch 0, contracting 2 with 1. -/
abbrev D1 := dot_S400000x3x3_S400000x3x8_S400000x3x8_2_1_1_2_0_0
/-- It contracts one axis. -/
theorem D1_rank : D1.contr.rank = 1 := rfl
/-- Of extent three. -/
theorem D1_size : D1.contr.size ⟨0, by rw [D1_rank]; exact Nat.one_pos⟩ = 3 := rfl
/-- Its contraction indices are Fin 3. -/
noncomputable def e1 : D1.contr.Idx ≃ Fin 3 := contrEquiv1 D1 3 D1_rank D1_size

/-- The left operand's index at result (n, r, k) and contraction position c is (n, r, c). -/
theorem D1_lhsIdx (n : Fin 400000) (r : Fin 3) (k : Fin 8) (c : Fin 3) :
    D1.lhsIdx (ix3 n r k) (e1.symm c) = ix3 n r c := by
  funext a
  apply Fin.ext
  match a with
  | ⟨0, _⟩ => rfl
  | ⟨1, _⟩ => rfl
  | ⟨2, _⟩ => exact (D1.lhsIdx_val_of_single rfl _ _).trans (contrEquiv1_symm_val D1 3 D1_rank D1_size c)

/-- The right operand's index at result (n, r, k) and contraction position c is (n, c, k). -/
theorem D1_rhsIdx (n : Fin 400000) (r : Fin 3) (k : Fin 8) (c : Fin 3) :
    D1.rhsIdx (ix3 n r k) (e1.symm c) = ix3 n c k := by
  funext a
  apply Fin.ext
  match a with
  | ⟨0, _⟩ => rfl
  | ⟨1, _⟩ => exact (D1.rhsIdx_val_of_single rfl _ _).trans (contrEquiv1_symm_val D1 3 D1_rank D1_size c)
  | ⟨2, _⟩ => rfl

/-- The first product at (n, r, k) as a three-term sum. -/
theorem dot1_apply (L : FVec Ideal S400000x3x3 .f32) (R : FVec Ideal S400000x3x8 .f32)
    (n : Fin 400000) (r : Fin 3) (k : Fin 8) :
    Host.dotGeneral (F := Ideal) D1 none L R (ix3 n r k)
      = L (ix3 n r 0) * R (ix3 n 0 k) + L (ix3 n r 1) * R (ix3 n 1 k) + L (ix3 n r 2) * R (ix3 n 2 k) := by
  show FloatOps.dotGeneral (F := Ideal) D1 none .single L R (ix3 n r k) = _
  rw [Ideal.dotGeneral_apply, ← Equiv.sum_comp e1.symm, Fin.sum_univ_three]
  simp only [D1_lhsIdx, D1_rhsIdx]

/-- The second product's dimension numbers: [N, 8, 4] × [N, 4, 4], batch 0, contracting 2 with 2. -/
abbrev D2 := dot_S400000x8x4_S400000x4x4_S400000x8x4_2_2_1_1_0_0
/-- It contracts one axis. -/
theorem D2_rank : D2.contr.rank = 1 := rfl
/-- Of extent four. -/
theorem D2_size : D2.contr.size ⟨0, by rw [D2_rank]; exact Nat.one_pos⟩ = 4 := rfl
/-- Its contraction indices are Fin 4. -/
noncomputable def e2 : D2.contr.Idx ≃ Fin 4 := contrEquiv1 D2 4 D2_rank D2_size

/-- The left operand's index at result (n, k, r) and contraction position c is (n, k, c). -/
theorem D2_lhsIdx (n : Fin 400000) (k : Fin 8) (r : Fin 4) (c : Fin 4) :
    D2.lhsIdx (ix3 n k r) (e2.symm c) = ix3 n k c := by
  funext a
  apply Fin.ext
  match a with
  | ⟨0, _⟩ => rfl
  | ⟨1, _⟩ => rfl
  | ⟨2, _⟩ => exact (D2.lhsIdx_val_of_single rfl _ _).trans (contrEquiv1_symm_val D2 4 D2_rank D2_size c)

/-- The right operand's index at result (n, k, r) and contraction position c is (n, r, c). -/
theorem D2_rhsIdx (n : Fin 400000) (k : Fin 8) (r : Fin 4) (c : Fin 4) :
    D2.rhsIdx (ix3 n k r) (e2.symm c) = ix3 n r c := by
  funext a
  apply Fin.ext
  match a with
  | ⟨0, _⟩ => rfl
  | ⟨1, _⟩ => rfl
  | ⟨2, _⟩ => exact (D2.rhsIdx_val_of_single rfl _ _).trans (contrEquiv1_symm_val D2 4 D2_rank D2_size c)

/-- The second product at (n, k, r) as a four-term sum. -/
theorem dot2_apply (L : FVec Ideal S400000x8x4 .f32) (R : FVec Ideal S400000x4x4 .f32)
    (n : Fin 400000) (k : Fin 8) (r : Fin 4) :
    Host.dotGeneral (F := Ideal) D2 none L R (ix3 n k r)
      = L (ix3 n k 0) * R (ix3 n r 0) + L (ix3 n k 1) * R (ix3 n r 1) + L (ix3 n k 2) * R (ix3 n r 2) + L (ix3 n k 3) * R (ix3 n r 3) := by
  show FloatOps.dotGeneral (F := Ideal) D2 none .single L R (ix3 n k r) = _
  rw [Ideal.dotGeneral_apply, ← Equiv.sum_comp e2.symm, Fin.sum_univ_four]
  simp only [D2_lhsIdx, D2_rhsIdx]

end Cert.ReferenceIdeal.RefValue
-- ==== Proof.RRowGeom.lean ====
/-
  The reference's geometry for ONE row, in plain extended-real arithmetic: the eight corners of a box
  (x, y, z, l, w, h, yaw), each half-extent times a sign, rotated about the vertical axis by yaw,
  translated by the centre, written in homogeneous coordinates and multiplied by the row's 4×4
  matrix; the image coordinates are the first two components divided by the third clamped below
  by a small positive constant. The row is "p" (the seven box parameters) and "M" (the matrix);
  "k" is the corner.
-/
import Idealize.ShloMosaic.PureOps.Ideal
import Idealize.ShloMosaic.Lib.ValueIdx

noncomputable section

namespace Cert.Giou

open Idealize.ShloMosaic

/-- The words of the signs along the box's length, corner by corner: + + − − + + − −. -/
def signWordX : Fin 8 → BitVec 32 := fun
  | 0 => 0x3F800000#32 | 1 => 0x3F800000#32 | 2 => 0xBF800000#32 | 3 => 0xBF800000#32 | 4 => 0x3F800000#32 | 5 => 0x3F800000#32 | 6 => 0xBF800000#32 | 7 => 0xBF800000#32

/-- The words of the signs along the box's width: + − − + + − − +. -/
def signWordY : Fin 8 → BitVec 32 := fun
  | 0 => 0x3F800000#32 | 1 => 0xBF800000#32 | 2 => 0xBF800000#32 | 3 => 0x3F800000#32 | 4 => 0x3F800000#32 | 5 => 0xBF800000#32 | 6 => 0xBF800000#32 | 7 => 0x3F800000#32

/-- The words of the signs along the box's height: + + + + − − − −. -/
def signWordZ : Fin 8 → BitVec 32 := fun
  | 0 => 0x3F800000#32 | 1 => 0x3F800000#32 | 2 => 0x3F800000#32 | 3 => 0x3F800000#32 | 4 => 0xBF800000#32 | 5 => 0xBF800000#32 | 6 => 0xBF800000#32 | 7 => 0xBF800000#32

/-- The sign of corner k along the length, as the extended real its word denotes. -/
def rSignX (k : Fin 8) : EReal := Ideal.ofBits .f32 (signWordX k)
/-- The sign of corner k along the width. -/
def rSignY (k : Fin 8) : EReal := Ideal.ofBits .f32 (signWordY k)
/-- The sign of corner k along the height. -/
def rSignZ (k : Fin 8) : EReal := Ideal.ofBits .f32 (signWordZ k)

/-- The divisor of the extents: the float 2. -/
def rTwo : EReal := Ideal.ofBits .f32 0x40000000#32
/-- The floor of the depth: the float nearest 1e-5. -/
def rEps : EReal := Ideal.ofBits .f32 0x3727C5AC#32

/-- Corner k in the box's own frame: half of each extent times the corner's sign (c = 0, 1, 2: along length, width, height). -/
def rCornerLocal (p : Fin 7 → EReal) (k : Fin 8) : Fin 3 → EReal
  | 0 => Ideal.div (p 3) rTwo * rSignX k
  | 1 => Ideal.div (p 4) rTwo * rSignY k
  | 2 => Ideal.div (p 5) rTwo * rSignZ k

/-- The rotation about the vertical axis by yaw, row r column c: (cos, −sin, 0; sin, cos, 0; 0, 0, 1). -/
def rRot (yaw : EReal) : Fin 3 → Fin 3 → EReal
  | 0, 0 => Ideal.cos yaw | 0, 1 => -Ideal.sin yaw | 0, 2 => 0
  | 1, 0 => Ideal.sin yaw | 1, 1 => Ideal.cos yaw | 1, 2 => 0
  | 2, 0 => 0 | 2, 1 => 0 | 2, 2 => 1

/-- The box's centre: the first three parameters. -/
def rCentre (p : Fin 7 → EReal) : Fin 3 → EReal
  | 0 => p 0
  | 1 => p 1
  | 2 => p 2

/-- Corner k in the world frame, coordinate r: row r of the rotation times the local corner (a three-term sum), plus the centre. -/
def rCornerWorld (p : Fin 7 → EReal) (k : Fin 8) (r : Fin 3) : EReal :=
  (rRot (p 6) r 0 * rCornerLocal p k 0 + rRot (p 6) r 1 * rCornerLocal p k 1 + rRot (p 6) r 2 * rCornerLocal p k 2) + rCentre p r

/-- Corner k in homogeneous coordinates: the world corner, then 1. -/
def rHom (p : Fin 7 → EReal) (k : Fin 8) : Fin 4 → EReal
  | 0 => rCornerWorld p k 0
  | 1 => rCornerWorld p k 1
  | 2 => rCornerWorld p k 2
  | 3 => 1

/-- Component r of the matrix applied to corner k: the four-term sum of the homogeneous corner against row r of M. -/
def rProj (p : Fin 7 → EReal) (M : Fin 4 → Fin 4 → EReal) (k : Fin 8) (r : Fin 4) : EReal :=
  rHom p k 0 * M r 0 + rHom p k 1 * M r 1 + rHom p k 2 * M r 2 + rHom p k 3 * M r 3

/-- The depth of corner k, not below the floor. -/
def rDepth (p : Fin 7 → EReal) (M : Fin 4 → Fin 4 → EReal) (k : Fin 8) : EReal := max (rProj p M k 2) rEps

/-- The horizontal image coordinate of corner k. -/
def rXImg (p : Fin 7 → EReal) (M : Fin 4 → Fin 4 → EReal) (k : Fin 8) : EReal := Ideal.div (rProj p M k 0) (rDepth p M k)

/-- The vertical image coordinate of corner k. -/
def rYImg (p : Fin 7 → EReal) (M : Fin 4 → Fin 4 → EReal) (k : Fin 8) : EReal := Ideal.div (rProj p M k 1) (rDepth p M k)

end Cert.Giou

end
-- ==== Proof.LibHostRead.lean ====
/-
  Operations of a host program read at an index given by coordinates: what each array operation of a jnp
  reference (a column slice with its reshape, a broadcast_in_dim between the shapes a row-wise
  computation meets, a reshape splitting or dropping an axis, a concatenation read at a literal position of the
  joined axis, a dense table of words) holds at the index (n, …) of its result, as the operand at an
  index written with the same coordinates. Every lemma is generic in the extents that are not literal in
  its statement, and stated over the index constructors ix1, ix2, ix3 with explicit coordinates, so that it applies
  to a printed operation by unification.
-/
import Idealize.ShloMosaic.Lib.ValueLayout
import Idealize.ShloMosaic.Lib.IdealHost

namespace Cert.HostRead

open Idealize.ShloMosaic Idealize.ShloMosaic.ValueIdx

variable {α : Type}

/-- A coordinate below N is itself, or zero when N is one: the right side a broadcast's obligation has on an axis of extent N. -/
theorem val_eq_ite {N : Nat} (n : Fin N) : n.val = if N = 1 then 0 else n.val := by
  have := n.isLt; split <;> omega

/-! ## A column of a matrix as a vector -/

/-- Column o of an [N, C] array, sliced as [N, 1] and reshaped to [N], reads at n the array at (n, o). -/
theorem column_read {N C : Nat} (o : Nat) (X : (⟨2, ![N, C]⟩ : Shape).Idx → α)
    (hs : (⟨2, ![N, C]⟩ : Shape).Slices ![0, o] ⟨2, ![N, 1]⟩) (hc : (⟨2, ![N, 1]⟩ : Shape).ShapeCasts ⟨1, ![N]⟩)
    (n : Fin N) (c : Fin C) (hco : c.val = o) :
    shapeCast ⟨1, ![N]⟩ (extractStridedSlice ⟨2, ![N, 1]⟩ ![0, o] X hs) hc (ix1 n) = X (ix2 n c) :=
  (shapeCast_apply _ hc (ix1 n) (ix2 n (0 : Fin 1)) (by
    rw [Shape.rowMajor_val_two, Shape.rowMajor_val_one]
    show n.val * 1 + 0 = n.val
    omega)).trans (slice2_axis1_apply o X hs n (0 : Fin 1) c (by show c.val = o + 0; omega))

/-! ## Slices and reshapes of a rank-3 array -/

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An [N, K, 1] array reshaped to [N, K] reads, at (n, k), the operand at (n, k, 0). -/
theorem shapeCast_nk1_nk_apply {N K : Nat} (x : (⟨3, ![N, K, 1]⟩ : Shape).Idx → α)
    (h : (⟨3, ![N, K, 1]⟩ : Shape).ShapeCasts ⟨2, ![N, K]⟩) (n : Fin N) (k : Fin K) :
    shapeCast ⟨2, ![N, K]⟩ x h (ix2 n k) = x (ix3 n k (0 : Fin 1)) :=
  shapeCast_apply x h _ _ (by
    rw [Shape.rowMajor_val_three, Shape.rowMajor_val_two]
    show (n.val * K + k.val) * 1 + 0 = n.val * K + k.val
    rw [Nat.mul_one, Nat.add_zero])

/-- Column o of the last axis of an [N, K, C] array, sliced as [N, K, 1] and reshaped to [N, K], reads at (n, k) the array at (n, k, o). -/
theorem column3_read {N K C : Nat} (o : Nat) (X : (⟨3, ![N, K, C]⟩ : Shape).Idx → α)
    (hs : (⟨3, ![N, K, C]⟩ : Shape).Slices ![0, 0, o] ⟨3, ![N, K, 1]⟩) (hc : (⟨3, ![N, K, 1]⟩ : Shape).ShapeCasts ⟨2, ![N, K]⟩)
    (n : Fin N) (k : Fin K) (c : Fin C) (hco : c.val = o) :
    shapeCast ⟨2, ![N, K]⟩ (extractStridedSlice ⟨3, ![N, K, 1]⟩ ![0, 0, o] X hs) hc (ix2 n k) = X (ix3 n k c) :=
  (shapeCast_nk1_nk_apply _ hc n k).trans (slice3_axis2_apply o X hs n k (0 : Fin 1) c (by show c.val = o + 0; omega))

/-- An [N, 9] array reshaped to [N, 3, 3] reads, at (n, r, c), the operand at (n, 3 r + c). -/
theorem shapeCast_n9_n33_apply {N : Nat} (x : (⟨2, ![N, 9]⟩ : Shape).Idx → α)
    (h : (⟨2, ![N, 9]⟩ : Shape).ShapeCasts ⟨3, ![N, 3, 3]⟩) (n : Fin N) (r c : Fin 3) (q : Fin 9) (hq : q.val = 3 * r.val + c.val) :
    shapeCast ⟨3, ![N, 3, 3]⟩ x h (ix3 n r c) = x (ix2 n q) :=
  shapeCast_apply x h _ _ (by
    rw [Shape.rowMajor_val_two, Shape.rowMajor_val_three]
    show n.val * 9 + q.val = (n.val * 3 + r.val) * 3 + c.val
    omega)

/-! ## broadcast_in_dim between the shapes of a row-wise computation -/

/-- [N] to [N, 1] along axis 0: at (n, u) the operand at n. -/
theorem bcast_n_n1_apply {N : Nat} (h : (⟨1, ![N]⟩ : Shape).BroadcastsInDim ⟨2, ![N, 1]⟩ (![0] : Fin 1 → Fin (⟨2, ![N, 1]⟩ : Shape).rank))
    (x : (⟨1, ![N]⟩ : Shape).Idx → α) (n : Fin N) (u : Fin 1) :
    broadcastInDim ⟨2, ![N, 1]⟩ (![0] : Fin 1 → Fin (⟨2, ![N, 1]⟩ : Shape).rank) h x (ix2 n u) = x (ix1 n) :=
  broadcastInDim_apply _ h x _ _ fun a => match a with
    | ⟨0, _⟩ => val_eq_ite n

/-- [K] to [1, K] along axis 1: at (u, k) the operand at k. -/
theorem bcast_k_1k_apply {K : Nat} (h : (⟨1, ![K]⟩ : Shape).BroadcastsInDim ⟨2, ![1, K]⟩ (![1] : Fin 1 → Fin (⟨2, ![1, K]⟩ : Shape).rank))
    (x : (⟨1, ![K]⟩ : Shape).Idx → α) (u : Fin 1) (k : Fin K) :
    broadcastInDim ⟨2, ![1, K]⟩ (![1] : Fin 1 → Fin (⟨2, ![1, K]⟩ : Shape).rank) h x (ix2 u k) = x (ix1 k) :=
  broadcastInDim_apply _ h x _ _ fun a => match a with
    | ⟨0, _⟩ => val_eq_ite k

/-- [N, 1] to [N, K]: at (n, k) the operand at (n, 0). -/
theorem bcast_n1_nk_apply {N K : Nat} (h : (⟨2, ![N, 1]⟩ : Shape).BroadcastsInDim ⟨2, ![N, K]⟩ (![0, 1] : Fin 2 → Fin (⟨2, ![N, K]⟩ : Shape).rank))
    (x : (⟨2, ![N, 1]⟩ : Shape).Idx → α) (n : Fin N) (k : Fin K) :
    broadcastInDim ⟨2, ![N, K]⟩ (![0, 1] : Fin 2 → Fin (⟨2, ![N, K]⟩ : Shape).rank) h x (ix2 n k) = x (ix2 n (0 : Fin 1)) :=
  broadcastInDim_apply _ h x _ _ fun a => match a with
    | ⟨0, _⟩ => val_eq_ite n
    | ⟨1, _⟩ => rfl

/-- [1, K] to [N, K]: at (n, k) the operand at (0, k). -/
theorem bcast_1k_nk_apply {N K : Nat} (h : (⟨2, ![1, K]⟩ : Shape).BroadcastsInDim ⟨2, ![N, K]⟩ (![0, 1] : Fin 2 → Fin (⟨2, ![N, K]⟩ : Shape).rank))
    (x : (⟨2, ![1, K]⟩ : Shape).Idx → α) (n : Fin N) (k : Fin K) :
    broadcastInDim ⟨2, ![N, K]⟩ (![0, 1] : Fin 2 → Fin (⟨2, ![N, K]⟩ : Shape).rank) h x (ix2 n k) = x (ix2 (0 : Fin 1) k) :=
  broadcastInDim_apply _ h x _ _ fun a => match a with
    | ⟨0, _⟩ => rfl
    | ⟨1, _⟩ => val_eq_ite k

/-- [N, K] to [N, 1, K] along axes 0 and 2: at (n, u, k) the operand at (n, k). -/
theorem bcast_nk_n1k_apply {N K : Nat} (h : (⟨2, ![N, K]⟩ : Shape).BroadcastsInDim ⟨3, ![N, 1, K]⟩ (![0, 2] : Fin 2 → Fin (⟨3, ![N, 1, K]⟩ : Shape).rank))
    (x : (⟨2, ![N, K]⟩ : Shape).Idx → α) (n : Fin N) (u : Fin 1) (k : Fin K) :
    broadcastInDim ⟨3, ![N, 1, K]⟩ (![0, 2] : Fin 2 → Fin (⟨3, ![N, 1, K]⟩ : Shape).rank) h x (ix3 n u k) = x (ix2 n k) :=
  broadcastInDim_apply _ h x _ _ fun a => match a with
    | ⟨0, _⟩ => val_eq_ite n
    | ⟨1, _⟩ => val_eq_ite k

/-- [N, C] to [N, C, 1] along axes 0 and 1: at (n, c, u) the operand at (n, c). -/
theorem bcast_nc_nc1_apply {N C : Nat} (h : (⟨2, ![N, C]⟩ : Shape).BroadcastsInDim ⟨3, ![N, C, 1]⟩ (![0, 1] : Fin 2 → Fin (⟨3, ![N, C, 1]⟩ : Shape).rank))
    (x : (⟨2, ![N, C]⟩ : Shape).Idx → α) (n : Fin N) (c : Fin C) (u : Fin 1) :
    broadcastInDim ⟨3, ![N, C, 1]⟩ (![0, 1] : Fin 2 → Fin (⟨3, ![N, C, 1]⟩ : Shape).rank) h x (ix3 n c u) = x (ix2 n c) :=
  broadcastInDim_apply _ h x _ _ fun a => match a with
    | ⟨0, _⟩ => val_eq_ite n
    | ⟨1, _⟩ => val_eq_ite c

/-- [N, C, 1] to [N, C, K]: at (n, c, k) the operand at (n, c, 0). -/
theorem bcast_nc1_nck_apply {N C K : Nat} (h : (⟨3, ![N, C, 1]⟩ : Shape).BroadcastsInDim ⟨3, ![N, C, K]⟩ (![0, 1, 2] : Fin 3 → Fin (⟨3, ![N, C, K]⟩ : Shape).rank))
    (x : (⟨3, ![N, C, 1]⟩ : Shape).Idx → α) (n : Fin N) (c : Fin C) (k : Fin K) :
    broadcastInDim ⟨3, ![N, C, K]⟩ (![0, 1, 2] : Fin 3 → Fin (⟨3, ![N, C, K]⟩ : Shape).rank) h x (ix3 n c k) = x (ix3 n c (0 : Fin 1)) :=
  broadcastInDim_apply _ h x _ _ fun a => match a with
    | ⟨0, _⟩ => val_eq_ite n
    | ⟨1, _⟩ => val_eq_ite c
    | ⟨2, _⟩ => rfl

/-! ## A dense table of eight words -/

/-- The table of the floats eight words denote reads, at k, the float of word k. -/
theorem table8_apply (lit : Fin 8 → BitVec 32) (k : Fin 8) :
    (fun i : (⟨1, ![8]⟩ : Shape).Idx => FloatOps.ofBits (F := Ideal) .f32 (lit ((⟨1, ![8]⟩ : Shape).rowMajor i))) (ix1 k)
      = Ideal.ofBits .f32 (lit k) := by
  have e : ((⟨1, ![8]⟩ : Shape).rowMajor (ix1 k) : Fin 8) = k := Fin.ext (Shape.rowMajor_val_one (ix1 k))
  exact congrArg (fun q : Fin 8 => Ideal.ofBits .f32 (lit q)) e

/-! ## Concatenations read at a literal position of the joined axis

With the pieces' extents along the joined axis literal, where a literal position falls is computed; what is left is
that the index the definition hands the piece has the coordinates named here, axis by axis. -/

/-- Three [N, 1, K] arrays joined along axis 1: at (n, 0, k) piece 0 at (n, 0, k). -/
theorem concat3_axis1_at0 {N K : Nat} (x0 x1 x2 : (⟨3, ![N, 1, K]⟩ : Shape).Idx → α)
    (h : Shape.Concatenates [(⟨3, ![N, 1, K]⟩ : Shape), (⟨3, ![N, 1, K]⟩ : Shape), (⟨3, ![N, 1, K]⟩ : Shape)] ⟨3, ![N, 3, K]⟩ 1) (n : Fin N) (k : Fin K) :
    concatenate ⟨3, ![N, 3, K]⟩ 1 [⟨_, x0⟩, ⟨_, x1⟩, ⟨_, x2⟩] h (ix3 n (0 : Fin 3) k) = x0 (ix3 n (0 : Fin 1) k) := by
  show x0 _ = x0 _
  congr 1; funext b; match b with | ⟨0, _⟩ => rfl | ⟨1, _⟩ => rfl | ⟨2, _⟩ => rfl

/-- Three [N, 1, K] arrays joined along axis 1: at (n, 1, k) piece 1 at (n, 0, k). -/
theorem concat3_axis1_at1 {N K : Nat} (x0 x1 x2 : (⟨3, ![N, 1, K]⟩ : Shape).Idx → α)
    (h : Shape.Concatenates [(⟨3, ![N, 1, K]⟩ : Shape), (⟨3, ![N, 1, K]⟩ : Shape), (⟨3, ![N, 1, K]⟩ : Shape)] ⟨3, ![N, 3, K]⟩ 1) (n : Fin N) (k : Fin K) :
    concatenate ⟨3, ![N, 3, K]⟩ 1 [⟨_, x0⟩, ⟨_, x1⟩, ⟨_, x2⟩] h (ix3 n (1 : Fin 3) k) = x1 (ix3 n (0 : Fin 1) k) := by
  show x1 _ = x1 _
  congr 1; funext b; match b with | ⟨0, _⟩ => rfl | ⟨1, _⟩ => rfl | ⟨2, _⟩ => rfl

/-- Three [N, 1, K] arrays joined along axis 1: at (n, 2, k) piece 2 at (n, 0, k). -/
theorem concat3_axis1_at2 {N K : Nat} (x0 x1 x2 : (⟨3, ![N, 1, K]⟩ : Shape).Idx → α)
    (h : Shape.Concatenates [(⟨3, ![N, 1, K]⟩ : Shape), (⟨3, ![N, 1, K]⟩ : Shape), (⟨3, ![N, 1, K]⟩ : Shape)] ⟨3, ![N, 3, K]⟩ 1) (n : Fin N) (k : Fin K) :
    concatenate ⟨3, ![N, 3, K]⟩ 1 [⟨_, x0⟩, ⟨_, x1⟩, ⟨_, x2⟩] h (ix3 n (2 : Fin 3) k) = x2 (ix3 n (0 : Fin 1) k) := by
  show x2 _ = x2 _
  congr 1; funext b; match b with | ⟨0, _⟩ => rfl | ⟨1, _⟩ => rfl | ⟨2, _⟩ => rfl

/-- Three [N, 1] columns joined: at (n, 0) column 0 at (n, 0). -/
theorem concat3_cols_at0 {N : Nat} (x0 x1 x2 : (⟨2, ![N, 1]⟩ : Shape).Idx → α)
    (h : Shape.Concatenates [(⟨2, ![N, 1]⟩ : Shape), (⟨2, ![N, 1]⟩ : Shape), (⟨2, ![N, 1]⟩ : Shape)] ⟨2, ![N, 3]⟩ 1) (n : Fin N) :
    concatenate ⟨2, ![N, 3]⟩ 1 [⟨_, x0⟩, ⟨_, x1⟩, ⟨_, x2⟩] h (ix2 n (0 : Fin 3)) = x0 (ix2 n (0 : Fin 1)) := by
  show x0 _ = x0 _
  congr 1; funext b; match b with | ⟨0, _⟩ => rfl | ⟨1, _⟩ => rfl

/-- Three [N, 1] columns joined: at (n, 1) column 1 at (n, 0). -/
theorem concat3_cols_at1 {N : Nat} (x0 x1 x2 : (⟨2, ![N, 1]⟩ : Shape).Idx → α)
    (h : Shape.Concatenates [(⟨2, ![N, 1]⟩ : Shape), (⟨2, ![N, 1]⟩ : Shape), (⟨2, ![N, 1]⟩ : Shape)] ⟨2, ![N, 3]⟩ 1) (n : Fin N) :
    concatenate ⟨2, ![N, 3]⟩ 1 [⟨_, x0⟩, ⟨_, x1⟩, ⟨_, x2⟩] h (ix2 n (1 : Fin 3)) = x1 (ix2 n (0 : Fin 1)) := by
  show x1 _ = x1 _
  congr 1; funext b; match b with | ⟨0, _⟩ => rfl | ⟨1, _⟩ => rfl

/-- Three [N, 1] columns joined: at (n, 2) column 2 at (n, 0). -/
theorem concat3_cols_at2 {N : Nat} (x0 x1 x2 : (⟨2, ![N, 1]⟩ : Shape).Idx → α)
    (h : Shape.Concatenates [(⟨2, ![N, 1]⟩ : Shape), (⟨2, ![N, 1]⟩ : Shape), (⟨2, ![N, 1]⟩ : Shape)] ⟨2, ![N, 3]⟩ 1) (n : Fin N) :
    concatenate ⟨2, ![N, 3]⟩ 1 [⟨_, x0⟩, ⟨_, x1⟩, ⟨_, x2⟩] h (ix2 n (2 : Fin 3)) = x2 (ix2 n (0 : Fin 1)) := by
  show x2 _ = x2 _
  congr 1; funext b; match b with | ⟨0, _⟩ => rfl | ⟨1, _⟩ => rfl

/-- Four [N, 1] columns joined: at (n, 0) column 0 at (n, 0). -/
theorem concat4_cols_at0 {N : Nat} (x0 x1 x2 x3 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape)] ⟨2, ![N, 4]⟩ 1) (n : Fin N) :
    concatenate ⟨2, ![N, 4]⟩ 1 [⟨_, x0⟩, ⟨_, x1⟩, ⟨_, x2⟩, ⟨_, x3⟩] h (ix2 n (0 : Fin 4)) = x0 (ix2 n (0 : Fin 1)) := by
  show x0 _ = x0 _
  congr 1; funext b; match b with | ⟨0, _⟩ => rfl | ⟨1, _⟩ => rfl

/-- Four [N, 1] columns joined: at (n, 1) column 1 at (n, 0). -/
theorem concat4_cols_at1 {N : Nat} (x0 x1 x2 x3 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape)] ⟨2, ![N, 4]⟩ 1) (n : Fin N) :
    concatenate ⟨2, ![N, 4]⟩ 1 [⟨_, x0⟩, ⟨_, x1⟩, ⟨_, x2⟩, ⟨_, x3⟩] h (ix2 n (1 : Fin 4)) = x1 (ix2 n (0 : Fin 1)) := by
  show x1 _ = x1 _
  congr 1; funext b; match b with | ⟨0, _⟩ => rfl | ⟨1, _⟩ => rfl

/-- Four [N, 1] columns joined: at (n, 2) column 2 at (n, 0). -/
theorem concat4_cols_at2 {N : Nat} (x0 x1 x2 x3 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape)] ⟨2, ![N, 4]⟩ 1) (n : Fin N) :
    concatenate ⟨2, ![N, 4]⟩ 1 [⟨_, x0⟩, ⟨_, x1⟩, ⟨_, x2⟩, ⟨_, x3⟩] h (ix2 n (2 : Fin 4)) = x2 (ix2 n (0 : Fin 1)) := by
  show x2 _ = x2 _
  congr 1; funext b; match b with | ⟨0, _⟩ => rfl | ⟨1, _⟩ => rfl

/-- Four [N, 1] columns joined: at (n, 3) column 3 at (n, 0). -/
theorem concat4_cols_at3 {N : Nat} (x0 x1 x2 x3 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape)] ⟨2, ![N, 4]⟩ 1) (n : Fin N) :
    concatenate ⟨2, ![N, 4]⟩ 1 [⟨_, x0⟩, ⟨_, x1⟩, ⟨_, x2⟩, ⟨_, x3⟩] h (ix2 n (3 : Fin 4)) = x3 (ix2 n (0 : Fin 1)) := by
  show x3 _ = x3 _
  congr 1; funext b; match b with | ⟨0, _⟩ => rfl | ⟨1, _⟩ => rfl

/-- Nine [N, 1] columns joined: at (n, 0) column 0 at (n, 0). -/
theorem concat9_cols_at0 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (0 : Fin 9)) = x0 (ix2 n (0 : Fin 1)) := by
  show x0 _ = x0 _
  congr 1; funext b; match b with | ⟨0, _⟩ => rfl | ⟨1, _⟩ => rfl

/-- Nine [N, 1] columns joined: at (n, 1) column 1 at (n, 0). -/
theorem concat9_cols_at1 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (1 : Fin 9)) = x1 (ix2 n (0 : Fin 1)) := by
  show x1 _ = x1 _
  congr 1; funext b; match b with | ⟨0, _⟩ => rfl | ⟨1, _⟩ => rfl

/-- Nine [N, 1] columns joined: at (n, 2) column 2 at (n, 0). -/
theorem concat9_cols_at2 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (2 : Fin 9)) = x2 (ix2 n (0 : Fin 1)) := by
  show x2 _ = x2 _
  congr 1; funext b; match b with | ⟨0, _⟩ => rfl | ⟨1, _⟩ => rfl

/-- Nine [N, 1] columns joined: at (n, 3) column 3 at (n, 0). -/
theorem concat9_cols_at3 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (3 : Fin 9)) = x3 (ix2 n (0 : Fin 1)) := by
  show x3 _ = x3 _
  congr 1; funext b; match b with | ⟨0, _⟩ => rfl | ⟨1, _⟩ => rfl

/-- Nine [N, 1] columns joined: at (n, 4) column 4 at (n, 0). -/
theorem concat9_cols_at4 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (4 : Fin 9)) = x4 (ix2 n (0 : Fin 1)) := by
  show x4 _ = x4 _
  congr 1; funext b; match b with | ⟨0, _⟩ => rfl | ⟨1, _⟩ => rfl

/-- Nine [N, 1] columns joined: at (n, 5) column 5 at (n, 0). -/
theorem concat9_cols_at5 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (5 : Fin 9)) = x5 (ix2 n (0 : Fin 1)) := by
  show x5 _ = x5 _
  congr 1; funext b; match b with | ⟨0, _⟩ => rfl | ⟨1, _⟩ => rfl

/-- Nine [N, 1] columns joined: at (n, 6) column 6 at (n, 0). -/
theorem concat9_cols_at6 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (6 : Fin 9)) = x6 (ix2 n (0 : Fin 1)) := by
  show x6 _ = x6 _
  congr 1; funext b; match b with | ⟨0, _⟩ => rfl | ⟨1, _⟩ => rfl

/-- Nine [N, 1] columns joined: at (n, 7) column 7 at (n, 0). -/
theorem concat9_cols_at7 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (7 : Fin 9)) = x7 (ix2 n (0 : Fin 1)) := by
  show x7 _ = x7 _
  congr 1; funext b; match b with | ⟨0, _⟩ => rfl | ⟨1, _⟩ => rfl

/-- Nine [N, 1] columns joined: at (n, 8) column 8 at (n, 0). -/
theorem concat9_cols_at8 {N : Nat} (x0 x1 x2 x3 x4 x5 x6 x7 x8 : (⟨2, ![N, 1]⟩ : Shape).Idx → α)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] ⟨2, ![N, 9]⟩ 1) (n : Fin N) :
    concatenate ⟨2, ![N, 9]⟩ 1 [⟨_, x0⟩, ⟨_, x1⟩, ⟨_, x2⟩, ⟨_, x3⟩, ⟨_, x4⟩, ⟨_, x5⟩, ⟨_, x6⟩, ⟨_, x7⟩, ⟨_, x8⟩] h (ix2 n (8 : Fin 9)) = x8 (ix2 n (0 : Fin 1)) := by
  show x8 _ = x8 _
  congr 1; funext b; match b with | ⟨0, _⟩ => rfl | ⟨1, _⟩ => rfl

/-- An [N, K, 3] array and an [N, K, 1] array joined along the last axis: at (n, k, 0) the first at (n, k, 0). -/
theorem concat_31_axis2_at0 {N K : Nat} (x : (⟨3, ![N, K, 3]⟩ : Shape).Idx → α) (y : (⟨3, ![N, K, 1]⟩ : Shape).Idx → α)
    (h : Shape.Concatenates [(⟨3, ![N, K, 3]⟩ : Shape), (⟨3, ![N, K, 1]⟩ : Shape)] ⟨3, ![N, K, 4]⟩ 2) (n : Fin N) (k : Fin K) :
    concatenate ⟨3, ![N, K, 4]⟩ 2 [⟨_, x⟩, ⟨_, y⟩] h (ix3 n k (0 : Fin 4)) = x (ix3 n k (0 : Fin 3)) := by
  show x _ = x _
  congr 1; funext b; match b with | ⟨0, _⟩ => rfl | ⟨1, _⟩ => rfl | ⟨2, _⟩ => rfl

/-- An [N, K, 3] array and an [N, K, 1] array joined along the last axis: at (n, k, 1) the first at (n, k, 1). -/
theorem concat_31_axis2_at1 {N K : Nat} (x : (⟨3, ![N, K, 3]⟩ : Shape).Idx → α) (y : (⟨3, ![N, K, 1]⟩ : Shape).Idx → α)
    (h : Shape.Concatenates [(⟨3, ![N, K, 3]⟩ : Shape), (⟨3, ![N, K, 1]⟩ : Shape)] ⟨3, ![N, K, 4]⟩ 2) (n : Fin N) (k : Fin K) :
    concatenate ⟨3, ![N, K, 4]⟩ 2 [⟨_, x⟩, ⟨_, y⟩] h (ix3 n k (1 : Fin 4)) = x (ix3 n k (1 : Fin 3)) := by
  show x _ = x _
  congr 1; funext b; match b with | ⟨0, _⟩ => rfl | ⟨1, _⟩ => rfl | ⟨2, _⟩ => rfl

/-- An [N, K, 3] array and an [N, K, 1] array joined along the last axis: at (n, k, 2) the first at (n, k, 2). -/
theorem concat_31_axis2_at2 {N K : Nat} (x : (⟨3, ![N, K, 3]⟩ : Shape).Idx → α) (y : (⟨3, ![N, K, 1]⟩ : Shape).Idx → α)
    (h : Shape.Concatenates [(⟨3, ![N, K, 3]⟩ : Shape), (⟨3, ![N, K, 1]⟩ : Shape)] ⟨3, ![N, K, 4]⟩ 2) (n : Fin N) (k : Fin K) :
    concatenate ⟨3, ![N, K, 4]⟩ 2 [⟨_, x⟩, ⟨_, y⟩] h (ix3 n k (2 : Fin 4)) = x (ix3 n k (2 : Fin 3)) := by
  show x _ = x _
  congr 1; funext b; match b with | ⟨0, _⟩ => rfl | ⟨1, _⟩ => rfl | ⟨2, _⟩ => rfl

/-- An [N, K, 3] array and an [N, K, 1] array joined along the last axis: at (n, k, 3) the second at (n, k, 0). -/
theorem concat_31_axis2_at3 {N K : Nat} (x : (⟨3, ![N, K, 3]⟩ : Shape).Idx → α) (y : (⟨3, ![N, K, 1]⟩ : Shape).Idx → α)
    (h : Shape.Concatenates [(⟨3, ![N, K, 3]⟩ : Shape), (⟨3, ![N, K, 1]⟩ : Shape)] ⟨3, ![N, K, 4]⟩ 2) (n : Fin N) (k : Fin K) :
    concatenate ⟨3, ![N, K, 4]⟩ 2 [⟨_, x⟩, ⟨_, y⟩] h (ix3 n k (3 : Fin 4)) = y (ix3 n k (0 : Fin 1)) := by
  show y _ = y _
  congr 1; funext b; match b with | ⟨0, _⟩ => rfl | ⟨1, _⟩ => rfl | ⟨2, _⟩ => rfl

end Cert.HostRead
-- ==== Proof.RefGeomRead.lean ====
/-
  The reference's geometry stage read at an index: each array of the stage (RefGeom.lean), at the ideal
  instance and at row n, holds the corresponding quantity of the per-row formula (RRowGeom.lean) of row n of the
  inputs — the columns of the box array, the half extents times the corner signs, the rotation's entries,
  the rotated and translated corners (the first product as a three-term sum), the homogeneous corners, their
  images under the row's matrix (the second product as a four-term sum), the clamped depth and the two
  quotients. Each lemma reads ONE operation through the general lemma for its kind (LibHostRead.lean, the
  library's index lemmas) and continues with the lemma of its operand.
-/
import proofs.«165471_j24206435680919_1_alg».proof.Proof.RefGeom
import proofs.«165471_j24206435680919_1_alg».proof.Proof.RefGeomDots
import proofs.«165471_j24206435680919_1_alg».proof.Proof.RRowGeom
import proofs.«165471_j24206435680919_1_alg».proof.Proof.LibHostRead

open Idealize.ShloMosaic Idealize.ShloMosaic.ValueIdx Cert.ReferenceIdeal Cert.ReferenceIdeal.Facts₀ Cert.ReferenceIdeal.Facts Cert.HostRead Cert.Giou

namespace Cert.ReferenceIdeal.RefValue

variable [Cert.ReferenceIdeal.Facts]

/-- Row n of the box array: its seven parameters. -/
abbrev rowP (A0 : (⟨S400000x7, .f32⟩ : BufTy).Contents (Elt Ideal)) (n : Fin 400000) : Fin 7 → EReal := fun q => A0 (ix2 n q)
/-- Row n of the matrix array: its 4×4 matrix. -/
abbrev rowM (A2 : (⟨S400000x4x4, .f32⟩ : BufTy).Contents (Elt Ideal)) (n : Fin 400000) : Fin 4 → Fin 4 → EReal := fun r cc => A2 (ix3 n r cc)

variable (A0 : (⟨S400000x7, .f32⟩ : BufTy).Contents (Elt Ideal)) (A2 : (⟨S400000x4x4, .f32⟩ : BufTy).Contents (Elt Ideal)) (n : Fin 400000)

/-! ## The columns of the box array -/

theorem v1_apply : v1 A0 (ix1 n) = A0 (ix2 n 0) := column_read 0 A0 slices_S400000x7_S400000x1_0_0 shapeCasts_S400000x1_S400000 n 0 rfl
theorem v3_apply : v3 A0 (ix1 n) = A0 (ix2 n 1) := column_read 1 A0 slices_S400000x7_S400000x1_0_1 shapeCasts_S400000x1_S400000 n 1 rfl
theorem v5_apply : v5 A0 (ix1 n) = A0 (ix2 n 2) := column_read 2 A0 slices_S400000x7_S400000x1_0_2 shapeCasts_S400000x1_S400000 n 2 rfl
theorem v7_apply : v7 A0 (ix1 n) = A0 (ix2 n 3) := column_read 3 A0 slices_S400000x7_S400000x1_0_3 shapeCasts_S400000x1_S400000 n 3 rfl
theorem v9_apply : v9 A0 (ix1 n) = A0 (ix2 n 4) := column_read 4 A0 slices_S400000x7_S400000x1_0_4 shapeCasts_S400000x1_S400000 n 4 rfl
theorem v11_apply : v11 A0 (ix1 n) = A0 (ix2 n 5) := column_read 5 A0 slices_S400000x7_S400000x1_0_5 shapeCasts_S400000x1_S400000 n 5 rfl
theorem v13_apply : v13 A0 (ix1 n) = A0 (ix2 n 6) := column_read 6 A0 slices_S400000x7_S400000x1_0_6 shapeCasts_S400000x1_S400000 n 6 rfl

/-! ## The sign tables' words -/

theorem lit0_eq (k : Fin 8) : lit0 k = signWordX k := by revert k; decide
theorem lit1_eq (k : Fin 8) : lit1 k = signWordY k := by revert k; decide
theorem lit2_eq (k : Fin 8) : lit2 k = signWordZ k := by revert k; decide

/-! ## Half of each extent times the corner's sign -/

theorem v16_apply (u : Fin 1) : v16 A0 (ix2 n u) = Ideal.div (A0 (ix2 n 3)) rTwo :=
  (hostDivf_apply _ _ _).trans (congrArg₂ Ideal.div ((bcast_n_n1_apply _ _ n u).trans (v7_apply A0 n)) (broadcastInDim_scalar_apply _ _ _))
theorem v18_apply (k : Fin 8) : v18 A0 (ix2 n k) = Ideal.div (A0 (ix2 n 3)) rTwo :=
  (bcast_n1_nk_apply _ _ n k).trans (v16_apply A0 n 0)
theorem v19_apply (k : Fin 8) : v19 (F := Ideal) (ix2 n k) = rSignX k :=
  (bcast_1k_nk_apply _ _ n k).trans ((bcast_k_1k_apply _ _ 0 k).trans ((table8_apply lit0 k).trans (congrArg (Ideal.ofBits .f32) (lit0_eq k))))
theorem v20_apply (k : Fin 8) : v20 A0 (ix2 n k) = Ideal.div (A0 (ix2 n 3)) rTwo * rSignX k :=
  (mulf_apply _ _ _).trans (congrArg₂ (· * ·) (v18_apply A0 n k) (v19_apply n k))
theorem v35_apply (u : Fin 1) (k : Fin 8) : v35 A0 (ix3 n u k) = Ideal.div (A0 (ix2 n 3)) rTwo * rSignX k :=
  (bcast_nk_n1k_apply _ _ n u k).trans (v20_apply A0 n k)

theorem v23_apply (u : Fin 1) : v23 A0 (ix2 n u) = Ideal.div (A0 (ix2 n 4)) rTwo :=
  (hostDivf_apply _ _ _).trans (congrArg₂ Ideal.div ((bcast_n_n1_apply _ _ n u).trans (v9_apply A0 n)) (broadcastInDim_scalar_apply _ _ _))
theorem v25_apply (k : Fin 8) : v25 A0 (ix2 n k) = Ideal.div (A0 (ix2 n 4)) rTwo :=
  (bcast_n1_nk_apply _ _ n k).trans (v23_apply A0 n 0)
theorem v26_apply (k : Fin 8) : v26 (F := Ideal) (ix2 n k) = rSignY k :=
  (bcast_1k_nk_apply _ _ n k).trans ((bcast_k_1k_apply _ _ 0 k).trans ((table8_apply lit1 k).trans (congrArg (Ideal.ofBits .f32) (lit1_eq k))))
theorem v27_apply (k : Fin 8) : v27 A0 (ix2 n k) = Ideal.div (A0 (ix2 n 4)) rTwo * rSignY k :=
  (mulf_apply _ _ _).trans (congrArg₂ (· * ·) (v25_apply A0 n k) (v26_apply n k))
theorem v36_apply (u : Fin 1) (k : Fin 8) : v36 A0 (ix3 n u k) = Ideal.div (A0 (ix2 n 4)) rTwo * rSignY k :=
  (bcast_nk_n1k_apply _ _ n u k).trans (v27_apply A0 n k)

theorem v30_apply (u : Fin 1) : v30 A0 (ix2 n u) = Ideal.div (A0 (ix2 n 5)) rTwo :=
  (hostDivf_apply _ _ _).trans (congrArg₂ Ideal.div ((bcast_n_n1_apply _ _ n u).trans (v11_apply A0 n)) (broadcastInDim_scalar_apply _ _ _))
theorem v32_apply (k : Fin 8) : v32 A0 (ix2 n k) = Ideal.div (A0 (ix2 n 5)) rTwo :=
  (bcast_n1_nk_apply _ _ n k).trans (v30_apply A0 n 0)
theorem v33_apply (k : Fin 8) : v33 (F := Ideal) (ix2 n k) = rSignZ k :=
  (bcast_1k_nk_apply _ _ n k).trans ((bcast_k_1k_apply _ _ 0 k).trans ((table8_apply lit2 k).trans (congrArg (Ideal.ofBits .f32) (lit2_eq k))))
theorem v34_apply (k : Fin 8) : v34 A0 (ix2 n k) = Ideal.div (A0 (ix2 n 5)) rTwo * rSignZ k :=
  (mulf_apply _ _ _).trans (congrArg₂ (· * ·) (v32_apply A0 n k) (v33_apply n k))
theorem v37_apply (u : Fin 1) (k : Fin 8) : v37 A0 (ix3 n u k) = Ideal.div (A0 (ix2 n 5)) rTwo * rSignZ k :=
  (bcast_nk_n1k_apply _ _ n u k).trans (v34_apply A0 n k)

/-- The corner in the box's frame: the three products joined along the coordinate axis. -/
theorem v38_apply (c : Fin 3) (k : Fin 8) : v38 A0 (ix3 n c k) = rCornerLocal (rowP A0 n) k c :=
  match c with
  | ⟨0, _⟩ => (concat3_axis1_at0 _ _ _ concatenates_S400000x1x8_S400000x1x8_S400000x1x8_S400000x3x8_d1 n k).trans (v35_apply A0 n 0 k)
  | ⟨1, _⟩ => (concat3_axis1_at1 _ _ _ concatenates_S400000x1x8_S400000x1x8_S400000x1x8_S400000x3x8_d1 n k).trans (v36_apply A0 n 0 k)
  | ⟨2, _⟩ => (concat3_axis1_at2 _ _ _ concatenates_S400000x1x8_S400000x1x8_S400000x1x8_S400000x3x8_d1 n k).trans (v37_apply A0 n 0 k)

/-! ## The rotation's entries -/

theorem v39_apply : v39 A0 (ix1 n) = Ideal.cos (A0 (ix2 n 6)) := congrArg Ideal.cos (v13_apply A0 n)
theorem v40_apply : v40 A0 (ix1 n) = Ideal.sin (A0 (ix2 n 6)) := congrArg Ideal.sin (v13_apply A0 n)
theorem v43_apply : v43 A0 (ix1 n) = -Ideal.sin (A0 (ix2 n 6)) := congrArg Neg.neg (v40_apply A0 n)
theorem v41_apply : v41 (F := Ideal) (ix1 n) = 0 := (broadcastInDim_scalar_apply _ _ _).trans Ideal.ofBits_zero_f32
theorem v42_apply : v42 (F := Ideal) (ix1 n) = 1 := (broadcastInDim_scalar_apply _ _ _).trans Ideal.ofBits_one_f32
theorem v44_apply (u : Fin 1) : v44 A0 (ix2 n u) = Ideal.cos (A0 (ix2 n 6)) := (bcast_n_n1_apply _ _ n u).trans (v39_apply A0 n)
theorem v45_apply (u : Fin 1) : v45 A0 (ix2 n u) = -Ideal.sin (A0 (ix2 n 6)) := (bcast_n_n1_apply _ _ n u).trans (v43_apply A0 n)
theorem v46_apply (u : Fin 1) : v46 (F := Ideal) (ix2 n u) = 0 := (bcast_n_n1_apply _ _ n u).trans (v41_apply n)
theorem v47_apply (u : Fin 1) : v47 A0 (ix2 n u) = Ideal.sin (A0 (ix2 n 6)) := (bcast_n_n1_apply _ _ n u).trans (v40_apply A0 n)
theorem v48_apply (u : Fin 1) : v48 A0 (ix2 n u) = Ideal.cos (A0 (ix2 n 6)) := (bcast_n_n1_apply _ _ n u).trans (v39_apply A0 n)
theorem v49_apply (u : Fin 1) : v49 (F := Ideal) (ix2 n u) = 0 := (bcast_n_n1_apply _ _ n u).trans (v41_apply n)
theorem v50_apply (u : Fin 1) : v50 (F := Ideal) (ix2 n u) = 0 := (bcast_n_n1_apply _ _ n u).trans (v41_apply n)
theorem v51_apply (u : Fin 1) : v51 (F := Ideal) (ix2 n u) = 0 := (bcast_n_n1_apply _ _ n u).trans (v41_apply n)
theorem v52_apply (u : Fin 1) : v52 (F := Ideal) (ix2 n u) = 1 := (bcast_n_n1_apply _ _ n u).trans (v42_apply n)

/-- The nine entries joined as a row of nine and reshaped to 3 × 3: the rotation about the vertical axis by the yaw. -/
theorem v54_apply (r c : Fin 3) : v54 A0 (ix3 n r c) = rRot (A0 (ix2 n 6)) r c :=
  match r, c with
  | ⟨0, _⟩, ⟨0, _⟩ => (shapeCast_n9_n33_apply _ shapeCasts_S400000x9_S400000x3x3 n _ _ 0 rfl).trans ((concat9_cols_at0 _ _ _ _ _ _ _ _ _ concatenates_S400000x1_S400000x1_S400000x1_S400000x1_S400000x1_S400000x1_S400000x1_S400000x1_S400000x1_S400000x9_d1 n).trans (v44_apply A0 n 0))
  | ⟨0, _⟩, ⟨1, _⟩ => (shapeCast_n9_n33_apply _ shapeCasts_S400000x9_S400000x3x3 n _ _ 1 rfl).trans ((concat9_cols_at1 _ _ _ _ _ _ _ _ _ concatenates_S400000x1_S400000x1_S400000x1_S400000x1_S400000x1_S400000x1_S400000x1_S400000x1_S400000x1_S400000x9_d1 n).trans (v45_apply A0 n 0))
  | ⟨0, _⟩, ⟨2, _⟩ => (shapeCast_n9_n33_apply _ shapeCasts_S400000x9_S400000x3x3 n _ _ 2 rfl).trans ((concat9_cols_at2 _ _ _ _ _ _ _ _ _ concatenates_S400000x1_S400000x1_S400000x1_S400000x1_S400000x1_S400000x1_S400000x1_S400000x1_S400000x1_S400000x9_d1 n).trans (v46_apply n 0))
  | ⟨1, _⟩, ⟨0, _⟩ => (shapeCast_n9_n33_apply _ shapeCasts_S400000x9_S400000x3x3 n _ _ 3 rfl).trans ((concat9_cols_at3 _ _ _ _ _ _ _ _ _ concatenates_S400000x1_S400000x1_S400000x1_S400000x1_S400000x1_S400000x1_S400000x1_S400000x1_S400000x1_S400000x9_d1 n).trans (v47_apply A0 n 0))
  | ⟨1, _⟩, ⟨1, _⟩ => (shapeCast_n9_n33_apply _ shapeCasts_S400000x9_S400000x3x3 n _ _ 4 rfl).trans ((concat9_cols_at4 _ _ _ _ _ _ _ _ _ concatenates_S400000x1_S400000x1_S400000x1_S400000x1_S400000x1_S400000x1_S400000x1_S400000x1_S400000x1_S400000x9_d1 n).trans (v48_apply A0 n 0))
  | ⟨1, _⟩, ⟨2, _⟩ => (shapeCast_n9_n33_apply _ shapeCasts_S400000x9_S400000x3x3 n _ _ 5 rfl).trans ((concat9_cols_at5 _ _ _ _ _ _ _ _ _ concatenates_S400000x1_S400000x1_S400000x1_S400000x1_S400000x1_S400000x1_S400000x1_S400000x1_S400000x1_S400000x9_d1 n).trans (v49_apply n 0))
  | ⟨2, _⟩, ⟨0, _⟩ => (shapeCast_n9_n33_apply _ shapeCasts_S400000x9_S400000x3x3 n _ _ 6 rfl).trans ((concat9_cols_at6 _ _ _ _ _ _ _ _ _ concatenates_S400000x1_S400000x1_S400000x1_S400000x1_S400000x1_S400000x1_S400000x1_S400000x1_S400000x1_S400000x9_d1 n).trans (v50_apply n 0))
  | ⟨2, _⟩, ⟨1, _⟩ => (shapeCast_n9_n33_apply _ shapeCasts_S400000x9_S400000x3x3 n _ _ 7 rfl).trans ((concat9_cols_at7 _ _ _ _ _ _ _ _ _ concatenates_S400000x1_S400000x1_S400000x1_S400000x1_S400000x1_S400000x1_S400000x1_S400000x1_S400000x1_S400000x9_d1 n).trans (v51_apply n 0))
  | ⟨2, _⟩, ⟨2, _⟩ => (shapeCast_n9_n33_apply _ shapeCasts_S400000x9_S400000x3x3 n _ _ 8 rfl).trans ((concat9_cols_at8 _ _ _ _ _ _ _ _ _ concatenates_S400000x1_S400000x1_S400000x1_S400000x1_S400000x1_S400000x1_S400000x1_S400000x1_S400000x1_S400000x9_d1 n).trans (v52_apply n 0))

/-! ## The rotated and translated corners -/

/-- The first product at (n, r, k): row r of the rotation against the local corner, a three-term sum. -/
theorem v55_apply (r : Fin 3) (k : Fin 8) : v55 A0 (ix3 n r k)
    = rRot (A0 (ix2 n 6)) r 0 * rCornerLocal (rowP A0 n) k 0 + rRot (A0 (ix2 n 6)) r 1 * rCornerLocal (rowP A0 n) k 1
      + rRot (A0 (ix2 n 6)) r 2 * rCornerLocal (rowP A0 n) k 2 :=
  (dot1_apply (v54 A0) (v38 A0) n r k).trans (by
    rw [v54_apply A0 n r 0, v54_apply A0 n r 1, v54_apply A0 n r 2, v38_apply A0 n 0 k, v38_apply A0 n 1 k, v38_apply A0 n 2 k])

theorem v56_apply (u : Fin 1) : v56 A0 (ix2 n u) = A0 (ix2 n 0) := (bcast_n_n1_apply _ _ n u).trans (v1_apply A0 n)
theorem v57_apply (u : Fin 1) : v57 A0 (ix2 n u) = A0 (ix2 n 1) := (bcast_n_n1_apply _ _ n u).trans (v3_apply A0 n)
theorem v58_apply (u : Fin 1) : v58 A0 (ix2 n u) = A0 (ix2 n 2) := (bcast_n_n1_apply _ _ n u).trans (v5_apply A0 n)

theorem v59_apply (c : Fin 3) : v59 A0 (ix2 n c) = rCentre (rowP A0 n) c :=
  match c with
  | ⟨0, _⟩ => (concat3_cols_at0 _ _ _ concatenates_S400000x1_S400000x1_S400000x1_S400000x3_d1 n).trans (v56_apply A0 n 0)
  | ⟨1, _⟩ => (concat3_cols_at1 _ _ _ concatenates_S400000x1_S400000x1_S400000x1_S400000x3_d1 n).trans (v57_apply A0 n 0)
  | ⟨2, _⟩ => (concat3_cols_at2 _ _ _ concatenates_S400000x1_S400000x1_S400000x1_S400000x3_d1 n).trans (v58_apply A0 n 0)
theorem v60_apply (c : Fin 3) (u : Fin 1) : v60 A0 (ix3 n c u) = rCentre (rowP A0 n) c :=
  (bcast_nc_nc1_apply _ _ n c u).trans (v59_apply A0 n c)
theorem v61_apply (c : Fin 3) (k : Fin 8) : v61 A0 (ix3 n c k) = rCentre (rowP A0 n) c :=
  (bcast_nc1_nck_apply _ _ n c k).trans (v60_apply A0 n c 0)
theorem v62_apply (r : Fin 3) (k : Fin 8) : v62 A0 (ix3 n r k) = rCornerWorld (rowP A0 n) k r :=
  (addf_apply _ _ _).trans (congrArg₂ (· + ·) (v55_apply A0 n r k) (v61_apply A0 n r k))
theorem v63_apply (k : Fin 8) (r : Fin 3) : v63 A0 (ix3 n k r) = rCornerWorld (rowP A0 n) k r :=
  (transpose_ix3_021_apply _ _ n k r).trans (v62_apply A0 n r k)

/-! ## Homogeneous coordinates and the projection -/

theorem v64_apply (k : Fin 8) (u : Fin 1) : v64 (F := Ideal) (ix3 n k u) = 1 :=
  (broadcastInDim_scalar_apply _ _ _).trans Ideal.ofBits_one_f32

theorem hom4_apply (k : Fin 8) (c : Fin 4) : hom4 A0 (ix3 n k c) = rHom (rowP A0 n) k c :=
  match c with
  | ⟨0, _⟩ => (concat_31_axis2_at0 _ _ concatenates_S400000x8x3_S400000x8x1_S400000x8x4_d2 n k).trans (v63_apply A0 n k 0)
  | ⟨1, _⟩ => (concat_31_axis2_at1 _ _ concatenates_S400000x8x3_S400000x8x1_S400000x8x4_d2 n k).trans (v63_apply A0 n k 1)
  | ⟨2, _⟩ => (concat_31_axis2_at2 _ _ concatenates_S400000x8x3_S400000x8x1_S400000x8x4_d2 n k).trans (v63_apply A0 n k 2)
  | ⟨3, _⟩ => (concat_31_axis2_at3 _ _ concatenates_S400000x8x3_S400000x8x1_S400000x8x4_d2 n k).trans (v64_apply n k 0)

/-- The second product at (n, k, r): the homogeneous corner against row r of the matrix, a four-term sum. -/
theorem proj_apply (k : Fin 8) (r : Fin 4) : proj A0 A2 (ix3 n k r) = rProj (rowP A0 n) (rowM A2 n) k r :=
  (dot2_apply (hom4 A0) A2 n k r).trans (by
    rw [hom4_apply A0 n k 0, hom4_apply A0 n k 1, hom4_apply A0 n k 2, hom4_apply A0 n k 3]
    all_goals rfl)

/-! ## The perspective division -/

theorem v68_apply (k : Fin 8) : v68 A0 A2 (ix2 n k) = rProj (rowP A0 n) (rowM A2 n) k 2 :=
  (column3_read 2 _ slices_S400000x8x4_S400000x8x1_0_0_2 shapeCasts_S400000x8x1_S400000x8 n k 2 rfl).trans (proj_apply A0 A2 n k 2)
theorem v69_apply (k : Fin 8) : v69 (F := Ideal) (ix2 n k) = rEps := broadcastInDim_scalar_apply _ _ _
theorem wClamped_apply (k : Fin 8) : wClamped A0 A2 (ix2 n k) = rDepth (rowP A0 n) (rowM A2 n) k :=
  (maximumf_apply _ _ _).trans (congrArg₂ max (v68_apply A0 A2 n k) (v69_apply n k))
theorem v72_apply (k : Fin 8) : v72 A0 A2 (ix2 n k) = rProj (rowP A0 n) (rowM A2 n) k 0 :=
  (column3_read 0 _ slices_S400000x8x4_S400000x8x1_0_0_0 shapeCasts_S400000x8x1_S400000x8 n k 0 rfl).trans (proj_apply A0 A2 n k 0)
theorem v75_apply (k : Fin 8) : v75 A0 A2 (ix2 n k) = rProj (rowP A0 n) (rowM A2 n) k 1 :=
  (column3_read 1 _ slices_S400000x8x4_S400000x8x1_0_0_1 shapeCasts_S400000x8x1_S400000x8 n k 1 rfl).trans (proj_apply A0 A2 n k 1)

/-- The horizontal image coordinates: at (n, k) the per-row formula of row n at corner k. -/
theorem xImg_apply (A0 : (⟨S400000x7, .f32⟩ : BufTy).Contents (Elt Ideal)) (A2 : (⟨S400000x4x4, .f32⟩ : BufTy).Contents (Elt Ideal))
    (n : Fin 400000) (k : Fin 8) :
    xImg (F := Ideal) A0 A2 (ix2 n k) = Cert.Giou.rXImg (fun q => A0 (ix2 n q)) (fun r cc => A2 (ix3 n r cc)) k :=
  (hostDivf_apply _ _ _).trans (congrArg₂ Ideal.div (v72_apply A0 A2 n k) (wClamped_apply A0 A2 n k))

/-- The vertical image coordinates: at (n, k) the per-row formula of row n at corner k. -/
theorem yImg_apply (A0 : (⟨S400000x7, .f32⟩ : BufTy).Contents (Elt Ideal)) (A2 : (⟨S400000x4x4, .f32⟩ : BufTy).Contents (Elt Ideal))
    (n : Fin 400000) (k : Fin 8) :
    yImg (F := Ideal) A0 A2 (ix2 n k) = Cert.Giou.rYImg (fun q => A0 (ix2 n q)) (fun r cc => A2 (ix3 n r cc)) k :=
  (hostDivf_apply _ _ _).trans (congrArg₂ Ideal.div (v75_apply A0 A2 n k) (wClamped_apply A0 A2 n k))

end Cert.ReferenceIdeal.RefValue
-- ==== Proof.RRowGiou.lean ====
/-
  The reference's per-row loss as a formula on the extended reals.

  For one row: xs, ys are the image coordinates of the eight projected corners, g the ground-truth
  box (x1 y1 x2 y2), hw the image size (height, width). The predicted box is the coordinatewise
  minimum and maximum over the eight corners, each clipped to the image as min W (max 0 ·) and
  min H (max 0 ·); the loss is 1 - GIoU of the predicted box against g, with the small constant
  added to the union and to the enclosing box's area. The minimum and maximum over the eight corners
  are written left-nested, min (min (… (min (xs 0) (xs 1)) …)) (xs 7); a fold by min from ⊤ (by max
  from ⊥) over the eight is the same number (fold_min_top_eq_min8, fold_max_bot_eq_max8).
-/
import Idealize.ShloMosaic.PureOps.Ideal
import Idealize.ShloMosaic.Lib.ValueIdx

noncomputable section

namespace Cert.Giou

open Idealize.ShloMosaic

/-- The minimum of eight extended reals, left-nested. -/
def min8 (v : Fin 8 → EReal) : EReal :=
  min (min (min (min (min (min (min (v 0) (v 1)) (v 2)) (v 3)) (v 4)) (v 5)) (v 6)) (v 7)

/-- The maximum of eight extended reals, left-nested. -/
def max8 (v : Fin 8 → EReal) : EReal :=
  max (max (max (max (max (max (max (v 0) (v 1)) (v 2)) (v 3)) (v 4)) (v 5)) (v 6)) (v 7)

/-- A fold by min from ⊤ over the eight is their left-nested minimum. -/
theorem fold_min_top_eq_min8 (v : Fin 8 → EReal) :
    (Finset.univ : Finset (Fin 8)).fold min (⊤ : EReal) v = min8 v := by
  simp only [Fin.univ_succ, Finset.fold_cons, Finset.fold_map, Finset.univ_unique, Finset.fold_singleton]
  show min (v 0) (min (v 1) (min (v 2) (min (v 3) (min (v 4) (min (v 5) (min (v 6) (min (v 7) ⊤))))))) = _
  rw [min_top_right]
  unfold min8
  ac_rfl

/-- A fold by max from ⊥ over the eight is their left-nested maximum. -/
theorem fold_max_bot_eq_max8 (v : Fin 8 → EReal) :
    (Finset.univ : Finset (Fin 8)).fold max (⊥ : EReal) v = max8 v := by
  simp only [Fin.univ_succ, Finset.fold_cons, Finset.fold_map, Finset.univ_unique, Finset.fold_singleton]
  show max (v 0) (max (v 1) (max (v 2) (max (v 3) (max (v 4) (max (v 5) (max (v 6) (max (v 7) ⊥))))))) = _
  rw [max_bot_right]
  unfold max8
  ac_rfl

/-- The float literal 0. -/
abbrev zero : EReal := Ideal.ofBits .f32 0x00000000#32
/-- The float literal 1e-7 (the constant added to the union and to the enclosing area). -/
abbrev epsA : EReal := Ideal.ofBits .f32 0x33D6BF95#32
/-- The float literal 1. -/
abbrev one : EReal := Ideal.ofBits .f32 0x3F800000#32

/-- The predicted 2D box of a row: (min x, min y, max x, max y) over the eight corners, clipped to
    [0, W] and [0, H] as min W (max 0 ·), min H (max 0 ·). -/
def rPred (xs ys : Fin 8 → EReal) (hw : Fin 2 → EReal) : Fin 4 → EReal :=
  ![min (hw 1) (max zero (min8 xs)), min (hw 0) (max zero (min8 ys)),
    min (hw 1) (max zero (max8 xs)), min (hw 0) (max zero (max8 ys))]

/-- Intersection area of boxes p and g. -/
def rInter (p g : Fin 4 → EReal) : EReal :=
  max (min (p 2) (g 2) - max (p 0) (g 0)) zero * max (min (p 3) (g 3) - max (p 1) (g 1)) zero

/-- Union area of boxes p and g, plus the small constant. -/
def rUnion (p g : Fin 4 → EReal) : EReal :=
  (p 2 - p 0) * (p 3 - p 1) + (g 2 - g 0) * (g 3 - g 1) - rInter p g + epsA

/-- Area of the smallest box enclosing p and g, plus the small constant. -/
def rCArea (p g : Fin 4 → EReal) : EReal :=
  max (max (p 2) (g 2) - min (p 0) (g 0)) zero * max (max (p 3) (g 3) - min (p 1) (g 1)) zero + epsA

/-- GIoU of boxes p and g: iou - (cArea - union) / cArea. -/
def rGiou (p g : Fin 4 → EReal) : EReal :=
  Ideal.div (rInter p g) (rUnion p g) - Ideal.div (rCArea p g - rUnion p g) (rCArea p g)

/-- The reference's loss of one row: 1 - GIoU (predicted box, ground-truth box). -/
def rGiouLoss (xs ys : Fin 8 → EReal) (g : Fin 4 → EReal) (hw : Fin 2 → EReal) : EReal :=
  one - rGiou (rPred xs ys hw) g

end Cert.Giou

end
-- ==== Proof.LibHostReadB.lean ====
/-
  Host operations of a row-wise program read at an index: general lemmas over the index constructors ix1, ix2,
  for any number of rows N.

  • A column o of an [N, C] array cut out as [N, 1] and reshaped to [N] reads, at n, the array at (n, o).
  • A vector [N] broadcast to a column [N, 1] reads, at (n, q), the vector at n.
  • Four columns [N, 1] laid side by side into [N, 4] read, at (n, c), the c-th column at (n, 0).
  • The reduction over the eight columns of an [N, 8] array by a minimum from +∞ (a maximum from −∞) reads, at
    n, the fold of min from ⊤ (of max from ⊥) over the row's eight entries.
  A scalar broadcast to any shape reads the scalar (the library's broadcastInDim_scalar_apply).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.HostReadB

open Idealize.ShloMosaic Idealize.ShloMosaic.ValueIdx

variable {α : Type} {N : Nat}

/-! ## Columns -/

/-- Column o of an [N, C] array, cut out as [N, 1] and reshaped to [N], read at n is the array at (n, o). -/
theorem colSlice_reshape_apply {C : Nat} (o : Nat) (ho : o < C) (x : (⟨2, ![N, C]⟩ : Shape).Idx → α)
    (hs : (⟨2, ![N, C]⟩ : Shape).Slices ![0, o] ⟨2, ![N, 1]⟩)
    (hc : (⟨2, ![N, 1]⟩ : Shape).ShapeCasts ⟨1, ![N]⟩) (n : Fin N) :
    shapeCast ⟨1, ![N]⟩ (extractStridedSlice ⟨2, ![N, 1]⟩ ![0, o] x hs) hc (ix1 n) = x (ix2 n ⟨o, ho⟩) := by
  refine (shapeCast_apply _ hc (ix1 n) (ix2 n (0 : Fin 1)) ?_).trans ?_
  · rw [Shape.rowMajor_val_two, Shape.rowMajor_val_one]
    show n.val * 1 + 0 = n.val
    omega
  · exact slice2_axis1_apply o x hs n (0 : Fin 1) ⟨o, ho⟩ rfl

/-- A vector [N] broadcast to a column [N, 1], read at (n, q), is the vector at n. -/
theorem bcastCol_apply (x : (⟨1, ![N]⟩ : Shape).Idx → α)
    (h : (⟨1, ![N]⟩ : Shape).BroadcastsInDim ⟨2, ![N, 1]⟩ ![0]) (n : Fin N) (q : Fin 1) :
    broadcastInDim ⟨2, ![N, 1]⟩ ![0] h x (ix2 n q) = x (ix1 n) := by
  refine broadcastInDim_apply _ h x _ (ix1 n) (fun a => ?_)
  match a with
  | ⟨0, _⟩ =>
    show n.val = if N = 1 then 0 else n.val
    split
    · have := n.isLt; omega
    · rfl

/-! ## Four columns side by side

At a literal column the position among the pieces computes; what is left is that the piece is read at (n, 0). -/

section Concat4
variable (x0 x1 x2 x3 : (⟨2, ![N, 1]⟩ : Shape).Idx → α)
  (h : Shape.Concatenates [(⟨2, ![N, 1]⟩ : Shape), ⟨2, ![N, 1]⟩, ⟨2, ![N, 1]⟩, ⟨2, ![N, 1]⟩] ⟨2, ![N, 4]⟩ 1) (n : Fin N)

theorem concat4_col0 :
    concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (0 : Fin 4))
      = x0 (ix2 n (0 : Fin 1)) := by
  show x0 _ = x0 _
  refine congrArg x0 (funext fun b => ?_)
  match b with
  | ⟨0, _⟩ => rfl
  | ⟨1, _⟩ => rfl

theorem concat4_col1 :
    concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (1 : Fin 4))
      = x1 (ix2 n (0 : Fin 1)) := by
  show x1 _ = x1 _
  refine congrArg x1 (funext fun b => ?_)
  match b with
  | ⟨0, _⟩ => rfl
  | ⟨1, _⟩ => rfl

theorem concat4_col2 :
    concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (2 : Fin 4))
      = x2 (ix2 n (0 : Fin 1)) := by
  show x2 _ = x2 _
  refine congrArg x2 (funext fun b => ?_)
  match b with
  | ⟨0, _⟩ => rfl
  | ⟨1, _⟩ => rfl

theorem concat4_col3 :
    concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (3 : Fin 4))
      = x3 (ix2 n (0 : Fin 1)) := by
  show x3 _ = x3 _
  refine congrArg x3 (funext fun b => ?_)
  match b with
  | ⟨0, _⟩ => rfl
  | ⟨1, _⟩ => rfl

end Concat4

/-! ## The reduction over eight columns -/

/-- The reduced index n with column k put back is (n, k). -/
theorem lift_ix2_col {m : Nat} (h : (⟨2, ![N, m]⟩ : Shape).Reduces [1] (⟨1, ![N]⟩ : Shape)) (n : Fin N)
    (k : Fin ((⟨2, ![N, m]⟩ : Shape).size 1)) : h.lift (ix1 n) k = ix2 n (⟨k.val, k.isLt⟩ : Fin m) := by
  funext c; apply Fin.ext
  fin_cases c <;> rfl

/-- The host's reduce by a minimum from +∞ over the eight columns, at row n, is the fold of min from ⊤ over the
    row's entries. -/
theorem hostReduce_min_cols8 (x : FVec Ideal ⟨2, ![N, 8]⟩ .f32)
    (h' : (⟨2, ![N, 8]⟩ : Shape).ReducesTo [1] (⟨1, ![N]⟩ : Shape)) (hu : 0 < (⟨0, ![]⟩ : Shape).numel) (n : Fin N) :
    Host.reduce FloatOps.minimumf x (constant (F := Ideal) (⟨0, ![]⟩ : Shape) .f32 0x7F800000#32) h' hu (ix1 n)
      = (Finset.univ : Finset (Fin 8)).fold min (⊤ : EReal) (fun k => x (ix2 n k)) := by
  have h : (⟨2, ![N, 8]⟩ : Shape).Reduces [1] (⟨1, ![N]⟩ : Shape) := ⟨h'.1, Nat.one_pos, h'.2⟩
  rw [Host.reduce_eq_fold_single FloatOps.minimumf x _ h' h hu]
  have hf : (x ∘ h.lift (ix1 n)) = fun k : Fin 8 => x (ix2 n k) := funext fun k => congrArg x (lift_ix2_col h n k)
  have ht : (constant (F := Ideal) (⟨0, ![]⟩ : Shape) .f32 0x7F800000#32) (Shape.Idx.first hu) = (⊤ : EReal) := by
    show Ideal.ofBits .f32 0x7F800000#32 = ⊤
    simp [Ideal.ofBits, Ideal.ieee]
  rw [ht]
  exact congrArg (fun f => Finset.fold min (⊤ : EReal) f (Finset.univ : Finset (Fin 8))) hf

/-- The host's reduce by a maximum from −∞ over the eight columns, at row n, is the fold of max from ⊥ over the
    row's entries. -/
theorem hostReduce_max_cols8 (x : FVec Ideal ⟨2, ![N, 8]⟩ .f32)
    (h' : (⟨2, ![N, 8]⟩ : Shape).ReducesTo [1] (⟨1, ![N]⟩ : Shape)) (hu : 0 < (⟨0, ![]⟩ : Shape).numel) (n : Fin N) :
    Host.reduce FloatOps.maximumf x (constant (F := Ideal) (⟨0, ![]⟩ : Shape) .f32 0xFF800000#32) h' hu (ix1 n)
      = (Finset.univ : Finset (Fin 8)).fold max (⊥ : EReal) (fun k => x (ix2 n k)) := by
  have h : (⟨2, ![N, 8]⟩ : Shape).Reduces [1] (⟨1, ![N]⟩ : Shape) := ⟨h'.1, Nat.one_pos, h'.2⟩
  rw [Host.reduce_eq_fold_single FloatOps.maximumf x _ h' h hu]
  have hf : (x ∘ h.lift (ix1 n)) = fun k : Fin 8 => x (ix2 n k) := funext fun k => congrArg x (lift_ix2_col h n k)
  have ht : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [ht]
  exact congrArg (fun f => Finset.fold max (⊥ : EReal) f (Finset.univ : Finset (Fin 8))) hf

end Cert.HostReadB

end
-- ==== Proof.RefGiouRead.lean ====
/-
  The reference's reduction and GIoU stage read at a row: at row n the array giouStage X Y A1 A3 holds the
  per-row loss rGiouLoss of row n of X, Y, A1, A3.

  Each operation is read at the index (n) or (n, c): a column cut out of a two-dimensional array and reshaped
  to a vector reads that column's entry of row n; the reduction over the eight corners reads the fold over row n,
  which is the left-nested minimum (maximum); a scalar constant broadcast reads the constant; the
  concatenation of the four clipped extrema reads, at column c, the c-th of them; every arithmetic operation is
  the extended reals' own, entry by entry.
-/
import proofs.«165471_j24206435680919_1_alg».proof.Proof.RefGiou
import proofs.«165471_j24206435680919_1_alg».proof.Proof.RRowGiou
import proofs.«165471_j24206435680919_1_alg».proof.Proof.LibHostReadB

noncomputable section

namespace Cert.ReferenceIdeal.RefValue

open Idealize.ShloMosaic Idealize.ShloMosaic.ValueIdx Cert.ReferenceIdeal Cert.ReferenceIdeal.Facts₀ Cert.ReferenceIdeal.Facts
open Cert.HostReadB Cert.Giou

variable [Cert.ReferenceIdeal.Facts]
variable (X Y : (⟨S400000x8, .f32⟩ : BufTy).Contents (Elt Ideal)) (A1 : (⟨S400000x4, .f32⟩ : BufTy).Contents (Elt Ideal))
  (A3 : (⟨S400000x2, .f32⟩ : BufTy).Contents (Elt Ideal)) (n : Fin 400000)

-- row n of the four inputs
local notation "rX" => (fun k : Fin 8 => X (ix2 n k))
local notation "rY" => (fun k : Fin 8 => Y (ix2 n k))
local notation "rG" => (fun q : Fin 4 => A1 (ix2 n q))
local notation "rS" => (fun q : Fin 2 => A3 (ix2 n q))

/-- A scalar float constant broadcast to any shape reads the constant's value (the bit pattern a variable: the value is
    never computed). -/
theorem scalarConst_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b :=
  (broadcastInDim_scalar_apply h _ j).trans rfl

/-! ## Arithmetic at an index

The library's entrywise readings hold by computation; restated here with a rewriting proof, so that a rewrite by one of
them is recorded as a step rather than left to be recomputed on the whole term. -/

section Pointwise
variable {s : Shape} (a b : FVec Ideal s .f32) (i : s.Idx)
theorem min_at : minimumf a b i = min (a i) (b i) := by rw [minimumf_apply]
theorem max_at : maximumf a b i = max (a i) (b i) := by rw [maximumf_apply]
theorem mul_at : mulf a b i = a i * b i := by rw [mulf_apply]
theorem add_at : addf a b i = a i + b i := by rw [addf_apply]
theorem sub_at : subf a b i = a i - b i := by rw [subf_apply]
theorem hdiv_at : Host.divf a b i = Ideal.div (a i) (b i) := by rw [hostDivf_apply]
end Pointwise

/-! ## The image size, the extrema over the eight corners, the clipped extrema -/

theorem imgH_apply : imgH (F := Ideal) A3 (ix1 n) = A3 (ix2 n 0) := colSlice_reshape_apply 0 (by decide) A3 slices_S400000x2_S400000x1_0_0 shapeCasts_S400000x1_S400000 n
theorem imgW_apply : imgW (F := Ideal) A3 (ix1 n) = A3 (ix2 n 1) := colSlice_reshape_apply 1 (by decide) A3 slices_S400000x2_S400000x1_0_1 shapeCasts_S400000x1_S400000 n

theorem minXRaw_apply : minXRaw (F := Ideal) X (ix1 n) = min8 rX :=
  (hostReduce_min_cols8 X reducesTo_S400000x8_S400000_d1 h_S_ n).trans (fold_min_top_eq_min8 _)
theorem maxXRaw_apply : maxXRaw (F := Ideal) X (ix1 n) = max8 rX :=
  (hostReduce_max_cols8 X reducesTo_S400000x8_S400000_d1 h_S_ n).trans (fold_max_bot_eq_max8 _)
theorem minYRaw_apply : minYRaw (F := Ideal) Y (ix1 n) = min8 rY :=
  (hostReduce_min_cols8 Y reducesTo_S400000x8_S400000_d1 h_S_ n).trans (fold_min_top_eq_min8 _)
theorem maxYRaw_apply : maxYRaw (F := Ideal) Y (ix1 n) = max8 rY :=
  (hostReduce_max_cols8 Y reducesTo_S400000x8_S400000_d1 h_S_ n).trans (fold_max_bot_eq_max8 _)

theorem minX_apply : minX (F := Ideal) X A3 (ix1 n) = min (A3 (ix2 n 1)) (max zero (min8 rX)) := by
  unfold minX call0_v2 call0_v1 call0_v0 cst_10
  rw [min_at, max_at, id_eq, scalarConst_apply, imgW_apply, minXRaw_apply]
theorem maxX_apply : maxX (F := Ideal) X A3 (ix1 n) = min (A3 (ix2 n 1)) (max zero (max8 rX)) := by
  unfold maxX call1_v2 call1_v1 call1_v0 cst_12
  rw [min_at, max_at, id_eq, scalarConst_apply, imgW_apply, maxXRaw_apply]
theorem minY_apply : minY (F := Ideal) Y A3 (ix1 n) = min (A3 (ix2 n 0)) (max zero (min8 rY)) := by
  unfold minY call2_v2 call2_v1 call2_v0 cst_14
  rw [min_at, max_at, id_eq, scalarConst_apply, imgH_apply, minYRaw_apply]
theorem maxY_apply : maxY (F := Ideal) Y A3 (ix1 n) = min (A3 (ix2 n 0)) (max zero (max8 rY)) := by
  unfold maxY call3_v2 call3_v1 call3_v0 cst_16
  rw [min_at, max_at, id_eq, scalarConst_apply, imgH_apply, maxYRaw_apply]

/-! ## The predicted box -/

/-- The predicted box at (n, c) is entry c of the per-row predicted box. -/
theorem pred2d_apply (c : Fin 4) : pred2d (F := Ideal) X Y A3 (ix2 n c) = rPred rX rY rS c := by
  fin_cases c
  · exact (concat4_col0 (v89 X A3) (v90 Y A3) (v91 X A3) (v92 Y A3) concatenates_S400000x1_S400000x1_S400000x1_S400000x1_S400000x4_d1 n).trans ((bcastCol_apply (minX X A3) bcast_S400000_S400000x1_0 n 0).trans (minX_apply X A3 n))
  · exact (concat4_col1 (v89 X A3) (v90 Y A3) (v91 X A3) (v92 Y A3) concatenates_S400000x1_S400000x1_S400000x1_S400000x1_S400000x4_d1 n).trans ((bcastCol_apply (minY Y A3) bcast_S400000_S400000x1_0 n 0).trans (minY_apply Y A3 n))
  · exact (concat4_col2 (v89 X A3) (v90 Y A3) (v91 X A3) (v92 Y A3) concatenates_S400000x1_S400000x1_S400000x1_S400000x1_S400000x4_d1 n).trans ((bcastCol_apply (maxX X A3) bcast_S400000_S400000x1_0 n 0).trans (maxX_apply X A3 n))
  · exact (concat4_col3 (v89 X A3) (v90 Y A3) (v91 X A3) (v92 Y A3) concatenates_S400000x1_S400000x1_S400000x1_S400000x1_S400000x4_d1 n).trans ((bcastCol_apply (maxY Y A3) bcast_S400000_S400000x1_0 n 0).trans (maxY_apply Y A3 n))

/-- Column o of the predicted box, cut out and reshaped to a vector, at n. -/
theorem predCol_apply (o : Nat) (ho : o < 4) (hs : S400000x4.Slices ![0, o] S400000x1) :
    shapeCast S400000 (extractStridedSlice S400000x1 ![0, o] (pred2d (F := Ideal) X Y A3) hs) shapeCasts_S400000x1_S400000 (ix1 n)
      = rPred rX rY rS ⟨o, ho⟩ :=
  (colSlice_reshape_apply o ho (pred2d X Y A3) hs shapeCasts_S400000x1_S400000 n).trans (pred2d_apply X Y A3 n ⟨o, ho⟩)

theorem v95_apply : v95 (F := Ideal) X Y A3 (ix1 n) = rPred rX rY rS 0 := predCol_apply X Y A3 n 0 (by decide) slices_S400000x4_S400000x1_0_0
theorem v100_apply : v100 (F := Ideal) X Y A3 (ix1 n) = rPred rX rY rS 1 := predCol_apply X Y A3 n 1 (by decide) slices_S400000x4_S400000x1_0_1
theorem v105_apply : v105 (F := Ideal) X Y A3 (ix1 n) = rPred rX rY rS 2 := predCol_apply X Y A3 n 2 (by decide) slices_S400000x4_S400000x1_0_2
theorem v110_apply : v110 (F := Ideal) X Y A3 (ix1 n) = rPred rX rY rS 3 := predCol_apply X Y A3 n 3 (by decide) slices_S400000x4_S400000x1_0_3
theorem v122_apply : v122 (F := Ideal) X Y A3 (ix1 n) = rPred rX rY rS 2 := predCol_apply X Y A3 n 2 (by decide) slices_S400000x4_S400000x1_0_2
theorem v124_apply : v124 (F := Ideal) X Y A3 (ix1 n) = rPred rX rY rS 0 := predCol_apply X Y A3 n 0 (by decide) slices_S400000x4_S400000x1_0_0
theorem v127_apply : v127 (F := Ideal) X Y A3 (ix1 n) = rPred rX rY rS 3 := predCol_apply X Y A3 n 3 (by decide) slices_S400000x4_S400000x1_0_3
theorem v129_apply : v129 (F := Ideal) X Y A3 (ix1 n) = rPred rX rY rS 1 := predCol_apply X Y A3 n 1 (by decide) slices_S400000x4_S400000x1_0_1
theorem v149_apply : v149 (F := Ideal) X Y A3 (ix1 n) = rPred rX rY rS 0 := predCol_apply X Y A3 n 0 (by decide) slices_S400000x4_S400000x1_0_0
theorem v154_apply : v154 (F := Ideal) X Y A3 (ix1 n) = rPred rX rY rS 1 := predCol_apply X Y A3 n 1 (by decide) slices_S400000x4_S400000x1_0_1
theorem v159_apply : v159 (F := Ideal) X Y A3 (ix1 n) = rPred rX rY rS 2 := predCol_apply X Y A3 n 2 (by decide) slices_S400000x4_S400000x1_0_2
theorem v164_apply : v164 (F := Ideal) X Y A3 (ix1 n) = rPred rX rY rS 3 := predCol_apply X Y A3 n 3 (by decide) slices_S400000x4_S400000x1_0_3

theorem v97_apply : v97 (F := Ideal) A1 (ix1 n) = A1 (ix2 n 0) := colSlice_reshape_apply 0 (by decide) A1 slices_S400000x4_S400000x1_0_0 shapeCasts_S400000x1_S400000 n
theorem v102_apply : v102 (F := Ideal) A1 (ix1 n) = A1 (ix2 n 1) := colSlice_reshape_apply 1 (by decide) A1 slices_S400000x4_S400000x1_0_1 shapeCasts_S400000x1_S400000 n
theorem v107_apply : v107 (F := Ideal) A1 (ix1 n) = A1 (ix2 n 2) := colSlice_reshape_apply 2 (by decide) A1 slices_S400000x4_S400000x1_0_2 shapeCasts_S400000x1_S400000 n
theorem v112_apply : v112 (F := Ideal) A1 (ix1 n) = A1 (ix2 n 3) := colSlice_reshape_apply 3 (by decide) A1 slices_S400000x4_S400000x1_0_3 shapeCasts_S400000x1_S400000 n
theorem v133_apply : v133 (F := Ideal) A1 (ix1 n) = A1 (ix2 n 2) := colSlice_reshape_apply 2 (by decide) A1 slices_S400000x4_S400000x1_0_2 shapeCasts_S400000x1_S400000 n
theorem v135_apply : v135 (F := Ideal) A1 (ix1 n) = A1 (ix2 n 0) := colSlice_reshape_apply 0 (by decide) A1 slices_S400000x4_S400000x1_0_0 shapeCasts_S400000x1_S400000 n
theorem v138_apply : v138 (F := Ideal) A1 (ix1 n) = A1 (ix2 n 3) := colSlice_reshape_apply 3 (by decide) A1 slices_S400000x4_S400000x1_0_3 shapeCasts_S400000x1_S400000 n
theorem v140_apply : v140 (F := Ideal) A1 (ix1 n) = A1 (ix2 n 1) := colSlice_reshape_apply 1 (by decide) A1 slices_S400000x4_S400000x1_0_1 shapeCasts_S400000x1_S400000 n
theorem v151_apply : v151 (F := Ideal) A1 (ix1 n) = A1 (ix2 n 0) := colSlice_reshape_apply 0 (by decide) A1 slices_S400000x4_S400000x1_0_0 shapeCasts_S400000x1_S400000 n
theorem v156_apply : v156 (F := Ideal) A1 (ix1 n) = A1 (ix2 n 1) := colSlice_reshape_apply 1 (by decide) A1 slices_S400000x4_S400000x1_0_1 shapeCasts_S400000x1_S400000 n
theorem v161_apply : v161 (F := Ideal) A1 (ix1 n) = A1 (ix2 n 2) := colSlice_reshape_apply 2 (by decide) A1 slices_S400000x4_S400000x1_0_2 shapeCasts_S400000x1_S400000 n
theorem v166_apply : v166 (F := Ideal) A1 (ix1 n) = A1 (ix2 n 3) := colSlice_reshape_apply 3 (by decide) A1 slices_S400000x4_S400000x1_0_3 shapeCasts_S400000x1_S400000 n

/-! ## Constants -/

theorem v115_apply : v115 (F := Ideal) (ix1 n) = zero := by
  unfold v115 cst_17; exact scalarConst_apply bcast_S_S400000 _ _
theorem v118_apply : v118 (F := Ideal) (ix1 n) = zero := by
  unfold v118 cst_18; exact scalarConst_apply bcast_S_S400000 _ _
theorem v169_apply : v169 (F := Ideal) (ix1 n) = zero := by
  unfold v169 cst_20; exact scalarConst_apply bcast_S_S400000 _ _
theorem v172_apply : v172 (F := Ideal) (ix1 n) = zero := by
  unfold v172 cst_21; exact scalarConst_apply bcast_S_S400000 _ _
theorem v145_apply : v145 (F := Ideal) (ix1 n) = epsA := by
  unfold v145 cst_19; exact scalarConst_apply bcast_S_S400000 _ _
theorem v175_apply : v175 (F := Ideal) (ix1 n) = epsA := by
  unfold v175 cst_22; exact scalarConst_apply bcast_S_S400000 _ _
theorem v180_apply : v180 (F := Ideal) (ix1 n) = one := by
  unfold v180 cst_23; exact scalarConst_apply bcast_S_S400000 _ _

/-! ## The areas -/

theorem inter_apply : inter (F := Ideal) X Y A1 A3 (ix1 n) = rInter (rPred rX rY rS) rG := by
  unfold inter v116 v119 v114 v117 v108 v113 v98 v103
  simp only [mul_at, max_at, min_at, sub_at, v105_apply, v107_apply, v95_apply, v97_apply, v115_apply,
    v110_apply, v112_apply, v100_apply, v102_apply, v118_apply]
  rfl

theorem predArea_apply : predArea (F := Ideal) X Y A3 (ix1 n)
    = (rPred rX rY rS 2 - rPred rX rY rS 0) * (rPred rX rY rS 3 - rPred rX rY rS 1) := by
  unfold predArea v125 v130
  simp only [mul_at, sub_at, v122_apply, v124_apply, v127_apply, v129_apply]

theorem gtArea_apply : gtArea (F := Ideal) A1 (ix1 n)
    = (A1 (ix2 n 2) - A1 (ix2 n 0)) * (A1 (ix2 n 3) - A1 (ix2 n 1)) := by
  unfold gtArea v136 v141
  simp only [mul_at, sub_at, v133_apply, v135_apply, v138_apply, v140_apply]

theorem union_apply : union (F := Ideal) X Y A1 A3 (ix1 n) = rUnion (rPred rX rY rS) rG := by
  unfold union v144 v143
  simp only [add_at, sub_at, predArea_apply, gtArea_apply, inter_apply, v145_apply]
  rfl

theorem cArea_apply : cArea (F := Ideal) X Y A1 A3 (ix1 n) = rCArea (rPred rX rY rS) rG := by
  unfold cArea v174 v170 v173 v168 v171 v162 v167 v152 v157
  simp only [add_at, mul_at, max_at, min_at, sub_at, v159_apply, v161_apply, v149_apply, v151_apply,
    v169_apply, v164_apply, v166_apply, v154_apply, v156_apply, v172_apply, v175_apply]
  rfl

/-! ## The loss -/

/-- At row n the reference's loss array holds the per-row loss of row n of its four inputs. -/
theorem giouStage_apply : giouStage (F := Ideal) X Y A1 A3 (ix1 n)
    = Cert.Giou.rGiouLoss (fun k => X (ix2 n k)) (fun k => Y (ix2 n k)) (fun q => A1 (ix2 n q)) (fun q => A3 (ix2 n q)) := by
  unfold giouStage giou iou v178 v177
  simp only [sub_at, hdiv_at, inter_apply, union_apply, cArea_apply, v180_apply]
  rfl

end Cert.ReferenceIdeal.RefValue

end
-- ==== Proof.Consts.lean ====
/-
  The float constants the two programs spell, as the extended reals their words denote, and the one law
  about them the comparison needs: dividing by two is multiplying by one half, on every extended real.
-/
import Idealize.ShloMosaic.PureOps.Ideal

noncomputable section

namespace Cert.Giou.Consts

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- Halving: the quotient by `2.0` is the product with `0.5`, whatever the extended real. -/
theorem div_two (x : EReal) :
    Ideal.div x (Ideal.ofBits .f32 0x40000000#32) = x * Ideal.ofBits .f32 0x3F000000#32 := by
  rw [ofBits_two, ofBits_half, Ideal.div_coe (by norm_num : (2 : ℝ) ≠ 0)]

end Cert.Giou.Consts

end
-- ==== Proof.BridgeGeom.lean ====
/-
  The two per-row geometries are one function. The reference rotates a corner by a 3×3 matrix whose
  third column and third row are (0, 0, 1), halves an extent by dividing by two, and projects the
  homogeneous corner (X, Y, Z, 1) by a four-term sum; the kernel writes the rotation as cos·a − sin·b and
  sin·a + cos·b, halves by multiplying with one half, and adds the fourth matrix entry directly. On the
  extended reals these agree with no finiteness assumption: 0·t = 0, 1·t = t, (−s)·t = −(s·t),
  a − b = a + (−b), products commute, and t / 2 = t · ½ for every extended real t.
-/
import proofs.«165471_j24206435680919_1_alg».proof.Proof.KRow
import proofs.«165471_j24206435680919_1_alg».proof.Proof.RRowGeom
import proofs.«165471_j24206435680919_1_alg».proof.Proof.Consts

noncomputable section

namespace Cert.Giou

open Idealize.ShloMosaic

/-- The twelve entries of the first three rows of a 4×4 matrix, row-major: entry q is row q / 4, column q % 4. -/
def rows3 (M : Fin 4 → Fin 4 → EReal) : Fin 12 → EReal :=
  fun q => M ⟨q.val / 4, by have := q.isLt; omega⟩ ⟨q.val % 4, by omega⟩

variable (p : Fin 7 → EReal) (M : Fin 4 → Fin 4 → EReal) (k : Fin 8)

/-- The reference's half extent along the length times its sign is the kernel's. -/
theorem local_x : rCornerLocal p k 0 = p 3 * litHalf * rSignX k := by
  show Ideal.div (p 3) rTwo * rSignX k = _
  rw [rTwo, Consts.div_two]; rfl

theorem local_y : rCornerLocal p k 1 = p 4 * litHalf * rSignY k := by
  show Ideal.div (p 4) rTwo * rSignY k = _
  rw [rTwo, Consts.div_two]; rfl

theorem local_z : rCornerLocal p k 2 = p 5 * litHalf * rSignZ k := by
  show Ideal.div (p 5) rTwo * rSignZ k = _
  rw [rTwo, Consts.div_two]; rfl

/-- First world coordinate: row (cos, −sin, 0) of the rotation. -/
theorem world_x : rCornerWorld p k 0 = cornerX p (rSignX k) (rSignY k) := by
  show (Ideal.cos (p 6) * rCornerLocal p k 0 + -Ideal.sin (p 6) * rCornerLocal p k 1 + 0 * rCornerLocal p k 2) + p 0 = _
  rw [zero_mul, add_zero, EReal.neg_mul, ← sub_eq_add_neg, local_x, local_y]; rfl

/-- Second world coordinate: row (sin, cos, 0). -/
theorem world_y : rCornerWorld p k 1 = cornerY p (rSignX k) (rSignY k) := by
  show (Ideal.sin (p 6) * rCornerLocal p k 0 + Ideal.cos (p 6) * rCornerLocal p k 1 + 0 * rCornerLocal p k 2) + p 1 = _
  rw [zero_mul, add_zero, local_x, local_y]; rfl

/-- Third world coordinate: row (0, 0, 1). -/
theorem world_z : rCornerWorld p k 2 = cornerZ p (rSignZ k) := by
  show (0 * rCornerLocal p k 0 + 0 * rCornerLocal p k 1 + 1 * rCornerLocal p k 2) + p 2 = _
  rw [zero_mul, zero_mul, one_mul, zero_add, zero_add, local_z]; rfl

/-- A row of the matrix against the homogeneous corner. -/
theorem proj_eq (r : Fin 4) :
    rProj p M k r = projRow (M r 0) (M r 1) (M r 2) (M r 3)
      (cornerX p (rSignX k) (rSignY k)) (cornerY p (rSignX k) (rSignY k)) (cornerZ p (rSignZ k)) := by
  show rCornerWorld p k 0 * M r 0 + rCornerWorld p k 1 * M r 1 + rCornerWorld p k 2 * M r 2 + 1 * M r 3 = _
  rw [one_mul, world_x, world_y, world_z, mul_comm _ (M r 0), mul_comm _ (M r 1), mul_comm _ (M r 2)]; rfl

/-- The reference's horizontal image coordinate of corner k is the kernel's, at the corner's signs. -/
theorem rXImg_eq : rXImg p M k = imgX p (rows3 M) (rSignX k) (rSignY k) (rSignZ k) := by
  show Ideal.div (rProj p M k 0) (max (rProj p M k 2) rEps) = _
  rw [proj_eq, proj_eq]; rfl

/-- The reference's vertical image coordinate of corner k is the kernel's. -/
theorem rYImg_eq : rYImg p M k = imgY p (rows3 M) (rSignX k) (rSignY k) (rSignZ k) := by
  show Ideal.div (rProj p M k 1) (max (rProj p M k 2) rEps) = _
  rw [proj_eq, proj_eq]; rfl

end Cert.Giou

end
-- ==== Proof.BridgeGiou.lean ====
/-
  The whole row: the reference's per-row loss of the eight reference image points is the kernel's per-lane
  formula. After the geometry (the image points agree corner by corner) what differs is only the order of
  the operands of a minimum or a maximum: the reference clips by min(hi, max(0, v)), the kernel by
  min(max(v, 0), hi); the eight-fold minima and maxima are the same left-nested folds over the same
  corners in the same order; the intersection, union and hull areas and the final difference are
  operation for operation the same.
-/
import proofs.«165471_j24206435680919_1_alg».proof.Proof.BridgeGeom
import proofs.«165471_j24206435680919_1_alg».proof.Proof.RRowGiou

noncomputable section

namespace Cert.Giou

open Idealize.ShloMosaic

/-- The reference's clip is the kernel's: minimum and maximum commute. -/
theorem clip_comm (v hi : EReal) : min hi (max zero v) = clip v hi := by
  show min hi (max zero v) = min (max v litZero) hi
  rw [min_comm, max_comm]; rfl

/-- The reference's loss of a predicted rectangle (x1, y1, x2, y2) is the kernel's loss of (x1, x2, y1, y2). -/
theorem rGiou_eq (x1 y1 x2 y2 : EReal) (g : Fin 4 → EReal) :
    one - rGiou ![x1, y1, x2, y2] g = giouLoss x1 x2 y1 y2 g := rfl

/-- One row: the reference's loss of its own eight image points is the kernel's formula of the same row. -/
theorem row_eq (p : Fin 7 → EReal) (g : Fin 4 → EReal) (M : Fin 4 → Fin 4 → EReal) (hw : Fin 2 → EReal) :
    rGiouLoss (fun k => rXImg p M k) (fun k => rYImg p M k) g hw = kRow p g (rows3 M) hw := by
  have hx : (fun k => rXImg p M k) = fun k => imgX p (rows3 M) (rSignX k) (rSignY k) (rSignZ k) :=
    funext (rXImg_eq p M)
  have hy : (fun k => rYImg p M k) = fun k => imgY p (rows3 M) (rSignX k) (rSignY k) (rSignZ k) :=
    funext (rYImg_eq p M)
  rw [hx, hy]
  show one - rGiou ![min (hw 1) (max zero (min8 _)), min (hw 0) (max zero (min8 _)),
      min (hw 1) (max zero (max8 _)), min (hw 0) (max zero (max8 _))] g = _
  rw [rGiou_eq, clip_comm, clip_comm, clip_comm, clip_comm]
  rfl

end Cert.Giou

end
-- ==== Proof.LossEq.lean ====
/-
  Row by row the reference's loss array is the kernel's per-lane formula of the same row of the four
  arguments: the reference's stage reads, at row n, the per-row loss of its own eight image points; those
  are the reference's per-row image points of row n; and the per-row comparison identifies that with the
  kernel's formula, the matrix's first three rows taken row-major.
-/
import proofs.«165471_j24206435680919_1_alg».proof.Proof.RefGeomRead
import proofs.«165471_j24206435680919_1_alg».proof.Proof.RefGiouRead
import proofs.«165471_j24206435680919_1_alg».proof.Proof.BridgeGiou

noncomputable section

namespace Cert.Giou

open Idealize.ShloMosaic Idealize.ShloMosaic.ValueIdx Cert.ReferenceIdeal Cert.ReferenceIdeal.RefValue

variable [Cert.ReferenceIdeal.Facts]

/-- The reference's per-row loss at row n, as the kernel's formula of row n of the arguments. -/
theorem ref_row (A0 : (⟨S400000x7, .f32⟩ : BufTy).Contents (Elt Ideal)) (A1 : (⟨S400000x4, .f32⟩ : BufTy).Contents (Elt Ideal))
    (A2 : (⟨S400000x4x4, .f32⟩ : BufTy).Contents (Elt Ideal)) (A3 : (⟨S400000x2, .f32⟩ : BufTy).Contents (Elt Ideal)) (n : Fin 400000) :
    giouStage (F := Ideal) (xImg A0 A2) (yImg A0 A2) A1 A3 (ix1 n)
      = kRow (fun k => A0 (ix2 n k)) (fun k => A1 (ix2 n k))
          (fun q => A2 (ix3 n (⟨q.val / 4, by have := q.isLt; omega⟩ : Fin 4) (⟨q.val % 4, by omega⟩ : Fin 4)))
          (fun k => A3 (ix2 n k)) := by
  rw [giouStage_apply]
  have hx : (fun k => xImg (F := Ideal) A0 A2 (ix2 n k))
      = fun k => rXImg (fun q => A0 (ix2 n q)) (fun r cc => A2 (ix3 n r cc)) k := funext fun k => xImg_apply A0 A2 n k
  have hy : (fun k => yImg (F := Ideal) A0 A2 (ix2 n k))
      = fun k => rYImg (fun q => A0 (ix2 n q)) (fun r cc => A2 (ix3 n r cc)) k := funext fun k => yImg_apply A0 A2 n k
  rw [hx, hy]
  exact row_eq _ _ _ _

end Cert.Giou

end
-- ==== Proof.Claims.lean ====
/-
  The five claims. Both programs compute one scalar: a shared ending applied to a per-row loss array
  and the rows' object ids. The kernel program's loss array holds, at row n, the kernel's per-lane formula
  of row n of the four float arguments (the staged, transposed and zero-padded copies read back, the body
  lane by lane, the grid's blocks assembled, the padding rows sliced away). The reference's loss array
  holds, at row n, its own per-row formula of the same row, and the two formulas are one function of the
  row on the extended reals. So the loss arrays agree row by row and the endings agree.
  The three frames are the runs themselves with the value forgotten; the idealization rewrote nothing.
-/
import proofs.«165471_j24206435680919_1_alg».proof.Defs
import proofs.«165471_j24206435680919_1_alg».proof.Proof.Gen.Kernel.Frame
import proofs.«165471_j24206435680919_1_alg».proof.Proof.Gen.KernelIdeal.Frame
import proofs.«165471_j24206435680919_1_alg».proof.Proof.Gen.Pre_finite_inputs
import proofs.«165471_j24206435680919_1_alg».proof.Proof.Gen.Kernel
import proofs.«165471_j24206435680919_1_alg».proof.Proof.Gen.KernelIdeal
import proofs.«165471_j24206435680919_1_alg».proof.Proof.Gen.ReferenceIdeal
import proofs.«165471_j24206435680919_1_alg».proof.Proof.KFinal
import proofs.«165471_j24206435680919_1_alg».proof.Proof.RefEval
import proofs.«165471_j24206435680919_1_alg».proof.Proof.LossEq

noncomputable section

namespace Cert.Proof.Claims

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2)
    (Cert.ReferenceIdeal.RefValue.run_ref (F := Ideal) m ρ)

theorem preserves : Cert.preserves_Kernel_KernelIdeal := trivial

/-- The reference's ending is the shared ending: the same operations over the same shapes. -/
theorem refTail_eq (loss : (⟨Cert.KernelIdeal.S400000, .f32⟩ : BufTy).Contents (Elt Ideal))
    (ids : (⟨Cert.KernelIdeal.S400000, .i32⟩ : BufTy).Contents (Elt Ideal)) :
    Cert.ReferenceIdeal.RefValue.refTail (F := Ideal) loss ids = Cert.Giou.tail (F := Ideal) loss ids := rfl

/-- The reference's loss array is, row by row, the kernel's per-lane formula of the arguments' rows. -/
theorem loss_eq (A0 : (⟨Cert.ReferenceIdeal.S400000x7, .f32⟩ : BufTy).Contents (Elt Ideal))
    (A1 : (⟨Cert.ReferenceIdeal.S400000x4, .f32⟩ : BufTy).Contents (Elt Ideal))
    (A2 : (⟨Cert.ReferenceIdeal.S400000x4x4, .f32⟩ : BufTy).Contents (Elt Ideal))
    (A3 : (⟨Cert.ReferenceIdeal.S400000x2, .f32⟩ : BufTy).Contents (Elt Ideal)) :
    Cert.ReferenceIdeal.RefValue.giouStage (F := Ideal) (Cert.ReferenceIdeal.RefValue.xImg A0 A2)
        (Cert.ReferenceIdeal.RefValue.yImg A0 A2) A1 A3
      = fun n : Cert.ReferenceIdeal.S400000.Idx => Cert.Giou.kRow (fun k => A0 (ix2 (n 0) k)) (fun k => A1 (ix2 (n 0) k))
          (fun q => A2 (ix3 (n 0) (⟨q.val / 4, by have := q.isLt; omega⟩ : Fin 4) (⟨q.val % 4, by omega⟩ : Fin 4)))
          (fun k => A3 (ix2 (n 0) k)) := by
  funext n
  obtain ⟨i, rfl⟩ : ∃ i : Fin 400000, n = ix1 i := ⟨n 0, eq_ix1 (n := 400000) n⟩
  exact Cert.Giou.ref_row A0 A1 A2 A3 i

/-- Both idealized programs end at the shared ending of the kernel's per-lane formula row by row. -/
theorem algebraic : Cert.algebraic_KernelIdeal_ReferenceIdeal := by
  intro m ρ m' ρ' _ hagree
  refine ⟨_, Cert.Giou.kernel_run m ρ, ?_⟩
  refine (θ_run Cert.ReferenceIdeal.defs _ _).mono (fun _ h c => ⟨(h c).1.trans ?_, (h c).2⟩)
    (Cert.ReferenceIdeal.RefValue.run_ref (F := Ideal) m' ρ')
  rw [(hagree c).1, (hagree c).2.1, (hagree c).2.2.1, (hagree c).2.2.2.1, (hagree c).2.2.2.2]
  exact (congrArg (fun L => Cert.ReferenceIdeal.RefValue.refTail (F := Ideal) L _) (loss_eq _ _ _ _)).trans (refTail_eq _ _)

end Cert.Proof.Claims

end
-- ==== Proof.lean ====
/-
  The certificate: the programs' stated side conditions are witnessed by the generated fact modules, and
  the five claims are proved in Proof/Claims.lean — the three frames from the programs' runs, the
  idealization's conjunct (nothing was rewritten), and the equality of the two idealized programs'
  results: a shared ending applied to per-row loss arrays that agree row by row.
-/
import proofs.«165471_j24206435680919_1_alg».proof.Defs
import proofs.«165471_j24206435680919_1_alg».proof.Proof.Gen.Kernel
import proofs.«165471_j24206435680919_1_alg».proof.Proof.Gen.KernelIdeal
import proofs.«165471_j24206435680919_1_alg».proof.Proof.Gen.ReferenceIdeal
import proofs.«165471_j24206435680919_1_alg».proof.Proof.Gen.Pre_finite_inputs
import proofs.«165471_j24206435680919_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
